-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x128 : Shape := ⟨2, ![256, 128]⟩
abbrev S128 : Shape := ⟨1, ![128]⟩
abbrev S128x256 : Shape := ⟨2, ![128, 256]⟩
abbrev S256 : Shape := ⟨1, ![256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part5 {F : FTy → Type} [FloatOps F] (main_arg18 : FVec F S128x256 .f32) (main_arg19 : FVec F S256 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S128x256 .f32 := Host.absf main_arg18
  let main_cst_34 : FVec F S_ .f32 := constant S_ .f32 0x7F800000#32
  let main_v90 : FVec F S128x256 .f32 := broadcastInDim S128x256 ![] bcast_S_S128x256 main_cst_34
  let main_v91 : IVec S128x256 1 := cmpf .olt main_v89 main_v90
  let main_c_35 : IVec S_ 1 := constantI S_ 1 1#1
  let main_v92 : IVec S_ 1 := (fun x v => Host.reduce IntOp.andi x v reducesTo_S128x256_S_d0_1 h_S_) main_v91 main_c_35
  let main_v93 : IVec S_ 1 := andi main_v88 main_v92
  let main_v94 : FVec F S256 .f32 := Host.absf main_arg19
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  main_v98

def fn_part4 {F : FTy → Type} [FloatOps F] (main_arg14 : FVec F S128x256 .f32) (main_arg15 : FVec F S256 .f32) (main_arg16 : FVec F S128x256 .f32) (main_arg17 : FVec F S256 .f32) (main_arg18 : FVec F S128x256 .f32) (main_arg19 : FVec F S256 .f32) (main_v63 : IVec S_ 1) (main_v67 : IVec S_ 1) : IVec S_ 1 :=
  let main_v68 : IVec S_ 1 := andi main_v63 main_v67
  let main_v69 : FVec F S128x256 .f32 := Host.absf main_arg14
  let main_cst_26 : FVec F S_ .f32 := constant S_ .f32 0x7F800000#32
  let main_v70 : FVec F S128x256 .f32 := broadcastInDim S128x256 ![] bcast_S_S128x256 main_cst_26
  let main_v71 : IVec S128x256 1 := cmpf .olt main_v69 main_v70
  let main_c_27 : IVec S_ 1 := constantI S_ 1 1#1
  let main_v72 : IVec S_ 1 := (fun x v => Host.reduce IntOp.andi x v reducesTo_S128x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S128x256 .f32 := Host.absf main_arg16
  let main_cst_30 : FVec F S_ .f32 := constant S_ .f32 0x7F800000#32
  let main_v80 : FVec F S128x256 .f32 := broadcastInDim S128x256 ![] bcast_S_S128x256 main_cst_30
  let main_v81 : IVec S128x256 1 := cmpf .olt main_v79 main_v80
  let main_c_31 : IVec S_ 1 := constantI S_ 1 1#1
  let main_v82 : IVec S_ 1 := (fun x v => Host.reduce IntOp.andi x v reducesTo_S128x256_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S128 .f32) (main_arg12 : FVec F S128x256 .f32) (main_arg13 : FVec F S256 .f32) (main_arg14 : FVec F S128x256 .f32) (main_arg15 : FVec F S256 .f32) (main_arg16 : FVec F S128x256 .f32) (main_arg17 : FVec F S256 .f32) (main_arg18 : FVec F S128x256 .f32) (main_arg19 : FVec F S256 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x256 .f32 := Host.absf main_arg12
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_v63 main_v67

def fn_part2 {F : FTy → Type} [FloatOps F] (main_arg7 : FVec F S128 .f32) (main_arg8 : FVec F S256x128 .f32) (main_arg9 : FVec F S128 .f32) (main_arg10 : FVec F S256x128 .f32) (main_arg11 : FVec F S128 .f32) (main_arg12 : FVec F S128x256 .f32) (main_arg13 : FVec F S256 .f32) (main_arg14 : FVec F S128x256 .f32) (main_arg15 : FVec F S256 .f32) (main_arg16 : FVec F S128x256 .f32) (main_arg17 : FVec F S256 .f32) (main_arg18 : FVec F S128x256 .f32) (main_arg19 : FVec F S256 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg10
  let main_cst_18 : FVec F S_ .f32 := constant S_ .f32 0x7F800000#32
  let main_v50 : FVec F S256x128 .f32 := broadcastInDim S256x128 ![] bcast_S_S256x128 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S256x128 .f32) (main_arg5 : FVec F S128 .f32) (main_arg6 : FVec F S256x128 .f32) (main_arg7 : FVec F S128 .f32) (main_arg8 : FVec F S256x128 .f32) (main_arg9 : FVec F S128 .f32) (main_arg10 : FVec F S256x128 .f32) (main_arg11 : FVec F S128 .f32) (main_arg12 : FVec F S128x256 .f32) (main_arg13 : FVec F S256 .f32) (main_arg14 : FVec F S128x256 .f32) (main_arg15 : FVec F S256 .f32) (main_arg16 : FVec F S128x256 .f32) (main_arg17 : FVec F S256 .f32) (main_arg18 : FVec F S128x256 .f32) (main_arg19 : FVec F S256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S8192x256 .f32) (main_arg1 : FVec F S8192x8192 .f32) (main_arg2 : FVec F S256x128 .f32) (main_arg3 : FVec F S256x128 .f32) (main_arg4 : FVec F S256x128 .f32) (main_arg5 : FVec F S128 .f32) (main_arg6 : FVec F S256x128 .f32) (main_arg7 : FVec F S128 .f32) (main_arg8 : FVec F S256x128 .f32) (main_arg9 : FVec F S128 .f32) (main_arg10 : FVec F S256x128 .f32) (main_arg11 : FVec F S128 .f32) (main_arg12 : FVec F S128x256 .f32) (main_arg13 : FVec F S256 .f32) (main_arg14 : FVec F S128x256 .f32) (main_arg15 : FVec F S256 .f32) (main_arg16 : FVec F S128x256 .f32) (main_arg17 : FVec F S256 .f32) (main_arg18 : FVec F S128x256 .f32) (main_arg19 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S8192x256 : Shape := ⟨2, ![8192, 256]⟩
abbrev S8192x8192 : Shape := ⟨2, ![8192, 8192]⟩
abbrev S256x128 : Shape := ⟨2, ![256, 128]⟩
abbrev S128 : Shape := ⟨1, ![128]⟩
abbrev S128x256 : Shape := ⟨2, ![128, 256]⟩
abbrev S256 : Shape := ⟨1, ![256]⟩
abbrev S_ : Shape := ⟨0, ![]⟩
abbrev S256x384 : Shape := ⟨2, ![256, 384]⟩
abbrev S384 : Shape := ⟨1, ![384]⟩
abbrev S1x384 : Shape := ⟨2, ![1, 384]⟩
abbrev S1x128 : Shape := ⟨2, ![1, 128]⟩
abbrev S8192x384 : Shape := ⟨2, ![8192, 384]⟩
abbrev S8192x128 : Shape := ⟨2, ![8192, 128]⟩
abbrev S1024x256 : Shape := ⟨2, ![1024, 256]⟩
abbrev S1024x384 : Shape := ⟨2, ![1024, 384]⟩
abbrev S1024x128 : Shape := ⟨2, ![1024, 128]⟩
abbrev S256x8192 : Shape := ⟨2, ![256, 8192]⟩
abbrev S256x1 : Shape := ⟨2, ![256, 1]⟩
abbrev S128x768 : Shape := ⟨2, ![128, 768]⟩
abbrev S768 : Shape := ⟨1, ![768]⟩
abbrev S1x768 : Shape := ⟨2, ![1, 768]⟩
abbrev S1x256 : Shape := ⟨2, ![1, 256]⟩
abbrev S8192x768 : Shape := ⟨2, ![8192, 768]⟩
abbrev S1024x768 : Shape := ⟨2, ![1024, 768]⟩
abbrev S256x256 : Shape := ⟨2, ![256, 256]⟩

abbrev nBuf : Space → Nat
  | .hbm => 46
  | .vmem => 36
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S128x256, .f32⟩
  | .hbm, ⟨13, _⟩ => ⟨S256, .f32⟩
  | .hbm, ⟨14, _⟩ => ⟨S128x256, .f32⟩
  | .hbm, ⟨15, _⟩ => ⟨S256, .f32⟩
  | .hbm, ⟨16, _⟩ => ⟨S128x256, .f32⟩
  | .hbm, ⟨17, _⟩ => ⟨S256, .f32⟩
  | .hbm, ⟨18, _⟩ => ⟨S128x256, .f32⟩
  | .hbm, ⟨19, _⟩ => ⟨S256, .f32⟩
  | .hbm, ⟨20, _⟩ => ⟨S_, .f32⟩
  | .hbm, ⟨21, _⟩ => ⟨S256x128, .f32⟩
  | .hbm, ⟨22, _⟩ => ⟨S256x128, .f32⟩
  | .hbm, ⟨23, _⟩ => ⟨S256x384, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S384, .f32⟩
  | .hbm, ⟨28, _⟩ => ⟨S1x384, .f32⟩
  | .hbm, ⟨29, _⟩ => ⟨S1x128, .f32⟩
  | .hbm, ⟨30, _⟩ => ⟨S8192x384, .bf16⟩
  | .hbm, ⟨31, _⟩ => ⟨S8192x128, .f32⟩
  | .hbm, ⟨32, _⟩ => ⟨S8192x128, .f32⟩
  | .hbm, ⟨33, _⟩ => ⟨S_, .f32⟩
  | .hbm, ⟨34, _⟩ => ⟨S128x256, .f32⟩
  | .hbm, ⟨35, _⟩ => ⟨S128x256, .f32⟩
  | .hbm, ⟨36, _⟩ => ⟨S128x768, .f32⟩
  | .hbm, ⟨37, _⟩ => ⟨S_, .f32⟩
  | .hbm, ⟨38, _⟩ => ⟨S256, .f32⟩
  | .hbm, ⟨39, _⟩ => ⟨S256, .f32⟩
  | .hbm, ⟨40, _⟩ => ⟨S768, .f32⟩
  | .hbm, ⟨41, _⟩ => ⟨S1x768, .f32⟩
  | .hbm, ⟨42, _⟩ => ⟨S1x256, .f32⟩
  | .hbm, ⟨43, _⟩ => ⟨S8192x768, .bf16⟩
  | .hbm, ⟨44, _⟩ => ⟨S8192x256, .f32⟩
  | .hbm, ⟨45, _⟩ => ⟨S8192x256, .f32⟩
  | .local _ .vmem, ⟨0, _⟩ => ⟨S1024x256, .f32⟩
  | .local _ .vmem, ⟨1, _⟩ => ⟨S1024x256, .f32⟩
  | .local _ .vmem, ⟨2, _⟩ => ⟨S256x384, .f32⟩
  | .local _ .vmem, ⟨3, _⟩ => ⟨S1x384, .f32⟩
  | .local _ .vmem, ⟨4, _⟩ => ⟨S256x128, .f32⟩
  | .local _ .vmem, ⟨5, _⟩ => ⟨S1x128, .f32⟩
  | .local _ .vmem, ⟨6, _⟩ => ⟨S1024x384, .bf16⟩
  | .local _ .vmem, ⟨7, _⟩ => ⟨S1024x384, .bf16⟩
  | .local _ .vmem, ⟨8, _⟩ => ⟨S1024x128, .f32⟩
  | .local _ .vmem, ⟨9, _⟩ => ⟨S1024x128, .f32⟩
  | .local _ .vmem, ⟨10, _⟩ => ⟨S256x128, .bf16⟩
  | .local _ .vmem, ⟨11, _⟩ => ⟨S256x128, .bf16⟩
  | .local _ .vmem, ⟨12, _⟩ => ⟨S8192x128, .bf16⟩
  | .local _ .vmem, ⟨13, _⟩ => ⟨S8192x128, .bf16⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S1024x128, .f32⟩
  | .local _ .vmem, ⟨19, _⟩ => ⟨S1024x128, .f32⟩
  | .local _ .vmem, ⟨20, _⟩ => ⟨S128x768, .f32⟩
  | .local _ .vmem, ⟨21, _⟩ => ⟨S1x768, .f32⟩
  | .local _ .vmem, ⟨22, _⟩ => ⟨S128x256, .f32⟩
  | .local _ .vmem, ⟨23, _⟩ => ⟨S1x256, .f32⟩
  | .local _ .vmem, ⟨24, _⟩ => ⟨S1024x768, .bf16⟩
  | .local _ .vmem, ⟨25, _⟩ => ⟨S1024x768, .bf16⟩
  | .local _ .vmem, ⟨26, _⟩ => ⟨S1024x256, .f32⟩
  | .local _ .vmem, ⟨27, _⟩ => ⟨S1024x256, .f32⟩
  | .local _ .vmem, ⟨28, _⟩ => ⟨S256x256, .bf16⟩
  | .local _ .vmem, ⟨29, _⟩ => ⟨S256x256, .bf16⟩
  | .local _ .vmem, ⟨30, _⟩ => ⟨S8192x256, .bf16⟩
  | .local _ .vmem, ⟨31, _⟩ => ⟨S8192x256, .bf16⟩
  | .local _ .vmem, ⟨32, _⟩ => ⟨S256x256, .f32⟩
  | .local _ .vmem, ⟨33, _⟩ => ⟨S256x256, .f32⟩
  | .local _ .vmem, ⟨34, _⟩ => ⟨S256x256, .f32⟩
  | .local _ .vmem, ⟨35, _⟩ => ⟨S256x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_cst_0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8_0 : Ref sig .tc := ⟨.hbm, 30, rfl⟩
abbrev main_v8_1 : Ref sig .tc := ⟨.hbm, 31, rfl⟩
abbrev main_v9 : Ref sig .tc := ⟨.hbm, 32, rfl⟩
abbrev main_cst_1 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18_0 : Ref sig .tc := ⟨.hbm, 43, rfl⟩
abbrev main_v18_1 : Ref sig .tc := ⟨.hbm, 44, rfl⟩
abbrev main_v19 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem3_1 : DmaSem sig := 33
abbrev cc3_sem4_0 : DmaSem sig := 34
abbrev cc3_sem4_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc1_transform_2 (i : grid1.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x768 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1024x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc3_transform_2 (i : grid3.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S8192x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S256x128 : S_.BroadcastsInDim S256x128 (![] : Fin 0 → Fin S256x128.rank)
  concatenates_S256x128_S256x128_S256x128_S256x384_d1 : Shape.Concatenates [S256x128, S256x128, S256x128] S256x384 1
  bcast_S_S128 : S_.BroadcastsInDim S128 (![] : Fin 0 → Fin S128.rank)
  concatenates_S128_S128_S128_S384_d0 : Shape.Concatenates [S128, S128, S128] S384 0
  shapeCasts_S384_S1x384 : S384.ShapeCasts S1x384
  shapeCasts_S128_S1x128 : S128.ShapeCasts S1x128
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x384_S256x384_0_0 : ∀ a, (![0, 0] : Fin 2 → Nat) a + S256x384.size a ≤ S256x384.size a
  h_S256x384 : 0 < S256x384.numel
  shapeCasts_S256x384_S256x384 : S256x384.ShapeCasts S256x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1024x384 : S1x384.Broadcasts S1024x384
  inb_S1024x384_S1024x384_0_0 : ∀ a, (![0, 0] : Fin 2 → Nat) a + S1024x384.size a ≤ S1024x384.size a
  h_S1024x384 : 0 < S1024x384.numel
  packedbf16_S1024x384_S1024x384_0_0 : (Rect.unit (s := S1024x384) ![0, 0] S1024x384.size inb_S1024x384_S1024x384_0_0).PackedRows (EltTy.packing .bf16)
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  shapeCasts_S256x128_S256x128 : S256x128.ShapeCasts S256x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S256x8192_S256 : S256x8192.Reduces [1] S256
  shapeCasts_S256_S256x1 : S256.ShapeCasts S256x1
  broadcasts_S256x1_S256x8192 : S256x1.Broadcasts S256x8192
  broadcasts_S256x1_S256x128 : S256x1.Broadcasts S256x128
  bcast_S_S128x256 : S_.BroadcastsInDim S128x256 (![] : Fin 0 → Fin S128x256.rank)
  concatenates_S128x256_S128x256_S128x256_S128x768_d1 : Shape.Concatenates [S128x256, S128x256, S128x256] S128x768 1
  bcast_S_S256 : S_.BroadcastsInDim S256 (![] : Fin 0 → Fin S256.rank)
  concatenates_S256_S256_S256_S768_d0 : Shape.Concatenates [S256, S256, S256] S768 0
  shapeCasts_S768_S1x768 : S768.ShapeCasts S1x768
  shapeCasts_S256_S1x256 : S256.ShapeCasts S1x256
  shapeCasts_S1024x128_S1024x128 : S1024x128.ShapeCasts S1024x128
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  inb_S1024x768_S1024x768_0_0 : ∀ a, (![0, 0] : Fin 2 → Nat) a + S1024x768.size a ≤ S1024x768.size a
  h_S1024x768 : 0 < S1024x768.numel
  packedbf16_S1024x768_S1024x768_0_0 : (Rect.unit (s := S1024x768) ![0, 0] S1024x768.size inb_S1024x768_S1024x768_0_0).PackedRows (EltTy.packing .bf16)
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  broadcasts_S256x1_S256x256 : S256x1.Broadcasts S256x256
  dot_S1024x256_S256x384_S1024x384_1_0_0_1_n_n_wf : DotDims.WF S1024x256 S256x384 S1024x384 [1] [0] [0] [1] [] []
  dot_S1024x256_S256x128_S1024x128_1_0_0_1_n_n_wf : DotDims.WF S1024x256 S256x128 S1024x128 [1] [0] [0] [1] [] []
  dot_S256x128_S8192x128_S256x8192_1_1_0_0_n_n_wf : DotDims.WF S256x128 S8192x128 S256x8192 [1] [1] [0] [0] [] []
  dot_S256x8192_S8192x128_S256x128_1_0_0_1_n_n_wf : DotDims.WF S256x8192 S8192x128 S256x128 [1] [0] [0] [1] [] []
  dot_S1024x128_S128x768_S1024x768_1_0_0_1_n_n_wf : DotDims.WF S1024x128 S128x768 S1024x768 [1] [0] [0] [1] [] []
  dot_S1024x128_S128x256_S1024x256_1_0_0_1_n_n_wf : DotDims.WF S1024x128 S128x256 S1024x256 [1] [0] [0] [1] [] []
  dot_S256x256_S8192x256_S256x8192_1_1_0_0_n_n_wf : DotDims.WF S256x256 S8192x256 S256x8192 [1] [1] [0] [0] [] []
  dot_S256x8192_S8192x256_S256x256_1_0_0_1_n_n_wf : DotDims.WF S256x8192 S8192x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x384.size a ≤ S256x384.size a
  hwx0_1 : ∀ i : grid0.Coords, EltTy.bits .f32 = 32 ∨ (Rect.block (s := S256x384) S256x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x384.size a ≤ S8192x384.size a
  hwx0_5 : ∀ i : grid0.Coords, EltTy.bits .bf16 = 32 ∨ (Rect.block (s := S8192x384) S1024x384.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S8192x128.size a
  hwx0_6 : ∀ i : grid0.Coords, EltTy.bits .f32 = 32 ∨ (Rect.block (s := S8192x128) S1024x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S8192x384.size a
  hwx1_0 : ∀ i : grid1.Coords, EltTy.bits .bf16 = 32 ∨ (Rect.block (s := S8192x384) S256x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x384.size a
  hwx1_1 : ∀ i : grid1.Coords, EltTy.bits .bf16 = 32 ∨ (Rect.block (s := S8192x384) S8192x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S8192x384.size a
  hwx1_2 : ∀ i : grid1.Coords, EltTy.bits .bf16 = 32 ∨ (Rect.block (s := S8192x384) S8192x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S8192x128.size a
  hwx1_3 : ∀ i : grid1.Coords, EltTy.bits .f32 = 32 ∨ (Rect.block (s := S8192x128) S256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S8192x128.size a
  hwx1_4 : ∀ i : grid1.Coords, EltTy.bits .f32 = 32 ∨ (Rect.block (s := S8192x128) S256x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S8192x128.size a
  hwx2_0 : ∀ i : grid2.Coords, EltTy.bits .f32 = 32 ∨ (Rect.block (s := S8192x128) S1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x768.size a ≤ S128x768.size a
  hwx2_1 : ∀ i : grid2.Coords, EltTy.bits .f32 = 32 ∨ (Rect.block (s := S128x768) S128x768.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x768.size a ≤ S1x768.size a
  hwx2_2 : ∀ i : grid2.Coords, EltTy.bits .f32 = 32 ∨ (Rect.block (s := S1x768) S1x768.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S128x256.size a
  hwx2_3 : ∀ i : grid2.Coords, EltTy.bits .f32 = 32 ∨ (Rect.block (s := S128x256) S128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x768.size a ≤ S8192x768.size a
  hwx2_5 : ∀ i : grid2.Coords, EltTy.bits .bf16 = 32 ∨ (Rect.block (s := S8192x768) S1024x768.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x256.size a ≤ S8192x256.size a
  hwx2_6 : ∀ i : grid2.Coords, EltTy.bits .f32 = 32 ∨ (Rect.block (s := S8192x256) S1024x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x256.size a ≤ S8192x768.size a
  hwx3_0 : ∀ i : grid3.Coords, EltTy.bits .bf16 = 32 ∨ (Rect.block (s := S8192x768) S256x256.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x256.size a ≤ S8192x768.size a
  hwx3_1 : ∀ i : grid3.Coords, EltTy.bits .bf16 = 32 ∨ (Rect.block (s := S8192x768) S8192x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S8192x256.size a ≤ S8192x768.size a
  hwx3_2 : ∀ i : grid3.Coords, EltTy.bits .bf16 = 32 ∨ (Rect.block (s := S8192x768) S8192x256.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S8192x256.size a
  hwx3_3 : ∀ i : grid3.Coords, EltTy.bits .f32 = 32 ∨ (Rect.block (s := S8192x256) S256x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S8192x256.size a
  hwx3_4 : ∀ i : grid3.Coords, EltTy.bits .f32 = 32 ∨ (Rect.block (s := S8192x256) S256x256.size (cc3_transform_4 i) (hinb3_4 i)).WholeWords (EltTy.packing .f32)

variable [Facts₀]

def dot_S1024x256_S256x384_S1024x384_1_0_0_1_n_n : DotDims S1024x256 S256x384 S1024x384 where
  lhsContracting := [1]
  rhsContracting := [0]
  lhsNonContracting := [0]
  rhsNonContracting := [1]
  lhsBatch := []
  rhsBatch := []
  wf := dot_S1024x256_S256x384_S1024x384_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S256x128_S8192x128_S256x8192_1_1_0_0_n_n : DotDims S256x128 S8192x128 S256x8192 where
  lhsContracting := [1]
  rhsContracting := [1]
  lhsNonContracting := [0]
  rhsNonContracting := [0]
  lhsBatch := []
  rhsBatch := []
  wf := dot_S256x128_S8192x128_S256x8192_1_1_0_0_n_n_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf
def dot_S1024x128_S128x768_S1024x768_1_0_0_1_n_n : DotDims S1024x128 S128x768 S1024x768 where
  lhsContracting := [1]
  rhsContracting := [0]
  lhsNonContracting := [0]
  rhsNonContracting := [1]
  lhsBatch := []
  rhsBatch := []
  wf := dot_S1024x128_S128x768_S1024x768_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S256x256_S8192x256_S256x8192_1_1_0_0_n_n : DotDims S256x256 S8192x256 S256x8192 where
  lhsContracting := [1]
  rhsContracting := [1]
  lhsNonContracting := [0]
  rhsNonContracting := [0]
  lhsBatch := []
  rhsBatch := []
  wf := dot_S256x256_S8192x256_S256x8192_1_1_0_0_n_n_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8_0) S1024x384.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_1) S1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v8_0) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_0) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8_0) S8192x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8_1) S256x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S256x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v9) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S128x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg18) S128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v17) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v18_0) S1024x768.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v18_1) S1024x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v18_0) S256x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18_0) S8192x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v18_0) S8192x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v18_1) S256x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v19) S256x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S8192x256 : Shape := ⟨2, ![8192, 256]⟩
abbrev S8192x8192 : Shape := ⟨2, ![8192, 8192]⟩
abbrev S256x128 : Shape := ⟨2, ![256, 128]⟩
abbrev S128 : Shape := ⟨1, ![128]⟩
abbrev S128x256 : Shape := ⟨2, ![128, 256]⟩
abbrev S256 : Shape := ⟨1, ![256]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S128x8192 : Shape := ⟨2, ![128, 8192]⟩
abbrev S1x8192 : Shape := ⟨2, ![1, 8192]⟩
abbrev S1x128 : Shape := ⟨2, ![1, 128]⟩
abbrev S1x256 : Shape := ⟨2, ![1, 256]⟩
abbrev S256x8192 : Shape := ⟨2, ![256, 8192]⟩

abbrev nBuf : Space → Nat
  | .hbm => 129
  | .vmem => 0
  | .smem => 0
  | _ => 0

abbrev hbmTy0_0 (i : Nat) : BufTy := match i % 128 with
  | 0 => ⟨S8192x256, .f32⟩
  | 1 => ⟨S8192x8192, .f32⟩
  | 2 => ⟨S256x128, .f32⟩
  | 3 => ⟨S256x128, .f32⟩
  | 4 => ⟨S256x128, .f32⟩
  | 5 => ⟨S128, .f32⟩
  | 6 => ⟨S256x128, .f32⟩
  | 7 => ⟨S128, .f32⟩
  | 8 => ⟨S256x128, .f32⟩
  | 9 => ⟨S128, .f32⟩
  | 10 => ⟨S256x128, .f32⟩
  | 11 => ⟨S128, .f32⟩
  | 12 => ⟨S128x256, .f32⟩
  | 13 => ⟨S256, .f32⟩
  | 14 => ⟨S128x256, .f32⟩
  | 15 => ⟨S256, .f32⟩
  | 16 => ⟨S128x256, .f32⟩
  | 17 => ⟨S256, .f32⟩
  | 18 => ⟨S128x256, .f32⟩
  | 19 => ⟨S256, .f32⟩
  | 20 => ⟨S8192x128, .f32⟩
  | 21 => ⟨S8192x128, .f32⟩
  | 22 => ⟨S8192x128, .f32⟩
  | 23 => ⟨S_, .f32⟩
  | 24 => ⟨S8192, .f32⟩
  | 25 => ⟨S8192x1, .f32⟩
  | 26 => ⟨S8192x1, .f32⟩
  | 27 => ⟨S8192x128, .f32⟩
  | 28 => ⟨S_, .f32⟩
  | 29 => ⟨S8192, .f32⟩
  | 30 => ⟨S8192x1, .f32⟩
  | 31 => ⟨S8192x1, .f32⟩
  | 32 => ⟨S128x8192, .f32⟩
  | 33 => ⟨S8192x8192, .f32⟩
  | 34 => ⟨S1x8192, .f32⟩
  | 35 => ⟨S8192x8192, .f32⟩
  | 36 => ⟨S_, .f32⟩
  | 37 => ⟨S8192x8192, .f32⟩
  | 38 => ⟨S8192x8192, .f32⟩
  | 39 => ⟨S8192x8192, .f32⟩
  | 40 => ⟨S8192x128, .f32⟩
  | 41 => ⟨S1x128, .f32⟩
  | 42 => ⟨S8192x128, .f32⟩
  | 43 => ⟨S8192x128, .f32⟩
  | 44 => ⟨S8192x128, .f32⟩
  | 45 => ⟨S1x128, .f32⟩
  | 46 => ⟨S8192x128, .f32⟩
  | 47 => ⟨S8192x128, .f32⟩
  | 48 => ⟨S8192x128, .f32⟩
  | 49 => ⟨S1x128, .f32⟩
  | 50 => ⟨S8192x128, .f32⟩
  | 51 => ⟨S8192x128, .f32⟩
  | 52 => ⟨S128x8192, .f32⟩
  | 53 => ⟨S8192x8192, .f32⟩
  | 54 => ⟨S_, .f32⟩
  | 55 => ⟨S8192x8192, .f32⟩
  | 56 => ⟨S8192x8192, .f32⟩
  | 57 => ⟨S_, .f32⟩
  | 58 => ⟨S8192, .f32⟩
  | 59 => ⟨S_, .f32⟩
  | 60 => ⟨S8192, .f32⟩
  | 61 => ⟨S8192, .f32⟩
  | 62 => ⟨S8192x1, .f32⟩
  | 63 => ⟨S8192x8192, .f32⟩
  | 64 => ⟨S8192x8192, .f32⟩
  | 65 => ⟨S8192x8192, .f32⟩
  | 66 => ⟨S_, .f32⟩
  | 67 => ⟨S8192, .f32⟩
  | 68 => ⟨S8192x1, .f32⟩
  | 69 => ⟨S8192x8192, .f32⟩
  | 70 => ⟨S8192x8192, .f32⟩
  | 71 => ⟨S8192x128, .f32⟩
  | 72 => ⟨S8192x128, .f32⟩
  | 73 => ⟨S1x128, .f32⟩
  | 74 => ⟨S8192x128, .f32⟩
  | 75 => ⟨S8192x128, .f32⟩
  | 76 => ⟨S8192x128, .f32⟩
  | 77 => ⟨S_, .f32⟩
  | 78 => ⟨S8192x128, .f32⟩
  | 79 => ⟨S8192x128, .i1⟩
  | 80 => ⟨S_, .f32⟩
  | 81 => ⟨S8192x128, .f32⟩
  | 82 => ⟨S8192x128, .i1⟩
  | 83 => ⟨S_, .f32⟩
  | 84 => ⟨S_, .f32⟩
  | 85 => ⟨S8192x128, .f32⟩
  | 86 => ⟨S8192x128, .f32⟩
  | 87 => ⟨S8192x128, .f32⟩
  | 88 => ⟨S_, .f32⟩
  | 89 => ⟨S8192x128, .f32⟩
  | 90 => ⟨S8192x128, .f32⟩
  | 91 => ⟨S8192x128, .f32⟩
  | 92 => ⟨S8192x256, .f32⟩
  | 93 => ⟨S1x256, .f32⟩
  | 94 => ⟨S8192x256, .f32⟩
  | 95 => ⟨S8192x256, .f32⟩
  | 96 => ⟨S8192x256, .f32⟩
  | 97 => ⟨S1x256, .f32⟩
  | 98 => ⟨S8192x256, .f32⟩
  | 99 => ⟨S8192x256, .f32⟩
  | 100 => ⟨S8192x256, .f32⟩
  | 101 => ⟨S1x256, .f32⟩
  | 102 => ⟨S8192x256, .f32⟩
  | 103 => ⟨S8192x256, .f32⟩
  | 104 => ⟨S256x8192, .f32⟩
  | 105 => ⟨S8192x8192, .f32⟩
  | 106 => ⟨S_, .f32⟩
  | 107 => ⟨S8192x8192, .f32⟩
  | 108 => ⟨S8192x8192, .f32⟩
  | 109 => ⟨S_, .f32⟩
  | 110 => ⟨S8192, .f32⟩
  | 111 => ⟨S_, .f32⟩
  | 112 => ⟨S8192, .f32⟩
  | 113 => ⟨S8192, .f32⟩
  | 114 => ⟨S8192x1, .f32⟩
  | 115 => ⟨S8192x8192, .f32⟩
  | 116 => ⟨S8192x8192, .f32⟩
  | 117 => ⟨S8192x8192, .f32⟩
  | 118 => ⟨S_, .f32⟩
  | 119 => ⟨S8192, .f32⟩
  | 120 => ⟨S8192x1, .f32⟩
  | 121 => ⟨S8192x8192, .f32⟩
  | 122 => ⟨S8192x8192, .f32⟩
  | 123 => ⟨S8192x256, .f32⟩
  | 124 => ⟨S8192x256, .f32⟩
  | 125 => ⟨S1x256, .f32⟩
  | 126 => ⟨S8192x256, .f32⟩
  | 127 => ⟨S8192x256, .f32⟩
  | _ => ⟨S8192x256, .f32⟩

abbrev hbmTy0_1 (i : Nat) : BufTy := match i % 128 with
  | 0 => ⟨S8192x256, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_call0_v2 : Ref sig .tc := ⟨.hbm, 25, rfl⟩
abbrev main_v2 : Ref sig .tc := ⟨.hbm, 26, rfl⟩
abbrev main_call1_v0 : Ref sig .tc := ⟨.hbm, 27, rfl⟩
abbrev main_call1_cst : Ref sig .tc := ⟨.hbm, 28, rfl⟩
abbrev main_call1_v1 : Ref sig .tc := ⟨.hbm, 29, rfl⟩
abbrev main_call1_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_0 : Ref sig .tc := ⟨.hbm, 54, rfl⟩
abbrev main_v25 : Ref sig .tc := ⟨.hbm, 55, rfl⟩
abbrev main_v26 : Ref sig .tc := ⟨.hbm, 56, rfl⟩
abbrev main_cst_1 : Ref sig .tc := ⟨.hbm, 57, rfl⟩
abbrev main_v27 : Ref sig .tc := ⟨.hbm, 58, rfl⟩
abbrev main_cst_2 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_3 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_call2_cst : Ref sig .tc := ⟨.hbm, 77, rfl⟩
abbrev main_call2_v0 : Ref sig .tc := ⟨.hbm, 78, rfl⟩
abbrev main_call2_v1 : Ref sig .tc := ⟨.hbm, 79, rfl⟩
abbrev main_call2_cst_0 : Ref sig .tc := ⟨.hbm, 80, rfl⟩
abbrev main_call2_v2 : Ref sig .tc := ⟨.hbm, 81, rfl⟩
abbrev main_call2_v3 : Ref sig .tc := ⟨.hbm, 82, rfl⟩
abbrev main_call2_cst_1 : Ref sig .tc := ⟨.hbm, 83, rfl⟩
abbrev main_call2_call0_v0 : Ref sig .tc := ⟨.hbm, 84, rfl⟩
abbrev main_call2_call0_v1 : Ref sig .tc := ⟨.hbm, 85, rfl⟩
abbrev main_call2_v4 : Ref sig .tc := ⟨.hbm, 86, rfl⟩
abbrev main_call2_v5 : Ref sig .tc := ⟨.hbm, 87, rfl⟩
abbrev main_call2_cst_2 : Ref sig .tc := ⟨.hbm, 88, rfl⟩
abbrev main_call2_v6 : Ref sig .tc := ⟨.hbm, 89, rfl⟩
abbrev main_call2_v7 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_cst_4 : Ref sig .tc := ⟨.hbm, 106, rfl⟩
abbrev main_v59 : Ref sig .tc := ⟨.hbm, 107, rfl⟩
abbrev main_v60 : Ref sig .tc := ⟨.hbm, 108, rfl⟩
abbrev main_cst_5 : Ref sig .tc := ⟨.hbm, 109, rfl⟩
abbrev main_v61 : Ref sig .tc := ⟨.hbm, 110, rfl⟩
abbrev main_cst_6 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_cst_7 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  transposes_S8192x128_S128x8192_1_0 : S8192x128.Transposes [1, 0] S128x8192
  transposes_S8192x1_S1x8192_1_0 : S8192x1.Transposes [1, 0] S1x8192
  bcast_S_S8192x8192 : S_.BroadcastsInDim S8192x8192 (![] : Fin 0 → Fin S8192x8192.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  bcast_S_S8192x128 : S_.BroadcastsInDim S8192x128 (![] : Fin 0 → Fin S8192x128.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  transposes_S8192x256_S256x8192_1_0 : S8192x256.Transposes [1, 0] S256x8192
  dot_S8192x256_S256x128_S8192x128_1_0_0_1_n_n_wf : DotDims.WF S8192x256 S256x128 S8192x128 [1] [0] [0] [1] [] []
  dot_S8192x128_S128x8192_S8192x8192_1_0_0_1_n_n_wf : DotDims.WF S8192x128 S128x8192 S8192x8192 [1] [0] [0] [1] [] []
  dot_S8192x1_S1x8192_S8192x8192_1_0_0_1_n_n_wf : DotDims.WF S8192x1 S1x8192 S8192x8192 [1] [0] [0] [1] [] []
  dot_S8192x8192_S8192x128_S8192x128_1_0_0_1_n_n_wf : DotDims.WF S8192x8192 S8192x128 S8192x128 [1] [0] [0] [1] [] []
  dot_S8192x128_S128x256_S8192x256_1_0_0_1_n_n_wf : DotDims.WF S8192x128 S128x256 S8192x256 [1] [0] [0] [1] [] []
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x1_S1x8192_S8192x8192_1_0_0_1_n_n : DotDims S8192x1 S1x8192 S8192x8192 where
  lhsContracting := [1]
  rhsContracting := [0]
  lhsNonContracting := [0]
  rhsNonContracting := [1]
  lhsBatch := []
  rhsBatch := []
  wf := dot_S8192x1_S1x8192_S8192x8192_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.Kernel.Reg0.lean ====
/-
  Region 0 of @main: the projection kernel of one attention layer, one grid point per block of 1024 rows.
  At a point the body reads a block of rows `h`, the fused weight matrix and bias for the queries, keys and values,
  and the weight matrix and bias of the skip term, and stores two blocks: `h · Wqkv + bqkv` and `h · Ws + bs`.
  Stated at the buffer contents `V` the region is entered with: each window's block at a point, what the body leaves
  in each output window's buffer as a function of the input blocks, the body's triple, the proof data of the
  pipeline and its body obligation.
-/
import proofs.«118558_j17497696764591_2_alg».proof.Proof.Gen.Kernel.Launch
import proofs.«118558_j17497696764591_2_alg».proof.Proof.Gen.Kernel.Skeleton
import proofs.«118558_j17497696764591_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered. -/
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there or
    not (unfetched, the block index has not moved). -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there or
    not (unfetched, the block index has not moved). -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there or
    not (unfetched, the block index has not moved). -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there or
    not (unfetched, the block index has not moved). -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the pipeline fetched it there or
    not (unfetched, the block index has not moved). -/
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole buffer -/

abbrev rX : Rect S1024x256 := Rect.unit (s := S1024x256) ![0, 0] S1024x256.size inb_S1024x256_S1024x256_0_0
abbrev rW : Rect S256x384 := Rect.unit (s := S256x384) ![0, 0] S256x384.size inb_S256x384_S256x384_0_0
abbrev rB : Rect S1x384 := Rect.unit (s := S1x384) ![0, 0] S1x384.size inb_S1x384_S1x384_0_0
abbrev rWs : Rect S256x128 := Rect.unit (s := S256x128) ![0, 0] S256x128.size inb_S256x128_S256x128_0_0
abbrev rBs : Rect S1x128 := Rect.unit (s := S1x128) ![0, 0] S1x128.size inb_S1x128_S1x128_0_0
abbrev rO : Rect S1024x384 := Rect.unit (s := S1024x384) ![0, 0] S1024x384.size inb_S1024x384_S1024x384_0_0
abbrev rOs : Rect S1024x128 := Rect.unit (s := S1024x128) ![0, 0] S1024x128.size inb_S1024x128_S1024x128_0_0

/-! ## What the body leaves in each output window's buffer -/

/-- The fused projection's block: the one store of `h · Wqkv + bqkv` over the whole buffer. -/
def outQkv (x : Vec F S1024x256 .f32) (w : Vec F S256x384 .f32) (b : Vec F S1x384 .f32) : Vec F S1024x384 .bf16 :=
  View.canon [⟨rO, k0_pay2 (View.ld x rX) (View.ld w rW) (View.ld b rB)⟩]

/-- The skip term's block: the one store of `h · Ws + bs` over the whole buffer. -/
def outS (x : Vec F S1024x256 .f32) (ws : Vec F S256x128 .f32) (bs : Vec F S1x128 .f32) : Vec F S1024x128 .f32 :=
  View.canon [⟨rOs, k0_pay3 (View.ld x rX) (View.ld ws rWs) (View.ld bs rBs)⟩]

/-- A store of the whole buffer covers it. -/
theorem coverQkv (p0 : Vec F S1024x384 .bf16) (y : S1024x384.Idx) :
    ∃ pc ∈ ([⟨rO, p0⟩] : List (View.Piece (Elt F) S1024x384 .bf16)), y ∈ pc.1.set :=
  View.cover_of_tiled [⟨rO, p0⟩] S1024x384.size (by rfl) y
theorem coverS (p0 : Vec F S1024x128 .f32) (y : S1024x128.Idx) :
    ∃ pc ∈ ([⟨rOs, p0⟩] : List (View.Piece (Elt F) S1024x128 .f32)), y ∈ pc.1.set :=
  View.cover_of_tiled [⟨rOs, p0⟩] S1024x128.size (by rfl) y

/-! ## The body's triple -/

set_option maxHeartbeats 1000000 in
/-- The body on whole staging buffers, the five inputs' at read contents and the two outputs' at anything, runs to its
    return leaving the inputs' as they were and the outputs' at `outQkv` and `outS` of the inputs'. -/
theorem sound_kernel (c : Dev nD) (E : Set ℕ) (i : grid0.Coords)
    (arg1 : Memref sig .tc .vmem S1024x256 .f32) (harg1 : arg1.IsWhole) (arg2 : Memref sig .tc .vmem S256x384 .f32) (harg2 : arg2.IsWhole)
    (arg3 : Memref sig .tc .vmem S1x384 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S1024x384 .bf16) (harg6 : arg6.IsWhole)
    (arg7 : Memref sig .tc .vmem S1024x128 .f32) (harg7 : arg7.IsWhole)
    (x0 : Vec F S1024x256 .f32) (x1 : Vec F S256x384 .f32) (x2 : Vec F S1x384 .f32) (x3 : Vec F S256x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outQkv x0 x1 x2) ∗ owns (c : Thread nD τ) arg7 fullShare (outS x0 x3 x4)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverQkv _)
  iexists _; isplitr
  swap; · iexact H6
  ipureintro
  exact View.read_writes_eq_canon _ _ _ (coverS _)

/-! ## The pipeline's proof data -/

/-- The proof data of pipeline 0 on core `c`: the arrays as the region finds them; after the body at point `t` each
    input's buffer at its block and each output's at the body's result on the input blocks; the invariant the
    scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outQkv (iblk V c 0 t) (iblk V c 1 t) (iblk V c 2 t)
    | ⟨6, _⟩ => outS (iblk V c 0 t) (iblk V c 3 t) (iblk V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = outQkv (iblk V c 0 t) (iblk V c 1 t) (iblk V c 2 t) := by dsimp only [dat]
theorem after_6 (c : Dev nD) (t : Fin cfg0.N) : (dat V c).after 6 t = outS (iblk V c 0 t) (iblk V c 3 t) (iblk V c 4 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the inputs' buffers hold their blocks, so the body's triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Reg0

end
-- ==== Proof.Kernel.Reg1.lean ====
/-
  Region 1 of @main: the attention kernel of one layer, one grid point per block of 256 query rows.
  At a point the body reads a block of queries, ALL the keys and ALL the values (three column blocks of the one
  fused projection array) and a block of the skip term, and stores one block: the softmax-weighted sum of the
  values, normalized after the sum, plus the skip term. Stated at the buffer contents `V` the region is entered with:
  each window's block at a point, what the body leaves in the output window's buffer as a function of the input
  blocks, the body's triple, the proof data of the pipeline (the three windows on the shared array each holding a
  part of its share) and its body obligation.
-/
import proofs.«118558_j17497696764591_2_alg».proof.Proof.Gen.Kernel.Launch
import proofs.«118558_j17497696764591_2_alg».proof.Proof.Gen.Kernel.Skeleton
import proofs.«118558_j17497696764591_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered. -/
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or
    not (unfetched, the block index has not moved). -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there or
    not (unfetched, the block index has not moved). -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there or
    not (unfetched, the block index has not moved). -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there or
    not (unfetched, the block index has not moved). -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole buffer -/

abbrev rQ : Rect S256x128 := Rect.unit (s := S256x128) ![0, 0] S256x128.size inb_S256x128_S256x128_0_0
abbrev rKV : Rect S8192x128 := Rect.unit (s := S8192x128) ![0, 0] S8192x128.size inb_S8192x128_S8192x128_0_0

/-! ## What the body leaves in the output window's buffer -/

/-- The output block: the one store of the body's result over the whole buffer. -/
def outO (q : Vec F S256x128 .bf16) (k : Vec F S8192x128 .bf16) (v : Vec F S8192x128 .bf16) (s : Vec F S256x128 .f32) : Vec F S256x128 .f32 :=
  View.canon [⟨rQ, k1_pay1 (View.ld q rQ) (View.ld k rKV) (View.ld v rKV) (View.ld s rQ)⟩]

/-- A store of the whole buffer covers it. -/
theorem coverO (p0 : Vec F S256x128 .f32) (y : S256x128.Idx) :
    ∃ pc ∈ ([⟨rQ, p0⟩] : List (View.Piece (Elt F) S256x128 .f32)), y ∈ pc.1.set :=
  View.cover_of_tiled [⟨rQ, p0⟩] S256x128.size (by rfl) y

/-! ## The body's triple -/

set_option maxHeartbeats 1000000 in
/-- The body on whole staging buffers, the four inputs' at read contents and the output's at anything, runs to its
    return leaving the inputs' as they were and the output's at `outO` of the inputs'. -/
theorem sound_kernel (c : Dev nD) (E : Set ℕ) (i : grid1.Coords)
    (arg1 : Memref sig .tc .vmem S256x128 .bf16) (harg1 : arg1.IsWhole) (arg2 : Memref sig .tc .vmem S8192x128 .bf16) (harg2 : arg2.IsWhole)
    (arg3 : Memref sig .tc .vmem S8192x128 .bf16) (harg3 : arg3.IsWhole) (arg4 : Memref sig .tc .vmem S256x128 .f32) (harg4 : arg4.IsWhole)
    (arg5 : Memref sig .tc .vmem S256x128 .f32) (harg5 : arg5.IsWhole)
    (x0 : Vec F S256x128 .bf16) (x1 : Vec F S8192x128 .bf16) (x2 : Vec F S8192x128 .bf16) (x3 : Vec F S256x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (outO x0 x1 x2 x3)) -∗ K ⟨⟩))
      ⊢ wp frame (wpE (defs₀ (F := F)) Variants.none c none) E (cc1_kernel i arg1 harg1 arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverO _)

/-! ## The pipeline's proof data -/

/-- The full share cut in three: what the query, key and value windows each hold of the one fused projection array. -/
abbrev shQ : PosShare TreeShare := fullShare.left
abbrev shK : PosShare TreeShare := fullShare.right.left
abbrev shV : PosShare TreeShare := fullShare.right.right

/-- The proof data of pipeline 1 on core `c`: the arrays as the region finds them; after the body at point `t` each
    input's buffer at its block and the output's at the body's result on the input blocks; the invariant the scoped
    rest and the generator register, untouched; nothing owed; the fused projection array's share cut in three among
    its windows, the skip term's array at the full share. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outO (iblk V c 0 t) (iblk V c 1 t) (iblk V c 2 t) (iblk V c 3 t)
  Φ _ := Pipeline.ΦA spec1 c
  q w := match w with
    | ⟨0, _⟩ => shQ
    | ⟨1, _⟩ => shK
    | ⟨2, _⟩ => shV
    | ⟨3, _⟩ => fullShare
    | ⟨4, _⟩ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = outO (iblk V c 0 t) (iblk V c 1 t) (iblk V c 2 t) (iblk V c 3 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any point: the inputs' buffers hold their blocks, so the body's triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid1.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Reg1

end
-- ==== Proof.Kernel.Reg2.lean ====
/-
  Region 2 of @main: the projection kernel of one attention layer, one grid point per block of 1024 rows.
  At a point the body reads a block of rows `h`, the fused weight matrix and bias for the queries, keys and values,
  and the weight matrix and bias of the skip term, and stores two blocks: `h · Wqkv + bqkv` and `h · Ws + bs`.
  Stated at the buffer contents `V` the region is entered with: each window's block at a point, what the body leaves
  in each output window's buffer as a function of the input blocks, the body's triple, the proof data of the
  pipeline and its body obligation.
-/
import proofs.«118558_j17497696764591_2_alg».proof.Proof.Gen.Kernel.Launch
import proofs.«118558_j17497696764591_2_alg».proof.Proof.Gen.Kernel.Skeleton
import proofs.«118558_j17497696764591_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered. -/
variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the pipeline fetched it there or
    not (unfetched, the block index has not moved). -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there or
    not (unfetched, the block index has not moved). -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there or
    not (unfetched, the block index has not moved). -/
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there or
    not (unfetched, the block index has not moved). -/
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the pipeline fetched it there or
    not (unfetched, the block index has not moved). -/
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole buffer -/

abbrev rX : Rect S1024x128 := Rect.unit (s := S1024x128) ![0, 0] S1024x128.size inb_S1024x128_S1024x128_0_0
abbrev rW : Rect S128x768 := Rect.unit (s := S128x768) ![0, 0] S128x768.size inb_S128x768_S128x768_0_0
abbrev rB : Rect S1x768 := Rect.unit (s := S1x768) ![0, 0] S1x768.size inb_S1x768_S1x768_0_0
abbrev rWs : Rect S128x256 := Rect.unit (s := S128x256) ![0, 0] S128x256.size inb_S128x256_S128x256_0_0
abbrev rBs : Rect S1x256 := Rect.unit (s := S1x256) ![0, 0] S1x256.size inb_S1x256_S1x256_0_0
abbrev rO : Rect S1024x768 := Rect.unit (s := S1024x768) ![0, 0] S1024x768.size inb_S1024x768_S1024x768_0_0
abbrev rOs : Rect S1024x256 := Rect.unit (s := S1024x256) ![0, 0] S1024x256.size inb_S1024x256_S1024x256_0_0

/-! ## What the body leaves in each output window's buffer -/

/-- The fused projection's block: the one store of `h · Wqkv + bqkv` over the whole buffer. -/
def outQkv (x : Vec F S1024x128 .f32) (w : Vec F S128x768 .f32) (b : Vec F S1x768 .f32) : Vec F S1024x768 .bf16 :=
  View.canon [⟨rO, k2_pay2 (View.ld x rX) (View.ld w rW) (View.ld b rB)⟩]

/-- The skip term's block: the one store of `h · Ws + bs` over the whole buffer. -/
def outS (x : Vec F S1024x128 .f32) (ws : Vec F S128x256 .f32) (bs : Vec F S1x256 .f32) : Vec F S1024x256 .f32 :=
  View.canon [⟨rOs, k2_pay3 (View.ld x rX) (View.ld ws rWs) (View.ld bs rBs)⟩]

/-- A store of the whole buffer covers it. -/
theorem coverQkv (p0 : Vec F S1024x768 .bf16) (y : S1024x768.Idx) :
    ∃ pc ∈ ([⟨rO, p0⟩] : List (View.Piece (Elt F) S1024x768 .bf16)), y ∈ pc.1.set :=
  View.cover_of_tiled [⟨rO, p0⟩] S1024x768.size (by rfl) y
theorem coverS (p0 : Vec F S1024x256 .f32) (y : S1024x256.Idx) :
    ∃ pc ∈ ([⟨rOs, p0⟩] : List (View.Piece (Elt F) S1024x256 .f32)), y ∈ pc.1.set :=
  View.cover_of_tiled [⟨rOs, p0⟩] S1024x256.size (by rfl) y

/-! ## The body's triple -/

set_option maxHeartbeats 1000000 in
/-- The body on whole staging buffers, the five inputs' at read contents and the two outputs' at anything, runs to its
    return leaving the inputs' as they were and the outputs' at `outQkv` and `outS` of the inputs'. -/
theorem sound_kernel (c : Dev nD) (E : Set ℕ) (i : grid2.Coords)
    (arg1 : Memref sig .tc .vmem S1024x128 .f32) (harg1 : arg1.IsWhole) (arg2 : Memref sig .tc .vmem S128x768 .f32) (harg2 : arg2.IsWhole)
    (arg3 : Memref sig .tc .vmem S1x768 .f32) (harg3 : arg3.IsWhole) (arg4 : Memref sig .tc .vmem S128x256 .f32) (harg4 : arg4.IsWhole)
    (arg5 : Memref sig .tc .vmem S1x256 .f32) (harg5 : arg5.IsWhole) (arg6 : Memref sig .tc .vmem S1024x768 .bf16) (harg6 : arg6.IsWhole)
    (arg7 : Memref sig .tc .vmem S1024x256 .f32) (harg7 : arg7.IsWhole)
    (x0 : Vec F S1024x128 .f32) (x1 : Vec F S128x768 .f32) (x2 : Vec F S1x768 .f32) (x3 : Vec F S128x256 .f32) (x4 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outQkv x0 x1 x2) ∗ owns (c : Thread nD τ) arg7 fullShare (outS x0 x3 x4)) -∗ K ⟨⟩))
      ⊢ wp frame (wpE (defs₀ (F := F)) Variants.none c none) E (cc2__proj_kernel i arg1 harg1 arg2 harg2 arg3 harg3 arg4 harg4 arg5 harg5 arg6 harg6 arg7 harg7) K := by
  simp only [cc2__proj_kernel_eq_skeleton]; unfold cc2__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverQkv _)
  iexists _; isplitr
  swap; · iexact H6
  ipureintro
  exact View.read_writes_eq_canon _ _ _ (coverS _)

/-! ## The pipeline's proof data -/

/-- The proof data of pipeline 2 on core `c`: the arrays as the region finds them; after the body at point `t` each
    input's buffer at its block and each output's at the body's result on the input blocks; the invariant the
    scoped rest and the generator register, untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outQkv (iblk V c 0 t) (iblk V c 1 t) (iblk V c 2 t)
    | ⟨6, _⟩ => outS (iblk V c 0 t) (iblk V c 3 t) (iblk V c 4 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = outQkv (iblk V c 0 t) (iblk V c 1 t) (iblk V c 2 t) := by dsimp only [dat]
theorem after_6 (c : Dev nD) (t : Fin cfg2.N) : (dat V c).after 6 t = outS (iblk V c 0 t) (iblk V c 3 t) (iblk V c 4 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t))

/-- The body at any point: the inputs' buffers hold their blocks, so the body's triple applies; the invariant and the
    core's dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid2.coords t) _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.Reg2

end
-- ==== Proof.Kernel.Reg3.lean ====
/-
  Region 3 of @main: the attention kernel of one layer, one grid point per block of 256 query rows.
  At a point the body reads a block of queries, ALL the keys and ALL the values (three column blocks of the one
  fused projection array) and a block of the skip term, and stores one block: the softmax-weighted sum of the
  values, normalized after the sum, plus the skip term. Stated at the buffer contents `V` the region is entered with:
  each window's block at a point, what the body leaves in the output window's buffer as a function of the input
  blocks, the body's triple, the proof data of the pipeline (the three windows on the shared array each holding a
  part of its share) and its body obligation.
-/
import proofs.«118558_j17497696764591_2_alg».proof.Proof.Gen.Kernel.Launch
import proofs.«118558_j17497696764591_2_alg».proof.Proof.Gen.Kernel.Skeleton
import proofs.«118558_j17497696764591_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered. -/
variable (V : (c : Dev nD) → (b : Ref sig .tc) → Buf (Elt F) ((c : Thread nD τ).loc b))

/-! ## The windows' blocks -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the pipeline fetched it there or
    not (unfetched, the block index has not moved). -/
theorem before_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there or
    not (unfetched, the block index has not moved). -/
theorem before_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there or
    not (unfetched, the block index has not moved). -/
theorem before_2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there or
    not (unfetched, the block index has not moved). -/
theorem before_3_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole buffer -/

abbrev rQ : Rect S256x256 := Rect.unit (s := S256x256) ![0, 0] S256x256.size inb_S256x256_S256x256_0_0
abbrev rKV : Rect S8192x256 := Rect.unit (s := S8192x256) ![0, 0] S8192x256.size inb_S8192x256_S8192x256_0_0

/-! ## What the body leaves in the output window's buffer -/

/-- The output block: the one store of the body's result over the whole buffer. -/
def outO (q : Vec F S256x256 .bf16) (k : Vec F S8192x256 .bf16) (v : Vec F S8192x256 .bf16) (s : Vec F S256x256 .f32) : Vec F S256x256 .f32 :=
  View.canon [⟨rQ, k3_pay1 (View.ld q rQ) (View.ld k rKV) (View.ld v rKV) (View.ld s rQ)⟩]

/-- A store of the whole buffer covers it. -/
theorem coverO (p0 : Vec F S256x256 .f32) (y : S256x256.Idx) :
    ∃ pc ∈ ([⟨rQ, p0⟩] : List (View.Piece (Elt F) S256x256 .f32)), y ∈ pc.1.set :=
  View.cover_of_tiled [⟨rQ, p0⟩] S256x256.size (by rfl) y

/-! ## The body's triple -/

set_option maxHeartbeats 1000000 in
/-- The body on whole staging buffers, the four inputs' at read contents and the output's at anything, runs to its
    return leaving the inputs' as they were and the output's at `outO` of the inputs'. -/
theorem sound_kernel (c : Dev nD) (E : Set ℕ) (i : grid3.Coords)
    (arg1 : Memref sig .tc .vmem S256x256 .bf16) (harg1 : arg1.IsWhole) (arg2 : Memref sig .tc .vmem S8192x256 .bf16) (harg2 : arg2.IsWhole)
    (arg3 : Memref sig .tc .vmem S8192x256 .bf16) (harg3 : arg3.IsWhole) (arg4 : Memref sig .tc .vmem S256x256 .f32) (harg4 : arg4.IsWhole)
    (arg5 : Memref sig .tc .vmem S256x256 .f32) (harg5 : arg5.IsWhole)
    (x0 : Vec F S256x256 .bf16) (x1 : Vec F S8192x256 .bf16) (x2 : Vec F S8192x256 .bf16) (x3 : Vec F S256x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (outO x0 x1 x2 x3)) -∗ K ⟨⟩))
      ⊢ wp frame (wpE (defs₀ (F := F)) Variants.none c none) E (cc3_kernel i arg1 harg1 arg2 harg2 arg3 harg3 arg4 harg4 arg5 harg5) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverO _)

/-! ## The pipeline's proof data -/

/-- The full share cut in three: what the query, key and value windows each hold of the one fused projection array. -/
abbrev shQ : PosShare TreeShare := fullShare.left
abbrev shK : PosShare TreeShare := fullShare.right.left
abbrev shV : PosShare TreeShare := fullShare.right.right

/-- The proof data of pipeline 3 on core `c`: the arrays as the region finds them; after the body at point `t` each
    input's buffer at its block and the output's at the body's result on the input blocks; the invariant the scoped
    rest and the generator register, untouched; nothing owed; the fused projection array's share cut in three among
    its windows, the skip term's array at the full share. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => outO (iblk V c 0 t) (iblk V c 1 t) (iblk V c 2 t) (iblk V c 3 t)
  Φ _ := Pipeline.ΦA spec3 c
  q w := match w with
    | ⟨0, _⟩ => shQ
    | ⟨1, _⟩ => shK
    | ⟨2, _⟩ => shV
    | ⟨3, _⟩ => fullShare
    | ⟨4, _⟩ => fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = outO (iblk V c 0 t) (iblk V c 1 t) (iblk V c 2 t) (iblk V c 3 t) := by dsimp only [dat]

theorem before_0 (c : Dev nD) (t : Fin cfg3.N) (d) : (dat V c).before 0 t d = iblk V c 0 t :=
  before_0_of V (dat V c) (A_eq V c 0) (after_0 V c) t d
theorem before_1 (c : Dev nD) (t : Fin cfg3.N) (d) : (dat V c).before 1 t d = iblk V c 1 t :=
  before_1_of V (dat V c) (A_eq V c 1) (after_1 V c) t d
theorem before_2 (c : Dev nD) (t : Fin cfg3.N) (d) : (dat V c).before 2 t d = iblk V c 2 t :=
  before_2_of V (dat V c) (A_eq V c 2) (after_2 V c) t d
theorem before_3 (c : Dev nD) (t : Fin cfg3.N) (d) : (dat V c).before 3 t d = iblk V c 3 t :=
  before_3_of V (dat V c) (A_eq V c 3) (after_3 V c) t d

/-! ## The body obligation, at a generic point -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t))

/-- The body at any point: the inputs' buffers hold their blocks, so the body's triple applies; the invariant and the
    core's dues pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid3.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W3, bigSep_W3]
  exact sound_body V c t

end Cert.Kernel.Reg3

end
-- ==== Proof.Kernel.Outs.lean ====
/-
  The buffers' contents between @main's items, with what each region leaves NAMED. @main is: host operations (the scale
  folded into the query weights and bias, the three weight matrices and biases laid side by side), the projection region
  of layer 1, its attention region, the same host operations for layer 2, its projection region, its attention region.
  The contents after an item are the contents before it with the item's results written: a host stretch's by the
  operations' fold, a region's output arrays at what the pipeline's write-backs leave (the proof data's array after the
  last grid point), everything else as it was. Each region's proof data is stated at the contents its region is entered
  with, so the stages are defined one after the other.
-/
import proofs.«118558_j17497696764591_2_alg».proof.Proof.Gen.Kernel.Regions
import proofs.«118558_j17497696764591_2_alg».proof.Proof.Kernel.Reg0
import proofs.«118558_j17497696764591_2_alg».proof.Proof.Kernel.Reg1
import proofs.«118558_j17497696764591_2_alg».proof.Proof.Kernel.Reg2
import proofs.«118558_j17497696764591_2_alg».proof.Proof.Kernel.Reg3

noncomputable section

namespace Cert.Kernel.Run

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- A valuation read at the TensorCore's references: what a region's proof data are stated at. -/
abbrev tc (W : Dev nD → Valuation τ sig (Elt F)) : (c : Dev nD) → (b : Ref sig .tc) → Buf (Elt F) ((c : Thread nD τ).loc b) :=
  fun c b => W c b

/-! ## What the regions leave, stage by stage -/

/-- Layer 1's projection region leaves the fused projection and the skip term. -/
def oA : Outs (F := F) := fun _ r c =>
  Function.update (Function.update (tc (V1 m) c) main_v8_0 ((Reg0.dat (tc (V1 m)) c).arrAt 5 cfg0.N))
    main_v8_1 ((Reg0.dat (tc (V1 m)) c).arrAt 6 cfg0.N) r

/-- Layer 1's attention region leaves the hidden layer. -/
def oB : Outs (F := F) := fun j r c => match j with
  | 3 => Function.update (tc (V2 m (oA m)) c) main_v9 ((Reg1.dat (tc (V2 m (oA m))) c).arrAt 4 cfg1.N) r
  | _ => oA m j r c

/-- Layer 2's projection region leaves its fused projection and skip term. -/
def oC : Outs (F := F) := fun j r c => match j with
  | 5 => Function.update (Function.update (tc (V4 m (oB m)) c) main_v18_0 ((Reg2.dat (tc (V4 m (oB m))) c).arrAt 5 cfg2.N))
      main_v18_1 ((Reg2.dat (tc (V4 m (oB m))) c).arrAt 6 cfg2.N) r
  | _ => oB m j r c

/-- Layer 2's attention region leaves the result. -/
def outs : Outs (F := F) := fun j r c => match j with
  | 6 => Function.update (tc (V5 m (oC m)) c) main_v19 ((Reg3.dat (tc (V5 m (oC m))) c).arrAt 4 cfg3.N) r
  | _ => oC m j r c

/-- The contents a stage is entered with do not depend on what later regions leave. -/
theorem V2_outs (c : Dev nD) : V2 m (outs m) c = V2 m (oA m) c := rfl
theorem V4_outs (c : Dev nD) : V4 m (outs m) c = V4 m (oB m) c := rfl
theorem V5_outs (c : Dev nD) : V5 m (outs m) c = V5 m (oC m) c := rfl

/-! ## The stages read at the regions' output arrays -/

theorem outs_v8_0 (c : Dev nD) : outs m 2 main_v8_0 c = (Reg0.dat (tc (V1 m)) c).arrAt 5 cfg0.N := by
  show Function.update (Function.update (tc (V1 m) c) main_v8_0 ((Reg0.dat (tc (V1 m)) c).arrAt 5 cfg0.N))
    main_v8_1 ((Reg0.dat (tc (V1 m)) c).arrAt 6 cfg0.N) main_v8_0 = _
  rw [Function.update_of_ne (by decide), Function.update_self]
theorem outs_v8_1 (c : Dev nD) : outs m 2 main_v8_1 c = (Reg0.dat (tc (V1 m)) c).arrAt 6 cfg0.N := by
  show Function.update (Function.update (tc (V1 m) c) main_v8_0 ((Reg0.dat (tc (V1 m)) c).arrAt 5 cfg0.N))
    main_v8_1 ((Reg0.dat (tc (V1 m)) c).arrAt 6 cfg0.N) main_v8_1 = _
  rw [Function.update_self]
theorem outs_v9 (c : Dev nD) : outs m 3 main_v9 c = (Reg1.dat (tc (V2 m (oA m))) c).arrAt 4 cfg1.N := by
  show Function.update (tc (V2 m (oA m)) c) main_v9 ((Reg1.dat (tc (V2 m (oA m))) c).arrAt 4 cfg1.N) main_v9 = _
  rw [Function.update_self]
theorem outs_v18_0 (c : Dev nD) : outs m 5 main_v18_0 c = (Reg2.dat (tc (V4 m (oB m))) c).arrAt 5 cfg2.N := by
  show Function.update (Function.update (tc (V4 m (oB m)) c) main_v18_0 ((Reg2.dat (tc (V4 m (oB m))) c).arrAt 5 cfg2.N))
      main_v18_1 ((Reg2.dat (tc (V4 m (oB m))) c).arrAt 6 cfg2.N) main_v18_0 = _
  rw [Function.update_of_ne (by decide), Function.update_self]
theorem outs_v18_1 (c : Dev nD) : outs m 5 main_v18_1 c = (Reg2.dat (tc (V4 m (oB m))) c).arrAt 6 cfg2.N := by
  show Function.update (Function.update (tc (V4 m (oB m)) c) main_v18_0 ((Reg2.dat (tc (V4 m (oB m))) c).arrAt 5 cfg2.N))
      main_v18_1 ((Reg2.dat (tc (V4 m (oB m))) c).arrAt 6 cfg2.N) main_v18_1 = _
  rw [Function.update_self]
theorem outs_v19 (c : Dev nD) : outs m 6 main_v19 c = (Reg3.dat (tc (V5 m (oC m))) c).arrAt 4 cfg3.N := by
  show Function.update (tc (V5 m (oC m)) c) main_v19 ((Reg3.dat (tc (V5 m (oC m))) c).arrAt 4 cfg3.N) main_v19 = _
  rw [Function.update_self]

variable (o : Outs (F := F))

theorem V2_v8_0 (c : Dev nD) : V2 m o c main_v8_0 = o 2 main_v8_0 c := by
  simp only [V2, Function.update_of_ne (StableHlo.devRef_ne_of_ne (by decide : main_v8_0 ≠ main_v8_1) : (Proc.devRef .tc main_v8_0 : DevRef τ sig) ≠ Proc.devRef .tc main_v8_1), Function.update_self]
theorem V2_v8_1 (c : Dev nD) : V2 m o c main_v8_1 = o 2 main_v8_1 c := by
  simp only [V2, Function.update_self]
theorem V3_v9 (c : Dev nD) : V3 m o c main_v9 = o 3 main_v9 c := by
  simp only [V3, Function.update_self]
theorem V5_v18_0 (c : Dev nD) : V5 m o c main_v18_0 = o 5 main_v18_0 c := by
  simp only [V5, Function.update_of_ne (StableHlo.devRef_ne_of_ne (by decide : main_v18_0 ≠ main_v18_1) : (Proc.devRef .tc main_v18_0 : DevRef τ sig) ≠ Proc.devRef .tc main_v18_1), Function.update_self]
theorem V5_v18_1 (c : Dev nD) : V5 m o c main_v18_1 = o 5 main_v18_1 c := by
  simp only [V5, Function.update_self]
theorem V6_v19 (c : Dev nD) : V6 m o c main_v19 = o 6 main_v19 c := by
  simp only [V6, Function.update_self]

/-! ## The proof data family -/

/-- Every pipeline's proof data, each at the contents its region is entered with. -/
def pdats : (p : Fin 4) → (c : Dev nD) → Dat τ (Elt F) Unit ℕ (UR sig nD τ) ℕ (cfgs p) c
  | ⟨0, _⟩ => fun c => Reg0.dat (tc (V1 m)) c
  | ⟨1, _⟩ => fun c => Reg1.dat (tc (V2 m (oA m))) c
  | ⟨2, _⟩ => fun c => Reg2.dat (tc (V4 m (oB m))) c
  | ⟨3, _⟩ => fun c => Reg3.dat (tc (V5 m (oC m))) c

end Cert.Kernel.Run

end
-- ==== Proof.Kernel.Arr1.lean ====
/-
  Region 1's arrays against the buffers behind them. The query, key and value windows are three column blocks of
  ONE array, so the pipeline holds that array three times, each window at a part of the share; the skip term's array and
  the output's are held once, whole. Cutting the full share of the fused projection's buffer in three (in half, then the
  second half in half again) turns "each distinct buffer behind the windows, whole at the full share" into "each window's
  array at its share", and back.
-/
import proofs.«118558_j17497696764591_2_alg».proof.Proof.Kernel.Reg1

noncomputable section

namespace Cert.Kernel.Reg1

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A buffer held at a share is the same buffer held at the share's two halves. -/
theorem halves {ℓ : Loc nD τ sig} (q : PosShare TreeShare) (f : Buf (Elt F) ℓ) :
    ((ℓ ↦{q} f : sProp 𝕄)) = iprop((ℓ ↦{q.left} f) ∗ ℓ ↦{q.right} f) :=
  BI.Entails.antisymm (pointsTo_share (PosShare.mem_left_op_right q)).1 (pointsTo_share (PosShare.mem_left_op_right q)).2

/-- An input window holds its array at the share the proof data name for it. -/
theorem share_in (c : Dev nD) (w : Fin cfg1.W) (h : (cfg1.win w).isOut = false) : (dat V c).share w = (dat V c).q w := by
  unfold Dat.share; rw [h]; rfl
theorem share_0 (c : Dev nD) : (dat V c).share 0 = shQ := (share_in V c 0 rfl).trans (by dsimp only [dat])
theorem share_1 (c : Dev nD) : (dat V c).share 1 = shK := (share_in V c 1 rfl).trans (by dsimp only [dat])
theorem share_2 (c : Dev nD) : (dat V c).share 2 = shV := (share_in V c 2 rfl).trans (by dsimp only [dat])
theorem share_3 (c : Dev nD) : (dat V c).share 3 = fullShare := (share_in V c 3 rfl).trans (by dsimp only [dat])
/-- The output window holds its array whole. -/
theorem share_4 (c : Dev nD) : (dat V c).share 4 = fullShare := by
  unfold Dat.share; rw [show (cfg1.win 4).isOut = true from rfl]; rfl

/-- The distinct buffers behind the five windows. -/
theorem image_arrRef : Finset.univ.image (Pipeline.arrRef spec1) = {main_v8_0, main_v8_1, main_v9} := by decide

/-- The distinct buffers behind the windows' arrays, one by one. -/
theorem arrBufs_eq (c : Dev nD) (Vx : (b : Ref sig .tc) → Buf (Elt F) ((c : Thread nD τ).loc b)) :
    (Pipeline.arrBufs spec1 c Vx : sProp 𝕄)
      = iprop(((c : Thread nD τ).loc main_v8_0 ↦{fullShare} Vx main_v8_0) ∗ ((c : Thread nD τ).loc main_v8_1 ↦{fullShare} Vx main_v8_1)
          ∗ ((c : Thread nD τ).loc main_v9 ↦{fullShare} Vx main_v9)) := by
  unfold Pipeline.arrBufs
  rw [image_arrRef, bigSep_insert (by decide), bigSep_insert (by decide), bigSep_singleton]
  rfl

/-- A window's array, a whole buffer, held at a share. -/
theorem arr_pt (c : Dev nD) (w : Fin cfg1.W) (q : PosShare TreeShare) (f : Buf (Elt F) ((cfg1.win w).arr.view.loc (c : Thread nD τ))) :
    (((cfg1.win w).arr.view.loc (c : Thread nD τ) ↦[(cfg1.win w).arr.view.set]{q} f : sProp 𝕄))
      = ((c : Thread nD τ).loc (Pipeline.arrRef spec1 w) ↦{q} f) := by
  rw [(arr_whole1 w).set_eq_univ]

set_option maxHeartbeats 1000000 in
/-- The windows' arrays at contents `Fw`, each at its share, are the three distinct buffers behind them whole at the
    full share at a valuation `Vx` that `Fw` reads its contents from. -/
theorem arrays_eq_arrBufs (c : Dev nD) (Vx : (b : Ref sig .tc) → Buf (Elt F) ((c : Thread nD τ).loc b))
    (Fw : (w : Fin cfg1.W) → Buf (Elt F) ((cfg1.win w).arr.view.loc (c : Thread nD τ)))
    (hF : ∀ w, Fw w = Vx (Pipeline.arrRef spec1 w)) :
    ((dat V c).arrays Fw : sProp 𝕄) = Pipeline.arrBufs spec1 c Vx := by
  rw [arrBufs_eq]
  unfold Dat.arrays
  rw [bigSep_W1, arr_pt, arr_pt, arr_pt, arr_pt, arr_pt, hF 0, hF 1, hF 2, hF 3, hF 4,
    share_0, share_1, share_2, share_3, share_4]
  show iprop(((c : Thread nD τ).loc main_v8_0 ↦{shQ} Vx main_v8_0) ∗ ((c : Thread nD τ).loc main_v8_0 ↦{shK} Vx main_v8_0)
      ∗ ((c : Thread nD τ).loc main_v8_0 ↦{shV} Vx main_v8_0) ∗ ((c : Thread nD τ).loc main_v8_1 ↦{fullShare} Vx main_v8_1)
      ∗ ((c : Thread nD τ).loc main_v9 ↦{fullShare} Vx main_v9))
    = iprop(((c : Thread nD τ).loc main_v8_0 ↦{fullShare} Vx main_v8_0) ∗ ((c : Thread nD τ).loc main_v8_1 ↦{fullShare} Vx main_v8_1)
      ∗ ((c : Thread nD τ).loc main_v9 ↦{fullShare} Vx main_v9))
  rw [halves (F := F) fullShare (Vx main_v8_0), halves (F := F) fullShare.right (Vx main_v8_0)]
  have h1 : (iprop(((c : Thread nD τ).loc main_v8_0 ↦{shQ} Vx main_v8_0) ∗ ((c : Thread nD τ).loc main_v8_0 ↦{shK} Vx main_v8_0)
      ∗ ((c : Thread nD τ).loc main_v8_0 ↦{shV} Vx main_v8_0) ∗ ((c : Thread nD τ).loc main_v8_1 ↦{fullShare} Vx main_v8_1)
      ∗ ((c : Thread nD τ).loc main_v9 ↦{fullShare} Vx main_v9)) : sProp 𝕄) ⊢ iprop((((c : Thread nD τ).loc main_v8_0 ↦{shQ} Vx main_v8_0) ∗ ((c : Thread nD τ).loc main_v8_0 ↦{shK} Vx main_v8_0)
      ∗ ((c : Thread nD τ).loc main_v8_0 ↦{shV} Vx main_v8_0)) ∗ ((c : Thread nD τ).loc main_v8_1 ↦{fullShare} Vx main_v8_1)
      ∗ ((c : Thread nD τ).loc main_v9 ↦{fullShare} Vx main_v9)) := by
    iintro ⟨Ha, Hb1, Hb2, HB, HC⟩
    isplitl [Ha Hb1 Hb2]
    · isplitl [Ha]; · iexact Ha
      isplitl [Hb1]; · iexact Hb1
      iexact Hb2
    isplitl [HB]; · iexact HB
    iexact HC
  have h2 : (iprop((((c : Thread nD τ).loc main_v8_0 ↦{shQ} Vx main_v8_0) ∗ ((c : Thread nD τ).loc main_v8_0 ↦{shK} Vx main_v8_0)
      ∗ ((c : Thread nD τ).loc main_v8_0 ↦{shV} Vx main_v8_0)) ∗ ((c : Thread nD τ).loc main_v8_1 ↦{fullShare} Vx main_v8_1)
      ∗ ((c : Thread nD τ).loc main_v9 ↦{fullShare} Vx main_v9)) : sProp 𝕄) ⊢ iprop(((c : Thread nD τ).loc main_v8_0 ↦{shQ} Vx main_v8_0) ∗ ((c : Thread nD τ).loc main_v8_0 ↦{shK} Vx main_v8_0)
      ∗ ((c : Thread nD τ).loc main_v8_0 ↦{shV} Vx main_v8_0) ∗ ((c : Thread nD τ).loc main_v8_1 ↦{fullShare} Vx main_v8_1)
      ∗ ((c : Thread nD τ).loc main_v9 ↦{fullShare} Vx main_v9)) := by
    iintro ⟨⟨Ha, Hb1, Hb2⟩, HB, HC⟩
    isplitl [Ha]; · iexact Ha
    isplitl [Hb1]; · iexact Hb1
    isplitl [Hb2]; · iexact Hb2
    isplitl [HB]; · iexact HB
    iexact HC
  exact BI.Entails.antisymm h1 h2

end Cert.Kernel.Reg1

end
-- ==== Proof.Kernel.Arr3.lean ====
/-
  Region 3's arrays against the buffers behind them. The query, key and value windows are three column blocks of
  ONE array, so the pipeline holds that array three times, each window at a part of the share; the skip term's array and
  the output's are held once, whole. Cutting the full share of the fused projection's buffer in three (in half, then the
  second half in half again) turns "each distinct buffer behind the windows, whole at the full share" into "each window's
  array at its share", and back.
-/
import proofs.«118558_j17497696764591_2_alg».proof.Proof.Kernel.Reg3

noncomputable section

namespace Cert.Kernel.Reg3

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A buffer held at a share is the same buffer held at the share's two halves. -/
theorem halves {ℓ : Loc nD τ sig} (q : PosShare TreeShare) (f : Buf (Elt F) ℓ) :
    ((ℓ ↦{q} f : sProp 𝕄)) = iprop((ℓ ↦{q.left} f) ∗ ℓ ↦{q.right} f) :=
  BI.Entails.antisymm (pointsTo_share (PosShare.mem_left_op_right q)).1 (pointsTo_share (PosShare.mem_left_op_right q)).2

/-- An input window holds its array at the share the proof data name for it. -/
theorem share_in (c : Dev nD) (w : Fin cfg3.W) (h : (cfg3.win w).isOut = false) : (dat V c).share w = (dat V c).q w := by
  unfold Dat.share; rw [h]; rfl
theorem share_0 (c : Dev nD) : (dat V c).share 0 = shQ := (share_in V c 0 rfl).trans (by dsimp only [dat])
theorem share_1 (c : Dev nD) : (dat V c).share 1 = shK := (share_in V c 1 rfl).trans (by dsimp only [dat])
theorem share_2 (c : Dev nD) : (dat V c).share 2 = shV := (share_in V c 2 rfl).trans (by dsimp only [dat])
theorem share_3 (c : Dev nD) : (dat V c).share 3 = fullShare := (share_in V c 3 rfl).trans (by dsimp only [dat])
/-- The output window holds its array whole. -/
theorem share_4 (c : Dev nD) : (dat V c).share 4 = fullShare := by
  unfold Dat.share; rw [show (cfg3.win 4).isOut = true from rfl]; rfl

/-- The distinct buffers behind the five windows. -/
theorem image_arrRef : Finset.univ.image (Pipeline.arrRef spec3) = {main_v18_0, main_v18_1, main_v19} := by decide

/-- The distinct buffers behind the windows' arrays, one by one. -/
theorem arrBufs_eq (c : Dev nD) (Vx : (b : Ref sig .tc) → Buf (Elt F) ((c : Thread nD τ).loc b)) :
    (Pipeline.arrBufs spec3 c Vx : sProp 𝕄)
      = iprop(((c : Thread nD τ).loc main_v18_0 ↦{fullShare} Vx main_v18_0) ∗ ((c : Thread nD τ).loc main_v18_1 ↦{fullShare} Vx main_v18_1)
          ∗ ((c : Thread nD τ).loc main_v19 ↦{fullShare} Vx main_v19)) := by
  unfold Pipeline.arrBufs
  rw [image_arrRef, bigSep_insert (by decide), bigSep_insert (by decide), bigSep_singleton]
  rfl

/-- A window's array, a whole buffer, held at a share. -/
theorem arr_pt (c : Dev nD) (w : Fin cfg3.W) (q : PosShare TreeShare) (f : Buf (Elt F) ((cfg3.win w).arr.view.loc (c : Thread nD τ))) :
    (((cfg3.win w).arr.view.loc (c : Thread nD τ) ↦[(cfg3.win w).arr.view.set]{q} f : sProp 𝕄))
      = ((c : Thread nD τ).loc (Pipeline.arrRef spec3 w) ↦{q} f) := by
  rw [(arr_whole3 w).set_eq_univ]

set_option maxHeartbeats 1000000 in
/-- The windows' arrays at contents `Fw`, each at its share, are the three distinct buffers behind them whole at the
    full share at a valuation `Vx` that `Fw` reads its contents from. -/
theorem arrays_eq_arrBufs (c : Dev nD) (Vx : (b : Ref sig .tc) → Buf (Elt F) ((c : Thread nD τ).loc b))
    (Fw : (w : Fin cfg3.W) → Buf (Elt F) ((cfg3.win w).arr.view.loc (c : Thread nD τ)))
    (hF : ∀ w, Fw w = Vx (Pipeline.arrRef spec3 w)) :
    ((dat V c).arrays Fw : sProp 𝕄) = Pipeline.arrBufs spec3 c Vx := by
  rw [arrBufs_eq]
  unfold Dat.arrays
  rw [bigSep_W3, arr_pt, arr_pt, arr_pt, arr_pt, arr_pt, hF 0, hF 1, hF 2, hF 3, hF 4,
    share_0, share_1, share_2, share_3, share_4]
  show iprop(((c : Thread nD τ).loc main_v18_0 ↦{shQ} Vx main_v18_0) ∗ ((c : Thread nD τ).loc main_v18_0 ↦{shK} Vx main_v18_0)
      ∗ ((c : Thread nD τ).loc main_v18_0 ↦{shV} Vx main_v18_0) ∗ ((c : Thread nD τ).loc main_v18_1 ↦{fullShare} Vx main_v18_1)
      ∗ ((c : Thread nD τ).loc main_v19 ↦{fullShare} Vx main_v19))
    = iprop(((c : Thread nD τ).loc main_v18_0 ↦{fullShare} Vx main_v18_0) ∗ ((c : Thread nD τ).loc main_v18_1 ↦{fullShare} Vx main_v18_1)
      ∗ ((c : Thread nD τ).loc main_v19 ↦{fullShare} Vx main_v19))
  rw [halves (F := F) fullShare (Vx main_v18_0), halves (F := F) fullShare.right (Vx main_v18_0)]
  have h1 : (iprop(((c : Thread nD τ).loc main_v18_0 ↦{shQ} Vx main_v18_0) ∗ ((c : Thread nD τ).loc main_v18_0 ↦{shK} Vx main_v18_0)
      ∗ ((c : Thread nD τ).loc main_v18_0 ↦{shV} Vx main_v18_0) ∗ ((c : Thread nD τ).loc main_v18_1 ↦{fullShare} Vx main_v18_1)
      ∗ ((c : Thread nD τ).loc main_v19 ↦{fullShare} Vx main_v19)) : sProp 𝕄) ⊢ iprop((((c : Thread nD τ).loc main_v18_0 ↦{shQ} Vx main_v18_0) ∗ ((c : Thread nD τ).loc main_v18_0 ↦{shK} Vx main_v18_0)
      ∗ ((c : Thread nD τ).loc main_v18_0 ↦{shV} Vx main_v18_0)) ∗ ((c : Thread nD τ).loc main_v18_1 ↦{fullShare} Vx main_v18_1)
      ∗ ((c : Thread nD τ).loc main_v19 ↦{fullShare} Vx main_v19)) := by
    iintro ⟨Ha, Hb1, Hb2, HB, HC⟩
    isplitl [Ha Hb1 Hb2]
    · isplitl [Ha]; · iexact Ha
      isplitl [Hb1]; · iexact Hb1
      iexact Hb2
    isplitl [HB]; · iexact HB
    iexact HC
  have h2 : (iprop((((c : Thread nD τ).loc main_v18_0 ↦{shQ} Vx main_v18_0) ∗ ((c : Thread nD τ).loc main_v18_0 ↦{shK} Vx main_v18_0)
      ∗ ((c : Thread nD τ).loc main_v18_0 ↦{shV} Vx main_v18_0)) ∗ ((c : Thread nD τ).loc main_v18_1 ↦{fullShare} Vx main_v18_1)
      ∗ ((c : Thread nD τ).loc main_v19 ↦{fullShare} Vx main_v19)) : sProp 𝕄) ⊢ iprop(((c : Thread nD τ).loc main_v18_0 ↦{shQ} Vx main_v18_0) ∗ ((c : Thread nD τ).loc main_v18_0 ↦{shK} Vx main_v18_0)
      ∗ ((c : Thread nD τ).loc main_v18_0 ↦{shV} Vx main_v18_0) ∗ ((c : Thread nD τ).loc main_v18_1 ↦{fullShare} Vx main_v18_1)
      ∗ ((c : Thread nD τ).loc main_v19 ↦{fullShare} Vx main_v19)) := by
    iintro ⟨⟨Ha, Hb1, Hb2⟩, HB, HC⟩
    isplitl [Ha]; · iexact Ha
    isplitl [Hb1]; · iexact Hb1
    isplitl [Hb2]; · iexact Hb2
    isplitl [HB]; · iexact HB
    iexact HC
  exact BI.Entails.antisymm h1 h2

end Cert.Kernel.Reg3

end
-- ==== Proof.Kernel.Segs.lean ====
/-
  @main's four regions as segments over ONE thread state: every unscoped buffer held at the contents of the stage, the
  generator register at some state, nothing owed. A region takes its windows' arrays out of the unscoped buffers when
  it is entered and puts them back when it is left — the inputs as found, the outputs at what the write-backs leave —,
  and everything else passes by.
-/
import proofs.«118558_j17497696764591_2_alg».proof.Proof.Kernel.Outs
import proofs.«118558_j17497696764591_2_alg».proof.Proof.Kernel.Arr1
import proofs.«118558_j17497696764591_2_alg».proof.Proof.Kernel.Arr3

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- No core owes another anything: no level is assigned. -/
abbrev L : GSem nD τ sig → Finset Unit := fun _ => ∅
abbrev lv : GSem nD τ sig → Unit → ℕ := fun _ _ => 0

/-- What rides beside the buffers through every item: the core's generator register at some state, and nothing owed. -/
abbrev R (c : Dev nD) : sProp 𝕄 := iprop((∃ r, prngReg c r) ∗ ∃ W, owes (c : Thread nD τ) (0 : CellTallies nD τ sig Unit) W)

/-! ## Region 0 (a projection region): its arrays are distinct buffers -/

theorem hF0 (c : Dev nD) (w : Fin cfg0.W) :
    (pdats m 0 c).arrAt w cfg0.N = tc (V2 m (outs m)) c (Pipeline.arrRef spec0 w) := by
  match w with
  | ⟨0, _⟩ => exact ((Reg0.dat (tc (V1 m)) c).arrAt_in 0 rfl _).trans ((Reg0.A_eq _ c 0).trans (V2_of m (outs m) c main_arg0 (by decide)).symm)
  | ⟨1, _⟩ => exact ((Reg0.dat (tc (V1 m)) c).arrAt_in 1 rfl _).trans ((Reg0.A_eq _ c 1).trans (V2_of m (outs m) c main_v2 (by decide)).symm)
  | ⟨2, _⟩ => exact ((Reg0.dat (tc (V1 m)) c).arrAt_in 2 rfl _).trans ((Reg0.A_eq _ c 2).trans (V2_of m (outs m) c main_v6 (by decide)).symm)
  | ⟨3, _⟩ => exact ((Reg0.dat (tc (V1 m)) c).arrAt_in 3 rfl _).trans ((Reg0.A_eq _ c 3).trans (V2_of m (outs m) c main_arg10 (by decide)).symm)
  | ⟨4, _⟩ => exact ((Reg0.dat (tc (V1 m)) c).arrAt_in 4 rfl _).trans ((Reg0.A_eq _ c 4).trans (V2_of m (outs m) c main_v7 (by decide)).symm)
  | ⟨5, _⟩ => exact (outs_v8_0 m c).symm.trans (V2_v8_0 m (outs m) c).symm
  | ⟨6, _⟩ => exact (outs_v8_1 m c).symm.trans (V2_v8_1 m (outs m) c).symm

theorem hrest0 (c : Dev nD) : ∀ b, b ∉ Finset.univ.image (Pipeline.arrRef spec0) → tc (V2 m (outs m)) c b = tc (V1 m) c b :=
  fun b hb => V2_of m (outs m) c b (fun hmem => hb (by
    rcases List.mem_cons.mp hmem with rfl | h
    · exact Finset.mem_image.mpr ⟨5, Finset.mem_univ _, rfl⟩
    · rcases List.mem_cons.mp h with rfl | h
      · exact Finset.mem_image.mpr ⟨6, Finset.mem_univ _, rfl⟩
      · exact absurd h List.not_mem_nil))

set_option backward.isDefEq.respectTransparency.types false in
/-- Region 0 over the thread state "every unscoped buffer at the stage's contents, the generator register at some
    state, nothing owed": its arrays are split out of the unscoped buffers at entry and put back, the outputs at what
    the write-backs leave, at exit; the generator register goes into the body's invariant and comes back. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Reg0.body_obligation (tc (V1 m)) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (tc (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (tc (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (tc (V1 m) c) (tc (V2 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 (an attention region): three of its windows are on one array -/

theorem hF1 (c : Dev nD) (w : Fin cfg1.W) :
    (pdats m 1 c).arrAt w cfg1.N = tc (V3 m (outs m)) c (Pipeline.arrRef spec1 w) := by
  match w with
  | ⟨0, _⟩ => exact ((Reg1.dat (tc (V2 m (oA m))) c).arrAt_in 0 rfl _).trans ((Reg1.A_eq _ c 0).trans (V3_of m (outs m) c main_v8_0 (by decide)).symm)
  | ⟨1, _⟩ => exact ((Reg1.dat (tc (V2 m (oA m))) c).arrAt_in 1 rfl _).trans ((Reg1.A_eq _ c 1).trans (V3_of m (outs m) c main_v8_0 (by decide)).symm)
  | ⟨2, _⟩ => exact ((Reg1.dat (tc (V2 m (oA m))) c).arrAt_in 2 rfl _).trans ((Reg1.A_eq _ c 2).trans (V3_of m (outs m) c main_v8_0 (by decide)).symm)
  | ⟨3, _⟩ => exact ((Reg1.dat (tc (V2 m (oA m))) c).arrAt_in 3 rfl _).trans ((Reg1.A_eq _ c 3).trans (V3_of m (outs m) c main_v8_1 (by decide)).symm)
  | ⟨4, _⟩ => exact (outs_v9 m c).symm.trans (V3_v9 m (outs m) c).symm

theorem hrest1 (c : Dev nD) : ∀ b, b ∉ Finset.univ.image (Pipeline.arrRef spec1) → tc (V3 m (outs m)) c b = tc (V2 m (oA m)) c b :=
  fun b hb => V3_of m (outs m) c b (fun hmem => hb (by
    rcases List.mem_cons.mp hmem with rfl | h
    · exact Finset.mem_image.mpr ⟨4, Finset.mem_univ _, rfl⟩
    · exact absurd h List.not_mem_nil))

set_option backward.isDefEq.respectTransparency.types false in
/-- Region 1 over the same thread state. The fused projection array is read through three windows: at entry its
    buffer's full share is cut in three among them, at exit the three parts, still at the contents found, are joined
    again; the output array is put back at what the write-backs leave. -/
def reg1 : Pipeline.RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (Reg1.body_obligation (tc (V2 m (oA m))) c).loose
  hwaits := Pipeline.hwaits_of_owed_zero _ _ _ _ L lv 1 fun _ _ => rfl
  pre c := iprop(StableHlo.held (c : Thread nD τ) (Pipeline.ucRefs τ sig) (V2 m (oA m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (tc (V2 m (oA m)) c)
  hentry c := by
    rw [Pipeline.ownSems0_none]
    have hsplit : (StableHlo.held (c : Thread nD τ) (Pipeline.ucRefs τ sig) (V2 m (oA m) c) : sProp 𝕄)
        ⊢ iprop((pdats m 1 c).arrays ((pdats m 1 c).arrAt · 0)
            ∗ Pipeline.unscopedRest (Ix := Unit) (Name := ℕ) (U := UR sig nD τ) (Lvl := ℕ) spec1 c (tc (V2 m (oA m)) c)) := by
      rw [← Pipeline.unscopedBufs_held, Pipeline.unscopedBufs_split₀ cfgs 1 winFacts₀1.arr_unscoped c _]
      exact sep_mono (Entails.of_eq (Reg1.arrays_eq_arrBufs (tc (V2 m (oA m))) c (tc (V2 m (oA m)) c) _ (fun w => Reg1.A_eq _ c w)).symm) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (tc (V2 m (oA m)) c))
        ⊢ (StableHlo.held (c : Thread nD τ) (Pipeline.ucRefs τ sig) (V3 m (outs m) c) : sProp 𝕄) := by
      rw [← Pipeline.unscopedBufs_held, Pipeline.unscopedBufs_split₀ cfgs 1 winFacts₀1.arr_unscoped c _]
      refine sep_mono (Entails.of_eq (Reg1.arrays_eq_arrBufs (tc (V2 m (oA m))) c (tc (V3 m (outs m)) c) _ (hF1 m c))) (Entails.of_eq ?_)
      unfold Pipeline.unscopedRest
      exact bigSep_congr fun b hb => by rw [← hrest1 m c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 (a projection region): its arrays are distinct buffers -/

theorem hF2 (c : Dev nD) (w : Fin cfg2.W) :
    (pdats m 2 c).arrAt w cfg2.N = tc (V5 m (outs m)) c (Pipeline.arrRef spec2 w) := by
  match w with
  | ⟨0, _⟩ => exact ((Reg2.dat (tc (V4 m (oB m))) c).arrAt_in 0 rfl _).trans ((Reg2.A_eq _ c 0).trans (V5_of m (outs m) c main_v9 (by decide)).symm)
  | ⟨1, _⟩ => exact ((Reg2.dat (tc (V4 m (oB m))) c).arrAt_in 1 rfl _).trans ((Reg2.A_eq _ c 1).trans (V5_of m (outs m) c main_v12 (by decide)).symm)
  | ⟨2, _⟩ => exact ((Reg2.dat (tc (V4 m (oB m))) c).arrAt_in 2 rfl _).trans ((Reg2.A_eq _ c 2).trans (V5_of m (outs m) c main_v16 (by decide)).symm)
  | ⟨3, _⟩ => exact ((Reg2.dat (tc (V4 m (oB m))) c).arrAt_in 3 rfl _).trans ((Reg2.A_eq _ c 3).trans (V5_of m (outs m) c main_arg18 (by decide)).symm)
  | ⟨4, _⟩ => exact ((Reg2.dat (tc (V4 m (oB m))) c).arrAt_in 4 rfl _).trans ((Reg2.A_eq _ c 4).trans (V5_of m (outs m) c main_v17 (by decide)).symm)
  | ⟨5, _⟩ => exact (outs_v18_0 m c).symm.trans (V5_v18_0 m (outs m) c).symm
  | ⟨6, _⟩ => exact (outs_v18_1 m c).symm.trans (V5_v18_1 m (outs m) c).symm

theorem hrest2 (c : Dev nD) : ∀ b, b ∉ Finset.univ.image (Pipeline.arrRef spec2) → tc (V5 m (outs m)) c b = tc (V4 m (oB m)) c b :=
  fun b hb => V5_of m (outs m) c b (fun hmem => hb (by
    rcases List.mem_cons.mp hmem with rfl | h
    · exact Finset.mem_image.mpr ⟨5, Finset.mem_univ _, rfl⟩
    · rcases List.mem_cons.mp h with rfl | h
      · exact Finset.mem_image.mpr ⟨6, Finset.mem_univ _, rfl⟩
      · exact absurd h List.not_mem_nil))

set_option backward.isDefEq.respectTransparency.types false in
/-- Region 2 over the thread state "every unscoped buffer at the stage's contents, the generator register at some
    state, nothing owed": its arrays are split out of the unscoped buffers at entry and put back, the outputs at what
    the write-backs leave, at exit; the generator register goes into the body's invariant and comes back. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (Reg2.body_obligation (tc (V4 m (oB m))) c).loose
  hwaits := Pipeline.hwaits_of_owed_zero _ _ _ _ L lv 2 fun _ _ => rfl
  pre c := iprop(StableHlo.held (c : Thread nD τ) (Pipeline.ucRefs τ sig) (V4 m (oB m) c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec2 c (tc (V4 m (oB m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (tc (V4 m (oB m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (tc (V4 m (oB m)) c) (tc (V5 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 (an attention region): three of its windows are on one array -/

theorem hF3 (c : Dev nD) (w : Fin cfg3.W) :
    (pdats m 3 c).arrAt w cfg3.N = tc (V6 m (outs m)) c (Pipeline.arrRef spec3 w) := by
  match w with
  | ⟨0, _⟩ => exact ((Reg3.dat (tc (V5 m (oC m))) c).arrAt_in 0 rfl _).trans ((Reg3.A_eq _ c 0).trans (V6_of m (outs m) c main_v18_0 (by decide)).symm)
  | ⟨1, _⟩ => exact ((Reg3.dat (tc (V5 m (oC m))) c).arrAt_in 1 rfl _).trans ((Reg3.A_eq _ c 1).trans (V6_of m (outs m) c main_v18_0 (by decide)).symm)
  | ⟨2, _⟩ => exact ((Reg3.dat (tc (V5 m (oC m))) c).arrAt_in 2 rfl _).trans ((Reg3.A_eq _ c 2).trans (V6_of m (outs m) c main_v18_0 (by decide)).symm)
  | ⟨3, _⟩ => exact ((Reg3.dat (tc (V5 m (oC m))) c).arrAt_in 3 rfl _).trans ((Reg3.A_eq _ c 3).trans (V6_of m (outs m) c main_v18_1 (by decide)).symm)
  | ⟨4, _⟩ => exact (outs_v19 m c).symm.trans (V6_v19 m (outs m) c).symm

theorem hrest3 (c : Dev nD) : ∀ b, b ∉ Finset.univ.image (Pipeline.arrRef spec3) → tc (V6 m (outs m)) c b = tc (V5 m (oC m)) c b :=
  fun b hb => V6_of m (outs m) c b (fun hmem => hb (by
    rcases List.mem_cons.mp hmem with rfl | h
    · exact Finset.mem_image.mpr ⟨4, Finset.mem_univ _, rfl⟩
    · exact absurd h List.not_mem_nil))

set_option backward.isDefEq.respectTransparency.types false in
/-- Region 3 over the same thread state. The fused projection array is read through three windows: at entry its
    buffer's full share is cut in three among them, at exit the three parts, still at the contents found, are joined
    again; the output array is put back at what the write-backs leave. -/
def reg3 : Pipeline.RegionSeg (pcfgs (F := F)) adm (pdats m) () defs₀ Variants.none L lv 3 where
  win := winFacts₀3
  block_pos := block_pos3
  stage_whole := stage_whole3
  K := PEmpty
  osem k := k.elim
  ho := Pipeline.OwnSemFacts.none _
  hbody c := (Reg3.body_obligation (tc (V5 m (oC m))) c).loose
  hwaits := Pipeline.hwaits_of_owed_zero _ _ _ _ L lv 3 fun _ _ => rfl
  pre c := iprop(StableHlo.held (c : Thread nD τ) (Pipeline.ucRefs τ sig) (V5 m (oC m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec3 c (tc (V5 m (oC m)) c)
  hentry c := by
    rw [Pipeline.ownSems0_none]
    have hsplit : (StableHlo.held (c : Thread nD τ) (Pipeline.ucRefs τ sig) (V5 m (oC m) c) : sProp 𝕄)
        ⊢ iprop((pdats m 3 c).arrays ((pdats m 3 c).arrAt · 0)
            ∗ Pipeline.unscopedRest (Ix := Unit) (Name := ℕ) (U := UR sig nD τ) (Lvl := ℕ) spec3 c (tc (V5 m (oC m)) c)) := by
      rw [← Pipeline.unscopedBufs_held, Pipeline.unscopedBufs_split₀ cfgs 3 winFacts₀3.arr_unscoped c _]
      exact sep_mono (Entails.of_eq (Reg3.arrays_eq_arrBufs (tc (V5 m (oC m))) c (tc (V5 m (oC m)) c) _ (fun w => Reg3.A_eq _ c w)).symm) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N)
          ∗ Pipeline.unscopedRest (Ix := Unit) (Name := ℕ) (U := UR sig nD τ) (Lvl := ℕ) spec3 c (tc (V5 m (oC m)) c))
        ⊢ (StableHlo.held (c : Thread nD τ) (Pipeline.ucRefs τ sig) (V6 m (outs m) c) : sProp 𝕄) := by
      rw [← Pipeline.unscopedBufs_held, Pipeline.unscopedBufs_split₀ cfgs 3 winFacts₀3.arr_unscoped c _]
      refine sep_mono (Entails.of_eq (Reg3.arrays_eq_arrBufs (tc (V5 m (oC m))) c (tc (V6 m (outs m)) c) _ (hF3 m c))) (Entails.of_eq ?_)
      unfold Pipeline.unscopedRest
      exact bigSep_congr fun b hb => by rw [← hrest3 m c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Kernel.Run.lean ====
/-
  The run of @main. Every weakly fair execution from a memory `m` with zero counters terminates, nothing faulting, and
  every final memory holds, on every core, the result array at what the last attention region's write-backs leave and
  each argument array as launched. @main's items are composed in order: each host stretch and each region is entered
  from the thread state the item before it left; at the end the thread state is read against the final memory.
-/
import proofs.«118558_j17497696764591_2_alg».proof.Proof.Kernel.Segs

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Beside the buffers every item's thread state carries the same rest. -/
abbrev E : Fin 5 → Dev nD → sProp 𝕄 := fun _ c => R c

/-- The result array after the run: what layer 2's attention region leaves. -/
abbrev result (c : Dev nD) : Buf (Elt F) ((c.tc : Thread nD τ).loc main_v19) := (Reg3.dat (tc (V5 m (oC m))) c).arrAt 4 cfg3.N

set_option backward.isDefEq.respectTransparency.types false in
set_option maxHeartbeats 1000000 in
theorem run : θ_run defs (onTc (τ := τ) (main (F := F))) ⟨m, fun _ => 0, ρ⟩ (fun r => ∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) := by
  have hlast : ∀ c : Dev nD, (iprop(StableHlo.held (c : Thread nD τ) (Pipeline.ucRefs τ sig) (V6 m (outs m) c) ∗ R c) : sProp 𝕄)
      ⊢ iprop(StableHlo.held (c : Thread nD τ) (Pipeline.ucRefs τ sig) (V6 m (outs m) c) ∗ ∃ W, owes (c : Thread nD τ) (0 : CellTallies nD τ sig Unit) W) := fun c => by
    iintro ⟨Hh, -, HO⟩
    isplitl [Hh]; · iexact Hh
    iexact HO
  refine Pipeline.θ_run_regions_kit_dev (pcfgs (F := F)) adm (pdats m) () cellOf_inj emb₁ defs₀ Variants.none L lv m ρ main
    (segs m (outs m) Variants.none L lv (E (F := F)) () (pdats m) (reg0 m) (reg1 m) (reg2 m) (reg3 m))
    (fun c Q => by
      rewrite [main_chain c, Seg.run_eq_chain,
        show (segs m (outs m) Variants.none L lv (E (F := F)) () (pdats m) (reg0 m) (reg1 m) (reg2 m) (reg3 m) c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()) ] from rfl]
      exact .rfl)
    (fun c => by simp only [segs, Seg.pipes_host, Seg.pipes_region, Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V6 m (outs m) c))
    (hch := fun c => ⟨.rfl, .rfl, .rfl, .rfl, .rfl, .rfl, hlast c⟩)
    (hinit := ?_) (QY := fun c s => s.mem ((c.tc : Thread nD τ).loc main_v19) = result m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17)
      ∧ s.mem ((c.tc : Thread nD τ).loc main_arg18) = m ((c.tc : Thread nD τ).loc main_arg18)
      ∧ s.mem ((c.tc : Thread nD τ).loc main_arg19) = m ((c.tc : Thread nD τ).loc main_arg19))
    (hfin := fun c s' => ?_) (hQ := fun _ h => h)
  · -- the launch: the unscoped buffers are held at the launch contents; the generator register and the core's dues ride along
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result's and each argument's buffer read off the last stage's contents
    unfold StableHlo.held
    iintro ⟨Hh, HSI⟩
    ihave Hr := (pointsTo_read_all (Pipeline.ucRefs τ sig) (fun b => ((c : Thread nD τ).1, b)) (V6 m (outs m) c) s') $$ [Hh HSI]
    · isplitl [Hh] <;> iassumption
    icases Hr with ⟨%h, HSI⟩
    imodintro
    isplitr
    · ipureintro
      exact ⟨(h (Proc.devRef .tc main_v19) (Finset.mem_filter.mpr ⟨StableHlo.devRef_mem_tcRefs main_v19, by decide⟩)).trans ((V6_v19 m (outs m) c).trans (outs_v19 m c)),
        (h (Proc.devRef .tc main_arg0) (Finset.mem_filter.mpr ⟨StableHlo.devRef_mem_tcRefs main_arg0, by decide⟩)).trans (V6_main_arg0 m (outs m) c),
        (h (Proc.devRef .tc main_arg1) (Finset.mem_filter.mpr ⟨StableHlo.devRef_mem_tcRefs main_arg1, by decide⟩)).trans (V6_main_arg1 m (outs m) c),
        (h (Proc.devRef .tc main_arg2) (Finset.mem_filter.mpr ⟨StableHlo.devRef_mem_tcRefs main_arg2, by decide⟩)).trans (V6_main_arg2 m (outs m) c),
        (h (Proc.devRef .tc main_arg3) (Finset.mem_filter.mpr ⟨StableHlo.devRef_mem_tcRefs main_arg3, by decide⟩)).trans (V6_main_arg3 m (outs m) c),
        (h (Proc.devRef .tc main_arg4) (Finset.mem_filter.mpr ⟨StableHlo.devRef_mem_tcRefs main_arg4, by decide⟩)).trans (V6_main_arg4 m (outs m) c),
        (h (Proc.devRef .tc main_arg5) (Finset.mem_filter.mpr ⟨StableHlo.devRef_mem_tcRefs main_arg5, by decide⟩)).trans (V6_main_arg5 m (outs m) c),
        (h (Proc.devRef .tc main_arg6) (Finset.mem_filter.mpr ⟨StableHlo.devRef_mem_tcRefs main_arg6, by decide⟩)).trans (V6_main_arg6 m (outs m) c),
        (h (Proc.devRef .tc main_arg7) (Finset.mem_filter.mpr ⟨StableHlo.devRef_mem_tcRefs main_arg7, by decide⟩)).trans (V6_main_arg7 m (outs m) c),
        (h (Proc.devRef .tc main_arg8) (Finset.mem_filter.mpr ⟨StableHlo.devRef_mem_tcRefs main_arg8, by decide⟩)).trans (V6_main_arg8 m (outs m) c),
        (h (Proc.devRef .tc main_arg9) (Finset.mem_filter.mpr ⟨StableHlo.devRef_mem_tcRefs main_arg9, by decide⟩)).trans (V6_main_arg9 m (outs m) c),
        (h (Proc.devRef .tc main_arg10) (Finset.mem_filter.mpr ⟨StableHlo.devRef_mem_tcRefs main_arg10, by decide⟩)).trans (V6_main_arg10 m (outs m) c),
        (h (Proc.devRef .tc main_arg11) (Finset.mem_filter.mpr ⟨StableHlo.devRef_mem_tcRefs main_arg11, by decide⟩)).trans (V6_main_arg11 m (outs m) c),
        (h (Proc.devRef .tc main_arg12) (Finset.mem_filter.mpr ⟨StableHlo.devRef_mem_tcRefs main_arg12, by decide⟩)).trans (V6_main_arg12 m (outs m) c),
        (h (Proc.devRef .tc main_arg13) (Finset.mem_filter.mpr ⟨StableHlo.devRef_mem_tcRefs main_arg13, by decide⟩)).trans (V6_main_arg13 m (outs m) c),
        (h (Proc.devRef .tc main_arg14) (Finset.mem_filter.mpr ⟨StableHlo.devRef_mem_tcRefs main_arg14, by decide⟩)).trans (V6_main_arg14 m (outs m) c),
        (h (Proc.devRef .tc main_arg15) (Finset.mem_filter.mpr ⟨StableHlo.devRef_mem_tcRefs main_arg15, by decide⟩)).trans (V6_main_arg15 m (outs m) c),
        (h (Proc.devRef .tc main_arg16) (Finset.mem_filter.mpr ⟨StableHlo.devRef_mem_tcRefs main_arg16, by decide⟩)).trans (V6_main_arg16 m (outs m) c),
        (h (Proc.devRef .tc main_arg17) (Finset.mem_filter.mpr ⟨StableHlo.devRef_mem_tcRefs main_arg17, by decide⟩)).trans (V6_main_arg17 m (outs m) c),
        (h (Proc.devRef .tc main_arg18) (Finset.mem_filter.mpr ⟨StableHlo.devRef_mem_tcRefs main_arg18, by decide⟩)).trans (V6_main_arg18 m (outs m) c),
        (h (Proc.devRef .tc main_arg19) (Finset.mem_filter.mpr ⟨StableHlo.devRef_mem_tcRefs main_arg19, by decide⟩)).trans (V6_main_arg19 m (outs m) c)⟩
    · iexact HSI

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => (h c).2) (run m ρ)

end Cert.Kernel.Run

end
-- ==== Proof.KernelIdeal.Reg0.lean ====
/-
  Region 0 of @main: the projection kernel of one attention layer, one grid point per block of 1024 rows.
  At a point the body reads a block of rows `h`, the fused weight matrix and bias for the queries, keys and values,
  and the weight matrix and bias of the skip term, and stores two blocks: `h · Wqkv + bqkv` and `h · Ws + bs`.
  Stated at the buffer contents `V` the region is entered with: each window's block at a point, what the body leaves
  in each output window's buffer as a function of the input blocks, the body's triple, the proof data of the
  pipeline and its body obligation.
-/
import proofs.«118558_j17497696764591_2_alg».proof.Proof.Gen.KernelIdeal.Launch
import proofs.«118558_j17497696764591_2_alg».proof.Proof.Gen.KernelIdeal.Skeleton
import proofs.«118558_j17497696764591_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered. -/
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there or
    not (unfetched, the block index has not moved). -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there or
    not (unfetched, the block index has not moved). -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there or
    not (unfetched, the block index has not moved). -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there or
    not (unfetched, the block index has not moved). -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the pipeline fetched it there or
    not (unfetched, the block index has not moved). -/
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole buffer -/

abbrev rX : Rect S1024x256 := Rect.unit (s := S1024x256) ![0, 0] S1024x256.size inb_S1024x256_S1024x256_0_0
abbrev rW : Rect S256x384 := Rect.unit (s := S256x384) ![0, 0] S256x384.size inb_S256x384_S256x384_0_0
abbrev rB : Rect S1x384 := Rect.unit (s := S1x384) ![0, 0] S1x384.size inb_S1x384_S1x384_0_0
abbrev rWs : Rect S256x128 := Rect.unit (s := S256x128) ![0, 0] S256x128.size inb_S256x128_S256x128_0_0
abbrev rBs : Rect S1x128 := Rect.unit (s := S1x128) ![0, 0] S1x128.size inb_S1x128_S1x128_0_0
abbrev rO : Rect S1024x384 := Rect.unit (s := S1024x384) ![0, 0] S1024x384.size inb_S1024x384_S1024x384_0_0
abbrev rOs : Rect S1024x128 := Rect.unit (s := S1024x128) ![0, 0] S1024x128.size inb_S1024x128_S1024x128_0_0

/-! ## What the body leaves in each output window's buffer -/

/-- The fused projection's block: the one store of `h · Wqkv + bqkv` over the whole buffer. -/
def outQkv (x : Vec F S1024x256 .f32) (w : Vec F S256x384 .f32) (b : Vec F S1x384 .f32) : Vec F S1024x384 .bf16 :=
  View.canon [⟨rO, k0_pay2 (View.ld x rX) (View.ld w rW) (View.ld b rB)⟩]

/-- The skip term's block: the one store of `h · Ws + bs` over the whole buffer. -/
def outS (x : Vec F S1024x256 .f32) (ws : Vec F S256x128 .f32) (bs : Vec F S1x128 .f32) : Vec F S1024x128 .f32 :=
  View.canon [⟨rOs, k0_pay3 (View.ld x rX) (View.ld ws rWs) (View.ld bs rBs)⟩]

/-- A store of the whole buffer covers it. -/
theorem coverQkv (p0 : Vec F S1024x384 .bf16) (y : S1024x384.Idx) :
    ∃ pc ∈ ([⟨rO, p0⟩] : List (View.Piece (Elt F) S1024x384 .bf16)), y ∈ pc.1.set :=
  View.cover_of_tiled [⟨rO, p0⟩] S1024x384.size (by rfl) y
theorem coverS (p0 : Vec F S1024x128 .f32) (y : S1024x128.Idx) :
    ∃ pc ∈ ([⟨rOs, p0⟩] : List (View.Piece (Elt F) S1024x128 .f32)), y ∈ pc.1.set :=
  View.cover_of_tiled [⟨rOs, p0⟩] S1024x128.size (by rfl) y

/-! ## The body's triple -/

set_option maxHeartbeats 1000000 in
/-- The body on whole staging buffers, the five inputs' at read contents and the two outputs' at anything, runs to its
    return leaving the inputs' as they were and the outputs' at `outQkv` and `outS` of the inputs'. -/
theorem sound_kernel (c : Dev nD) (E : Set ℕ) (i : grid0.Coords)
    (arg1 : Memref sig .tc .vmem S1024x256 .f32) (harg1 : arg1.IsWhole) (arg2 : Memref sig .tc .vmem S256x384 .f32) (harg2 : arg2.IsWhole)
    (arg3 : Memref sig .tc .vmem S1x384 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S1024x384 .bf16) (harg6 : arg6.IsWhole)
    (arg7 : Memref sig .tc .vmem S1024x128 .f32) (harg7 : arg7.IsWhole)
    (x0 : Vec F S1024x256 .f32) (x1 : Vec F S256x384 .f32) (x2 : Vec F S1x384 .f32) (x3 : Vec F S256x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outQkv x0 x1 x2) ∗ owns (c : Thread nD τ) arg7 fullShare (outS x0 x3 x4)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverQkv _)
  iexists _; isplitr
  swap; · iexact H6
  ipureintro
  exact View.read_writes_eq_canon _ _ _ (coverS _)

/-! ## The pipeline's proof data -/

/-- The proof data of pipeline 0 on core `c`: the arrays as the region finds them; after the body at point `t` each
    input's buffer at its block and each output's at the body's result on the input blocks; the invariant the
    scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outQkv (iblk V c 0 t) (iblk V c 1 t) (iblk V c 2 t)
    | ⟨6, _⟩ => outS (iblk V c 0 t) (iblk V c 3 t) (iblk V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = outQkv (iblk V c 0 t) (iblk V c 1 t) (iblk V c 2 t) := by dsimp only [dat]
theorem after_6 (c : Dev nD) (t : Fin cfg0.N) : (dat V c).after 6 t = outS (iblk V c 0 t) (iblk V c 3 t) (iblk V c 4 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the inputs' buffers hold their blocks, so the body's triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Reg0

end
-- ==== Proof.KernelIdeal.Reg1.lean ====
/-
  Region 1 of @main: the attention kernel of one layer, one grid point per block of 256 query rows.
  At a point the body reads a block of queries, ALL the keys and ALL the values (three column blocks of the one
  fused projection array) and a block of the skip term, and stores one block: the softmax-weighted sum of the
  values, normalized after the sum, plus the skip term. Stated at the buffer contents `V` the region is entered with:
  each window's block at a point, what the body leaves in the output window's buffer as a function of the input
  blocks, the body's triple, the proof data of the pipeline (the three windows on the shared array each holding a
  part of its share) and its body obligation.
-/
import proofs.«118558_j17497696764591_2_alg».proof.Proof.Gen.KernelIdeal.Launch
import proofs.«118558_j17497696764591_2_alg».proof.Proof.Gen.KernelIdeal.Skeleton
import proofs.«118558_j17497696764591_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered. -/
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or
    not (unfetched, the block index has not moved). -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there or
    not (unfetched, the block index has not moved). -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there or
    not (unfetched, the block index has not moved). -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there or
    not (unfetched, the block index has not moved). -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole buffer -/

abbrev rQ : Rect S256x128 := Rect.unit (s := S256x128) ![0, 0] S256x128.size inb_S256x128_S256x128_0_0
abbrev rKV : Rect S8192x128 := Rect.unit (s := S8192x128) ![0, 0] S8192x128.size inb_S8192x128_S8192x128_0_0

/-! ## What the body leaves in the output window's buffer -/

/-- The output block: the one store of the body's result over the whole buffer. -/
def outO (q : Vec F S256x128 .bf16) (k : Vec F S8192x128 .bf16) (v : Vec F S8192x128 .bf16) (s : Vec F S256x128 .f32) : Vec F S256x128 .f32 :=
  View.canon [⟨rQ, k1_pay1 (View.ld q rQ) (View.ld k rKV) (View.ld v rKV) (View.ld s rQ)⟩]

/-- A store of the whole buffer covers it. -/
theorem coverO (p0 : Vec F S256x128 .f32) (y : S256x128.Idx) :
    ∃ pc ∈ ([⟨rQ, p0⟩] : List (View.Piece (Elt F) S256x128 .f32)), y ∈ pc.1.set :=
  View.cover_of_tiled [⟨rQ, p0⟩] S256x128.size (by rfl) y

/-! ## The body's triple -/

set_option maxHeartbeats 1000000 in
/-- The body on whole staging buffers, the four inputs' at read contents and the output's at anything, runs to its
    return leaving the inputs' as they were and the output's at `outO` of the inputs'. -/
theorem sound_kernel (c : Dev nD) (E : Set ℕ) (i : grid1.Coords)
    (arg1 : Memref sig .tc .vmem S256x128 .bf16) (harg1 : arg1.IsWhole) (arg2 : Memref sig .tc .vmem S8192x128 .bf16) (harg2 : arg2.IsWhole)
    (arg3 : Memref sig .tc .vmem S8192x128 .bf16) (harg3 : arg3.IsWhole) (arg4 : Memref sig .tc .vmem S256x128 .f32) (harg4 : arg4.IsWhole)
    (arg5 : Memref sig .tc .vmem S256x128 .f32) (harg5 : arg5.IsWhole)
    (x0 : Vec F S256x128 .bf16) (x1 : Vec F S8192x128 .bf16) (x2 : Vec F S8192x128 .bf16) (x3 : Vec F S256x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (outO x0 x1 x2 x3)) -∗ K ⟨⟩))
      ⊢ wp frame (wpE (defs₀ (F := F)) Variants.none c none) E (cc1_kernel i arg1 harg1 arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverO _)

/-! ## The pipeline's proof data -/

/-- The full share cut in three: what the query, key and value windows each hold of the one fused projection array. -/
abbrev shQ : PosShare TreeShare := fullShare.left
abbrev shK : PosShare TreeShare := fullShare.right.left
abbrev shV : PosShare TreeShare := fullShare.right.right

/-- The proof data of pipeline 1 on core `c`: the arrays as the region finds them; after the body at point `t` each
    input's buffer at its block and the output's at the body's result on the input blocks; the invariant the scoped
    rest and the generator register, untouched; nothing owed; the fused projection array's share cut in three among
    its windows, the skip term's array at the full share. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outO (iblk V c 0 t) (iblk V c 1 t) (iblk V c 2 t) (iblk V c 3 t)
  Φ _ := Pipeline.ΦA spec1 c
  q w := match w with
    | ⟨0, _⟩ => shQ
    | ⟨1, _⟩ => shK
    | ⟨2, _⟩ => shV
    | ⟨3, _⟩ => fullShare
    | ⟨4, _⟩ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = outO (iblk V c 0 t) (iblk V c 1 t) (iblk V c 2 t) (iblk V c 3 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any point: the inputs' buffers hold their blocks, so the body's triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid1.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Reg1

end
-- ==== Proof.KernelIdeal.Reg2.lean ====
/-
  Region 2 of @main: the projection kernel of one attention layer, one grid point per block of 1024 rows.
  At a point the body reads a block of rows `h`, the fused weight matrix and bias for the queries, keys and values,
  and the weight matrix and bias of the skip term, and stores two blocks: `h · Wqkv + bqkv` and `h · Ws + bs`.
  Stated at the buffer contents `V` the region is entered with: each window's block at a point, what the body leaves
  in each output window's buffer as a function of the input blocks, the body's triple, the proof data of the
  pipeline and its body obligation.
-/
import proofs.«118558_j17497696764591_2_alg».proof.Proof.Gen.KernelIdeal.Launch
import proofs.«118558_j17497696764591_2_alg».proof.Proof.Gen.KernelIdeal.Skeleton
import proofs.«118558_j17497696764591_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered. -/
variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the pipeline fetched it there or
    not (unfetched, the block index has not moved). -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there or
    not (unfetched, the block index has not moved). -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there or
    not (unfetched, the block index has not moved). -/
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there or
    not (unfetched, the block index has not moved). -/
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the pipeline fetched it there or
    not (unfetched, the block index has not moved). -/
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole buffer -/

abbrev rX : Rect S1024x128 := Rect.unit (s := S1024x128) ![0, 0] S1024x128.size inb_S1024x128_S1024x128_0_0
abbrev rW : Rect S128x768 := Rect.unit (s := S128x768) ![0, 0] S128x768.size inb_S128x768_S128x768_0_0
abbrev rB : Rect S1x768 := Rect.unit (s := S1x768) ![0, 0] S1x768.size inb_S1x768_S1x768_0_0
abbrev rWs : Rect S128x256 := Rect.unit (s := S128x256) ![0, 0] S128x256.size inb_S128x256_S128x256_0_0
abbrev rBs : Rect S1x256 := Rect.unit (s := S1x256) ![0, 0] S1x256.size inb_S1x256_S1x256_0_0
abbrev rO : Rect S1024x768 := Rect.unit (s := S1024x768) ![0, 0] S1024x768.size inb_S1024x768_S1024x768_0_0
abbrev rOs : Rect S1024x256 := Rect.unit (s := S1024x256) ![0, 0] S1024x256.size inb_S1024x256_S1024x256_0_0

/-! ## What the body leaves in each output window's buffer -/

/-- The fused projection's block: the one store of `h · Wqkv + bqkv` over the whole buffer. -/
def outQkv (x : Vec F S1024x128 .f32) (w : Vec F S128x768 .f32) (b : Vec F S1x768 .f32) : Vec F S1024x768 .bf16 :=
  View.canon [⟨rO, k2_pay2 (View.ld x rX) (View.ld w rW) (View.ld b rB)⟩]

/-- The skip term's block: the one store of `h · Ws + bs` over the whole buffer. -/
def outS (x : Vec F S1024x128 .f32) (ws : Vec F S128x256 .f32) (bs : Vec F S1x256 .f32) : Vec F S1024x256 .f32 :=
  View.canon [⟨rOs, k2_pay3 (View.ld x rX) (View.ld ws rWs) (View.ld bs rBs)⟩]

/-- A store of the whole buffer covers it. -/
theorem coverQkv (p0 : Vec F S1024x768 .bf16) (y : S1024x768.Idx) :
    ∃ pc ∈ ([⟨rO, p0⟩] : List (View.Piece (Elt F) S1024x768 .bf16)), y ∈ pc.1.set :=
  View.cover_of_tiled [⟨rO, p0⟩] S1024x768.size (by rfl) y
theorem coverS (p0 : Vec F S1024x256 .f32) (y : S1024x256.Idx) :
    ∃ pc ∈ ([⟨rOs, p0⟩] : List (View.Piece (Elt F) S1024x256 .f32)), y ∈ pc.1.set :=
  View.cover_of_tiled [⟨rOs, p0⟩] S1024x256.size (by rfl) y

/-! ## The body's triple -/

set_option maxHeartbeats 1000000 in
/-- The body on whole staging buffers, the five inputs' at read contents and the two outputs' at anything, runs to its
    return leaving the inputs' as they were and the outputs' at `outQkv` and `outS` of the inputs'. -/
theorem sound_kernel (c : Dev nD) (E : Set ℕ) (i : grid2.Coords)
    (arg1 : Memref sig .tc .vmem S1024x128 .f32) (harg1 : arg1.IsWhole) (arg2 : Memref sig .tc .vmem S128x768 .f32) (harg2 : arg2.IsWhole)
    (arg3 : Memref sig .tc .vmem S1x768 .f32) (harg3 : arg3.IsWhole) (arg4 : Memref sig .tc .vmem S128x256 .f32) (harg4 : arg4.IsWhole)
    (arg5 : Memref sig .tc .vmem S1x256 .f32) (harg5 : arg5.IsWhole) (arg6 : Memref sig .tc .vmem S1024x768 .bf16) (harg6 : arg6.IsWhole)
    (arg7 : Memref sig .tc .vmem S1024x256 .f32) (harg7 : arg7.IsWhole)
    (x0 : Vec F S1024x128 .f32) (x1 : Vec F S128x768 .f32) (x2 : Vec F S1x768 .f32) (x3 : Vec F S128x256 .f32) (x4 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outQkv x0 x1 x2) ∗ owns (c : Thread nD τ) arg7 fullShare (outS x0 x3 x4)) -∗ K ⟨⟩))
      ⊢ wp frame (wpE (defs₀ (F := F)) Variants.none c none) E (cc2__proj_kernel i arg1 harg1 arg2 harg2 arg3 harg3 arg4 harg4 arg5 harg5 arg6 harg6 arg7 harg7) K := by
  simp only [cc2__proj_kernel_eq_skeleton]; unfold cc2__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverQkv _)
  iexists _; isplitr
  swap; · iexact H6
  ipureintro
  exact View.read_writes_eq_canon _ _ _ (coverS _)

/-! ## The pipeline's proof data -/

/-- The proof data of pipeline 2 on core `c`: the arrays as the region finds them; after the body at point `t` each
    input's buffer at its block and each output's at the body's result on the input blocks; the invariant the
    scoped rest and the generator register, untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outQkv (iblk V c 0 t) (iblk V c 1 t) (iblk V c 2 t)
    | ⟨6, _⟩ => outS (iblk V c 0 t) (iblk V c 3 t) (iblk V c 4 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = outQkv (iblk V c 0 t) (iblk V c 1 t) (iblk V c 2 t) := by dsimp only [dat]
theorem after_6 (c : Dev nD) (t : Fin cfg2.N) : (dat V c).after 6 t = outS (iblk V c 0 t) (iblk V c 3 t) (iblk V c 4 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t))

/-- The body at any point: the inputs' buffers hold their blocks, so the body's triple applies; the invariant and the
    core's dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid2.coords t) _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.Reg2

end
-- ==== Proof.KernelIdeal.Reg3.lean ====
/-
  Region 3 of @main: the attention kernel of one layer, one grid point per block of 256 query rows.
  At a point the body reads a block of queries, ALL the keys and ALL the values (three column blocks of the one
  fused projection array) and a block of the skip term, and stores one block: the softmax-weighted sum of the
  values, normalized after the sum, plus the skip term. Stated at the buffer contents `V` the region is entered with:
  each window's block at a point, what the body leaves in the output window's buffer as a function of the input
  blocks, the body's triple, the proof data of the pipeline (the three windows on the shared array each holding a
  part of its share) and its body obligation.
-/
import proofs.«118558_j17497696764591_2_alg».proof.Proof.Gen.KernelIdeal.Launch
import proofs.«118558_j17497696764591_2_alg».proof.Proof.Gen.KernelIdeal.Skeleton
import proofs.«118558_j17497696764591_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered. -/
variable (V : (c : Dev nD) → (b : Ref sig .tc) → Buf (Elt F) ((c : Thread nD τ).loc b))

/-! ## The windows' blocks -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the pipeline fetched it there or
    not (unfetched, the block index has not moved). -/
theorem before_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there or
    not (unfetched, the block index has not moved). -/
theorem before_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there or
    not (unfetched, the block index has not moved). -/
theorem before_2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there or
    not (unfetched, the block index has not moved). -/
theorem before_3_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole buffer -/

abbrev rQ : Rect S256x256 := Rect.unit (s := S256x256) ![0, 0] S256x256.size inb_S256x256_S256x256_0_0
abbrev rKV : Rect S8192x256 := Rect.unit (s := S8192x256) ![0, 0] S8192x256.size inb_S8192x256_S8192x256_0_0

/-! ## What the body leaves in the output window's buffer -/

/-- The output block: the one store of the body's result over the whole buffer. -/
def outO (q : Vec F S256x256 .bf16) (k : Vec F S8192x256 .bf16) (v : Vec F S8192x256 .bf16) (s : Vec F S256x256 .f32) : Vec F S256x256 .f32 :=
  View.canon [⟨rQ, k3_pay1 (View.ld q rQ) (View.ld k rKV) (View.ld v rKV) (View.ld s rQ)⟩]

/-- A store of the whole buffer covers it. -/
theorem coverO (p0 : Vec F S256x256 .f32) (y : S256x256.Idx) :
    ∃ pc ∈ ([⟨rQ, p0⟩] : List (View.Piece (Elt F) S256x256 .f32)), y ∈ pc.1.set :=
  View.cover_of_tiled [⟨rQ, p0⟩] S256x256.size (by rfl) y

/-! ## The body's triple -/

set_option maxHeartbeats 1000000 in
/-- The body on whole staging buffers, the four inputs' at read contents and the output's at anything, runs to its
    return leaving the inputs' as they were and the output's at `outO` of the inputs'. -/
theorem sound_kernel (c : Dev nD) (E : Set ℕ) (i : grid3.Coords)
    (arg1 : Memref sig .tc .vmem S256x256 .bf16) (harg1 : arg1.IsWhole) (arg2 : Memref sig .tc .vmem S8192x256 .bf16) (harg2 : arg2.IsWhole)
    (arg3 : Memref sig .tc .vmem S8192x256 .bf16) (harg3 : arg3.IsWhole) (arg4 : Memref sig .tc .vmem S256x256 .f32) (harg4 : arg4.IsWhole)
    (arg5 : Memref sig .tc .vmem S256x256 .f32) (harg5 : arg5.IsWhole)
    (x0 : Vec F S256x256 .bf16) (x1 : Vec F S8192x256 .bf16) (x2 : Vec F S8192x256 .bf16) (x3 : Vec F S256x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (outO x0 x1 x2 x3)) -∗ K ⟨⟩))
      ⊢ wp frame (wpE (defs₀ (F := F)) Variants.none c none) E (cc3_kernel i arg1 harg1 arg2 harg2 arg3 harg3 arg4 harg4 arg5 harg5) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverO _)

/-! ## The pipeline's proof data -/

/-- The full share cut in three: what the query, key and value windows each hold of the one fused projection array. -/
abbrev shQ : PosShare TreeShare := fullShare.left
abbrev shK : PosShare TreeShare := fullShare.right.left
abbrev shV : PosShare TreeShare := fullShare.right.right

/-- The proof data of pipeline 3 on core `c`: the arrays as the region finds them; after the body at point `t` each
    input's buffer at its block and the output's at the body's result on the input blocks; the invariant the scoped
    rest and the generator register, untouched; nothing owed; the fused projection array's share cut in three among
    its windows, the skip term's array at the full share. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => outO (iblk V c 0 t) (iblk V c 1 t) (iblk V c 2 t) (iblk V c 3 t)
  Φ _ := Pipeline.ΦA spec3 c
  q w := match w with
    | ⟨0, _⟩ => shQ
    | ⟨1, _⟩ => shK
    | ⟨2, _⟩ => shV
    | ⟨3, _⟩ => fullShare
    | ⟨4, _⟩ => fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = outO (iblk V c 0 t) (iblk V c 1 t) (iblk V c 2 t) (iblk V c 3 t) := by dsimp only [dat]

theorem before_0 (c : Dev nD) (t : Fin cfg3.N) (d) : (dat V c).before 0 t d = iblk V c 0 t :=
  before_0_of V (dat V c) (A_eq V c 0) (after_0 V c) t d
theorem before_1 (c : Dev nD) (t : Fin cfg3.N) (d) : (dat V c).before 1 t d = iblk V c 1 t :=
  before_1_of V (dat V c) (A_eq V c 1) (after_1 V c) t d
theorem before_2 (c : Dev nD) (t : Fin cfg3.N) (d) : (dat V c).before 2 t d = iblk V c 2 t :=
  before_2_of V (dat V c) (A_eq V c 2) (after_2 V c) t d
theorem before_3 (c : Dev nD) (t : Fin cfg3.N) (d) : (dat V c).before 3 t d = iblk V c 3 t :=
  before_3_of V (dat V c) (A_eq V c 3) (after_3 V c) t d

/-! ## The body obligation, at a generic point -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t))

/-- The body at any point: the inputs' buffers hold their blocks, so the body's triple applies; the invariant and the
    core's dues pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid3.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W3, bigSep_W3]
  exact sound_body V c t

end Cert.KernelIdeal.Reg3

end
-- ==== Proof.KernelIdeal.Outs.lean ====
/-
  The buffers' contents between @main's items, with what each region leaves NAMED. @main is: host operations (the scale
  folded into the query weights and bias, the three weight matrices and biases laid side by side), the projection region
  of layer 1, its attention region, the same host operations for layer 2, its projection region, its attention region.
  The contents after an item are the contents before it with the item's results written: a host stretch's by the
  operations' fold, a region's output arrays at what the pipeline's write-backs leave (the proof data's array after the
  last grid point), everything else as it was. Each region's proof data is stated at the contents its region is entered
  with, so the stages are defined one after the other.
-/
import proofs.«118558_j17497696764591_2_alg».proof.Proof.Gen.KernelIdeal.Regions
import proofs.«118558_j17497696764591_2_alg».proof.Proof.KernelIdeal.Reg0
import proofs.«118558_j17497696764591_2_alg».proof.Proof.KernelIdeal.Reg1
import proofs.«118558_j17497696764591_2_alg».proof.Proof.KernelIdeal.Reg2
import proofs.«118558_j17497696764591_2_alg».proof.Proof.KernelIdeal.Reg3

noncomputable section

namespace Cert.KernelIdeal.Run

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- A valuation read at the TensorCore's references: what a region's proof data are stated at. -/
abbrev tc (W : Dev nD → Valuation τ sig (Elt F)) : (c : Dev nD) → (b : Ref sig .tc) → Buf (Elt F) ((c : Thread nD τ).loc b) :=
  fun c b => W c b

/-! ## What the regions leave, stage by stage -/

/-- Layer 1's projection region leaves the fused projection and the skip term. -/
def oA : Outs (F := F) := fun _ r c =>
  Function.update (Function.update (tc (V1 m) c) main_v8_0 ((Reg0.dat (tc (V1 m)) c).arrAt 5 cfg0.N))
    main_v8_1 ((Reg0.dat (tc (V1 m)) c).arrAt 6 cfg0.N) r

/-- Layer 1's attention region leaves the hidden layer. -/
def oB : Outs (F := F) := fun j r c => match j with
  | 3 => Function.update (tc (V2 m (oA m)) c) main_v9 ((Reg1.dat (tc (V2 m (oA m))) c).arrAt 4 cfg1.N) r
  | _ => oA m j r c

/-- Layer 2's projection region leaves its fused projection and skip term. -/
def oC : Outs (F := F) := fun j r c => match j with
  | 5 => Function.update (Function.update (tc (V4 m (oB m)) c) main_v18_0 ((Reg2.dat (tc (V4 m (oB m))) c).arrAt 5 cfg2.N))
      main_v18_1 ((Reg2.dat (tc (V4 m (oB m))) c).arrAt 6 cfg2.N) r
  | _ => oB m j r c

/-- Layer 2's attention region leaves the result. -/
def outs : Outs (F := F) := fun j r c => match j with
  | 6 => Function.update (tc (V5 m (oC m)) c) main_v19 ((Reg3.dat (tc (V5 m (oC m))) c).arrAt 4 cfg3.N) r
  | _ => oC m j r c

/-- The contents a stage is entered with do not depend on what later regions leave. -/
theorem V2_outs (c : Dev nD) : V2 m (outs m) c = V2 m (oA m) c := rfl
theorem V4_outs (c : Dev nD) : V4 m (outs m) c = V4 m (oB m) c := rfl
theorem V5_outs (c : Dev nD) : V5 m (outs m) c = V5 m (oC m) c := rfl

/-! ## The stages read at the regions' output arrays -/

theorem outs_v8_0 (c : Dev nD) : outs m 2 main_v8_0 c = (Reg0.dat (tc (V1 m)) c).arrAt 5 cfg0.N := by
  show Function.update (Function.update (tc (V1 m) c) main_v8_0 ((Reg0.dat (tc (V1 m)) c).arrAt 5 cfg0.N))
    main_v8_1 ((Reg0.dat (tc (V1 m)) c).arrAt 6 cfg0.N) main_v8_0 = _
  rw [Function.update_of_ne (by decide), Function.update_self]
theorem outs_v8_1 (c : Dev nD) : outs m 2 main_v8_1 c = (Reg0.dat (tc (V1 m)) c).arrAt 6 cfg0.N := by
  show Function.update (Function.update (tc (V1 m) c) main_v8_0 ((Reg0.dat (tc (V1 m)) c).arrAt 5 cfg0.N))
    main_v8_1 ((Reg0.dat (tc (V1 m)) c).arrAt 6 cfg0.N) main_v8_1 = _
  rw [Function.update_self]
theorem outs_v9 (c : Dev nD) : outs m 3 main_v9 c = (Reg1.dat (tc (V2 m (oA m))) c).arrAt 4 cfg1.N := by
  show Function.update (tc (V2 m (oA m)) c) main_v9 ((Reg1.dat (tc (V2 m (oA m))) c).arrAt 4 cfg1.N) main_v9 = _
  rw [Function.update_self]
theorem outs_v18_0 (c : Dev nD) : outs m 5 main_v18_0 c = (Reg2.dat (tc (V4 m (oB m))) c).arrAt 5 cfg2.N := by
  show Function.update (Function.update (tc (V4 m (oB m)) c) main_v18_0 ((Reg2.dat (tc (V4 m (oB m))) c).arrAt 5 cfg2.N))
      main_v18_1 ((Reg2.dat (tc (V4 m (oB m))) c).arrAt 6 cfg2.N) main_v18_0 = _
  rw [Function.update_of_ne (by decide), Function.update_self]
theorem outs_v18_1 (c : Dev nD) : outs m 5 main_v18_1 c = (Reg2.dat (tc (V4 m (oB m))) c).arrAt 6 cfg2.N := by
  show Function.update (Function.update (tc (V4 m (oB m)) c) main_v18_0 ((Reg2.dat (tc (V4 m (oB m))) c).arrAt 5 cfg2.N))
      main_v18_1 ((Reg2.dat (tc (V4 m (oB m))) c).arrAt 6 cfg2.N) main_v18_1 = _
  rw [Function.update_self]
theorem outs_v19 (c : Dev nD) : outs m 6 main_v19 c = (Reg3.dat (tc (V5 m (oC m))) c).arrAt 4 cfg3.N := by
  show Function.update (tc (V5 m (oC m)) c) main_v19 ((Reg3.dat (tc (V5 m (oC m))) c).arrAt 4 cfg3.N) main_v19 = _
  rw [Function.update_self]

variable (o : Outs (F := F))

theorem V2_v8_0 (c : Dev nD) : V2 m o c main_v8_0 = o 2 main_v8_0 c := by
  simp only [V2, Function.update_of_ne (StableHlo.devRef_ne_of_ne (by decide : main_v8_0 ≠ main_v8_1) : (Proc.devRef .tc main_v8_0 : DevRef τ sig) ≠ Proc.devRef .tc main_v8_1), Function.update_self]
theorem V2_v8_1 (c : Dev nD) : V2 m o c main_v8_1 = o 2 main_v8_1 c := by
  simp only [V2, Function.update_self]
theorem V3_v9 (c : Dev nD) : V3 m o c main_v9 = o 3 main_v9 c := by
  simp only [V3, Function.update_self]
theorem V5_v18_0 (c : Dev nD) : V5 m o c main_v18_0 = o 5 main_v18_0 c := by
  simp only [V5, Function.update_of_ne (StableHlo.devRef_ne_of_ne (by decide : main_v18_0 ≠ main_v18_1) : (Proc.devRef .tc main_v18_0 : DevRef τ sig) ≠ Proc.devRef .tc main_v18_1), Function.update_self]
theorem V5_v18_1 (c : Dev nD) : V5 m o c main_v18_1 = o 5 main_v18_1 c := by
  simp only [V5, Function.update_self]
theorem V6_v19 (c : Dev nD) : V6 m o c main_v19 = o 6 main_v19 c := by
  simp only [V6, Function.update_self]

/-! ## The proof data family -/

/-- Every pipeline's proof data, each at the contents its region is entered with. -/
def pdats : (p : Fin 4) → (c : Dev nD) → Dat τ (Elt F) Unit ℕ (UR sig nD τ) ℕ (cfgs p) c
  | ⟨0, _⟩ => fun c => Reg0.dat (tc (V1 m)) c
  | ⟨1, _⟩ => fun c => Reg1.dat (tc (V2 m (oA m))) c
  | ⟨2, _⟩ => fun c => Reg2.dat (tc (V4 m (oB m))) c
  | ⟨3, _⟩ => fun c => Reg3.dat (tc (V5 m (oC m))) c

end Cert.KernelIdeal.Run

end
-- ==== Proof.KernelIdeal.Arr1.lean ====
/-
  Region 1's arrays against the buffers behind them. The query, key and value windows are three column blocks of
  ONE array, so the pipeline holds that array three times, each window at a part of the share; the skip term's array and
  the output's are held once, whole. Cutting the full share of the fused projection's buffer in three (in half, then the
  second half in half again) turns "each distinct buffer behind the windows, whole at the full share" into "each window's
  array at its share", and back.
-/
import proofs.«118558_j17497696764591_2_alg».proof.Proof.KernelIdeal.Reg1

noncomputable section

namespace Cert.KernelIdeal.Reg1

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A buffer held at a share is the same buffer held at the share's two halves. -/
theorem halves {ℓ : Loc nD τ sig} (q : PosShare TreeShare) (f : Buf (Elt F) ℓ) :
    ((ℓ ↦{q} f : sProp 𝕄)) = iprop((ℓ ↦{q.left} f) ∗ ℓ ↦{q.right} f) :=
  BI.Entails.antisymm (pointsTo_share (PosShare.mem_left_op_right q)).1 (pointsTo_share (PosShare.mem_left_op_right q)).2

/-- An input window holds its array at the share the proof data name for it. -/
theorem share_in (c : Dev nD) (w : Fin cfg1.W) (h : (cfg1.win w).isOut = false) : (dat V c).share w = (dat V c).q w := by
  unfold Dat.share; rw [h]; rfl
theorem share_0 (c : Dev nD) : (dat V c).share 0 = shQ := (share_in V c 0 rfl).trans (by dsimp only [dat])
theorem share_1 (c : Dev nD) : (dat V c).share 1 = shK := (share_in V c 1 rfl).trans (by dsimp only [dat])
theorem share_2 (c : Dev nD) : (dat V c).share 2 = shV := (share_in V c 2 rfl).trans (by dsimp only [dat])
theorem share_3 (c : Dev nD) : (dat V c).share 3 = fullShare := (share_in V c 3 rfl).trans (by dsimp only [dat])
/-- The output window holds its array whole. -/
theorem share_4 (c : Dev nD) : (dat V c).share 4 = fullShare := by
  unfold Dat.share; rw [show (cfg1.win 4).isOut = true from rfl]; rfl

/-- The distinct buffers behind the five windows. -/
theorem image_arrRef : Finset.univ.image (Pipeline.arrRef spec1) = {main_v8_0, main_v8_1, main_v9} := by decide

/-- The distinct buffers behind the windows' arrays, one by one. -/
theorem arrBufs_eq (c : Dev nD) (Vx : (b : Ref sig .tc) → Buf (Elt F) ((c : Thread nD τ).loc b)) :
    (Pipeline.arrBufs spec1 c Vx : sProp 𝕄)
      = iprop(((c : Thread nD τ).loc main_v8_0 ↦{fullShare} Vx main_v8_0) ∗ ((c : Thread nD τ).loc main_v8_1 ↦{fullShare} Vx main_v8_1)
          ∗ ((c : Thread nD τ).loc main_v9 ↦{fullShare} Vx main_v9)) := by
  unfold Pipeline.arrBufs
  rw [image_arrRef, bigSep_insert (by decide), bigSep_insert (by decide), bigSep_singleton]
  rfl

/-- A window's array, a whole buffer, held at a share. -/
theorem arr_pt (c : Dev nD) (w : Fin cfg1.W) (q : PosShare TreeShare) (f : Buf (Elt F) ((cfg1.win w).arr.view.loc (c : Thread nD τ))) :
    (((cfg1.win w).arr.view.loc (c : Thread nD τ) ↦[(cfg1.win w).arr.view.set]{q} f : sProp 𝕄))
      = ((c : Thread nD τ).loc (Pipeline.arrRef spec1 w) ↦{q} f) := by
  rw [(arr_whole1 w).set_eq_univ]

set_option maxHeartbeats 1000000 in
/-- The windows' arrays at contents `Fw`, each at its share, are the three distinct buffers behind them whole at the
    full share at a valuation `Vx` that `Fw` reads its contents from. -/
theorem arrays_eq_arrBufs (c : Dev nD) (Vx : (b : Ref sig .tc) → Buf (Elt F) ((c : Thread nD τ).loc b))
    (Fw : (w : Fin cfg1.W) → Buf (Elt F) ((cfg1.win w).arr.view.loc (c : Thread nD τ)))
    (hF : ∀ w, Fw w = Vx (Pipeline.arrRef spec1 w)) :
    ((dat V c).arrays Fw : sProp 𝕄) = Pipeline.arrBufs spec1 c Vx := by
  rw [arrBufs_eq]
  unfold Dat.arrays
  rw [bigSep_W1, arr_pt, arr_pt, arr_pt, arr_pt, arr_pt, hF 0, hF 1, hF 2, hF 3, hF 4,
    share_0, share_1, share_2, share_3, share_4]
  show iprop(((c : Thread nD τ).loc main_v8_0 ↦{shQ} Vx main_v8_0) ∗ ((c : Thread nD τ).loc main_v8_0 ↦{shK} Vx main_v8_0)
      ∗ ((c : Thread nD τ).loc main_v8_0 ↦{shV} Vx main_v8_0) ∗ ((c : Thread nD τ).loc main_v8_1 ↦{fullShare} Vx main_v8_1)
      ∗ ((c : Thread nD τ).loc main_v9 ↦{fullShare} Vx main_v9))
    = iprop(((c : Thread nD τ).loc main_v8_0 ↦{fullShare} Vx main_v8_0) ∗ ((c : Thread nD τ).loc main_v8_1 ↦{fullShare} Vx main_v8_1)
      ∗ ((c : Thread nD τ).loc main_v9 ↦{fullShare} Vx main_v9))
  rw [halves (F := F) fullShare (Vx main_v8_0), halves (F := F) fullShare.right (Vx main_v8_0)]
  have h1 : (iprop(((c : Thread nD τ).loc main_v8_0 ↦{shQ} Vx main_v8_0) ∗ ((c : Thread nD τ).loc main_v8_0 ↦{shK} Vx main_v8_0)
      ∗ ((c : Thread nD τ).loc main_v8_0 ↦{shV} Vx main_v8_0) ∗ ((c : Thread nD τ).loc main_v8_1 ↦{fullShare} Vx main_v8_1)
      ∗ ((c : Thread nD τ).loc main_v9 ↦{fullShare} Vx main_v9)) : sProp 𝕄) ⊢ iprop((((c : Thread nD τ).loc main_v8_0 ↦{shQ} Vx main_v8_0) ∗ ((c : Thread nD τ).loc main_v8_0 ↦{shK} Vx main_v8_0)
      ∗ ((c : Thread nD τ).loc main_v8_0 ↦{shV} Vx main_v8_0)) ∗ ((c : Thread nD τ).loc main_v8_1 ↦{fullShare} Vx main_v8_1)
      ∗ ((c : Thread nD τ).loc main_v9 ↦{fullShare} Vx main_v9)) := by
    iintro ⟨Ha, Hb1, Hb2, HB, HC⟩
    isplitl [Ha Hb1 Hb2]
    · isplitl [Ha]; · iexact Ha
      isplitl [Hb1]; · iexact Hb1
      iexact Hb2
    isplitl [HB]; · iexact HB
    iexact HC
  have h2 : (iprop((((c : Thread nD τ).loc main_v8_0 ↦{shQ} Vx main_v8_0) ∗ ((c : Thread nD τ).loc main_v8_0 ↦{shK} Vx main_v8_0)
      ∗ ((c : Thread nD τ).loc main_v8_0 ↦{shV} Vx main_v8_0)) ∗ ((c : Thread nD τ).loc main_v8_1 ↦{fullShare} Vx main_v8_1)
      ∗ ((c : Thread nD τ).loc main_v9 ↦{fullShare} Vx main_v9)) : sProp 𝕄) ⊢ iprop(((c : Thread nD τ).loc main_v8_0 ↦{shQ} Vx main_v8_0) ∗ ((c : Thread nD τ).loc main_v8_0 ↦{shK} Vx main_v8_0)
      ∗ ((c : Thread nD τ).loc main_v8_0 ↦{shV} Vx main_v8_0) ∗ ((c : Thread nD τ).loc main_v8_1 ↦{fullShare} Vx main_v8_1)
      ∗ ((c : Thread nD τ).loc main_v9 ↦{fullShare} Vx main_v9)) := by
    iintro ⟨⟨Ha, Hb1, Hb2⟩, HB, HC⟩
    isplitl [Ha]; · iexact Ha
    isplitl [Hb1]; · iexact Hb1
    isplitl [Hb2]; · iexact Hb2
    isplitl [HB]; · iexact HB
    iexact HC
  exact BI.Entails.antisymm h1 h2

end Cert.KernelIdeal.Reg1

end
-- ==== Proof.KernelIdeal.Arr3.lean ====
/-
  Region 3's arrays against the buffers behind them. The query, key and value windows are three column blocks of
  ONE array, so the pipeline holds that array three times, each window at a part of the share; the skip term's array and
  the output's are held once, whole. Cutting the full share of the fused projection's buffer in three (in half, then the
  second half in half again) turns "each distinct buffer behind the windows, whole at the full share" into "each window's
  array at its share", and back.
-/
import proofs.«118558_j17497696764591_2_alg».proof.Proof.KernelIdeal.Reg3

noncomputable section

namespace Cert.KernelIdeal.Reg3

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A buffer held at a share is the same buffer held at the share's two halves. -/
theorem halves {ℓ : Loc nD τ sig} (q : PosShare TreeShare) (f : Buf (Elt F) ℓ) :
    ((ℓ ↦{q} f : sProp 𝕄)) = iprop((ℓ ↦{q.left} f) ∗ ℓ ↦{q.right} f) :=
  BI.Entails.antisymm (pointsTo_share (PosShare.mem_left_op_right q)).1 (pointsTo_share (PosShare.mem_left_op_right q)).2

/-- An input window holds its array at the share the proof data name for it. -/
theorem share_in (c : Dev nD) (w : Fin cfg3.W) (h : (cfg3.win w).isOut = false) : (dat V c).share w = (dat V c).q w := by
  unfold Dat.share; rw [h]; rfl
theorem share_0 (c : Dev nD) : (dat V c).share 0 = shQ := (share_in V c 0 rfl).trans (by dsimp only [dat])
theorem share_1 (c : Dev nD) : (dat V c).share 1 = shK := (share_in V c 1 rfl).trans (by dsimp only [dat])
theorem share_2 (c : Dev nD) : (dat V c).share 2 = shV := (share_in V c 2 rfl).trans (by dsimp only [dat])
theorem share_3 (c : Dev nD) : (dat V c).share 3 = fullShare := (share_in V c 3 rfl).trans (by dsimp only [dat])
/-- The output window holds its array whole. -/
theorem share_4 (c : Dev nD) : (dat V c).share 4 = fullShare := by
  unfold Dat.share; rw [show (cfg3.win 4).isOut = true from rfl]; rfl

/-- The distinct buffers behind the five windows. -/
theorem image_arrRef : Finset.univ.image (Pipeline.arrRef spec3) = {main_v18_0, main_v18_1, main_v19} := by decide

/-- The distinct buffers behind the windows' arrays, one by one. -/
theorem arrBufs_eq (c : Dev nD) (Vx : (b : Ref sig .tc) → Buf (Elt F) ((c : Thread nD τ).loc b)) :
    (Pipeline.arrBufs spec3 c Vx : sProp 𝕄)
      = iprop(((c : Thread nD τ).loc main_v18_0 ↦{fullShare} Vx main_v18_0) ∗ ((c : Thread nD τ).loc main_v18_1 ↦{fullShare} Vx main_v18_1)
          ∗ ((c : Thread nD τ).loc main_v19 ↦{fullShare} Vx main_v19)) := by
  unfold Pipeline.arrBufs
  rw [image_arrRef, bigSep_insert (by decide), bigSep_insert (by decide), bigSep_singleton]
  rfl

/-- A window's array, a whole buffer, held at a share. -/
theorem arr_pt (c : Dev nD) (w : Fin cfg3.W) (q : PosShare TreeShare) (f : Buf (Elt F) ((cfg3.win w).arr.view.loc (c : Thread nD τ))) :
    (((cfg3.win w).arr.view.loc (c : Thread nD τ) ↦[(cfg3.win w).arr.view.set]{q} f : sProp 𝕄))
      = ((c : Thread nD τ).loc (Pipeline.arrRef spec3 w) ↦{q} f) := by
  rw [(arr_whole3 w).set_eq_univ]

set_option maxHeartbeats 1000000 in
/-- The windows' arrays at contents `Fw`, each at its share, are the three distinct buffers behind them whole at the
    full share at a valuation `Vx` that `Fw` reads its contents from. -/
theorem arrays_eq_arrBufs (c : Dev nD) (Vx : (b : Ref sig .tc) → Buf (Elt F) ((c : Thread nD τ).loc b))
    (Fw : (w : Fin cfg3.W) → Buf (Elt F) ((cfg3.win w).arr.view.loc (c : Thread nD τ)))
    (hF : ∀ w, Fw w = Vx (Pipeline.arrRef spec3 w)) :
    ((dat V c).arrays Fw : sProp 𝕄) = Pipeline.arrBufs spec3 c Vx := by
  rw [arrBufs_eq]
  unfold Dat.arrays
  rw [bigSep_W3, arr_pt, arr_pt, arr_pt, arr_pt, arr_pt, hF 0, hF 1, hF 2, hF 3, hF 4,
    share_0, share_1, share_2, share_3, share_4]
  show iprop(((c : Thread nD τ).loc main_v18_0 ↦{shQ} Vx main_v18_0) ∗ ((c : Thread nD τ).loc main_v18_0 ↦{shK} Vx main_v18_0)
      ∗ ((c : Thread nD τ).loc main_v18_0 ↦{shV} Vx main_v18_0) ∗ ((c : Thread nD τ).loc main_v18_1 ↦{fullShare} Vx main_v18_1)
      ∗ ((c : Thread nD τ).loc main_v19 ↦{fullShare} Vx main_v19))
    = iprop(((c : Thread nD τ).loc main_v18_0 ↦{fullShare} Vx main_v18_0) ∗ ((c : Thread nD τ).loc main_v18_1 ↦{fullShare} Vx main_v18_1)
      ∗ ((c : Thread nD τ).loc main_v19 ↦{fullShare} Vx main_v19))
  rw [halves (F := F) fullShare (Vx main_v18_0), halves (F := F) fullShare.right (Vx main_v18_0)]
  have h1 : (iprop(((c : Thread nD τ).loc main_v18_0 ↦{shQ} Vx main_v18_0) ∗ ((c : Thread nD τ).loc main_v18_0 ↦{shK} Vx main_v18_0)
      ∗ ((c : Thread nD τ).loc main_v18_0 ↦{shV} Vx main_v18_0) ∗ ((c : Thread nD τ).loc main_v18_1 ↦{fullShare} Vx main_v18_1)
      ∗ ((c : Thread nD τ).loc main_v19 ↦{fullShare} Vx main_v19)) : sProp 𝕄) ⊢ iprop((((c : Thread nD τ).loc main_v18_0 ↦{shQ} Vx main_v18_0) ∗ ((c : Thread nD τ).loc main_v18_0 ↦{shK} Vx main_v18_0)
      ∗ ((c : Thread nD τ).loc main_v18_0 ↦{shV} Vx main_v18_0)) ∗ ((c : Thread nD τ).loc main_v18_1 ↦{fullShare} Vx main_v18_1)
      ∗ ((c : Thread nD τ).loc main_v19 ↦{fullShare} Vx main_v19)) := by
    iintro ⟨Ha, Hb1, Hb2, HB, HC⟩
    isplitl [Ha Hb1 Hb2]
    · isplitl [Ha]; · iexact Ha
      isplitl [Hb1]; · iexact Hb1
      iexact Hb2
    isplitl [HB]; · iexact HB
    iexact HC
  have h2 : (iprop((((c : Thread nD τ).loc main_v18_0 ↦{shQ} Vx main_v18_0) ∗ ((c : Thread nD τ).loc main_v18_0 ↦{shK} Vx main_v18_0)
      ∗ ((c : Thread nD τ).loc main_v18_0 ↦{shV} Vx main_v18_0)) ∗ ((c : Thread nD τ).loc main_v18_1 ↦{fullShare} Vx main_v18_1)
      ∗ ((c : Thread nD τ).loc main_v19 ↦{fullShare} Vx main_v19)) : sProp 𝕄) ⊢ iprop(((c : Thread nD τ).loc main_v18_0 ↦{shQ} Vx main_v18_0) ∗ ((c : Thread nD τ).loc main_v18_0 ↦{shK} Vx main_v18_0)
      ∗ ((c : Thread nD τ).loc main_v18_0 ↦{shV} Vx main_v18_0) ∗ ((c : Thread nD τ).loc main_v18_1 ↦{fullShare} Vx main_v18_1)
      ∗ ((c : Thread nD τ).loc main_v19 ↦{fullShare} Vx main_v19)) := by
    iintro ⟨⟨Ha, Hb1, Hb2⟩, HB, HC⟩
    isplitl [Ha]; · iexact Ha
    isplitl [Hb1]; · iexact Hb1
    isplitl [Hb2]; · iexact Hb2
    isplitl [HB]; · iexact HB
    iexact HC
  exact BI.Entails.antisymm h1 h2

end Cert.KernelIdeal.Reg3

end
-- ==== Proof.KernelIdeal.Segs.lean ====
/-
  @main's four regions as segments over ONE thread state: every unscoped buffer held at the contents of the stage, the
  generator register at some state, nothing owed. A region takes its windows' arrays out of the unscoped buffers when
  it is entered and puts them back when it is left — the inputs as found, the outputs at what the write-backs leave —,
  and everything else passes by.
-/
import proofs.«118558_j17497696764591_2_alg».proof.Proof.KernelIdeal.Outs
import proofs.«118558_j17497696764591_2_alg».proof.Proof.KernelIdeal.Arr1
import proofs.«118558_j17497696764591_2_alg».proof.Proof.KernelIdeal.Arr3

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- No core owes another anything: no level is assigned. -/
abbrev L : GSem nD τ sig → Finset Unit := fun _ => ∅
abbrev lv : GSem nD τ sig → Unit → ℕ := fun _ _ => 0

/-- What rides beside the buffers through every item: the core's generator register at some state, and nothing owed. -/
abbrev R (c : Dev nD) : sProp 𝕄 := iprop((∃ r, prngReg c r) ∗ ∃ W, owes (c : Thread nD τ) (0 : CellTallies nD τ sig Unit) W)

/-! ## Region 0 (a projection region): its arrays are distinct buffers -/

theorem hF0 (c : Dev nD) (w : Fin cfg0.W) :
    (pdats m 0 c).arrAt w cfg0.N = tc (V2 m (outs m)) c (Pipeline.arrRef spec0 w) := by
  match w with
  | ⟨0, _⟩ => exact ((Reg0.dat (tc (V1 m)) c).arrAt_in 0 rfl _).trans ((Reg0.A_eq _ c 0).trans (V2_of m (outs m) c main_arg0 (by decide)).symm)
  | ⟨1, _⟩ => exact ((Reg0.dat (tc (V1 m)) c).arrAt_in 1 rfl _).trans ((Reg0.A_eq _ c 1).trans (V2_of m (outs m) c main_v2 (by decide)).symm)
  | ⟨2, _⟩ => exact ((Reg0.dat (tc (V1 m)) c).arrAt_in 2 rfl _).trans ((Reg0.A_eq _ c 2).trans (V2_of m (outs m) c main_v6 (by decide)).symm)
  | ⟨3, _⟩ => exact ((Reg0.dat (tc (V1 m)) c).arrAt_in 3 rfl _).trans ((Reg0.A_eq _ c 3).trans (V2_of m (outs m) c main_arg10 (by decide)).symm)
  | ⟨4, _⟩ => exact ((Reg0.dat (tc (V1 m)) c).arrAt_in 4 rfl _).trans ((Reg0.A_eq _ c 4).trans (V2_of m (outs m) c main_v7 (by decide)).symm)
  | ⟨5, _⟩ => exact (outs_v8_0 m c).symm.trans (V2_v8_0 m (outs m) c).symm
  | ⟨6, _⟩ => exact (outs_v8_1 m c).symm.trans (V2_v8_1 m (outs m) c).symm

theorem hrest0 (c : Dev nD) : ∀ b, b ∉ Finset.univ.image (Pipeline.arrRef spec0) → tc (V2 m (outs m)) c b = tc (V1 m) c b :=
  fun b hb => V2_of m (outs m) c b (fun hmem => hb (by
    rcases List.mem_cons.mp hmem with rfl | h
    · exact Finset.mem_image.mpr ⟨5, Finset.mem_univ _, rfl⟩
    · rcases List.mem_cons.mp h with rfl | h
      · exact Finset.mem_image.mpr ⟨6, Finset.mem_univ _, rfl⟩
      · exact absurd h List.not_mem_nil))

set_option backward.isDefEq.respectTransparency.types false in
/-- Region 0 over the thread state "every unscoped buffer at the stage's contents, the generator register at some
    state, nothing owed": its arrays are split out of the unscoped buffers at entry and put back, the outputs at what
    the write-backs leave, at exit; the generator register goes into the body's invariant and comes back. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Reg0.body_obligation (tc (V1 m)) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (tc (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (tc (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (tc (V1 m) c) (tc (V2 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 (an attention region): three of its windows are on one array -/

theorem hF1 (c : Dev nD) (w : Fin cfg1.W) :
    (pdats m 1 c).arrAt w cfg1.N = tc (V3 m (outs m)) c (Pipeline.arrRef spec1 w) := by
  match w with
  | ⟨0, _⟩ => exact ((Reg1.dat (tc (V2 m (oA m))) c).arrAt_in 0 rfl _).trans ((Reg1.A_eq _ c 0).trans (V3_of m (outs m) c main_v8_0 (by decide)).symm)
  | ⟨1, _⟩ => exact ((Reg1.dat (tc (V2 m (oA m))) c).arrAt_in 1 rfl _).trans ((Reg1.A_eq _ c 1).trans (V3_of m (outs m) c main_v8_0 (by decide)).symm)
  | ⟨2, _⟩ => exact ((Reg1.dat (tc (V2 m (oA m))) c).arrAt_in 2 rfl _).trans ((Reg1.A_eq _ c 2).trans (V3_of m (outs m) c main_v8_0 (by decide)).symm)
  | ⟨3, _⟩ => exact ((Reg1.dat (tc (V2 m (oA m))) c).arrAt_in 3 rfl _).trans ((Reg1.A_eq _ c 3).trans (V3_of m (outs m) c main_v8_1 (by decide)).symm)
  | ⟨4, _⟩ => exact (outs_v9 m c).symm.trans (V3_v9 m (outs m) c).symm

theorem hrest1 (c : Dev nD) : ∀ b, b ∉ Finset.univ.image (Pipeline.arrRef spec1) → tc (V3 m (outs m)) c b = tc (V2 m (oA m)) c b :=
  fun b hb => V3_of m (outs m) c b (fun hmem => hb (by
    rcases List.mem_cons.mp hmem with rfl | h
    · exact Finset.mem_image.mpr ⟨4, Finset.mem_univ _, rfl⟩
    · exact absurd h List.not_mem_nil))

set_option backward.isDefEq.respectTransparency.types false in
/-- Region 1 over the same thread state. The fused projection array is read through three windows: at entry its
    buffer's full share is cut in three among them, at exit the three parts, still at the contents found, are joined
    again; the output array is put back at what the write-backs leave. -/
def reg1 : Pipeline.RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (Reg1.body_obligation (tc (V2 m (oA m))) c).loose
  hwaits := Pipeline.hwaits_of_owed_zero _ _ _ _ L lv 1 fun _ _ => rfl
  pre c := iprop(StableHlo.held (c : Thread nD τ) (Pipeline.ucRefs τ sig) (V2 m (oA m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (tc (V2 m (oA m)) c)
  hentry c := by
    rw [Pipeline.ownSems0_none]
    have hsplit : (StableHlo.held (c : Thread nD τ) (Pipeline.ucRefs τ sig) (V2 m (oA m) c) : sProp 𝕄)
        ⊢ iprop((pdats m 1 c).arrays ((pdats m 1 c).arrAt · 0)
            ∗ Pipeline.unscopedRest (Ix := Unit) (Name := ℕ) (U := UR sig nD τ) (Lvl := ℕ) spec1 c (tc (V2 m (oA m)) c)) := by
      rw [← Pipeline.unscopedBufs_held, Pipeline.unscopedBufs_split₀ cfgs 1 winFacts₀1.arr_unscoped c _]
      exact sep_mono (Entails.of_eq (Reg1.arrays_eq_arrBufs (tc (V2 m (oA m))) c (tc (V2 m (oA m)) c) _ (fun w => Reg1.A_eq _ c w)).symm) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (tc (V2 m (oA m)) c))
        ⊢ (StableHlo.held (c : Thread nD τ) (Pipeline.ucRefs τ sig) (V3 m (outs m) c) : sProp 𝕄) := by
      rw [← Pipeline.unscopedBufs_held, Pipeline.unscopedBufs_split₀ cfgs 1 winFacts₀1.arr_unscoped c _]
      refine sep_mono (Entails.of_eq (Reg1.arrays_eq_arrBufs (tc (V2 m (oA m))) c (tc (V3 m (outs m)) c) _ (hF1 m c))) (Entails.of_eq ?_)
      unfold Pipeline.unscopedRest
      exact bigSep_congr fun b hb => by rw [← hrest1 m c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 (a projection region): its arrays are distinct buffers -/

theorem hF2 (c : Dev nD) (w : Fin cfg2.W) :
    (pdats m 2 c).arrAt w cfg2.N = tc (V5 m (outs m)) c (Pipeline.arrRef spec2 w) := by
  match w with
  | ⟨0, _⟩ => exact ((Reg2.dat (tc (V4 m (oB m))) c).arrAt_in 0 rfl _).trans ((Reg2.A_eq _ c 0).trans (V5_of m (outs m) c main_v9 (by decide)).symm)
  | ⟨1, _⟩ => exact ((Reg2.dat (tc (V4 m (oB m))) c).arrAt_in 1 rfl _).trans ((Reg2.A_eq _ c 1).trans (V5_of m (outs m) c main_v12 (by decide)).symm)
  | ⟨2, _⟩ => exact ((Reg2.dat (tc (V4 m (oB m))) c).arrAt_in 2 rfl _).trans ((Reg2.A_eq _ c 2).trans (V5_of m (outs m) c main_v16 (by decide)).symm)
  | ⟨3, _⟩ => exact ((Reg2.dat (tc (V4 m (oB m))) c).arrAt_in 3 rfl _).trans ((Reg2.A_eq _ c 3).trans (V5_of m (outs m) c main_arg18 (by decide)).symm)
  | ⟨4, _⟩ => exact ((Reg2.dat (tc (V4 m (oB m))) c).arrAt_in 4 rfl _).trans ((Reg2.A_eq _ c 4).trans (V5_of m (outs m) c main_v17 (by decide)).symm)
  | ⟨5, _⟩ => exact (outs_v18_0 m c).symm.trans (V5_v18_0 m (outs m) c).symm
  | ⟨6, _⟩ => exact (outs_v18_1 m c).symm.trans (V5_v18_1 m (outs m) c).symm

theorem hrest2 (c : Dev nD) : ∀ b, b ∉ Finset.univ.image (Pipeline.arrRef spec2) → tc (V5 m (outs m)) c b = tc (V4 m (oB m)) c b :=
  fun b hb => V5_of m (outs m) c b (fun hmem => hb (by
    rcases List.mem_cons.mp hmem with rfl | h
    · exact Finset.mem_image.mpr ⟨5, Finset.mem_univ _, rfl⟩
    · rcases List.mem_cons.mp h with rfl | h
      · exact Finset.mem_image.mpr ⟨6, Finset.mem_univ _, rfl⟩
      · exact absurd h List.not_mem_nil))

set_option backward.isDefEq.respectTransparency.types false in
/-- Region 2 over the thread state "every unscoped buffer at the stage's contents, the generator register at some
    state, nothing owed": its arrays are split out of the unscoped buffers at entry and put back, the outputs at what
    the write-backs leave, at exit; the generator register goes into the body's invariant and comes back. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (Reg2.body_obligation (tc (V4 m (oB m))) c).loose
  hwaits := Pipeline.hwaits_of_owed_zero _ _ _ _ L lv 2 fun _ _ => rfl
  pre c := iprop(StableHlo.held (c : Thread nD τ) (Pipeline.ucRefs τ sig) (V4 m (oB m) c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec2 c (tc (V4 m (oB m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (tc (V4 m (oB m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (tc (V4 m (oB m)) c) (tc (V5 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 (an attention region): three of its windows are on one array -/

theorem hF3 (c : Dev nD) (w : Fin cfg3.W) :
    (pdats m 3 c).arrAt w cfg3.N = tc (V6 m (outs m)) c (Pipeline.arrRef spec3 w) := by
  match w with
  | ⟨0, _⟩ => exact ((Reg3.dat (tc (V5 m (oC m))) c).arrAt_in 0 rfl _).trans ((Reg3.A_eq _ c 0).trans (V6_of m (outs m) c main_v18_0 (by decide)).symm)
  | ⟨1, _⟩ => exact ((Reg3.dat (tc (V5 m (oC m))) c).arrAt_in 1 rfl _).trans ((Reg3.A_eq _ c 1).trans (V6_of m (outs m) c main_v18_0 (by decide)).symm)
  | ⟨2, _⟩ => exact ((Reg3.dat (tc (V5 m (oC m))) c).arrAt_in 2 rfl _).trans ((Reg3.A_eq _ c 2).trans (V6_of m (outs m) c main_v18_0 (by decide)).symm)
  | ⟨3, _⟩ => exact ((Reg3.dat (tc (V5 m (oC m))) c).arrAt_in 3 rfl _).trans ((Reg3.A_eq _ c 3).trans (V6_of m (outs m) c main_v18_1 (by decide)).symm)
  | ⟨4, _⟩ => exact (outs_v19 m c).symm.trans (V6_v19 m (outs m) c).symm

theorem hrest3 (c : Dev nD) : ∀ b, b ∉ Finset.univ.image (Pipeline.arrRef spec3) → tc (V6 m (outs m)) c b = tc (V5 m (oC m)) c b :=
  fun b hb => V6_of m (outs m) c b (fun hmem => hb (by
    rcases List.mem_cons.mp hmem with rfl | h
    · exact Finset.mem_image.mpr ⟨4, Finset.mem_univ _, rfl⟩
    · exact absurd h List.not_mem_nil))

set_option backward.isDefEq.respectTransparency.types false in
/-- Region 3 over the same thread state. The fused projection array is read through three windows: at entry its
    buffer's full share is cut in three among them, at exit the three parts, still at the contents found, are joined
    again; the output array is put back at what the write-backs leave. -/
def reg3 : Pipeline.RegionSeg (pcfgs (F := F)) adm (pdats m) () defs₀ Variants.none L lv 3 where
  win := winFacts₀3
  block_pos := block_pos3
  stage_whole := stage_whole3
  K := PEmpty
  osem k := k.elim
  ho := Pipeline.OwnSemFacts.none _
  hbody c := (Reg3.body_obligation (tc (V5 m (oC m))) c).loose
  hwaits := Pipeline.hwaits_of_owed_zero _ _ _ _ L lv 3 fun _ _ => rfl
  pre c := iprop(StableHlo.held (c : Thread nD τ) (Pipeline.ucRefs τ sig) (V5 m (oC m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec3 c (tc (V5 m (oC m)) c)
  hentry c := by
    rw [Pipeline.ownSems0_none]
    have hsplit : (StableHlo.held (c : Thread nD τ) (Pipeline.ucRefs τ sig) (V5 m (oC m) c) : sProp 𝕄)
        ⊢ iprop((pdats m 3 c).arrays ((pdats m 3 c).arrAt · 0)
            ∗ Pipeline.unscopedRest (Ix := Unit) (Name := ℕ) (U := UR sig nD τ) (Lvl := ℕ) spec3 c (tc (V5 m (oC m)) c)) := by
      rw [← Pipeline.unscopedBufs_held, Pipeline.unscopedBufs_split₀ cfgs 3 winFacts₀3.arr_unscoped c _]
      exact sep_mono (Entails.of_eq (Reg3.arrays_eq_arrBufs (tc (V5 m (oC m))) c (tc (V5 m (oC m)) c) _ (fun w => Reg3.A_eq _ c w)).symm) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N)
          ∗ Pipeline.unscopedRest (Ix := Unit) (Name := ℕ) (U := UR sig nD τ) (Lvl := ℕ) spec3 c (tc (V5 m (oC m)) c))
        ⊢ (StableHlo.held (c : Thread nD τ) (Pipeline.ucRefs τ sig) (V6 m (outs m) c) : sProp 𝕄) := by
      rw [← Pipeline.unscopedBufs_held, Pipeline.unscopedBufs_split₀ cfgs 3 winFacts₀3.arr_unscoped c _]
      refine sep_mono (Entails.of_eq (Reg3.arrays_eq_arrBufs (tc (V5 m (oC m))) c (tc (V6 m (outs m)) c) _ (hF3 m c))) (Entails.of_eq ?_)
      unfold Pipeline.unscopedRest
      exact bigSep_congr fun b hb => by rw [← hrest3 m c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KernelIdeal.Run.lean ====
/-
  The run of @main. Every weakly fair execution from a memory `m` with zero counters terminates, nothing faulting, and
  every final memory holds, on every core, the result array at what the last attention region's write-backs leave and
  each argument array as launched. @main's items are composed in order: each host stretch and each region is entered
  from the thread state the item before it left; at the end the thread state is read against the final memory.
-/
import proofs.«118558_j17497696764591_2_alg».proof.Proof.KernelIdeal.Segs

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Beside the buffers every item's thread state carries the same rest. -/
abbrev E : Fin 5 → Dev nD → sProp 𝕄 := fun _ c => R c

/-- The result array after the run: what layer 2's attention region leaves. -/
abbrev result (c : Dev nD) : Buf (Elt F) ((c.tc : Thread nD τ).loc main_v19) := (Reg3.dat (tc (V5 m (oC m))) c).arrAt 4 cfg3.N

set_option backward.isDefEq.respectTransparency.types false in
set_option maxHeartbeats 1000000 in
theorem run : θ_run defs (onTc (τ := τ) (main (F := F))) ⟨m, fun _ => 0, ρ⟩ (fun r => ∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) := by
  have hlast : ∀ c : Dev nD, (iprop(StableHlo.held (c : Thread nD τ) (Pipeline.ucRefs τ sig) (V6 m (outs m) c) ∗ R c) : sProp 𝕄)
      ⊢ iprop(StableHlo.held (c : Thread nD τ) (Pipeline.ucRefs τ sig) (V6 m (outs m) c) ∗ ∃ W, owes (c : Thread nD τ) (0 : CellTallies nD τ sig Unit) W) := fun c => by
    iintro ⟨Hh, -, HO⟩
    isplitl [Hh]; · iexact Hh
    iexact HO
  refine Pipeline.θ_run_regions_kit_dev (pcfgs (F := F)) adm (pdats m) () cellOf_inj emb₁ defs₀ Variants.none L lv m ρ main
    (segs m (outs m) Variants.none L lv (E (F := F)) () (pdats m) (reg0 m) (reg1 m) (reg2 m) (reg3 m))
    (fun c Q => by
      rewrite [main_chain c, Seg.run_eq_chain,
        show (segs m (outs m) Variants.none L lv (E (F := F)) () (pdats m) (reg0 m) (reg1 m) (reg2 m) (reg3 m) c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()) ] from rfl]
      exact .rfl)
    (fun c => by simp only [segs, Seg.pipes_host, Seg.pipes_region, Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V6 m (outs m) c))
    (hch := fun c => ⟨.rfl, .rfl, .rfl, .rfl, .rfl, .rfl, hlast c⟩)
    (hinit := ?_) (QY := fun c s => s.mem ((c.tc : Thread nD τ).loc main_v19) = result m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17)
      ∧ s.mem ((c.tc : Thread nD τ).loc main_arg18) = m ((c.tc : Thread nD τ).loc main_arg18)
      ∧ s.mem ((c.tc : Thread nD τ).loc main_arg19) = m ((c.tc : Thread nD τ).loc main_arg19))
    (hfin := fun c s' => ?_) (hQ := fun _ h => h)
  · -- the launch: the unscoped buffers are held at the launch contents; the generator register and the core's dues ride along
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result's and each argument's buffer read off the last stage's contents
    unfold StableHlo.held
    iintro ⟨Hh, HSI⟩
    ihave Hr := (pointsTo_read_all (Pipeline.ucRefs τ sig) (fun b => ((c : Thread nD τ).1, b)) (V6 m (outs m) c) s') $$ [Hh HSI]
    · isplitl [Hh] <;> iassumption
    icases Hr with ⟨%h, HSI⟩
    imodintro
    isplitr
    · ipureintro
      exact ⟨(h (Proc.devRef .tc main_v19) (Finset.mem_filter.mpr ⟨StableHlo.devRef_mem_tcRefs main_v19, by decide⟩)).trans ((V6_v19 m (outs m) c).trans (outs_v19 m c)),
        (h (Proc.devRef .tc main_arg0) (Finset.mem_filter.mpr ⟨StableHlo.devRef_mem_tcRefs main_arg0, by decide⟩)).trans (V6_main_arg0 m (outs m) c),
        (h (Proc.devRef .tc main_arg1) (Finset.mem_filter.mpr ⟨StableHlo.devRef_mem_tcRefs main_arg1, by decide⟩)).trans (V6_main_arg1 m (outs m) c),
        (h (Proc.devRef .tc main_arg2) (Finset.mem_filter.mpr ⟨StableHlo.devRef_mem_tcRefs main_arg2, by decide⟩)).trans (V6_main_arg2 m (outs m) c),
        (h (Proc.devRef .tc main_arg3) (Finset.mem_filter.mpr ⟨StableHlo.devRef_mem_tcRefs main_arg3, by decide⟩)).trans (V6_main_arg3 m (outs m) c),
        (h (Proc.devRef .tc main_arg4) (Finset.mem_filter.mpr ⟨StableHlo.devRef_mem_tcRefs main_arg4, by decide⟩)).trans (V6_main_arg4 m (outs m) c),
        (h (Proc.devRef .tc main_arg5) (Finset.mem_filter.mpr ⟨StableHlo.devRef_mem_tcRefs main_arg5, by decide⟩)).trans (V6_main_arg5 m (outs m) c),
        (h (Proc.devRef .tc main_arg6) (Finset.mem_filter.mpr ⟨StableHlo.devRef_mem_tcRefs main_arg6, by decide⟩)).trans (V6_main_arg6 m (outs m) c),
        (h (Proc.devRef .tc main_arg7) (Finset.mem_filter.mpr ⟨StableHlo.devRef_mem_tcRefs main_arg7, by decide⟩)).trans (V6_main_arg7 m (outs m) c),
        (h (Proc.devRef .tc main_arg8) (Finset.mem_filter.mpr ⟨StableHlo.devRef_mem_tcRefs main_arg8, by decide⟩)).trans (V6_main_arg8 m (outs m) c),
        (h (Proc.devRef .tc main_arg9) (Finset.mem_filter.mpr ⟨StableHlo.devRef_mem_tcRefs main_arg9, by decide⟩)).trans (V6_main_arg9 m (outs m) c),
        (h (Proc.devRef .tc main_arg10) (Finset.mem_filter.mpr ⟨StableHlo.devRef_mem_tcRefs main_arg10, by decide⟩)).trans (V6_main_arg10 m (outs m) c),
        (h (Proc.devRef .tc main_arg11) (Finset.mem_filter.mpr ⟨StableHlo.devRef_mem_tcRefs main_arg11, by decide⟩)).trans (V6_main_arg11 m (outs m) c),
        (h (Proc.devRef .tc main_arg12) (Finset.mem_filter.mpr ⟨StableHlo.devRef_mem_tcRefs main_arg12, by decide⟩)).trans (V6_main_arg12 m (outs m) c),
        (h (Proc.devRef .tc main_arg13) (Finset.mem_filter.mpr ⟨StableHlo.devRef_mem_tcRefs main_arg13, by decide⟩)).trans (V6_main_arg13 m (outs m) c),
        (h (Proc.devRef .tc main_arg14) (Finset.mem_filter.mpr ⟨StableHlo.devRef_mem_tcRefs main_arg14, by decide⟩)).trans (V6_main_arg14 m (outs m) c),
        (h (Proc.devRef .tc main_arg15) (Finset.mem_filter.mpr ⟨StableHlo.devRef_mem_tcRefs main_arg15, by decide⟩)).trans (V6_main_arg15 m (outs m) c),
        (h (Proc.devRef .tc main_arg16) (Finset.mem_filter.mpr ⟨StableHlo.devRef_mem_tcRefs main_arg16, by decide⟩)).trans (V6_main_arg16 m (outs m) c),
        (h (Proc.devRef .tc main_arg17) (Finset.mem_filter.mpr ⟨StableHlo.devRef_mem_tcRefs main_arg17, by decide⟩)).trans (V6_main_arg17 m (outs m) c),
        (h (Proc.devRef .tc main_arg18) (Finset.mem_filter.mpr ⟨StableHlo.devRef_mem_tcRefs main_arg18, by decide⟩)).trans (V6_main_arg18 m (outs m) c),
        (h (Proc.devRef .tc main_arg19) (Finset.mem_filter.mpr ⟨StableHlo.devRef_mem_tcRefs main_arg19, by decide⟩)).trans (V6_main_arg19 m (outs m) c)⟩
    · iexact HSI

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => (h c).2) (run m ρ)

end Cert.KernelIdeal.Run

end
-- ==== Proof.RefOps.lean ====
/-
  The reference program's @main as one straight line of host operations.

  @main is printed in two windows (`main_part0`, `main_part1`) and calls three outlined functions: `@norm` twice
  (the row norms of the dead cosine-similarity value), and `@elu` once, which itself calls `@_where` and `@_where_0`.
  A call executes the callee's body on the operands, each value of the body in the buffer the call's record names
  (`main_call0`, `main_call1`, `main_call2` with its nested `main_call2_call0`, `main_call2_call1`), so the whole
  program is the list `ops` below: @main's own 84 operations with the callees' operations listed at their call sites —
  five per `@norm`, fifteen for `@elu` (its own eleven, `@_where`'s three, `@_where_0`'s one) — 109 in all.
  Operation k writes TensorCore buffer 20 + k, and nothing writes an argument buffer (0 … 19).

  `main_eq`: @main is `seq ops`. `run_main`: from any memory with zero counters every weakly fair execution of
  @main terminates and each TensorCore buffer ends at the fold of the operations over the launch contents.
-/
import proofs.«118558_j17497696764591_2_alg».proof.Defs
import proofs.«118558_j17497696764591_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 109 operations in order, the calls' bodies at their call sites over the calls' buffers. -/
abbrev ops : List (HloOp τ sig (Elt F)) :=
  [ binary main_arg0 main_arg2 main_v0 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    binary main_arg0 main_arg3 main_v1 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    binary main_v0 main_v0 main_call0_v0 (mulf : (⟨S8192x128, .f32⟩ : BufTy).Contents (Elt F) → (⟨S8192x128, .f32⟩ : BufTy).Contents (Elt F) → (⟨S8192x128, .f32⟩ : BufTy).Contents (Elt F)),
    nullary main_call0_cst (constant S_ .f32 0x00000000#32),
    binary main_call0_v0 main_call0_cst main_call0_v1 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    unary main_call0_v1 main_call0_v2 (broadcastInDim S8192x1 ![0] bcast_S8192_S8192x1_0 : (⟨S8192, .f32⟩ : BufTy).Contents (Elt F) → (⟨S8192x1, .f32⟩ : BufTy).Contents (Elt F)),
    unary main_call0_v2 main_v2 (Host.sqrt : (⟨S8192x1, .f32⟩ : BufTy).Contents (Elt F) → (⟨S8192x1, .f32⟩ : BufTy).Contents (Elt F)),
    binary main_v1 main_v1 main_call1_v0 (mulf : (⟨S8192x128, .f32⟩ : BufTy).Contents (Elt F) → (⟨S8192x128, .f32⟩ : BufTy).Contents (Elt F) → (⟨S8192x128, .f32⟩ : BufTy).Contents (Elt F)),
    nullary main_call1_cst (constant S_ .f32 0x00000000#32),
    binary main_call1_v0 main_call1_cst main_call1_v1 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    unary main_call1_v1 main_call1_v2 (broadcastInDim S8192x1 ![0] bcast_S8192_S8192x1_0 : (⟨S8192, .f32⟩ : BufTy).Contents (Elt F) → (⟨S8192x1, .f32⟩ : BufTy).Contents (Elt F)),
    unary main_call1_v2 main_v3 (Host.sqrt : (⟨S8192x1, .f32⟩ : BufTy).Contents (Elt F) → (⟨S8192x1, .f32⟩ : BufTy).Contents (Elt F)),
    unary main_v1 main_v4 ((transpose S128x8192 [1, 0] · transposes_S8192x128_S128x8192_1_0) : (⟨S8192x128, .f32⟩ : BufTy).Contents (Elt F) → (⟨S128x8192, .f32⟩ : BufTy).Contents (Elt F)),
    binary main_v0 main_v4 main_v5 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    unary main_v3 main_v6 ((transpose S1x8192 [1, 0] · transposes_S8192x1_S1x8192_1_0) : (⟨S8192x1, .f32⟩ : BufTy).Contents (Elt F) → (⟨S1x8192, .f32⟩ : BufTy).Contents (Elt F)),
    binary main_v2 main_v6 main_v7 ((fun l r => Host.dotGeneral dot_S8192x1_S1x8192_S8192x8192_1_0_0_1_n_n none l r) : (⟨S8192x1, .f32⟩ : BufTy).Contents (Elt F) → (⟨S1x8192, .f32⟩ : BufTy).Contents (Elt F) → (⟨S8192x8192, .f32⟩ : BufTy).Contents (Elt F)),
    nullary main_cst (constant S_ .f32 0x1E3CE508#32),
    unary main_cst main_v8 (broadcastInDim S8192x8192 ![] bcast_S_S8192x8192 : (⟨S_, .f32⟩ : BufTy).Contents (Elt F) → (⟨S8192x8192, .f32⟩ : BufTy).Contents (Elt F)),
    binary main_v7 main_v8 main_v9 (addf : (⟨S8192x8192, .f32⟩ : BufTy).Contents (Elt F) → (⟨S8192x8192, .f32⟩ : BufTy).Contents (Elt F) → (⟨S8192x8192, .f32⟩ : BufTy).Contents (Elt F)),
    binary main_v5 main_v9 main_v10 (Host.divf : (⟨S8192x8192, .f32⟩ : BufTy).Contents (Elt F) → (⟨S8192x8192, .f32⟩ : BufTy).Contents (Elt F) → (⟨S8192x8192, .f32⟩ : BufTy).Contents (Elt F)),
    binary main_arg0 main_arg4 main_v11 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    unary main_arg5 main_v12 (broadcastInDim S1x128 ![1] bcast_S128_S1x128_1 : (⟨S128, .f32⟩ : BufTy).Contents (Elt F) → (⟨S1x128, .f32⟩ : BufTy).Contents (Elt F)),
    unary main_v12 main_v13 (broadcastInDim S8192x128 ![0, 1] bcast_S1x128_S8192x128_0_1 : (⟨S1x128, .f32⟩ : BufTy).Contents (Elt F) → (⟨S8192x128, .f32⟩ : BufTy).Contents (Elt F)),
    binary main_v11 main_v13 main_v14 (addf : (⟨S8192x128, .f32⟩ : BufTy).Contents (Elt F) → (⟨S8192x128, .f32⟩ : BufTy).Contents (Elt F) → (⟨S8192x128, .f32⟩ : BufTy).Contents (Elt F)),
    binary main_arg0 main_arg6 main_v15 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    unary main_arg7 main_v16 (broadcastInDim S1x128 ![1] bcast_S128_S1x128_1 : (⟨S128, .f32⟩ : BufTy).Contents (Elt F) → (⟨S1x128, .f32⟩ : BufTy).Contents (Elt F)),
    unary main_v16 main_v17 (broadcastInDim S8192x128 ![0, 1] bcast_S1x128_S8192x128_0_1 : (⟨S1x128, .f32⟩ : BufTy).Contents (Elt F) → (⟨S8192x128, .f32⟩ : BufTy).Contents (Elt F)),
    binary main_v15 main_v17 main_v18 (addf : (⟨S8192x128, .f32⟩ : BufTy).Contents (Elt F) → (⟨S8192x128, .f32⟩ : BufTy).Contents (Elt F) → (⟨S8192x128, .f32⟩ : BufTy).Contents (Elt F)),
    binary main_arg0 main_arg8 main_v19 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    unary main_arg9 main_v20 (broadcastInDim S1x128 ![1] bcast_S128_S1x128_1 : (⟨S128, .f32⟩ : BufTy).Contents (Elt F) → (⟨S1x128, .f32⟩ : BufTy).Contents (Elt F)),
    unary main_v20 main_v21 (broadcastInDim S8192x128 ![0, 1] bcast_S1x128_S8192x128_0_1 : (⟨S1x128, .f32⟩ : BufTy).Contents (Elt F) → (⟨S8192x128, .f32⟩ : BufTy).Contents (Elt F)),
    binary main_v19 main_v21 main_v22 (addf : (⟨S8192x128, .f32⟩ : BufTy).Contents (Elt F) → (⟨S8192x128, .f32⟩ : BufTy).Contents (Elt F) → (⟨S8192x128, .f32⟩ : BufTy).Contents (Elt F)),
    unary main_v18 main_v23 ((transpose S128x8192 [1, 0] · transposes_S8192x128_S128x8192_1_0) : (⟨S8192x128, .f32⟩ : BufTy).Contents (Elt F) → (⟨S128x8192, .f32⟩ : BufTy).Contents (Elt F)),
    binary main_v14 main_v23 main_v24 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    nullary main_cst_0 (constant S_ .f32 0x3DB504F3#32),
    unary main_cst_0 main_v25 (broadcastInDim S8192x8192 ![] bcast_S_S8192x8192 : (⟨S_, .f32⟩ : BufTy).Contents (Elt F) → (⟨S8192x8192, .f32⟩ : BufTy).Contents (Elt F)),
    binary main_v24 main_v25 main_v26 (mulf : (⟨S8192x8192, .f32⟩ : BufTy).Contents (Elt F) → (⟨S8192x8192, .f32⟩ : BufTy).Contents (Elt F) → (⟨S8192x8192, .f32⟩ : BufTy).Contents (Elt F)),
    nullary main_cst_1 (constant S_ .f32 0xFF800000#32),
    binary main_v26 main_cst_1 main_v27 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_2 (constant S_ .f32 0xFF800000#32),
    unary main_cst_2 main_v28 (broadcastInDim S8192 ![] bcast_S_S8192 : (⟨S_, .f32⟩ : BufTy).Contents (Elt F) → (⟨S8192, .f32⟩ : BufTy).Contents (Elt F)),
    binary main_v28 main_v27 main_v29 (maximumf : (⟨S8192, .f32⟩ : BufTy).Contents (Elt F) → (⟨S8192, .f32⟩ : BufTy).Contents (Elt F) → (⟨S8192, .f32⟩ : BufTy).Contents (Elt F)),
    unary main_v29 main_v30 (broadcastInDim S8192x1 ![0] bcast_S8192_S8192x1_0 : (⟨S8192, .f32⟩ : BufTy).Contents (Elt F) → (⟨S8192x1, .f32⟩ : BufTy).Contents (Elt F)),
    unary main_v30 main_v31 (broadcastInDim S8192x8192 ![0, 1] bcast_S8192x1_S8192x8192_0_1 : (⟨S8192x1, .f32⟩ : BufTy).Contents (Elt F) → (⟨S8192x8192, .f32⟩ : BufTy).Contents (Elt F)),
    binary main_v26 main_v31 main_v32 (subf : (⟨S8192x8192, .f32⟩ : BufTy).Contents (Elt F) → (⟨S8192x8192, .f32⟩ : BufTy).Contents (Elt F) → (⟨S8192x8192, .f32⟩ : BufTy).Contents (Elt F)),
    unary main_v32 main_v33 (Host.exp : (⟨S8192x8192, .f32⟩ : BufTy).Contents (Elt F) → (⟨S8192x8192, .f32⟩ : BufTy).Contents (Elt F)),
    nullary main_cst_3 (constant S_ .f32 0x00000000#32),
    binary main_v33 main_cst_3 main_v34 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v34 main_v35 (broadcastInDim S8192x1 ![0] bcast_S8192_S8192x1_0 : (⟨S8192, .f32⟩ : BufTy).Contents (Elt F) → (⟨S8192x1, .f32⟩ : BufTy).Contents (Elt F)),
    unary main_v35 main_v36 (broadcastInDim S8192x8192 ![0, 1] bcast_S8192x1_S8192x8192_0_1 : (⟨S8192x1, .f32⟩ : BufTy).Contents (Elt F) → (⟨S8192x8192, .f32⟩ : BufTy).Contents (Elt F)),
    binary main_v33 main_v36 main_v37 (Host.divf : (⟨S8192x8192, .f32⟩ : BufTy).Contents (Elt F) → (⟨S8192x8192, .f32⟩ : BufTy).Contents (Elt F) → (⟨S8192x8192, .f32⟩ : BufTy).Contents (Elt F)),
    binary main_v37 main_v22 main_v38 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    binary main_arg0 main_arg10 main_v39 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    unary main_arg11 main_v40 (broadcastInDim S1x128 ![1] bcast_S128_S1x128_1 : (⟨S128, .f32⟩ : BufTy).Contents (Elt F) → (⟨S1x128, .f32⟩ : BufTy).Contents (Elt F)),
    unary main_v40 main_v41 (broadcastInDim S8192x128 ![0, 1] bcast_S1x128_S8192x128_0_1 : (⟨S1x128, .f32⟩ : BufTy).Contents (Elt F) → (⟨S8192x128, .f32⟩ : BufTy).Contents (Elt F)),
    binary main_v39 main_v41 main_v42 (addf : (⟨S8192x128, .f32⟩ : BufTy).Contents (Elt F) → (⟨S8192x128, .f32⟩ : BufTy).Contents (Elt F) → (⟨S8192x128, .f32⟩ : BufTy).Contents (Elt F)),
    binary main_v38 main_v42 main_v43 (addf : (⟨S8192x128, .f32⟩ : BufTy).Contents (Elt F) → (⟨S8192x128, .f32⟩ : BufTy).Contents (Elt F) → (⟨S8192x128, .f32⟩ : BufTy).Contents (Elt F)),
    nullary main_call2_cst (constant S_ .f32 0x00000000#32),
    unary main_call2_cst main_call2_v0 (broadcastInDim S8192x128 ![] bcast_S_S8192x128 : (⟨S_, .f32⟩ : BufTy).Contents (Elt F) → (⟨S8192x128, .f32⟩ : BufTy).Contents (Elt F)),
    binary main_v43 main_call2_v0 main_call2_v1 (cmpf .ogt : (⟨S8192x128, .f32⟩ : BufTy).Contents (Elt F) → (⟨S8192x128, .f32⟩ : BufTy).Contents (Elt F) → (⟨S8192x128, .i1⟩ : BufTy).Contents (Elt F)),
    nullary main_call2_cst_0 (constant S_ .f32 0x00000000#32),
    unary main_call2_cst_0 main_call2_v2 (broadcastInDim S8192x128 ![] bcast_S_S8192x128 : (⟨S_, .f32⟩ : BufTy).Contents (Elt F) → (⟨S8192x128, .f32⟩ : BufTy).Contents (Elt F)),
    binary main_v43 main_call2_v2 main_call2_v3 (cmpf .ogt : (⟨S8192x128, .f32⟩ : BufTy).Contents (Elt F) → (⟨S8192x128, .f32⟩ : BufTy).Contents (Elt F) → (⟨S8192x128, .i1⟩ : BufTy).Contents (Elt F)),
    nullary main_call2_cst_1 (constant S_ .f32 0x00000000#32),
    unary main_call2_cst_1 main_call2_call0_v0 (id : (⟨S_, .f32⟩ : BufTy).Contents (Elt F) → (⟨S_, .f32⟩ : BufTy).Contents (Elt F)),
    unary main_call2_call0_v0 main_call2_call0_v1 (broadcastInDim S8192x128 ![] bcast_S_S8192x128 : (⟨S_, .f32⟩ : BufTy).Contents (Elt F) → (⟨S8192x128, .f32⟩ : BufTy).Contents (Elt F)),
    ternary main_call2_v3 main_call2_call0_v1 main_v43 main_call2_v4 (select : (⟨S8192x128, .i1⟩ : BufTy).Contents (Elt F) → (⟨S8192x128, .f32⟩ : BufTy).Contents (Elt F) → (⟨S8192x128, .f32⟩ : BufTy).Contents (Elt F) → (⟨S8192x128, .f32⟩ : BufTy).Contents (Elt F)),
    unary main_call2_v4 main_call2_v5 (Host.expm1 : (⟨S8192x128, .f32⟩ : BufTy).Contents (Elt F) → (⟨S8192x128, .f32⟩ : BufTy).Contents (Elt F)),
    nullary main_call2_cst_2 (constant S_ .f32 0x3F800000#32),
    unary main_call2_cst_2 main_call2_v6 (broadcastInDim S8192x128 ![] bcast_S_S8192x128 : (⟨S_, .f32⟩ : BufTy).Contents (Elt F) → (⟨S8192x128, .f32⟩ : BufTy).Contents (Elt F)),
    binary main_call2_v6 main_call2_v5 main_call2_v7 (mulf : (⟨S8192x128, .f32⟩ : BufTy).Contents (Elt F) → (⟨S8192x128, .f32⟩ : BufTy).Contents (Elt F) → (⟨S8192x128, .f32⟩ : BufTy).Contents (Elt F)),
    ternary main_call2_v1 main_v43 main_call2_v7 main_v44 (select : (⟨S8192x128, .i1⟩ : BufTy).Contents (Elt F) → (⟨S8192x128, .f32⟩ : BufTy).Contents (Elt F) → (⟨S8192x128, .f32⟩ : BufTy).Contents (Elt F) → (⟨S8192x128, .f32⟩ : BufTy).Contents (Elt F)),
    binary main_v44 main_arg12 main_v45 ((fun l r => Host.dotGeneral dot_S8192x128_S128x256_S8192x256_1_0_0_1_n_n none l r) : (⟨S8192x128, .f32⟩ : BufTy).Contents (Elt F) → (⟨S128x256, .f32⟩ : BufTy).Contents (Elt F) → (⟨S8192x256, .f32⟩ : BufTy).Contents (Elt F)),
    unary main_arg13 main_v46 (broadcastInDim S1x256 ![1] bcast_S256_S1x256_1 : (⟨S256, .f32⟩ : BufTy).Contents (Elt F) → (⟨S1x256, .f32⟩ : BufTy).Contents (Elt F)),
    unary main_v46 main_v47 (broadcastInDim S8192x256 ![0, 1] bcast_S1x256_S8192x256_0_1 : (⟨S1x256, .f32⟩ : BufTy).Contents (Elt F) → (⟨S8192x256, .f32⟩ : BufTy).Contents (Elt F)),
    binary main_v45 main_v47 main_v48 (addf : (⟨S8192x256, .f32⟩ : BufTy).Contents (Elt F) → (⟨S8192x256, .f32⟩ : BufTy).Contents (Elt F) → (⟨S8192x256, .f32⟩ : BufTy).Contents (Elt F)),
    binary main_v44 main_arg14 main_v49 ((fun l r => Host.dotGeneral dot_S8192x128_S128x256_S8192x256_1_0_0_1_n_n none l r) : (⟨S8192x128, .f32⟩ : BufTy).Contents (Elt F) → (⟨S128x256, .f32⟩ : BufTy).Contents (Elt F) → (⟨S8192x256, .f32⟩ : BufTy).Contents (Elt F)),
    unary main_arg15 main_v50 (broadcastInDim S1x256 ![1] bcast_S256_S1x256_1 : (⟨S256, .f32⟩ : BufTy).Contents (Elt F) → (⟨S1x256, .f32⟩ : BufTy).Contents (Elt F)),
    unary main_v50 main_v51 (broadcastInDim S8192x256 ![0, 1] bcast_S1x256_S8192x256_0_1 : (⟨S1x256, .f32⟩ : BufTy).Contents (Elt F) → (⟨S8192x256, .f32⟩ : BufTy).Contents (Elt F)),
    binary main_v49 main_v51 main_v52 (addf : (⟨S8192x256, .f32⟩ : BufTy).Contents (Elt F) → (⟨S8192x256, .f32⟩ : BufTy).Contents (Elt F) → (⟨S8192x256, .f32⟩ : BufTy).Contents (Elt F)),
    binary main_v44 main_arg16 main_v53 ((fun l r => Host.dotGeneral dot_S8192x128_S128x256_S8192x256_1_0_0_1_n_n none l r) : (⟨S8192x128, .f32⟩ : BufTy).Contents (Elt F) → (⟨S128x256, .f32⟩ : BufTy).Contents (Elt F) → (⟨S8192x256, .f32⟩ : BufTy).Contents (Elt F)),
    unary main_arg17 main_v54 (broadcastInDim S1x256 ![1] bcast_S256_S1x256_1 : (⟨S256, .f32⟩ : BufTy).Contents (Elt F) → (⟨S1x256, .f32⟩ : BufTy).Contents (Elt F)),
    unary main_v54 main_v55 (broadcastInDim S8192x256 ![0, 1] bcast_S1x256_S8192x256_0_1 : (⟨S1x256, .f32⟩ : BufTy).Contents (Elt F) → (⟨S8192x256, .f32⟩ : BufTy).Contents (Elt F)),
    binary main_v53 main_v55 main_v56 (addf : (⟨S8192x256, .f32⟩ : BufTy).Contents (Elt F) → (⟨S8192x256, .f32⟩ : BufTy).Contents (Elt F) → (⟨S8192x256, .f32⟩ : BufTy).Contents (Elt F)),
    unary main_v52 main_v57 ((transpose S256x8192 [1, 0] · transposes_S8192x256_S256x8192_1_0) : (⟨S8192x256, .f32⟩ : BufTy).Contents (Elt F) → (⟨S256x8192, .f32⟩ : BufTy).Contents (Elt F)),
    binary main_v48 main_v57 main_v58 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst_4 (constant S_ .f32 0x3D800000#32),
    unary main_cst_4 main_v59 (broadcastInDim S8192x8192 ![] bcast_S_S8192x8192 : (⟨S_, .f32⟩ : BufTy).Contents (Elt F) → (⟨S8192x8192, .f32⟩ : BufTy).Contents (Elt F)),
    binary main_v58 main_v59 main_v60 (mulf : (⟨S8192x8192, .f32⟩ : BufTy).Contents (Elt F) → (⟨S8192x8192, .f32⟩ : BufTy).Contents (Elt F) → (⟨S8192x8192, .f32⟩ : BufTy).Contents (Elt F)),
    nullary main_cst_5 (constant S_ .f32 0xFF800000#32),
    binary main_v60 main_cst_5 main_v61 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_6 (constant S_ .f32 0xFF800000#32),
    unary main_cst_6 main_v62 (broadcastInDim S8192 ![] bcast_S_S8192 : (⟨S_, .f32⟩ : BufTy).Contents (Elt F) → (⟨S8192, .f32⟩ : BufTy).Contents (Elt F)),
    binary main_v62 main_v61 main_v63 (maximumf : (⟨S8192, .f32⟩ : BufTy).Contents (Elt F) → (⟨S8192, .f32⟩ : BufTy).Contents (Elt F) → (⟨S8192, .f32⟩ : BufTy).Contents (Elt F)),
    unary main_v63 main_v64 (broadcastInDim S8192x1 ![0] bcast_S8192_S8192x1_0 : (⟨S8192, .f32⟩ : BufTy).Contents (Elt F) → (⟨S8192x1, .f32⟩ : BufTy).Contents (Elt F)),
    unary main_v64 main_v65 (broadcastInDim S8192x8192 ![0, 1] bcast_S8192x1_S8192x8192_0_1 : (⟨S8192x1, .f32⟩ : BufTy).Contents (Elt F) → (⟨S8192x8192, .f32⟩ : BufTy).Contents (Elt F)),
    binary main_v60 main_v65 main_v66 (subf : (⟨S8192x8192, .f32⟩ : BufTy).Contents (Elt F) → (⟨S8192x8192, .f32⟩ : BufTy).Contents (Elt F) → (⟨S8192x8192, .f32⟩ : BufTy).Contents (Elt F)),
    unary main_v66 main_v67 (Host.exp : (⟨S8192x8192, .f32⟩ : BufTy).Contents (Elt F) → (⟨S8192x8192, .f32⟩ : BufTy).Contents (Elt F)),
    nullary main_cst_7 (constant S_ .f32 0x00000000#32),
    binary main_v67 main_cst_7 main_v68 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v68 main_v69 (broadcastInDim S8192x1 ![0] bcast_S8192_S8192x1_0 : (⟨S8192, .f32⟩ : BufTy).Contents (Elt F) → (⟨S8192x1, .f32⟩ : BufTy).Contents (Elt F)),
    unary main_v69 main_v70 (broadcastInDim S8192x8192 ![0, 1] bcast_S8192x1_S8192x8192_0_1 : (⟨S8192x1, .f32⟩ : BufTy).Contents (Elt F) → (⟨S8192x8192, .f32⟩ : BufTy).Contents (Elt F)),
    binary main_v67 main_v70 main_v71 (Host.divf : (⟨S8192x8192, .f32⟩ : BufTy).Contents (Elt F) → (⟨S8192x8192, .f32⟩ : BufTy).Contents (Elt F) → (⟨S8192x8192, .f32⟩ : BufTy).Contents (Elt F)),
    binary main_v71 main_v56 main_v72 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    binary main_v44 main_arg18 main_v73 ((fun l r => Host.dotGeneral dot_S8192x128_S128x256_S8192x256_1_0_0_1_n_n none l r) : (⟨S8192x128, .f32⟩ : BufTy).Contents (Elt F) → (⟨S128x256, .f32⟩ : BufTy).Contents (Elt F) → (⟨S8192x256, .f32⟩ : BufTy).Contents (Elt F)),
    unary main_arg19 main_v74 (broadcastInDim S1x256 ![1] bcast_S256_S1x256_1 : (⟨S256, .f32⟩ : BufTy).Contents (Elt F) → (⟨S1x256, .f32⟩ : BufTy).Contents (Elt F)),
    unary main_v74 main_v75 (broadcastInDim S8192x256 ![0, 1] bcast_S1x256_S8192x256_0_1 : (⟨S1x256, .f32⟩ : BufTy).Contents (Elt F) → (⟨S8192x256, .f32⟩ : BufTy).Contents (Elt F)),
    binary main_v73 main_v75 main_v76 (addf : (⟨S8192x256, .f32⟩ : BufTy).Contents (Elt F) → (⟨S8192x256, .f32⟩ : BufTy).Contents (Elt F) → (⟨S8192x256, .f32⟩ : BufTy).Contents (Elt F)),
    binary main_v72 main_v76 main_v77 (addf : (⟨S8192x256, .f32⟩ : BufTy).Contents (Elt F) → (⟨S8192x256, .f32⟩ : BufTy).Contents (Elt F) → (⟨S8192x256, .f32⟩ : BufTy).Contents (Elt F)) ]

-- one hundred and nine binds re-associated: the rewrite under the chain recurses once per statement
set_option maxRecDepth 8192 in
set_option maxHeartbeats 4000000 in
/-- @main is that straight line: the two windows in order, the functions' definitions unfolded at their calls and
    the calls' records at their fields; both sides are then one chain of `hlo` steps once sequencing is
    reassociated, and the typed references' casts are the identity at these literal references. -/
theorem main_eq (c : Dev nD) : main (F := F) c = seq ops := by
  simp only [main, main_part0, main_part1, fn_norm.body, fn_elu.body, fn_where.body, fn_where_0.body, seq, bind_assoc,
    pure_bind]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only. -/
theorem ops_sub : (ops : List (HloOp τ sig (Elt F))).Forall fun op => op.bufs ⊆ tcRefs τ sig :=
  ⟨binary_bufs_sub .., binary_bufs_sub .., binary_bufs_sub .., nullary_bufs_sub .., binary_bufs_sub .., unary_bufs_sub ..,
    unary_bufs_sub .., binary_bufs_sub .., nullary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., binary_bufs_sub .., unary_bufs_sub .., unary_bufs_sub .., binary_bufs_sub ..,
    binary_bufs_sub .., unary_bufs_sub .., unary_bufs_sub .., binary_bufs_sub .., binary_bufs_sub .., unary_bufs_sub ..,
    unary_bufs_sub .., binary_bufs_sub .., unary_bufs_sub .., binary_bufs_sub .., nullary_bufs_sub .., unary_bufs_sub ..,
    binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub .., binary_bufs_sub .., binary_bufs_sub .., unary_bufs_sub ..,
    unary_bufs_sub .., binary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..,
    binary_bufs_sub .., unary_bufs_sub .., unary_bufs_sub .., binary_bufs_sub .., binary_bufs_sub .., unary_bufs_sub ..,
    unary_bufs_sub .., binary_bufs_sub .., binary_bufs_sub .., unary_bufs_sub .., unary_bufs_sub .., binary_bufs_sub ..,
    unary_bufs_sub .., binary_bufs_sub .., nullary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., binary_bufs_sub .., binary_bufs_sub .., unary_bufs_sub .., unary_bufs_sub .., binary_bufs_sub ..,
    binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRun.lean ====
/-
  The reference program's run, read back as one function of its argument arrays.

  The program is two attention layers on a dense graph with an ELU between them. One layer, for an input `h`, weights
  `Wq, Wk, Wv, Ws` and biases `bq, bk, bv, bs`:  `q = h·Wq + bq`, `k = h·Wk + bk`, `v = h·Wv + bv`;
  `s = (q·kᵀ)·c` with `c` the layer's scale literal; `mx = max(-∞, rowmax s)`; `p = exp(s - mx)`; `l = 0 + rowsum p`;
  the layer's value is `(p / l)·v + (h·Ws + bs)`. The definitions below name these stages (`lin`, `scores`, `rowMax`,
  `expShift`, `rowSum`, `softmax`, `tconv`), once per layer where the shapes differ (layer 1 maps 256 columns to 128,
  layer 2 maps 128 to 256), and `refOut` is layer 2 of `elu` of layer 1. The program also computes a cosine-similarity
  matrix from `x` and two further weights that nothing reads: it runs (its operations are in `ops`) and is absent from `refOut`.

  `run`: from any memory with zero counters every weakly fair execution of @main terminates with the result buffer at
  `refOut` of the argument arrays and every argument array unchanged. `frame_ri` is the frame claim, from `run`.
-/
import proofs.«118558_j17497696764591_2_alg».proof.Proof.RefOps
import proofs.«118558_j17497696764591_2_alg».proof.Proof.Gen.Pre_finite_inputs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- `h·W + b` in layer 1: the product with a 256 × 128 weight, the bias a row added to every row. -/
def lin1 (h : FVec F S8192x256 .f32) (W : FVec F S256x128 .f32) (b : FVec F S128 .f32) : FVec F S8192x128 .f32 :=
  addf (Host.dotGeneral dot_S8192x256_S256x128_S8192x128_1_0_0_1_n_n none h W)
    (broadcastInDim S8192x128 ![0, 1] bcast_S1x128_S8192x128_0_1 (broadcastInDim S1x128 ![1] bcast_S128_S1x128_1 b))

/-- `h·W + b` in layer 2: the product with a 128 × 256 weight, the bias a row added to every row. -/
def lin2 (h : FVec F S8192x128 .f32) (W : FVec F S128x256 .f32) (b : FVec F S256 .f32) : FVec F S8192x256 .f32 :=
  addf (Host.dotGeneral dot_S8192x128_S128x256_S8192x256_1_0_0_1_n_n none h W)
    (broadcastInDim S8192x256 ![0, 1] bcast_S1x256_S8192x256_0_1 (broadcastInDim S1x256 ![1] bcast_S256_S1x256_1 b))

/-- Layer 1's scores `(q·kᵀ)·c`, `c` the f32 literal of `1/√128`. -/
def scores1 (q k : FVec F S8192x128 .f32) : FVec F S8192x8192 .f32 :=
  mulf (Host.dotGeneral dot_S8192x128_S128x8192_S8192x8192_1_0_0_1_n_n none q
      (transpose S128x8192 [1, 0] k transposes_S8192x128_S128x8192_1_0))
    (broadcastInDim S8192x8192 ![] bcast_S_S8192x8192 (constant S_ .f32 0x3DB504F3#32))

/-- Layer 2's scores `(q·kᵀ)·c`, `c` the f32 literal of `1/√256 = 1/16`. -/
def scores2 (q k : FVec F S8192x256 .f32) : FVec F S8192x8192 .f32 :=
  mulf (Host.dotGeneral dot_S8192x256_S256x8192_S8192x8192_1_0_0_1_n_n none q
      (transpose S256x8192 [1, 0] k transposes_S8192x256_S256x8192_1_0))
    (broadcastInDim S8192x8192 ![] bcast_S_S8192x8192 (constant S_ .f32 0x3D800000#32))

/-- A column, one entry per row, as the square matrix constant along each row. -/
def spread (r : FVec F S8192 .f32) : FVec F S8192x8192 .f32 :=
  broadcastInDim S8192x8192 ![0, 1] bcast_S8192x1_S8192x8192_0_1 (broadcastInDim S8192x1 ![0] bcast_S8192_S8192x1_0 r)

/-- `max(-∞, rowmax s)`: each row's maximum, folded from `-∞`, then taken against `-∞` once more. -/
def rowMax (s : FVec F S8192x8192 .f32) : FVec F S8192 .f32 :=
  maximumf (broadcastInDim S8192 ![] bcast_S_S8192 (constant S_ .f32 0xFF800000#32))
    (Host.reduce FloatOps.maximumf s (constant S_ .f32 0xFF800000#32) reducesTo_S8192x8192_S8192_d1 h_S_)

/-- `exp(s - max)`, the row's maximum subtracted from each of its entries. -/
def expShift (s : FVec F S8192x8192 .f32) : FVec F S8192x8192 .f32 :=
  Host.exp (subf s (spread (rowMax s)))

/-- `0 + rowsum p`: each row's sum, from the initial value `0`. -/
def rowSum (p : FVec F S8192x8192 .f32) : FVec F S8192 .f32 :=
  Host.reduceAdd p (constant S_ .f32 0x00000000#32) reducesTo_S8192x8192_S8192_d1 h_S_

/-- The row-wise softmax as the program computes it: `exp(s - max)` divided by its row sums. -/
def softmax (s : FVec F S8192x8192 .f32) : FVec F S8192x8192 .f32 :=
  Host.divf (expShift s) (spread (rowSum (expShift s)))

/-- Layer 1: `softmax((q·kᵀ)·c)·v + (h·Ws + bs)`. -/
def tconv1 (h : FVec F S8192x256 .f32) (Wq : FVec F S256x128 .f32) (bq : FVec F S128 .f32) (Wk : FVec F S256x128 .f32)
    (bk : FVec F S128 .f32) (Wv : FVec F S256x128 .f32) (bv : FVec F S128 .f32) (Ws : FVec F S256x128 .f32)
    (bs : FVec F S128 .f32) : FVec F S8192x128 .f32 :=
  addf (Host.dotGeneral dot_S8192x8192_S8192x128_S8192x128_1_0_0_1_n_n none
      (softmax (scores1 (lin1 h Wq bq) (lin1 h Wk bk))) (lin1 h Wv bv))
    (lin1 h Ws bs)

/-- Layer 2: `softmax((q·kᵀ)·c)·v + (h·Ws + bs)`. -/
def tconv2 (h : FVec F S8192x128 .f32) (Wq : FVec F S128x256 .f32) (bq : FVec F S256 .f32) (Wk : FVec F S128x256 .f32)
    (bk : FVec F S256 .f32) (Wv : FVec F S128x256 .f32) (bv : FVec F S256 .f32) (Ws : FVec F S128x256 .f32)
    (bs : FVec F S256 .f32) : FVec F S8192x256 .f32 :=
  addf (Host.dotGeneral dot_S8192x8192_S8192x256_S8192x256_1_0_0_1_n_n none
      (softmax (scores2 (lin2 h Wq bq) (lin2 h Wk bk))) (lin2 h Wv bv))
    (lin2 h Ws bs)

/-- The all-zero 8192 × 128 matrix the comparisons are against. -/
def zeros : FVec F S8192x128 .f32 := broadcastInDim S8192x128 ![] bcast_S_S8192x128 (constant S_ .f32 0x00000000#32)

/-- ELU as the program computes it: `h` where `h > 0`, elsewhere `1 · expm1(h')` with `h'` the entry itself where it is
    not positive and `0` where it is. -/
def elu (h : FVec F S8192x128 .f32) : FVec F S8192x128 .f32 :=
  select (cmpf .ogt h zeros) h
    (mulf (broadcastInDim S8192x128 ![] bcast_S_S8192x128 (constant S_ .f32 0x3F800000#32))
      (Host.expm1 (select (cmpf .ogt h zeros) zeros h)))

/-- What the program returns, as a function of the seventeen argument arrays it reads: layer 2 of `elu` of layer 1. -/
def refOut (x : FVec F S8192x256 .f32)
    (Wq1 : FVec F S256x128 .f32) (bq1 : FVec F S128 .f32) (Wk1 : FVec F S256x128 .f32) (bk1 : FVec F S128 .f32)
    (Wv1 : FVec F S256x128 .f32) (bv1 : FVec F S128 .f32) (Ws1 : FVec F S256x128 .f32) (bs1 : FVec F S128 .f32)
    (Wq2 : FVec F S128x256 .f32) (bq2 : FVec F S256 .f32) (Wk2 : FVec F S128x256 .f32) (bk2 : FVec F S256 .f32)
    (Wv2 : FVec F S128x256 .f32) (bv2 : FVec F S256 .f32) (Ws2 : FVec F S128x256 .f32) (bs2 : FVec F S256 .f32) :
    FVec F S8192x256 .f32 :=
  tconv2 (elu (tconv1 x Wq1 bq1 Wk1 bk1 Wv1 bv1 Ws1 bs1)) Wq2 bq2 Wk2 bk2 Wv2 bv2 Ws2 bs2

/-! ## The run -/

set_option maxRecDepth 8192 in
set_option maxHeartbeats 4000000 in
/-- The fold at the result buffer is `refOut` of the launch contents of the argument buffers: each operation's result
    at its own buffer is its function's value and at any other buffer what was there, and the composed term is
    `refOut` with its stages unfolded. -/
theorem out_eq (V : Valuation τ sig (Elt F)) :
    after ops V (main_v77 : DevRef τ sig)
      = refOut (V (main_arg0 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) := by
  after_results_simp
  rfl

/-! ### The arguments

No operation writes an argument buffer: the fold leaves each at its launch contents. -/

set_option maxRecDepth 8192 in
section
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp
theorem arg6_eq (V : Valuation τ sig (Elt F)) : after ops V (main_arg6 : DevRef τ sig) = V (main_arg6 : DevRef τ sig) := by
  after_results_simp
theorem arg7_eq (V : Valuation τ sig (Elt F)) : after ops V (main_arg7 : DevRef τ sig) = V (main_arg7 : DevRef τ sig) := by
  after_results_simp
theorem arg8_eq (V : Valuation τ sig (Elt F)) : after ops V (main_arg8 : DevRef τ sig) = V (main_arg8 : DevRef τ sig) := by
  after_results_simp
theorem arg9_eq (V : Valuation τ sig (Elt F)) : after ops V (main_arg9 : DevRef τ sig) = V (main_arg9 : DevRef τ sig) := by
  after_results_simp
theorem arg10_eq (V : Valuation τ sig (Elt F)) : after ops V (main_arg10 : DevRef τ sig) = V (main_arg10 : DevRef τ sig) := by
  after_results_simp
theorem arg11_eq (V : Valuation τ sig (Elt F)) : after ops V (main_arg11 : DevRef τ sig) = V (main_arg11 : DevRef τ sig) := by
  after_results_simp
theorem arg12_eq (V : Valuation τ sig (Elt F)) : after ops V (main_arg12 : DevRef τ sig) = V (main_arg12 : DevRef τ sig) := by
  after_results_simp
theorem arg13_eq (V : Valuation τ sig (Elt F)) : after ops V (main_arg13 : DevRef τ sig) = V (main_arg13 : DevRef τ sig) := by
  after_results_simp
theorem arg14_eq (V : Valuation τ sig (Elt F)) : after ops V (main_arg14 : DevRef τ sig) = V (main_arg14 : DevRef τ sig) := by
  after_results_simp
theorem arg15_eq (V : Valuation τ sig (Elt F)) : after ops V (main_arg15 : DevRef τ sig) = V (main_arg15 : DevRef τ sig) := by
  after_results_simp
theorem arg16_eq (V : Valuation τ sig (Elt F)) : after ops V (main_arg16 : DevRef τ sig) = V (main_arg16 : DevRef τ sig) := by
  after_results_simp
theorem arg17_eq (V : Valuation τ sig (Elt F)) : after ops V (main_arg17 : DevRef τ sig) = V (main_arg17 : DevRef τ sig) := by
  after_results_simp
theorem arg18_eq (V : Valuation τ sig (Elt F)) : after ops V (main_arg18 : DevRef τ sig) = V (main_arg18 : DevRef τ sig) := by
  after_results_simp
theorem arg19_eq (V : Valuation τ sig (Elt F)) : after ops V (main_arg19 : DevRef τ sig) = V (main_arg19 : DevRef τ sig) := by
  after_results_simp
end

/-- On every device, for any float values, from any memory with zero counters: every weakly fair execution of
    @main terminates with the result buffer at `refOut` of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77)
          = refOut (m ((c.tc : Thread nD τ).loc main_arg0))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
              (m ((c.tc : Thread nD τ).loc main_arg11))
              (m ((c.tc : Thread nD τ).loc main_arg12))
              (m ((c.tc : Thread nD τ).loc main_arg13))
              (m ((c.tc : Thread nD τ).loc main_arg14))
              (m ((c.tc : Thread nD τ).loc main_arg15))
              (m ((c.tc : Thread nD τ).loc main_arg16))
              (m ((c.tc : Thread nD τ).loc main_arg17))
              (m ((c.tc : Thread nD τ).loc main_arg18))
              (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v77).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _),
      (h c main_arg17).trans (arg17_eq _),
      (h c main_arg18).trans (arg18_eq _),
      (h c main_arg19).trans (arg19_eq _)⟩)
    (run_main m ρ)

/-- The reference runs to its end, faulting nowhere, and leaves its argument arrays unchanged: `run`, the result dropped. -/
theorem frame_ri : Cert.frame_ReferenceIdeal := fun m ρ _ =>
  (θ_run Cert.ReferenceIdeal.defs _ _).mono (fun _ h c => (h c).2) (Cert.ReferenceIdeal.RefRun.run (F := Ideal) m ρ)

end Cert.ReferenceIdeal.RefRun

end
-- ==== Proof.LibAttentionLaws.lean ====
/-
  Laws of dense softmax attention on the extended reals, over abstract finite index types.

  Part T (transfer): at the ideal float values — a float an extended real, every operation the
  exact one — each operation that a softmax-attention layer uses, applied to coercions of real
  numbers, gives the coercion of the real result: finite sums and sums of products, the
  exponential of a difference, the quotient by a nonzero real, the fold of max from -∞ over a
  nonempty finite family, the comparison with zero and the selection it drives, and e^x - 1.

  Part L (real algebra): folding a scale into the query weights and bias (L1), deferring the
  softmax normalisation until after the value product (L2), and the two spellings of ELU (L3).

  Part A (assembly): one output entry of an attention row, written with the extended-real
  operations in the two orders (normalise, then multiply by the values; multiply by the values,
  then normalise), is the coercion of one real number; and the two real numbers are equal.
-/
import Mathlib.Tactic
import Idealize.ShloMosaic.PureOps.Ideal
import Idealize.ShloMosaic.PureOps.Ideal.Laws

namespace AttentionLaws

open Idealize.ShloMosaic
open scoped BigOperators

/-! ## Part T: transfer to the reals -/

section Transfer

variable {ι : Type*}

/-- A finite sum of coerced reals is the coerced real sum:
    Σ_{j ∈ s} ↑(f j) = ↑(Σ_{j ∈ s} f j) in the extended reals. -/
theorem coe_sum (s : Finset ι) (f : ι → ℝ) :
    ∑ j ∈ s, ((f j : ℝ) : EReal) = ((∑ j ∈ s, f j : ℝ) : EReal) := by
  induction s using Finset.cons_induction with
  | empty => simp
  | cons a s ha ih => rw [Finset.sum_cons, Finset.sum_cons, ih, EReal.coe_add]

/-- A finite sum of products of coerced reals is the coerced real sum of products:
    Σ_{j ∈ s} ↑(f j) * ↑(g j) = ↑(Σ_{j ∈ s} f j * g j). -/
theorem coe_sum_mul (s : Finset ι) (f g : ι → ℝ) :
    ∑ j ∈ s, ((f j : ℝ) : EReal) * ((g j : ℝ) : EReal) = ((∑ j ∈ s, f j * g j : ℝ) : EReal) := by
  rw [← coe_sum]
  exact Finset.sum_congr rfl fun j _ => (EReal.coe_mul _ _).symm

/-- An affine form of coerced reals is coerced: (Σ_e ↑(h e) * ↑(w e)) + ↑b = ↑(Σ_e h e * w e + b). -/
theorem coe_sum_mul_add (s : Finset ι) (h w : ι → ℝ) (b : ℝ) :
    (∑ e ∈ s, ((h e : ℝ) : EReal) * ((w e : ℝ) : EReal)) + ((b : ℝ) : EReal)
      = ((∑ e ∈ s, h e * w e + b : ℝ) : EReal) := by
  rw [coe_sum_mul, ← EReal.coe_add]

/-- The maximum of -∞ and a real is that real. -/
theorem max_bot_coe (x : ℝ) : max (⊥ : EReal) ((x : ℝ) : EReal) = ((x : ℝ) : EReal) :=
  max_eq_right bot_le

/-- The coercion of the reals into the extended reals commutes with the binary maximum. -/
theorem coe_max (x y : ℝ) : ((max x y : ℝ) : EReal) = max ((x : ℝ) : EReal) ((y : ℝ) : EReal) :=
  EReal.coe_strictMono.monotone.map_max

/-- The fold of max starting from -∞ over a nonempty finite set of coerced reals is the coerced
    maximum (Finset.sup') of the reals. -/
theorem fold_max_bot_coe_of_nonempty (s : Finset ι) (hs : s.Nonempty) (f : ι → ℝ) :
    s.fold max (⊥ : EReal) (fun j => ((f j : ℝ) : EReal)) = ((s.sup' hs f : ℝ) : EReal) := by
  induction hs using Finset.Nonempty.cons_induction with
  | singleton a => rw [Finset.fold_singleton, Finset.sup'_singleton]; exact max_eq_left bot_le
  | cons a s ha hs ih => rw [Finset.fold_cons, ih, Finset.sup'_cons hs, ← coe_max]

/-- The same fold with the ideal instance's maximumf as the folded operation: it is max. -/
theorem fold_maximumf_eq_fold_max {φ : FTy} (s : Finset ι) (b : EReal) (f : ι → EReal) :
    s.fold (FloatOps.maximumf (F := Ideal) (φ := φ)) b f = s.fold max b f := rfl

variable [Fintype ι] [Nonempty ι]

/-- The maximum of a nonempty finite family of reals. -/
noncomputable def rowMax (S : ι → ℝ) : ℝ := Finset.univ.sup' Finset.univ_nonempty S

/-- Every member of the family is at most the maximum. -/
theorem le_rowMax (S : ι → ℝ) (j : ι) : S j ≤ rowMax S :=
  Finset.le_sup' S (Finset.mem_univ j)

/-- The fold of max from -∞ over a whole nonempty finite index type, of coerced reals, is the coerced
    maximum of the family. -/
theorem fold_max_bot_coe (S : ι → ℝ) :
    (Finset.univ : Finset ι).fold max (⊥ : EReal) (fun j => ((S j : ℝ) : EReal)) = ((rowMax S : ℝ) : EReal) :=
  fold_max_bot_coe_of_nonempty _ Finset.univ_nonempty S

omit [Fintype ι] [Nonempty ι] in
/-- The ideal exponential of a coerced real is the coerced real exponential. -/
theorem exp_coe (x : ℝ) : Ideal.exp ((x : ℝ) : EReal) = ((Real.exp x : ℝ) : EReal) := rfl

omit [Fintype ι] [Nonempty ι] in
/-- The ideal exponential of a difference of coerced reals is the coerced e^(a-b), a positive real. -/
theorem exp_coe_sub_coe (a b : ℝ) :
    Ideal.exp (((a : ℝ) : EReal) - ((b : ℝ) : EReal)) = ((Real.exp (a - b) : ℝ) : EReal) := rfl

omit [Fintype ι] [Nonempty ι] in
/-- The ideal quotient of a coerced real by a coerced nonzero real is the coerced real quotient. -/
theorem div_coe_coe (a : ℝ) {b : ℝ} (hb : b ≠ 0) :
    Ideal.div ((a : ℝ) : EReal) ((b : ℝ) : EReal) = ((a / b : ℝ) : EReal) := by
  rw [Ideal.div, if_neg (EReal.coe_ne_zero.mpr hb), ← EReal.coe_inv, ← EReal.coe_mul, div_eq_mul_inv]

omit [Fintype ι] [Nonempty ι] in
/-- The ordered comparison "greater than" of two coerced reals is decided on the reals. -/
theorem cmp_ogt_coe_coe (x y : ℝ) :
    Ideal.cmp .ogt ((x : ℝ) : EReal) ((y : ℝ) : EReal) = BitVec.ofBool (decide (y < x)) := by
  unfold Ideal.cmp
  simp only [EReal.coe_lt_coe_iff]

omit [Fintype ι] [Nonempty ι] in
/-- A selection driven by the comparison x > 0 of a coerced real is the real if-then-else. -/
theorem select_cmp_ogt_zero {α : Type} (x : ℝ) (A B : α) :
    Scalar.select (Ideal.cmp .ogt ((x : ℝ) : EReal) 0) A B = if 0 < x then A else B := by
  rw [← EReal.coe_zero, cmp_ogt_coe_coe, Scalar.select]
  by_cases h : 0 < x <;> simp [h]

omit [Fintype ι] [Nonempty ι] in
/-- e^x - 1 of a coerced real, computed with the ideal exponential and the extended-real
    subtraction, is the coerced real e^x - 1. -/
theorem expm1_coe (x : ℝ) : Ideal.exp ((x : ℝ) : EReal) - 1 = ((Real.exp x - 1 : ℝ) : EReal) := rfl

omit [Fintype ι] [Nonempty ι] in
/-- The same for the named operation expm1 of the ideal instance. -/
theorem ideal_expm1_coe (x : ℝ) : Ideal.expm1 ((x : ℝ) : EReal) = ((Real.exp x - 1 : ℝ) : EReal) := rfl

end Transfer

/-! ## Part L: the real algebra -/

section RealAlgebra

variable {ι Din D : Type*} [Fintype ι] [Fintype Din] [Fintype D]

/-- L1, scale folding. Scaling the query weights and the query bias by c before the projection scales
    the score by c: Σ_d (Σ_e h e * (Wq e d * c) + bq d * c) * kk d = (Σ_d (Σ_e h e * Wq e d + bq d) * kk d) * c. -/
theorem scale_fold (h : Din → ℝ) (Wq : Din → D → ℝ) (bq kk : D → ℝ) (c : ℝ) :
    ∑ d, (∑ e, h e * (Wq e d * c) + bq d * c) * kk d
      = (∑ d, (∑ e, h e * Wq e d + bq d) * kk d) * c := by
  rw [Finset.sum_mul]
  refine Finset.sum_congr rfl fun d _ => ?_
  have hsum : ∑ e, h e * (Wq e d * c) = (∑ e, h e * Wq e d) * c := by
    rw [Finset.sum_mul]
    exact Finset.sum_congr rfl fun e _ => by ring
  rw [hsum]
  ring

/-- L2, deferred normalisation. Dividing the weighted sum by l is weighting by the quotients:
    (Σ_j p j * vv j) / l = Σ_j (p j / l) * vv j. -/
theorem deferred_norm (p vv : ι → ℝ) (l : ℝ) :
    (∑ j, p j * vv j) / l = ∑ j, (p j / l) * vv j := by
  rw [Finset.sum_div]
  exact Finset.sum_congr rfl fun j _ => by ring

/-- The softmax denominator Σ_j e^(s j - m) over a nonempty finite family is positive. -/
theorem sum_exp_sub_pos [Nonempty ι] (s : ι → ℝ) (m : ℝ) : 0 < ∑ j, Real.exp (s j - m) :=
  Finset.sum_pos (fun j _ => Real.exp_pos _) Finset.univ_nonempty

/-- The exponential linear unit on the reals: x for x > 0, else e^x - 1. -/
noncomputable def elu (x : ℝ) : ℝ := if 0 < x then x else Real.exp x - 1

/-- L3, the two spellings of ELU: (if x > 0 then x else e^x - 1) = (if x > 0 then x else 1 * (e^(if x > 0 then 0 else x) - 1)). -/
theorem elu_spellings (x : ℝ) :
    (if 0 < x then x else Real.exp x - 1)
      = (if 0 < x then x else 1 * (Real.exp (if 0 < x then 0 else x) - 1)) := by
  by_cases h : 0 < x <;> simp [h]

end RealAlgebra

/-! ## ELU on the extended reals -/

section Elu

/-- ELU as select(x > 0, x, e^x - 1), every operation the extended-real one, at a coerced real x
    is the coerced real ELU. -/
theorem elu_direct_coe (x : ℝ) :
    Scalar.select (Ideal.cmp .ogt ((x : ℝ) : EReal) 0) ((x : ℝ) : EReal) (Ideal.exp ((x : ℝ) : EReal) - 1)
      = ((elu x : ℝ) : EReal) := by
  rw [select_cmp_ogt_zero, expm1_coe, elu]
  by_cases h : 0 < x <;> simp only [h, if_true, if_false]

/-- ELU as select(x > 0, x, 1 * expm1(select(x > 0, 0, x))), every operation the extended-real one
    (expm1 y spelled e^y - 1), at a coerced real x is the coerced real ELU. -/
theorem elu_safe_coe (x : ℝ) :
    Scalar.select (Ideal.cmp .ogt ((x : ℝ) : EReal) 0) ((x : ℝ) : EReal)
        (1 * (Ideal.exp (Scalar.select (Ideal.cmp .ogt ((x : ℝ) : EReal) 0) (0 : EReal) ((x : ℝ) : EReal)) - 1))
      = ((elu x : ℝ) : EReal) := by
  rw [select_cmp_ogt_zero, select_cmp_ogt_zero, elu, one_mul]
  by_cases h : 0 < x
  · simp only [h, if_true]
  · simp only [h, if_false]; rfl

end Elu

/-! ## Part A: one entry of an attention row, and a whole layer -/

section Row

variable {ι : Type*} [Fintype ι] [Nonempty ι]

/-- The softmax denominator of a row of scores: Σ_j e^(S j - max S). -/
noncomputable def softmaxDen (S : ι → ℝ) : ℝ := ∑ j, Real.exp (S j - rowMax S)

/-- The softmax denominator is positive. -/
theorem softmaxDen_pos (S : ι → ℝ) : 0 < softmaxDen S := sum_exp_sub_pos S _

/-- One output entry of an attention row with the normalisation deferred: the unnormalised weights
    e^(S j - max S) multiply the values first, the sum is divided by the softmax denominator, and the
    skip term s is added: (Σ_j e^(S j - max S) * v j) / (Σ_j e^(S j - max S)) + s. -/
noncomputable def attnDeferred (S v : ι → ℝ) (s : ℝ) : ℝ :=
  (∑ j, Real.exp (S j - rowMax S) * v j) / softmaxDen S + s

/-- One output entry of an attention row with the weights normalised first:
    (Σ_j (e^(S j - max S) / Σ_j e^(S j - max S)) * v j) + s. -/
noncomputable def attnNormalized (S v : ι → ℝ) (s : ℝ) : ℝ :=
  (∑ j, Real.exp (S j - rowMax S) / softmaxDen S * v j) + s

/-- Deferring the normalisation does not change the entry (L2). -/
theorem attnDeferred_eq_attnNormalized (S v : ι → ℝ) (s : ℝ) : attnDeferred S v s = attnNormalized S v s := by
  unfold attnDeferred attnNormalized
  rw [deferred_norm]

/-- The deferred form on the extended reals. If the scores Se, the values ve and the skip term se are the
    coercions of the real S, v, s; M is the fold of max from -∞ over the scores; num = Σ_j exp(Se j - M) * ve j
    and den = Σ_j exp(Se j - M), every operation the extended-real one; then div num den + se is the coercion
    of the real attnDeferred S v s. -/
theorem deferred_row_coe (S v : ι → ℝ) (s : ℝ) (Se ve : ι → EReal) (se M num den : EReal)
    (hS : ∀ j, Se j = ((S j : ℝ) : EReal)) (hv : ∀ j, ve j = ((v j : ℝ) : EReal)) (hs : se = ((s : ℝ) : EReal))
    (hM : M = (Finset.univ : Finset ι).fold max ⊥ Se)
    (hnum : num = ∑ j, Ideal.exp (Se j - M) * ve j)
    (hden : den = ∑ j, Ideal.exp (Se j - M)) :
    Ideal.div num den + se = ((attnDeferred S v s : ℝ) : EReal) := by
  obtain rfl : Se = fun j => ((S j : ℝ) : EReal) := funext hS
  obtain rfl : ve = fun j => ((v j : ℝ) : EReal) := funext hv
  have hM' : M = ((rowMax S : ℝ) : EReal) := hM.trans (fold_max_bot_coe S)
  have hden' : den = ((softmaxDen S : ℝ) : EReal) := by
    rw [hden, hM']
    exact coe_sum Finset.univ fun j => Real.exp (S j - rowMax S)
  have hnum' : num = ((∑ j, Real.exp (S j - rowMax S) * v j : ℝ) : EReal) := by
    rw [hnum, hM']
    exact coe_sum_mul Finset.univ (fun j => Real.exp (S j - rowMax S)) v
  rw [hden', hnum', hs, div_coe_coe _ (softmaxDen_pos S).ne', ← EReal.coe_add]
  rfl

/-- The normalised form on the extended reals. With Se, ve, se, M as above and den = Σ_j exp(Se j - M),
    (Σ_j div (exp(Se j - M)) den * ve j) + se is the coercion of the real attnNormalized S v s. -/
theorem normalized_row_coe (S v : ι → ℝ) (s : ℝ) (Se ve : ι → EReal) (se M den : EReal)
    (hS : ∀ j, Se j = ((S j : ℝ) : EReal)) (hv : ∀ j, ve j = ((v j : ℝ) : EReal)) (hs : se = ((s : ℝ) : EReal))
    (hM : M = (Finset.univ : Finset ι).fold max ⊥ Se)
    (hden : den = ∑ j, Ideal.exp (Se j - M)) :
    (∑ j, Ideal.div (Ideal.exp (Se j - M)) den * ve j) + se = ((attnNormalized S v s : ℝ) : EReal) := by
  obtain rfl : Se = fun j => ((S j : ℝ) : EReal) := funext hS
  obtain rfl : ve = fun j => ((v j : ℝ) : EReal) := funext hv
  have hM' : M = ((rowMax S : ℝ) : EReal) := hM.trans (fold_max_bot_coe S)
  have hden' : den = ((softmaxDen S : ℝ) : EReal) := by
    rw [hden, hM']
    exact coe_sum Finset.univ fun j => Real.exp (S j - rowMax S)
  have hterm : ∀ j, Ideal.div (Ideal.exp (((S j : ℝ) : EReal) - M)) den * ((v j : ℝ) : EReal)
      = ((Real.exp (S j - rowMax S) / softmaxDen S : ℝ) : EReal) * ((v j : ℝ) : EReal) := by
    intro j
    rw [hM', hden', exp_coe_sub_coe, div_coe_coe _ (softmaxDen_pos S).ne']
  rw [Finset.sum_congr rfl fun j _ => hterm j, hs,
    coe_sum_mul Finset.univ (fun j => Real.exp (S j - rowMax S) / softmaxDen S) v, ← EReal.coe_add]
  rfl

/-- The closed deferred form: for real scores S, values v and skip term s,
    div (Σ_j exp(↑(S j) - M) * ↑(v j)) (0 + Σ_j exp(↑(S j) - M)) + ↑s, with M the fold of max from -∞ over the
    coerced scores, is the coercion of attnDeferred S v s. -/
theorem deferred_row_closed_coe (S v : ι → ℝ) (s : ℝ) :
    Ideal.div
        (∑ j, Ideal.exp (((S j : ℝ) : EReal) - (Finset.univ : Finset ι).fold max ⊥ (fun j => ((S j : ℝ) : EReal)))
          * ((v j : ℝ) : EReal))
        (0 + ∑ j, Ideal.exp (((S j : ℝ) : EReal) - (Finset.univ : Finset ι).fold max ⊥ (fun j => ((S j : ℝ) : EReal))))
      + ((s : ℝ) : EReal)
      = ((attnDeferred S v s : ℝ) : EReal) :=
  deferred_row_coe S v s _ _ _ _ _ _ (fun _ => rfl) (fun _ => rfl) rfl rfl rfl (zero_add _)

/-- The closed normalised form: (Σ_j div (exp(↑(S j) - M)) (0 + Σ_j exp(↑(S j) - M)) * ↑(v j)) + ↑s, with
    M = max(-∞, fold of max from -∞ over the coerced scores), is the coercion of attnNormalized S v s. -/
theorem normalized_row_closed_coe (S v : ι → ℝ) (s : ℝ) :
    (∑ j, Ideal.div
        (Ideal.exp (((S j : ℝ) : EReal) - max ⊥ ((Finset.univ : Finset ι).fold max ⊥ (fun j => ((S j : ℝ) : EReal)))))
        (0 + ∑ j, Ideal.exp (((S j : ℝ) : EReal) - max ⊥ ((Finset.univ : Finset ι).fold max ⊥ (fun j => ((S j : ℝ) : EReal)))))
          * ((v j : ℝ) : EReal))
      + ((s : ℝ) : EReal)
      = ((attnNormalized S v s : ℝ) : EReal) :=
  normalized_row_coe S v s _ _ _ _ _ (fun _ => rfl) (fun _ => rfl) rfl (max_eq_right bot_le) (zero_add _)

end Row

section Layer

variable {ι Din D D' : Type*} [Fintype ι] [Nonempty ι] [Fintype Din] [Fintype D] [Fintype D']

/-- An affine projection of a feature vector: (h W + b) d = Σ_e h e * W e d + b d. -/
noncomputable def proj (h : Din → ℝ) (W : Din → D → ℝ) (b : D → ℝ) (d : D) : ℝ := ∑ e, h e * W e d + b d

omit [Fintype D] in
/-- The projection of coerced reals, with the extended-real operations, is the coerced projection. -/
theorem proj_coe (h : Din → ℝ) (W : Din → D → ℝ) (b : D → ℝ) (d : D) :
    (∑ e, ((h e : ℝ) : EReal) * ((W e d : ℝ) : EReal)) + ((b d : ℝ) : EReal) = ((proj h W b d : ℝ) : EReal) :=
  coe_sum_mul_add Finset.univ h (fun e => W e d) (b d)

omit [Fintype D] in
/-- The projection with weights and bias scaled by c beforehand, with the extended-real operations,
    is the coerced projection through the scaled real weights and bias. -/
theorem proj_scaled_coe (h : Din → ℝ) (W : Din → D → ℝ) (b : D → ℝ) (c : ℝ) (d : D) :
    (∑ e, ((h e : ℝ) : EReal) * (((W e d : ℝ) : EReal) * ((c : ℝ) : EReal))) + ((b d : ℝ) : EReal) * ((c : ℝ) : EReal)
      = ((proj h (fun e d => W e d * c) (fun d => b d * c) d : ℝ) : EReal) := by
  simp only [← EReal.coe_mul]
  exact coe_sum_mul_add Finset.univ h (fun e => W e d * c) (b d * c)

/-- The score of a query q against a key k with the scale applied after the product: (Σ_d q d * k d) * c. -/
noncomputable def scoreScaledAfter (q k : D → ℝ) (c : ℝ) : ℝ := (∑ d, q d * k d) * c

/-- The unscaled score on the extended reals is the coerced real one. -/
theorem score_coe (q k : D → ℝ) :
    ∑ d, ((q d : ℝ) : EReal) * ((k d : ℝ) : EReal) = ((∑ d, q d * k d : ℝ) : EReal) :=
  coe_sum_mul Finset.univ q k

/-- The score scaled after the product, on the extended reals, is the coerced real one. -/
theorem scoreScaledAfter_coe (q k : D → ℝ) (c : ℝ) :
    (∑ d, ((q d : ℝ) : EReal) * ((k d : ℝ) : EReal)) * ((c : ℝ) : EReal) = ((scoreScaledAfter q k c : ℝ) : EReal) := by
  rw [score_coe, ← EReal.coe_mul]
  rfl

/-- L1 for projections: the score of the query projected through weights and bias scaled by c is the
    score of the plainly projected query, scaled by c afterwards. -/
theorem score_scale_fold (h : Din → ℝ) (Wq : Din → D → ℝ) (bq k : D → ℝ) (c : ℝ) :
    ∑ d, proj h (fun e d => Wq e d * c) (fun d => bq d * c) d * k d = scoreScaledAfter (proj h Wq bq) k c :=
  scale_fold h Wq bq k c

/-- One attention layer on real data as the reference computes it: queries, keys, values and skip
    term are affine projections of the rows of h; the score of row i against row j is (q_i · k_j) * c;
    the softmax weights are normalised and then multiply the values; the skip term is added. -/
noncomputable def layerNormalized (c : ℝ) (Wq Wk Wv Ws : Din → D → ℝ) (bq bk bv bs : D → ℝ) (h : ι → Din → ℝ)
    (i : ι) (o : D) : ℝ :=
  attnNormalized (fun j => scoreScaledAfter (proj (h i) Wq bq) (proj (h j) Wk bk) c)
    (fun j => proj (h j) Wv bv o) (proj (h i) Ws bs o)

/-- One attention layer on real data as the kernel computes it: the scale c is folded into the query
    weights and bias, the score is the plain product q'_i · k_j, the unnormalised weights multiply the
    values and the sum is divided by the softmax denominator; the skip term is added. -/
noncomputable def layerDeferred (c : ℝ) (Wq Wk Wv Ws : Din → D → ℝ) (bq bk bv bs : D → ℝ) (h : ι → Din → ℝ)
    (i : ι) (o : D) : ℝ :=
  attnDeferred (fun j => ∑ d, proj (h i) (fun e d => Wq e d * c) (fun d => bq d * c) d * proj (h j) Wk bk d)
    (fun j => proj (h j) Wv bv o) (proj (h i) Ws bs o)

/-- The two layers are the same function of real data (L1 and L2). -/
theorem layerDeferred_eq_layerNormalized (c : ℝ) (Wq Wk Wv Ws : Din → D → ℝ) (bq bk bv bs : D → ℝ)
    (h : ι → Din → ℝ) :
    layerDeferred c Wq Wk Wv Ws bq bk bv bs h = layerNormalized c Wq Wk Wv Ws bq bk bv bs h := by
  funext i o
  unfold layerDeferred layerNormalized
  rw [attnDeferred_eq_attnNormalized]
  congr 1
  funext j
  exact score_scale_fold (h i) Wq bq (proj (h j) Wk bk) c

/-- Two layers with ELU between them: the deferred-normalisation network equals the normalised one. -/
theorem twoLayer_eq (c₁ c₂ : ℝ) (Wq₁ Wk₁ Wv₁ Ws₁ : Din → D → ℝ) (bq₁ bk₁ bv₁ bs₁ : D → ℝ)
    (Wq₂ Wk₂ Wv₂ Ws₂ : D → D' → ℝ) (bq₂ bk₂ bv₂ bs₂ : D' → ℝ) (x : ι → Din → ℝ) :
    layerDeferred c₂ Wq₂ Wk₂ Wv₂ Ws₂ bq₂ bk₂ bv₂ bs₂
        (fun i d => elu (layerDeferred c₁ Wq₁ Wk₁ Wv₁ Ws₁ bq₁ bk₁ bv₁ bs₁ x i d))
      = layerNormalized c₂ Wq₂ Wk₂ Wv₂ Ws₂ bq₂ bk₂ bv₂ bs₂
        (fun i d => elu (layerNormalized c₁ Wq₁ Wk₁ Wv₁ Ws₁ bq₁ bk₁ bv₁ bs₁ x i d)) := by
  rw [layerDeferred_eq_layerNormalized, layerDeferred_eq_layerNormalized]

end Layer

/-! ## Constants and finiteness -/

section Constants

/-- The f32 word 0xFF800000 denotes -∞. -/
theorem ofBits_f32_neg_inf : Ideal.ofBits .f32 0xFF800000#32 = ⊥ := by
  simp [Ideal.ofBits, Ideal.ieee]

/-- The f32 word 0x3F800000 denotes 1. -/
theorem ofBits_f32_one : Ideal.ofBits .f32 0x3F800000#32 = 1 := by
  simp [Ideal.ofBits, Ideal.ieee, -EReal.coe_mul]; norm_num

/-- An f32 word whose exponent field is not all ones denotes a real number. -/
theorem ofBits_f32_real (b : BitVec 32) (h : (b.extractLsb' 23 8).toNat ≠ 255) :
    ∃ r : ℝ, Ideal.ofBits .f32 b = ((r : ℝ) : EReal) := by
  show ∃ r : ℝ, Ideal.ieee 8 23 b = ((r : ℝ) : EReal)
  unfold Ideal.ieee
  simp only []
  rw [if_neg (by simpa using h)]
  split_ifs <;> exact ⟨_, rfl⟩

/-- An extended real whose absolute value max x (-x) is below +∞ is a real number. -/
theorem exists_coe_of_abs_lt_top (x : EReal) (h : max x (-x) < ⊤) : ∃ r : ℝ, x = ((r : ℝ) : EReal) := by
  induction x using EReal.rec with
  | bot => simp at h
  | top => simp at h
  | coe r => exact ⟨r, rfl⟩

/-- The same from the comparison |x| < +∞ as the ideal instance decides it. -/
theorem exists_coe_of_cmp_abs_olt_top (x : EReal) (h : Ideal.cmp .olt (max x (-x)) ⊤ = 1#1) :
    ∃ r : ℝ, x = ((r : ℝ) : EReal) := by
  apply exists_coe_of_abs_lt_top
  unfold Ideal.cmp at h
  by_contra hn
  simp [hn] at h

end Constants

end AttentionLaws
-- ==== Proof.LibDotRow.lean ====
/-
  A matrix product with ONE contracted axis, read at an index, as a sum over the contracted coordinate.

  For dimension numbers `d` of an [M, K] by [K, N] product into [M, N] — the left operand contracted on its
  second axis, the right one on its first — the sum over the contraction index set of
  `L (d.lhsIdx (p, f) k) * R (d.rhsIdx (p, f) k)` is `∑ k : Fin K, L (p, k) * R (k, f)`: the contraction index
  is its one coordinate, the left operand's row is the output's row and the right operand's column the
  output's column. The matrix unit's product into a zero accumulator and the host's `dot_general`, read at
  the exact values, are both that sum.
-/
import Idealize.ShloMosaic.Lib.ValueIdx
import Idealize.ShloMosaic.PureOps.Ideal.Laws

noncomputable section

namespace Idealize.ShloMosaic.DotRow

open Idealize.ShloMosaic Idealize.ShloMosaic.ValueIdx

variable {M K N : Nat}

/-- The contraction's sum over its index set is the sum over the contracted coordinate. -/
theorem sum_contr (d : DotDims ⟨2, ![M, K]⟩ ⟨2, ![K, N]⟩ ⟨2, ![M, N]⟩)
    (hl : d.lhsContracting = [1]) (hr : d.rhsContracting = [0])
    (hrank : d.contr.rank = 1) (hsize : d.contr.size ⟨0, by omega⟩ = K)
    (h0 : ∀ (j : (⟨2, ![M, N]⟩ : Shape).Idx) (k : d.contr.Idx), (d.lhsIdx j k 0).val = (j 0).val)
    (h1 : ∀ (j : (⟨2, ![M, N]⟩ : Shape).Idx) (k : d.contr.Idx), (d.rhsIdx j k 1).val = (j 1).val)
    (L : (⟨2, ![M, K]⟩ : Shape).Idx → EReal) (R : (⟨2, ![K, N]⟩ : Shape).Idx → EReal) (p : Fin M) (f : Fin N) :
    ∑ k : d.contr.Idx, L (d.lhsIdx (ix2 p f) k) * R (d.rhsIdx (ix2 p f) k) = ∑ k : Fin K, L (ix2 p k) * R (ix2 k f) := by
  rw [← Equiv.sum_comp (contrEquiv1 d K hrank hsize).symm]
  refine Finset.sum_congr rfl fun k _ => ?_
  have el : d.lhsIdx (ix2 p f) ((contrEquiv1 d K hrank hsize).symm k) = ix2 p k := by
    funext a; apply Fin.ext
    match a with
    | ⟨0, _⟩ => exact h0 _ _
    | ⟨1, _⟩ =>
      show (d.lhsIdx (ix2 p f) ((contrEquiv1 d K hrank hsize).symm k) 1).val = k.val
      rw [d.lhsIdx_val_of_single hl]
      exact contrEquiv1_symm_val d K hrank hsize k
  have er : d.rhsIdx (ix2 p f) ((contrEquiv1 d K hrank hsize).symm k) = ix2 k f := by
    funext a; apply Fin.ext
    match a with
    | ⟨0, _⟩ =>
      show (d.rhsIdx (ix2 p f) ((contrEquiv1 d K hrank hsize).symm k) 0).val = k.val
      rw [d.rhsIdx_val_of_single hr]
      exact contrEquiv1_symm_val d K hrank hsize k
    | ⟨1, _⟩ => exact h1 _ _
  rw [el, er]

end Idealize.ShloMosaic.DotRow

end
-- ==== Proof.RefRead.lean ====
import proofs.«118558_j17497696764591_2_alg».proof.Proof.RefRun
import proofs.«118558_j17497696764591_2_alg».proof.Proof.LibAttentionLaws
import proofs.«118558_j17497696764591_2_alg».proof.Proof.LibDotRow
import Idealize.ShloMosaic.Lib.ValueIdx
import Idealize.ShloMosaic.Lib.Pipeline.Value
import Idealize.ShloMosaic.PureOps.Ideal.Laws

/-
  The reference's result read at an index, on real data.

  At the exact values (a float an extended real, every operation the exact one) each stage of `refOut` — the affine
  projections, the scaled scores, the row maximum folded from -∞, the shifted exponentials, their row sums, the
  normalised weights, the value product with the skip term, and ELU — is read at a row `i` and a column `d`: a matrix
  product with one contracted axis is the sum over the contracted coordinate, a broadcast reads its operand at the
  coordinates it keeps, a transpose at the swapped ones, a reduction over the columns is the fold or the sum over the
  column coordinate. On arrays that are entry by entry the coercions of real arrays every stage is then the coercion of
  the corresponding real function, and `refOut` at `(i, d)` is the coercion of the real two-layer network
  (`refOut_apply_coe`).
-/

noncomputable section

namespace Cert.ReferenceIdeal.RefRead

open Cert.ReferenceIdeal Cert.ReferenceIdeal.Gen Cert.ReferenceIdeal.RefRun Idealize.ShloMosaic Idealize.ShloMosaic.ValueIdx
open scoped BigOperators

/-! ## Layout operations at an index -/

/-- The host's matrix product with one contracted axis read at an index: the sum over the contracted coordinate. -/
theorem dot_apply {M K N : Nat} (d : DotDims ⟨2, ![M, K]⟩ ⟨2, ![K, N]⟩ ⟨2, ![M, N]⟩)
    (hl : d.lhsContracting = [1]) (hr : d.rhsContracting = [0])
    (hrank : d.contr.rank = 1) (hsize : d.contr.size ⟨0, by omega⟩ = K)
    (h0 : ∀ (j : (⟨2, ![M, N]⟩ : Shape).Idx) (k : d.contr.Idx), (d.lhsIdx j k 0).val = (j 0).val)
    (h1 : ∀ (j : (⟨2, ![M, N]⟩ : Shape).Idx) (k : d.contr.Idx), (d.rhsIdx j k 1).val = (j 1).val)
    (L : FVec Ideal ⟨2, ![M, K]⟩ .f32) (R : FVec Ideal ⟨2, ![K, N]⟩ .f32) (p : Fin M) (f : Fin N) :
    Host.dotGeneral d none L R (ix2 p f) = ∑ k : Fin K, L (ix2 p k) * R (ix2 k f) := by
  show FloatOps.dotGeneral d none .single L R (ix2 p f) = _
  rw [Ideal.dotGeneral_apply]
  exact DotRow.sum_contr d hl hr hrank hsize h0 h1 L R p f

theorem dotA_apply (L : FVec Ideal S8192x256 .f32) (R : FVec Ideal S256x128 .f32) (p : Fin 8192) (f : Fin 128) :
    Host.dotGeneral dot_S8192x256_S256x128_S8192x128_1_0_0_1_n_n none L R (ix2 p f) = ∑ k : Fin 256, L (ix2 p k) * R (ix2 k f) :=
  dot_apply dot_S8192x256_S256x128_S8192x128_1_0_0_1_n_n rfl rfl rfl rfl (fun _ _ => rfl) (fun _ _ => rfl) L R p f
theorem dotB_apply (L : FVec Ideal S8192x128 .f32) (R : FVec Ideal S128x8192 .f32) (p : Fin 8192) (f : Fin 8192) :
    Host.dotGeneral dot_S8192x128_S128x8192_S8192x8192_1_0_0_1_n_n none L R (ix2 p f) = ∑ k : Fin 128, L (ix2 p k) * R (ix2 k f) :=
  dot_apply dot_S8192x128_S128x8192_S8192x8192_1_0_0_1_n_n rfl rfl rfl rfl (fun _ _ => rfl) (fun _ _ => rfl) L R p f
theorem dotC_apply (L : FVec Ideal S8192x8192 .f32) (R : FVec Ideal S8192x128 .f32) (p : Fin 8192) (f : Fin 128) :
    Host.dotGeneral dot_S8192x8192_S8192x128_S8192x128_1_0_0_1_n_n none L R (ix2 p f) = ∑ k : Fin 8192, L (ix2 p k) * R (ix2 k f) :=
  dot_apply dot_S8192x8192_S8192x128_S8192x128_1_0_0_1_n_n rfl rfl rfl rfl (fun _ _ => rfl) (fun _ _ => rfl) L R p f
theorem dotD_apply (L : FVec Ideal S8192x128 .f32) (R : FVec Ideal S128x256 .f32) (p : Fin 8192) (f : Fin 256) :
    Host.dotGeneral dot_S8192x128_S128x256_S8192x256_1_0_0_1_n_n none L R (ix2 p f) = ∑ k : Fin 128, L (ix2 p k) * R (ix2 k f) :=
  dot_apply dot_S8192x128_S128x256_S8192x256_1_0_0_1_n_n rfl rfl rfl rfl (fun _ _ => rfl) (fun _ _ => rfl) L R p f
theorem dotE_apply (L : FVec Ideal S8192x256 .f32) (R : FVec Ideal S256x8192 .f32) (p : Fin 8192) (f : Fin 8192) :
    Host.dotGeneral dot_S8192x256_S256x8192_S8192x8192_1_0_0_1_n_n none L R (ix2 p f) = ∑ k : Fin 256, L (ix2 p k) * R (ix2 k f) :=
  dot_apply dot_S8192x256_S256x8192_S8192x8192_1_0_0_1_n_n rfl rfl rfl rfl (fun _ _ => rfl) (fun _ _ => rfl) L R p f
theorem dotF_apply (L : FVec Ideal S8192x8192 .f32) (R : FVec Ideal S8192x256 .f32) (p : Fin 8192) (f : Fin 256) :
    Host.dotGeneral dot_S8192x8192_S8192x256_S8192x256_1_0_0_1_n_n none L R (ix2 p f) = ∑ k : Fin 8192, L (ix2 p k) * R (ix2 k f) :=
  dot_apply dot_S8192x8192_S8192x256_S8192x256_1_0_0_1_n_n rfl rfl rfl rfl (fun _ _ => rfl) (fun _ _ => rfl) L R p f

/-- A scalar literal spread over the square matrix reads the literal's value everywhere. -/
theorem constSq_apply (w : BitVec 32) (i j : Fin 8192) :
    broadcastInDim S8192x8192 ![] bcast_S_S8192x8192 (constant (F := Ideal) S_ .f32 w) (ix2 i j) = Ideal.ofBits .f32 w := by
  rw [broadcastInDim_apply _ _ _ (ix2 i j) ix0 (fun a => a.elim0)]
  rfl

/-- A scalar literal spread over a column reads the literal's value everywhere. -/
theorem constCol_apply (w : BitVec 32) (i : Fin 8192) :
    broadcastInDim S8192 ![] bcast_S_S8192 (constant (F := Ideal) S_ .f32 w) (ix1 i) = Ideal.ofBits .f32 w := by
  rw [broadcastInDim_apply _ _ _ (ix1 i) ix0 (fun a => a.elim0)]
  rfl

/-- A scalar literal spread over the 8192 × 128 matrix reads the literal's value everywhere. -/
theorem constHid_apply (w : BitVec 32) (i : Fin 8192) (d : Fin 128) :
    broadcastInDim S8192x128 ![] bcast_S_S8192x128 (constant (F := Ideal) S_ .f32 w) (ix2 i d) = Ideal.ofBits .f32 w := by
  rw [broadcastInDim_apply _ _ _ (ix2 i d) ix0 (fun a => a.elim0)]
  rfl

/-- A column spread along the rows reads the row's entry. -/
theorem spread_apply (r : FVec Ideal S8192 .f32) (i j : Fin 8192) : spread r (ix2 i j) = r (ix1 i) := by
  unfold spread
  rw [broadcastInDim_apply _ _ _ (ix2 i j) (ix2 i (0 : Fin 1)) (fun a => match a with | ⟨0, _⟩ => rfl | ⟨1, _⟩ => rfl),
    broadcastInDim_apply _ _ _ (ix2 i (0 : Fin 1)) (ix1 i) (fun a => match a with | ⟨0, _⟩ => rfl)]

/-! ## The softmax stages at an index -/

/-- The square matrix reduces over its columns to a column. -/
theorem reduces_cols : S8192x8192.Reduces [1] S8192 := by decide

/-- A column index with the column coordinate inserted is the matrix index. -/
theorem lift_cols (i j : Fin 8192) : reduces_cols.lift (ix1 i) j = ix2 i j := by
  funext a
  match a with
  | ⟨0, _⟩ => rfl
  | ⟨1, _⟩ => rfl

/-- `max(-∞, rowmax s)` at row `i` is the fold of max from -∞ over the row's entries. -/
theorem rowMax_apply (s : FVec Ideal S8192x8192 .f32) (i : Fin 8192) :
    rowMax s (ix1 i) = (Finset.univ : Finset (Fin 8192)).fold max (⊥ : EReal) (fun j => s (ix2 i j)) := by
  unfold rowMax
  rw [maximumf_apply, constCol_apply,
    Host.reduce_eq_fold_single FloatOps.maximumf s _ reducesTo_S8192x8192_S8192_d1 reduces_cols h_S_ (ix1 i),
    constant_apply, AttentionLaws.ofBits_f32_neg_inf, AttentionLaws.fold_maximumf_eq_fold_max]
  have hfun : (s ∘ reduces_cols.lift (ix1 i)) = fun j : Fin 8192 => s (ix2 i j) :=
    funext fun j => congrArg s (lift_cols i j)
  rw [max_eq_right bot_le, hfun]
  rfl

/-- `exp(s - max)` at an index. -/
theorem expShift_apply (s : FVec Ideal S8192x8192 .f32) (i j : Fin 8192) :
    expShift s (ix2 i j) = Ideal.exp (s (ix2 i j) - rowMax s (ix1 i)) := by
  show Ideal.exp (s (ix2 i j) - spread (rowMax s) (ix2 i j)) = _
  rw [spread_apply]

/-- `0 + rowsum p` at row `i` is the sum of the row's entries. -/
theorem rowSum_apply (p : FVec Ideal S8192x8192 .f32) (i : Fin 8192) :
    rowSum p (ix1 i) = ∑ j : Fin 8192, p (ix2 i j) := by
  show Ideal.hostReduceAdd reducesTo_S8192x8192_S8192_d1 p (Ideal.ofBits .f32 0x00000000#32) (ix1 i) = _
  rw [Ideal.hostReduceAdd_single reducesTo_S8192x8192_S8192_d1 reduces_cols, Ideal.ofBits_zero_f32, zero_add]
  exact Finset.sum_congr rfl fun j _ => congrArg p (lift_cols i j)

/-- The softmax denominator at row `i`: the sum of the row's shifted exponentials. -/
theorem rowSum_expShift_apply (s : FVec Ideal S8192x8192 .f32) (i : Fin 8192) :
    rowSum (expShift s) (ix1 i) = ∑ j : Fin 8192, Ideal.exp (s (ix2 i j) - rowMax s (ix1 i)) := by
  rw [rowSum_apply]
  exact Finset.sum_congr rfl fun j _ => expShift_apply s i j

/-- The normalised weight at an index: the shifted exponential divided by its row's sum. -/
theorem softmax_apply (s : FVec Ideal S8192x8192 .f32) (i j : Fin 8192) :
    softmax s (ix2 i j)
      = Ideal.div (Ideal.exp (s (ix2 i j) - rowMax s (ix1 i))) (rowSum (expShift s) (ix1 i)) := by
  show Ideal.div (expShift s (ix2 i j)) (spread (rowSum (expShift s)) (ix2 i j)) = _
  rw [expShift_apply, spread_apply]

/-! ### Layer 1 -/

/-- The bias, a row added to every row: the two broadcasts read at an index. -/
theorem bias1_apply (b : FVec Ideal S128 .f32) (i : Fin 8192) (d : Fin 128) :
    broadcastInDim S8192x128 ![0, 1] bcast_S1x128_S8192x128_0_1 (broadcastInDim S1x128 ![1] bcast_S128_S1x128_1 b) (ix2 i d) = b (ix1 d) := by
  rw [broadcastInDim_apply _ _ _ (ix2 i d) (ix2 (0 : Fin 1) d) (fun a => match a with | ⟨0, _⟩ => rfl | ⟨1, _⟩ => rfl),
    broadcastInDim_apply _ _ _ (ix2 (0 : Fin 1) d) (ix1 d) (fun a => match a with | ⟨0, _⟩ => rfl)]

/-- The transposed keys read at an index. -/
theorem transpose1_apply (k : FVec Ideal S8192x128 .f32) (e : Fin 128) (j : Fin 8192) :
    transpose S128x8192 [1, 0] k transposes_S8192x128_S128x8192_1_0 (ix2 e j) = k (ix2 j e) :=
  transpose_apply [1, 0] k _ (ix2 e j) (ix2 j e) (fun b => match b with | ⟨0, _⟩ => rfl | ⟨1, _⟩ => rfl)

/-- `h·W + b` at row `i`, column `d`, of coerced reals is the coerced real projection of row `i`. -/
theorem lin1_apply_coe (h : FVec Ideal S8192x256 .f32) (W : FVec Ideal S256x128 .f32) (b : FVec Ideal S128 .f32)
    (hr : Fin 256 → ℝ) (Wr : Fin 256 → Fin 128 → ℝ) (br : Fin 128 → ℝ) (i : Fin 8192)
    (hh : ∀ e, h (ix2 i e) = ((hr e : ℝ) : EReal)) (hW : ∀ e d, W (ix2 e d) = ((Wr e d : ℝ) : EReal))
    (hb : ∀ d, b (ix1 d) = ((br d : ℝ) : EReal)) (d : Fin 128) :
    lin1 h W b (ix2 i d) = ((AttentionLaws.proj hr Wr br d : ℝ) : EReal) := by
  unfold lin1
  rw [addf_apply, dotA_apply, bias1_apply, hb]
  have hterm : ∀ e ∈ (Finset.univ : Finset (Fin 256)),
      h (ix2 i e) * W (ix2 e d) = ((hr e : ℝ) : EReal) * ((Wr e d : ℝ) : EReal) := fun e _ => by rw [hh e, hW e d]
  rw [Finset.sum_congr rfl hterm]
  exact AttentionLaws.proj_coe hr Wr br d

/-- The score of row `i` against row `j`, of coerced real queries and keys, is the coerced real score scaled after
    the product. -/
theorem scores1_apply_coe (q k : FVec Ideal S8192x128 .f32) (qr kr : Fin 128 → ℝ) (c : ℝ) (i j : Fin 8192)
    (hq : ∀ d, q (ix2 i d) = ((qr d : ℝ) : EReal)) (hk : ∀ d, k (ix2 j d) = ((kr d : ℝ) : EReal))
    (hc : Ideal.ofBits .f32 0x3DB504F3#32 = ((c : ℝ) : EReal)) :
    scores1 q k (ix2 i j) = ((AttentionLaws.scoreScaledAfter qr kr c : ℝ) : EReal) := by
  unfold scores1
  rw [mulf_apply, dotB_apply, constSq_apply, hc]
  have hterm : ∀ d ∈ (Finset.univ : Finset (Fin 128)),
      q (ix2 i d) * transpose S128x8192 [1, 0] k transposes_S8192x128_S128x8192_1_0 (ix2 d j)
        = ((qr d : ℝ) : EReal) * ((kr d : ℝ) : EReal) := fun d _ => by rw [hq d, transpose1_apply, hk d]
  rw [Finset.sum_congr rfl hterm]
  exact AttentionLaws.scoreScaledAfter_coe qr kr c

/-- Layer 1 at row `i`, column `d`, of coerced real data is the coerced real layer. -/
theorem tconv1_apply_coe (h : FVec Ideal S8192x256 .f32)
    (Wq : FVec Ideal S256x128 .f32) (bq : FVec Ideal S128 .f32) (Wk : FVec Ideal S256x128 .f32) (bk : FVec Ideal S128 .f32)
    (Wv : FVec Ideal S256x128 .f32) (bv : FVec Ideal S128 .f32) (Ws : FVec Ideal S256x128 .f32) (bs : FVec Ideal S128 .f32)
    (hr : Fin 8192 → Fin 256 → ℝ) (Wqr Wkr Wvr Wsr : Fin 256 → Fin 128 → ℝ) (bqr bkr bvr bsr : Fin 128 → ℝ) (c : ℝ)
    (hh : ∀ i e, h (ix2 i e) = ((hr i e : ℝ) : EReal))
    (hWq : ∀ e d, Wq (ix2 e d) = ((Wqr e d : ℝ) : EReal)) (hbq : ∀ d, bq (ix1 d) = ((bqr d : ℝ) : EReal))
    (hWk : ∀ e d, Wk (ix2 e d) = ((Wkr e d : ℝ) : EReal)) (hbk : ∀ d, bk (ix1 d) = ((bkr d : ℝ) : EReal))
    (hWv : ∀ e d, Wv (ix2 e d) = ((Wvr e d : ℝ) : EReal)) (hbv : ∀ d, bv (ix1 d) = ((bvr d : ℝ) : EReal))
    (hWs : ∀ e d, Ws (ix2 e d) = ((Wsr e d : ℝ) : EReal)) (hbs : ∀ d, bs (ix1 d) = ((bsr d : ℝ) : EReal))
    (hc : Ideal.ofBits .f32 0x3DB504F3#32 = ((c : ℝ) : EReal)) (i : Fin 8192) (d : Fin 128) :
    tconv1 h Wq bq Wk bk Wv bv Ws bs (ix2 i d)
      = ((AttentionLaws.layerNormalized c Wqr Wkr Wvr Wsr bqr bkr bvr bsr hr i d : ℝ) : EReal) := by
  have hS : ∀ j, scores1 (lin1 h Wq bq) (lin1 h Wk bk) (ix2 i j)
      = ((AttentionLaws.scoreScaledAfter (AttentionLaws.proj (hr i) Wqr bqr) (AttentionLaws.proj (hr j) Wkr bkr) c : ℝ) : EReal) :=
    fun j => scores1_apply_coe _ _ _ _ c i j
      (fun e => lin1_apply_coe h Wq bq (hr i) Wqr bqr i (hh i) hWq hbq e)
      (fun e => lin1_apply_coe h Wk bk (hr j) Wkr bkr j (hh j) hWk hbk e) hc
  have hv : ∀ j, lin1 h Wv bv (ix2 j d) = ((AttentionLaws.proj (hr j) Wvr bvr d : ℝ) : EReal) :=
    fun j => lin1_apply_coe h Wv bv (hr j) Wvr bvr j (hh j) hWv hbv d
  have hs : lin1 h Ws bs (ix2 i d) = ((AttentionLaws.proj (hr i) Wsr bsr d : ℝ) : EReal) :=
    lin1_apply_coe h Ws bs (hr i) Wsr bsr i (hh i) hWs hbs d
  unfold tconv1
  rw [addf_apply, dotC_apply]
  have hterm : ∀ j ∈ (Finset.univ : Finset (Fin 8192)),
      softmax (scores1 (lin1 h Wq bq) (lin1 h Wk bk)) (ix2 i j) * lin1 h Wv bv (ix2 j d)
        = Ideal.div (Ideal.exp (scores1 (lin1 h Wq bq) (lin1 h Wk bk) (ix2 i j)
              - rowMax (scores1 (lin1 h Wq bq) (lin1 h Wk bk)) (ix1 i)))
            (rowSum (expShift (scores1 (lin1 h Wq bq) (lin1 h Wk bk))) (ix1 i)) * lin1 h Wv bv (ix2 j d) :=
    fun j _ => by rw [softmax_apply]
  rw [Finset.sum_congr rfl hterm]
  exact AttentionLaws.normalized_row_coe
    (fun j => AttentionLaws.scoreScaledAfter (AttentionLaws.proj (hr i) Wqr bqr) (AttentionLaws.proj (hr j) Wkr bkr) c)
    (fun j => AttentionLaws.proj (hr j) Wvr bvr d) (AttentionLaws.proj (hr i) Wsr bsr d)
    (fun j => scores1 (lin1 h Wq bq) (lin1 h Wk bk) (ix2 i j)) (fun j => lin1 h Wv bv (ix2 j d)) _ _ _
    hS hv hs (rowMax_apply _ i) (rowSum_expShift_apply _ i)

/-! ### Layer 2 -/

/-- The bias, a row added to every row: the two broadcasts read at an index. -/
theorem bias2_apply (b : FVec Ideal S256 .f32) (i : Fin 8192) (d : Fin 256) :
    broadcastInDim S8192x256 ![0, 1] bcast_S1x256_S8192x256_0_1 (broadcastInDim S1x256 ![1] bcast_S256_S1x256_1 b) (ix2 i d) = b (ix1 d) := by
  rw [broadcastInDim_apply _ _ _ (ix2 i d) (ix2 (0 : Fin 1) d) (fun a => match a with | ⟨0, _⟩ => rfl | ⟨1, _⟩ => rfl),
    broadcastInDim_apply _ _ _ (ix2 (0 : Fin 1) d) (ix1 d) (fun a => match a with | ⟨0, _⟩ => rfl)]

/-- The transposed keys read at an index. -/
theorem transpose2_apply (k : FVec Ideal S8192x256 .f32) (e : Fin 256) (j : Fin 8192) :
    transpose S256x8192 [1, 0] k transposes_S8192x256_S256x8192_1_0 (ix2 e j) = k (ix2 j e) :=
  transpose_apply [1, 0] k _ (ix2 e j) (ix2 j e) (fun b => match b with | ⟨0, _⟩ => rfl | ⟨1, _⟩ => rfl)

/-- `h·W + b` at row `i`, column `d`, of coerced reals is the coerced real projection of row `i`. -/
theorem lin2_apply_coe (h : FVec Ideal S8192x128 .f32) (W : FVec Ideal S128x256 .f32) (b : FVec Ideal S256 .f32)
    (hr : Fin 128 → ℝ) (Wr : Fin 128 → Fin 256 → ℝ) (br : Fin 256 → ℝ) (i : Fin 8192)
    (hh : ∀ e, h (ix2 i e) = ((hr e : ℝ) : EReal)) (hW : ∀ e d, W (ix2 e d) = ((Wr e d : ℝ) : EReal))
    (hb : ∀ d, b (ix1 d) = ((br d : ℝ) : EReal)) (d : Fin 256) :
    lin2 h W b (ix2 i d) = ((AttentionLaws.proj hr Wr br d : ℝ) : EReal) := by
  unfold lin2
  rw [addf_apply, dotD_apply, bias2_apply, hb]
  have hterm : ∀ e ∈ (Finset.univ : Finset (Fin 128)),
      h (ix2 i e) * W (ix2 e d) = ((hr e : ℝ) : EReal) * ((Wr e d : ℝ) : EReal) := fun e _ => by rw [hh e, hW e d]
  rw [Finset.sum_congr rfl hterm]
  exact AttentionLaws.proj_coe hr Wr br d

/-- The score of row `i` against row `j`, of coerced real queries and keys, is the coerced real score scaled after
    the product. -/
theorem scores2_apply_coe (q k : FVec Ideal S8192x256 .f32) (qr kr : Fin 256 → ℝ) (c : ℝ) (i j : Fin 8192)
    (hq : ∀ d, q (ix2 i d) = ((qr d : ℝ) : EReal)) (hk : ∀ d, k (ix2 j d) = ((kr d : ℝ) : EReal))
    (hc : Ideal.ofBits .f32 0x3D800000#32 = ((c : ℝ) : EReal)) :
    scores2 q k (ix2 i j) = ((AttentionLaws.scoreScaledAfter qr kr c : ℝ) : EReal) := by
  unfold scores2
  rw [mulf_apply, dotE_apply, constSq_apply, hc]
  have hterm : ∀ d ∈ (Finset.univ : Finset (Fin 256)),
      q (ix2 i d) * transpose S256x8192 [1, 0] k transposes_S8192x256_S256x8192_1_0 (ix2 d j)
        = ((qr d : ℝ) : EReal) * ((kr d : ℝ) : EReal) := fun d _ => by rw [hq d, transpose2_apply, hk d]
  rw [Finset.sum_congr rfl hterm]
  exact AttentionLaws.scoreScaledAfter_coe qr kr c

/-- Layer 2 at row `i`, column `d`, of coerced real data is the coerced real layer. -/
theorem tconv2_apply_coe (h : FVec Ideal S8192x128 .f32)
    (Wq : FVec Ideal S128x256 .f32) (bq : FVec Ideal S256 .f32) (Wk : FVec Ideal S128x256 .f32) (bk : FVec Ideal S256 .f32)
    (Wv : FVec Ideal S128x256 .f32) (bv : FVec Ideal S256 .f32) (Ws : FVec Ideal S128x256 .f32) (bs : FVec Ideal S256 .f32)
    (hr : Fin 8192 → Fin 128 → ℝ) (Wqr Wkr Wvr Wsr : Fin 128 → Fin 256 → ℝ) (bqr bkr bvr bsr : Fin 256 → ℝ) (c : ℝ)
    (hh : ∀ i e, h (ix2 i e) = ((hr i e : ℝ) : EReal))
    (hWq : ∀ e d, Wq (ix2 e d) = ((Wqr e d : ℝ) : EReal)) (hbq : ∀ d, bq (ix1 d) = ((bqr d : ℝ) : EReal))
    (hWk : ∀ e d, Wk (ix2 e d) = ((Wkr e d : ℝ) : EReal)) (hbk : ∀ d, bk (ix1 d) = ((bkr d : ℝ) : EReal))
    (hWv : ∀ e d, Wv (ix2 e d) = ((Wvr e d : ℝ) : EReal)) (hbv : ∀ d, bv (ix1 d) = ((bvr d : ℝ) : EReal))
    (hWs : ∀ e d, Ws (ix2 e d) = ((Wsr e d : ℝ) : EReal)) (hbs : ∀ d, bs (ix1 d) = ((bsr d : ℝ) : EReal))
    (hc : Ideal.ofBits .f32 0x3D800000#32 = ((c : ℝ) : EReal)) (i : Fin 8192) (d : Fin 256) :
    tconv2 h Wq bq Wk bk Wv bv Ws bs (ix2 i d)
      = ((AttentionLaws.layerNormalized c Wqr Wkr Wvr Wsr bqr bkr bvr bsr hr i d : ℝ) : EReal) := by
  have hS : ∀ j, scores2 (lin2 h Wq bq) (lin2 h Wk bk) (ix2 i j)
      = ((AttentionLaws.scoreScaledAfter (AttentionLaws.proj (hr i) Wqr bqr) (AttentionLaws.proj (hr j) Wkr bkr) c : ℝ) : EReal) :=
    fun j => scores2_apply_coe _ _ _ _ c i j
      (fun e => lin2_apply_coe h Wq bq (hr i) Wqr bqr i (hh i) hWq hbq e)
      (fun e => lin2_apply_coe h Wk bk (hr j) Wkr bkr j (hh j) hWk hbk e) hc
  have hv : ∀ j, lin2 h Wv bv (ix2 j d) = ((AttentionLaws.proj (hr j) Wvr bvr d : ℝ) : EReal) :=
    fun j => lin2_apply_coe h Wv bv (hr j) Wvr bvr j (hh j) hWv hbv d
  have hs : lin2 h Ws bs (ix2 i d) = ((AttentionLaws.proj (hr i) Wsr bsr d : ℝ) : EReal) :=
    lin2_apply_coe h Ws bs (hr i) Wsr bsr i (hh i) hWs hbs d
  unfold tconv2
  rw [addf_apply, dotF_apply]
  have hterm : ∀ j ∈ (Finset.univ : Finset (Fin 8192)),
      softmax (scores2 (lin2 h Wq bq) (lin2 h Wk bk)) (ix2 i j) * lin2 h Wv bv (ix2 j d)
        = Ideal.div (Ideal.exp (scores2 (lin2 h Wq bq) (lin2 h Wk bk) (ix2 i j)
              - rowMax (scores2 (lin2 h Wq bq) (lin2 h Wk bk)) (ix1 i)))
            (rowSum (expShift (scores2 (lin2 h Wq bq) (lin2 h Wk bk))) (ix1 i)) * lin2 h Wv bv (ix2 j d) :=
    fun j _ => by rw [softmax_apply]
  rw [Finset.sum_congr rfl hterm]
  exact AttentionLaws.normalized_row_coe
    (fun j => AttentionLaws.scoreScaledAfter (AttentionLaws.proj (hr i) Wqr bqr) (AttentionLaws.proj (hr j) Wkr bkr) c)
    (fun j => AttentionLaws.proj (hr j) Wvr bvr d) (AttentionLaws.proj (hr i) Wsr bsr d)
    (fun j => scores2 (lin2 h Wq bq) (lin2 h Wk bk) (ix2 i j)) (fun j => lin2 h Wv bv (ix2 j d)) _ _ _
    hS hv hs (rowMax_apply _ i) (rowSum_expShift_apply _ i)

/-! ## ELU and the whole result -/

/-- ELU at an index, of a coerced real, is the coerced real ELU. -/
theorem elu_apply_coe (h : FVec Ideal S8192x128 .f32) (i : Fin 8192) (d : Fin 128) (r : ℝ)
    (hh : h (ix2 i d) = ((r : ℝ) : EReal)) : RefRun.elu h (ix2 i d) = ((AttentionLaws.elu r : ℝ) : EReal) := by
  have hz : (zeros : FVec Ideal S8192x128 .f32) (ix2 i d) = 0 := by
    unfold zeros; rw [constHid_apply, Ideal.ofBits_zero_f32]
  have ho : broadcastInDim S8192x128 ![] bcast_S_S8192x128 (constant (F := Ideal) S_ .f32 0x3F800000#32) (ix2 i d) = (1 : EReal) := by
    rw [constHid_apply, AttentionLaws.ofBits_f32_one]
  show Scalar.select (Ideal.cmp .ogt (h (ix2 i d)) ((zeros : FVec Ideal S8192x128 .f32) (ix2 i d))) (h (ix2 i d))
      (broadcastInDim S8192x128 ![] bcast_S_S8192x128 (constant (F := Ideal) S_ .f32 0x3F800000#32) (ix2 i d)
        * (Ideal.exp (Scalar.select (Ideal.cmp .ogt (h (ix2 i d)) ((zeros : FVec Ideal S8192x128 .f32) (ix2 i d)))
            ((zeros : FVec Ideal S8192x128 .f32) (ix2 i d)) (h (ix2 i d))) - 1)) = _
  rw [hz, ho, hh]
  exact AttentionLaws.elu_safe_coe r

/-- The reference's result at row `i`, column `d`, of arrays that are entry by entry the coercions of real arrays, is
    the coercion of the real network: the normalised layer 2 of the real ELU of the normalised layer 1. -/
theorem refOut_apply_coe (x : FVec Ideal S8192x256 .f32)
    (Wq1 : FVec Ideal S256x128 .f32) (bq1 : FVec Ideal S128 .f32) (Wk1 : FVec Ideal S256x128 .f32) (bk1 : FVec Ideal S128 .f32)
    (Wv1 : FVec Ideal S256x128 .f32) (bv1 : FVec Ideal S128 .f32) (Ws1 : FVec Ideal S256x128 .f32) (bs1 : FVec Ideal S128 .f32)
    (Wq2 : FVec Ideal S128x256 .f32) (bq2 : FVec Ideal S256 .f32) (Wk2 : FVec Ideal S128x256 .f32) (bk2 : FVec Ideal S256 .f32)
    (Wv2 : FVec Ideal S128x256 .f32) (bv2 : FVec Ideal S256 .f32) (Ws2 : FVec Ideal S128x256 .f32) (bs2 : FVec Ideal S256 .f32)
    (xr : Fin 8192 → Fin 256 → ℝ)
    (Wq1r Wk1r Wv1r Ws1r : Fin 256 → Fin 128 → ℝ) (bq1r bk1r bv1r bs1r : Fin 128 → ℝ)
    (Wq2r Wk2r Wv2r Ws2r : Fin 128 → Fin 256 → ℝ) (bq2r bk2r bv2r bs2r : Fin 256 → ℝ) (c1 c2 : ℝ)
    (hx : ∀ i e, x (ix2 i e) = ((xr i e : ℝ) : EReal))
    (hWq1 : ∀ e d, Wq1 (ix2 e d) = ((Wq1r e d : ℝ) : EReal)) (hbq1 : ∀ d, bq1 (ix1 d) = ((bq1r d : ℝ) : EReal))
    (hWk1 : ∀ e d, Wk1 (ix2 e d) = ((Wk1r e d : ℝ) : EReal)) (hbk1 : ∀ d, bk1 (ix1 d) = ((bk1r d : ℝ) : EReal))
    (hWv1 : ∀ e d, Wv1 (ix2 e d) = ((Wv1r e d : ℝ) : EReal)) (hbv1 : ∀ d, bv1 (ix1 d) = ((bv1r d : ℝ) : EReal))
    (hWs1 : ∀ e d, Ws1 (ix2 e d) = ((Ws1r e d : ℝ) : EReal)) (hbs1 : ∀ d, bs1 (ix1 d) = ((bs1r d : ℝ) : EReal))
    (hWq2 : ∀ e d, Wq2 (ix2 e d) = ((Wq2r e d : ℝ) : EReal)) (hbq2 : ∀ d, bq2 (ix1 d) = ((bq2r d : ℝ) : EReal))
    (hWk2 : ∀ e d, Wk2 (ix2 e d) = ((Wk2r e d : ℝ) : EReal)) (hbk2 : ∀ d, bk2 (ix1 d) = ((bk2r d : ℝ) : EReal))
    (hWv2 : ∀ e d, Wv2 (ix2 e d) = ((Wv2r e d : ℝ) : EReal)) (hbv2 : ∀ d, bv2 (ix1 d) = ((bv2r d : ℝ) : EReal))
    (hWs2 : ∀ e d, Ws2 (ix2 e d) = ((Ws2r e d : ℝ) : EReal)) (hbs2 : ∀ d, bs2 (ix1 d) = ((bs2r d : ℝ) : EReal))
    (hc1 : Ideal.ofBits .f32 0x3DB504F3#32 = ((c1 : ℝ) : EReal)) (hc2 : Ideal.ofBits .f32 0x3D800000#32 = ((c2 : ℝ) : EReal))
    (i : Fin 8192) (d : Fin 256) :
    refOut x Wq1 bq1 Wk1 bk1 Wv1 bv1 Ws1 bs1 Wq2 bq2 Wk2 bk2 Wv2 bv2 Ws2 bs2 (ix2 i d)
      = ((AttentionLaws.layerNormalized c2 Wq2r Wk2r Wv2r Ws2r bq2r bk2r bv2r bs2r
          (fun i d => AttentionLaws.elu (AttentionLaws.layerNormalized c1 Wq1r Wk1r Wv1r Ws1r bq1r bk1r bv1r bs1r xr i d)) i d : ℝ) : EReal) := by
  unfold refOut
  exact tconv2_apply_coe _ Wq2 bq2 Wk2 bk2 Wv2 bv2 Ws2 bs2 _ Wq2r Wk2r Wv2r Ws2r bq2r bk2r bv2r bs2r c2
    (fun i e => elu_apply_coe _ i e _
      (tconv1_apply_coe x Wq1 bq1 Wk1 bk1 Wv1 bv1 Ws1 bs1 xr Wq1r Wk1r Wv1r Ws1r bq1r bk1r bv1r bs1r c1
        hx hWq1 hbq1 hWk1 hbk1 hWv1 hbv1 hWs1 hbs1 hc1 i e))
    hWq2 hbq2 hWk2 hbk2 hWv2 hbv2 hWs2 hbs2 hc2 i d

end Cert.ReferenceIdeal.RefRead

end
-- ==== Proof.FiniteInputs.lean ====
import proofs.«118558_j17497696764591_2_alg».proof.Defs
import proofs.«118558_j17497696764591_2_alg».proof.Proof.Gen.Pre_finite_inputs
import proofs.«118558_j17497696764591_2_alg».proof.Proof.Gen.KernelIdeal
import proofs.«118558_j17497696764591_2_alg».proof.Proof.LibAttentionLaws
import Idealize.ShloMosaic.Lib.ReduceAll
import Idealize.ShloMosaic.Lib.ValueIdx
import Idealize.ShloMosaic.PureOps.Ideal.Laws

/-
  Finiteness of the inputs, read back from the precondition.

  The precondition evaluates, for each of the twenty argument arrays x, the conjunction over all entries of
  |x| < +∞, and takes the conjunction of the twenty results; it states that the outcome is the bit 1. At the exact
  values a float is an extended real, |x| is max x (-x), and the f32 word 0x7F800000 is +∞. An extended real whose
  absolute value is below +∞ is neither +∞ nor -∞, hence the coercion of a real number. So under the precondition
  every argument array is, entry by entry, the coercion of an array of real numbers (`reals_of_pre`), which is what
  lets the algebra of the two programs be carried out over ℝ.

  The conjunction of the twenty results is nested to the left, array 0 innermost; it is split into its twenty
  conjuncts, and each conjunct — a conjunction over all entries of one array, which is 1 only if every entry's
  comparison is 1 — gives the fact for that array (`real_of_all`).
-/

noncomputable section

namespace Cert.Proof.Finite

open Idealize.ShloMosaic Idealize.SL.Sem Cert.Pre_finite_inputs

/-- The shape of rank zero has exactly one index. -/
instance subsingleton_idx0 : Subsingleton S_.Idx := ⟨fun a b => funext fun d => d.elim0⟩

/-- The f32 word 0x7F800000 denotes +∞. -/
theorem ofBits_f32_inf : Ideal.ofBits .f32 0x7F800000#32 = ⊤ := by
  simp [Ideal.ofBits, Ideal.ieee]

/-- Every entry of the array is the coercion of a real number. -/
def AllReal {s : Shape} (x : FVec Ideal s .f32) : Prop :=
  ∃ r : s.Idx → ℝ, ∀ i : s.Idx, x i = ((r i : ℝ) : EReal)

/-- One array's check: if the conjunction over all entries of |x| < +∞ is true, every entry of x is a real number. -/
theorem real_of_all {s : Shape} {axes : List (Fin s.rank)} (x : FVec Ideal s .f32)
    (bc : S_.BroadcastsInDim s (![] : Fin 0 → Fin s.rank)) (hr : s.ReducesTo axes S_) (h0 : 0 < S_.numel)
    (j : S_.Idx)
    (h : Host.reduce IntOp.andi
          (cmpf .olt (Host.absf x) (broadcastInDim s ![] bc (constant S_ .f32 0x7F800000#32)))
          (constantI S_ 1 1#1) hr h0 j = 1#1) :
    AllReal x := by
  have e : ∀ i : s.Idx, ∃ r : ℝ, x i = ((r : ℝ) : EReal) := by
    intro i
    -- the entry's comparison |x i| < +∞ is 1
    have hi := Host.reduce_andi_all _ _ hr h0 j h i
    apply AttentionLaws.exists_coe_of_cmp_abs_olt_top
    rw [← ofBits_f32_inf]
    exact hi
  choose r hr' using e
  exact ⟨r, hr'⟩

/-- A matrix of real entries, read at a row and a column. -/
theorem allReal_ix2 {n0 n1 : Nat} (x : FVec Ideal ⟨2, ![n0, n1]⟩ .f32) (h : AllReal x) :
    ∃ r : Fin n0 → Fin n1 → ℝ, ∀ (a : Fin n0) (b : Fin n1), x (ValueIdx.ix2 a b) = ((r a b : ℝ) : EReal) := by
  obtain ⟨r, hr⟩ := h
  exact ⟨fun a b => r (ValueIdx.ix2 a b), fun a b => hr _⟩

/-- A vector of real entries, read at a coordinate. -/
theorem allReal_ix1 {n : Nat} (x : FVec Ideal ⟨1, ![n]⟩ .f32) (h : AllReal x) :
    ∃ r : Fin n → ℝ, ∀ a : Fin n, x (ValueIdx.ix1 a) = ((r a : ℝ) : EReal) := by
  obtain ⟨r, hr⟩ := h
  exact ⟨fun a => r (ValueIdx.ix1 a), fun a => hr _⟩

variable (m : (ℓ : Loc Cert.KernelIdeal.nD Cert.KernelIdeal.τ Cert.KernelIdeal.sig) → Buf (Elt Ideal) ℓ)

/-- On core c, each of the twenty argument arrays holds real numbers. -/
structure Reals (c : Dev Cert.KernelIdeal.nD) : Prop where
  arg0 : AllReal (s := (⟨2, ![8192, 256]⟩ : Shape)) (m ((c.tc : Thread Cert.KernelIdeal.nD Cert.KernelIdeal.τ).loc Cert.KernelIdeal.main_arg0))
  arg1 : AllReal (s := (⟨2, ![8192, 8192]⟩ : Shape)) (m ((c.tc : Thread Cert.KernelIdeal.nD Cert.KernelIdeal.τ).loc Cert.KernelIdeal.main_arg1))
  arg2 : AllReal (s := (⟨2, ![256, 128]⟩ : Shape)) (m ((c.tc : Thread Cert.KernelIdeal.nD Cert.KernelIdeal.τ).loc Cert.KernelIdeal.main_arg2))
  arg3 : AllReal (s := (⟨2, ![256, 128]⟩ : Shape)) (m ((c.tc : Thread Cert.KernelIdeal.nD Cert.KernelIdeal.τ).loc Cert.KernelIdeal.main_arg3))
  arg4 : AllReal (s := (⟨2, ![256, 128]⟩ : Shape)) (m ((c.tc : Thread Cert.KernelIdeal.nD Cert.KernelIdeal.τ).loc Cert.KernelIdeal.main_arg4))
  arg5 : AllReal (s := (⟨1, ![128]⟩ : Shape)) (m ((c.tc : Thread Cert.KernelIdeal.nD Cert.KernelIdeal.τ).loc Cert.KernelIdeal.main_arg5))
  arg6 : AllReal (s := (⟨2, ![256, 128]⟩ : Shape)) (m ((c.tc : Thread Cert.KernelIdeal.nD Cert.KernelIdeal.τ).loc Cert.KernelIdeal.main_arg6))
  arg7 : AllReal (s := (⟨1, ![128]⟩ : Shape)) (m ((c.tc : Thread Cert.KernelIdeal.nD Cert.KernelIdeal.τ).loc Cert.KernelIdeal.main_arg7))
  arg8 : AllReal (s := (⟨2, ![256, 128]⟩ : Shape)) (m ((c.tc : Thread Cert.KernelIdeal.nD Cert.KernelIdeal.τ).loc Cert.KernelIdeal.main_arg8))
  arg9 : AllReal (s := (⟨1, ![128]⟩ : Shape)) (m ((c.tc : Thread Cert.KernelIdeal.nD Cert.KernelIdeal.τ).loc Cert.KernelIdeal.main_arg9))
  arg10 : AllReal (s := (⟨2, ![256, 128]⟩ : Shape)) (m ((c.tc : Thread Cert.KernelIdeal.nD Cert.KernelIdeal.τ).loc Cert.KernelIdeal.main_arg10))
  arg11 : AllReal (s := (⟨1, ![128]⟩ : Shape)) (m ((c.tc : Thread Cert.KernelIdeal.nD Cert.KernelIdeal.τ).loc Cert.KernelIdeal.main_arg11))
  arg12 : AllReal (s := (⟨2, ![128, 256]⟩ : Shape)) (m ((c.tc : Thread Cert.KernelIdeal.nD Cert.KernelIdeal.τ).loc Cert.KernelIdeal.main_arg12))
  arg13 : AllReal (s := (⟨1, ![256]⟩ : Shape)) (m ((c.tc : Thread Cert.KernelIdeal.nD Cert.KernelIdeal.τ).loc Cert.KernelIdeal.main_arg13))
  arg14 : AllReal (s := (⟨2, ![128, 256]⟩ : Shape)) (m ((c.tc : Thread Cert.KernelIdeal.nD Cert.KernelIdeal.τ).loc Cert.KernelIdeal.main_arg14))
  arg15 : AllReal (s := (⟨1, ![256]⟩ : Shape)) (m ((c.tc : Thread Cert.KernelIdeal.nD Cert.KernelIdeal.τ).loc Cert.KernelIdeal.main_arg15))
  arg16 : AllReal (s := (⟨2, ![128, 256]⟩ : Shape)) (m ((c.tc : Thread Cert.KernelIdeal.nD Cert.KernelIdeal.τ).loc Cert.KernelIdeal.main_arg16))
  arg17 : AllReal (s := (⟨1, ![256]⟩ : Shape)) (m ((c.tc : Thread Cert.KernelIdeal.nD Cert.KernelIdeal.τ).loc Cert.KernelIdeal.main_arg17))
  arg18 : AllReal (s := (⟨2, ![128, 256]⟩ : Shape)) (m ((c.tc : Thread Cert.KernelIdeal.nD Cert.KernelIdeal.τ).loc Cert.KernelIdeal.main_arg18))
  arg19 : AllReal (s := (⟨1, ![256]⟩ : Shape)) (m ((c.tc : Thread Cert.KernelIdeal.nD Cert.KernelIdeal.τ).loc Cert.KernelIdeal.main_arg19))

/-- Under the precondition every argument array of every core holds real numbers. -/
theorem reals_of_pre (h : Cert.Pre_KernelIdeal m) (c : Dev Cert.KernelIdeal.nD) : Reals m c := by
  -- the predicate's result is an array of rank zero: one bit
  have h0 := congrFun (h c) ValueIdx.ix0
  -- the chain of operations, one segment at a time
  dsimp only [Cert.Pre_finite_inputs.fn] at h0
  dsimp only [fn_part1] at h0
  dsimp only [fn_part2] at h0
  dsimp only [fn_part3] at h0
  dsimp only [fn_part4] at h0
  dsimp only [fn_part5] at h0
  -- a conjunction of one-bit words is 1 exactly when both are
  dsimp only [andi] at h0
  simp only [IntOp.andi_eq_one] at h0
  obtain ⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩ := h0
  exact ⟨real_of_all _ _ _ _ _ h0,
    real_of_all _ _ _ _ _ h1,
    real_of_all _ _ _ _ _ h2,
    real_of_all _ _ _ _ _ h3,
    real_of_all _ _ _ _ _ h4,
    real_of_all _ _ _ _ _ h5,
    real_of_all _ _ _ _ _ h6,
    real_of_all _ _ _ _ _ h7,
    real_of_all _ _ _ _ _ h8,
    real_of_all _ _ _ _ _ h9,
    real_of_all _ _ _ _ _ h10,
    real_of_all _ _ _ _ _ h11,
    real_of_all _ _ _ _ _ h12,
    real_of_all _ _ _ _ _ h13,
    real_of_all _ _ _ _ _ h14,
    real_of_all _ _ _ _ _ h15,
    real_of_all _ _ _ _ _ h16,
    real_of_all _ _ _ _ _ h17,
    real_of_all _ _ _ _ _ h18,
    real_of_all _ _ _ _ _ h19⟩

/-- Argument 0 (f32[8192, 256]) holds real numbers. -/
theorem real_arg0 (h : Cert.Pre_KernelIdeal m) (c : Dev Cert.KernelIdeal.nD) :
    ∃ r : (⟨2, ![8192, 256]⟩ : Shape).Idx → ℝ, ∀ i : (⟨2, ![8192, 256]⟩ : Shape).Idx, m ((c.tc : Thread Cert.KernelIdeal.nD Cert.KernelIdeal.τ).loc Cert.KernelIdeal.main_arg0) i = ((r i : ℝ) : EReal) :=
  (reals_of_pre m h c).arg0

/-- Argument 0 read at a row and a column. -/
theorem real2_arg0 (h : Cert.Pre_KernelIdeal m) (c : Dev Cert.KernelIdeal.nD) :
    ∃ r : Fin 8192 → Fin 256 → ℝ, ∀ (a : Fin 8192) (b : Fin 256), m ((c.tc : Thread Cert.KernelIdeal.nD Cert.KernelIdeal.τ).loc Cert.KernelIdeal.main_arg0) (ValueIdx.ix2 a b) = ((r a b : ℝ) : EReal) :=
  allReal_ix2 _ (reals_of_pre m h c).arg0

/-- Argument 1 (f32[8192, 8192]) holds real numbers. -/
theorem real_arg1 (h : Cert.Pre_KernelIdeal m) (c : Dev Cert.KernelIdeal.nD) :
    ∃ r : (⟨2, ![8192, 8192]⟩ : Shape).Idx → ℝ, ∀ i : (⟨2, ![8192, 8192]⟩ : Shape).Idx, m ((c.tc : Thread Cert.KernelIdeal.nD Cert.KernelIdeal.τ).loc Cert.KernelIdeal.main_arg1) i = ((r i : ℝ) : EReal) :=
  (reals_of_pre m h c).arg1

/-- Argument 1 read at a row and a column. -/
theorem real2_arg1 (h : Cert.Pre_KernelIdeal m) (c : Dev Cert.KernelIdeal.nD) :
    ∃ r : Fin 8192 → Fin 8192 → ℝ, ∀ (a : Fin 8192) (b : Fin 8192), m ((c.tc : Thread Cert.KernelIdeal.nD Cert.KernelIdeal.τ).loc Cert.KernelIdeal.main_arg1) (ValueIdx.ix2 a b) = ((r a b : ℝ) : EReal) :=
  allReal_ix2 _ (reals_of_pre m h c).arg1

/-- Argument 2 (f32[256, 128]) holds real numbers. -/
theorem real_arg2 (h : Cert.Pre_KernelIdeal m) (c : Dev Cert.KernelIdeal.nD) :
    ∃ r : (⟨2, ![256, 128]⟩ : Shape).Idx → ℝ, ∀ i : (⟨2, ![256, 128]⟩ : Shape).Idx, m ((c.tc : Thread Cert.KernelIdeal.nD Cert.KernelIdeal.τ).loc Cert.KernelIdeal.main_arg2) i = ((r i : ℝ) : EReal) :=
  (reals_of_pre m h c).arg2

/-- Argument 2 read at a row and a column. -/
theorem real2_arg2 (h : Cert.Pre_KernelIdeal m) (c : Dev Cert.KernelIdeal.nD) :
    ∃ r : Fin 256 → Fin 128 → ℝ, ∀ (a : Fin 256) (b : Fin 128), m ((c.tc : Thread Cert.KernelIdeal.nD Cert.KernelIdeal.τ).loc Cert.KernelIdeal.main_arg2) (ValueIdx.ix2 a b) = ((r a b : ℝ) : EReal) :=
  allReal_ix2 _ (reals_of_pre m h c).arg2

/-- Argument 3 (f32[256, 128]) holds real numbers. -/
theorem real_arg3 (h : Cert.Pre_KernelIdeal m) (c : Dev Cert.KernelIdeal.nD) :
    ∃ r : (⟨2, ![256, 128]⟩ : Shape).Idx → ℝ, ∀ i : (⟨2, ![256, 128]⟩ : Shape).Idx, m ((c.tc : Thread Cert.KernelIdeal.nD Cert.KernelIdeal.τ).loc Cert.KernelIdeal.main_arg3) i = ((r i : ℝ) : EReal) :=
  (reals_of_pre m h c).arg3

/-- Argument 3 read at a row and a column. -/
theorem real2_arg3 (h : Cert.Pre_KernelIdeal m) (c : Dev Cert.KernelIdeal.nD) :
    ∃ r : Fin 256 → Fin 128 → ℝ, ∀ (a : Fin 256) (b : Fin 128), m ((c.tc : Thread Cert.KernelIdeal.nD Cert.KernelIdeal.τ).loc Cert.KernelIdeal.main_arg3) (ValueIdx.ix2 a b) = ((r a b : ℝ) : EReal) :=
  allReal_ix2 _ (reals_of_pre m h c).arg3

/-- Argument 4 (f32[256, 128]) holds real numbers. -/
theorem real_arg4 (h : Cert.Pre_KernelIdeal m) (c : Dev Cert.KernelIdeal.nD) :
    ∃ r : (⟨2, ![256, 128]⟩ : Shape).Idx → ℝ, ∀ i : (⟨2, ![256, 128]⟩ : Shape).Idx, m ((c.tc : Thread Cert.KernelIdeal.nD Cert.KernelIdeal.τ).loc Cert.KernelIdeal.main_arg4) i = ((r i : ℝ) : EReal) :=
  (reals_of_pre m h c).arg4

/-- Argument 4 read at a row and a column. -/
theorem real2_arg4 (h : Cert.Pre_KernelIdeal m) (c : Dev Cert.KernelIdeal.nD) :
    ∃ r : Fin 256 → Fin 128 → ℝ, ∀ (a : Fin 256) (b : Fin 128), m ((c.tc : Thread Cert.KernelIdeal.nD Cert.KernelIdeal.τ).loc Cert.KernelIdeal.main_arg4) (ValueIdx.ix2 a b) = ((r a b : ℝ) : EReal) :=
  allReal_ix2 _ (reals_of_pre m h c).arg4

/-- Argument 5 (f32[128]) holds real numbers. -/
theorem real_arg5 (h : Cert.Pre_KernelIdeal m) (c : Dev Cert.KernelIdeal.nD) :
    ∃ r : (⟨1, ![128]⟩ : Shape).Idx → ℝ, ∀ i : (⟨1, ![128]⟩ : Shape).Idx, m ((c.tc : Thread Cert.KernelIdeal.nD Cert.KernelIdeal.τ).loc Cert.KernelIdeal.main_arg5) i = ((r i : ℝ) : EReal) :=
  (reals_of_pre m h c).arg5

/-- Argument 5 read at a coordinate. -/
theorem real1_arg5 (h : Cert.Pre_KernelIdeal m) (c : Dev Cert.KernelIdeal.nD) :
    ∃ r : Fin 128 → ℝ, ∀ a : Fin 128, m ((c.tc : Thread Cert.KernelIdeal.nD Cert.KernelIdeal.τ).loc Cert.KernelIdeal.main_arg5) (ValueIdx.ix1 a) = ((r a : ℝ) : EReal) :=
  allReal_ix1 _ (reals_of_pre m h c).arg5

/-- Argument 6 (f32[256, 128]) holds real numbers. -/
theorem real_arg6 (h : Cert.Pre_KernelIdeal m) (c : Dev Cert.KernelIdeal.nD) :
    ∃ r : (⟨2, ![256, 128]⟩ : Shape).Idx → ℝ, ∀ i : (⟨2, ![256, 128]⟩ : Shape).Idx, m ((c.tc : Thread Cert.KernelIdeal.nD Cert.KernelIdeal.τ).loc Cert.KernelIdeal.main_arg6) i = ((r i : ℝ) : EReal) :=
  (reals_of_pre m h c).arg6

/-- Argument 6 read at a row and a column. -/
theorem real2_arg6 (h : Cert.Pre_KernelIdeal m) (c : Dev Cert.KernelIdeal.nD) :
    ∃ r : Fin 256 → Fin 128 → ℝ, ∀ (a : Fin 256) (b : Fin 128), m ((c.tc : Thread Cert.KernelIdeal.nD Cert.KernelIdeal.τ).loc Cert.KernelIdeal.main_arg6) (ValueIdx.ix2 a b) = ((r a b : ℝ) : EReal) :=
  allReal_ix2 _ (reals_of_pre m h c).arg6

/-- Argument 7 (f32[128]) holds real numbers. -/
theorem real_arg7 (h : Cert.Pre_KernelIdeal m) (c : Dev Cert.KernelIdeal.nD) :
    ∃ r : (⟨1, ![128]⟩ : Shape).Idx → ℝ, ∀ i : (⟨1, ![128]⟩ : Shape).Idx, m ((c.tc : Thread Cert.KernelIdeal.nD Cert.KernelIdeal.τ).loc Cert.KernelIdeal.main_arg7) i = ((r i : ℝ) : EReal) :=
  (reals_of_pre m h c).arg7

/-- Argument 7 read at a coordinate. -/
theorem real1_arg7 (h : Cert.Pre_KernelIdeal m) (c : Dev Cert.KernelIdeal.nD) :
    ∃ r : Fin 128 → ℝ, ∀ a : Fin 128, m ((c.tc : Thread Cert.KernelIdeal.nD Cert.KernelIdeal.τ).loc Cert.KernelIdeal.main_arg7) (ValueIdx.ix1 a) = ((r a : ℝ) : EReal) :=
  allReal_ix1 _ (reals_of_pre m h c).arg7

/-- Argument 8 (f32[256, 128]) holds real numbers. -/
theorem real_arg8 (h : Cert.Pre_KernelIdeal m) (c : Dev Cert.KernelIdeal.nD) :
    ∃ r : (⟨2, ![256, 128]⟩ : Shape).Idx → ℝ, ∀ i : (⟨2, ![256, 128]⟩ : Shape).Idx, m ((c.tc : Thread Cert.KernelIdeal.nD Cert.KernelIdeal.τ).loc Cert.KernelIdeal.main_arg8) i = ((r i : ℝ) : EReal) :=
  (reals_of_pre m h c).arg8

/-- Argument 8 read at a row and a column. -/
theorem real2_arg8 (h : Cert.Pre_KernelIdeal m) (c : Dev Cert.KernelIdeal.nD) :
    ∃ r : Fin 256 → Fin 128 → ℝ, ∀ (a : Fin 256) (b : Fin 128), m ((c.tc : Thread Cert.KernelIdeal.nD Cert.KernelIdeal.τ).loc Cert.KernelIdeal.main_arg8) (ValueIdx.ix2 a b) = ((r a b : ℝ) : EReal) :=
  allReal_ix2 _ (reals_of_pre m h c).arg8

/-- Argument 9 (f32[128]) holds real numbers. -/
theorem real_arg9 (h : Cert.Pre_KernelIdeal m) (c : Dev Cert.KernelIdeal.nD) :
    ∃ r : (⟨1, ![128]⟩ : Shape).Idx → ℝ, ∀ i : (⟨1, ![128]⟩ : Shape).Idx, m ((c.tc : Thread Cert.KernelIdeal.nD Cert.KernelIdeal.τ).loc Cert.KernelIdeal.main_arg9) i = ((r i : ℝ) : EReal) :=
  (reals_of_pre m h c).arg9

/-- Argument 9 read at a coordinate. -/
theorem real1_arg9 (h : Cert.Pre_KernelIdeal m) (c : Dev Cert.KernelIdeal.nD) :
    ∃ r : Fin 128 → ℝ, ∀ a : Fin 128, m ((c.tc : Thread Cert.KernelIdeal.nD Cert.KernelIdeal.τ).loc Cert.KernelIdeal.main_arg9) (ValueIdx.ix1 a) = ((r a : ℝ) : EReal) :=
  allReal_ix1 _ (reals_of_pre m h c).arg9

/-- Argument 10 (f32[256, 128]) holds real numbers. -/
theorem real_arg10 (h : Cert.Pre_KernelIdeal m) (c : Dev Cert.KernelIdeal.nD) :
    ∃ r : (⟨2, ![256, 128]⟩ : Shape).Idx → ℝ, ∀ i : (⟨2, ![256, 128]⟩ : Shape).Idx, m ((c.tc : Thread Cert.KernelIdeal.nD Cert.KernelIdeal.τ).loc Cert.KernelIdeal.main_arg10) i = ((r i : ℝ) : EReal) :=
  (reals_of_pre m h c).arg10

/-- Argument 10 read at a row and a column. -/
theorem real2_arg10 (h : Cert.Pre_KernelIdeal m) (c : Dev Cert.KernelIdeal.nD) :
    ∃ r : Fin 256 → Fin 128 → ℝ, ∀ (a : Fin 256) (b : Fin 128), m ((c.tc : Thread Cert.KernelIdeal.nD Cert.KernelIdeal.τ).loc Cert.KernelIdeal.main_arg10) (ValueIdx.ix2 a b) = ((r a b : ℝ) : EReal) :=
  allReal_ix2 _ (reals_of_pre m h c).arg10

/-- Argument 11 (f32[128]) holds real numbers. -/
theorem real_arg11 (h : Cert.Pre_KernelIdeal m) (c : Dev Cert.KernelIdeal.nD) :
    ∃ r : (⟨1, ![128]⟩ : Shape).Idx → ℝ, ∀ i : (⟨1, ![128]⟩ : Shape).Idx, m ((c.tc : Thread Cert.KernelIdeal.nD Cert.KernelIdeal.τ).loc Cert.KernelIdeal.main_arg11) i = ((r i : ℝ) : EReal) :=
  (reals_of_pre m h c).arg11

/-- Argument 11 read at a coordinate. -/
theorem real1_arg11 (h : Cert.Pre_KernelIdeal m) (c : Dev Cert.KernelIdeal.nD) :
    ∃ r : Fin 128 → ℝ, ∀ a : Fin 128, m ((c.tc : Thread Cert.KernelIdeal.nD Cert.KernelIdeal.τ).loc Cert.KernelIdeal.main_arg11) (ValueIdx.ix1 a) = ((r a : ℝ) : EReal) :=
  allReal_ix1 _ (reals_of_pre m h c).arg11

/-- Argument 12 (f32[128, 256]) holds real numbers. -/
theorem real_arg12 (h : Cert.Pre_KernelIdeal m) (c : Dev Cert.KernelIdeal.nD) :
    ∃ r : (⟨2, ![128, 256]⟩ : Shape).Idx → ℝ, ∀ i : (⟨2, ![128, 256]⟩ : Shape).Idx, m ((c.tc : Thread Cert.KernelIdeal.nD Cert.KernelIdeal.τ).loc Cert.KernelIdeal.main_arg12) i = ((r i : ℝ) : EReal) :=
  (reals_of_pre m h c).arg12

/-- Argument 12 read at a row and a column. -/
theorem real2_arg12 (h : Cert.Pre_KernelIdeal m) (c : Dev Cert.KernelIdeal.nD) :
    ∃ r : Fin 128 → Fin 256 → ℝ, ∀ (a : Fin 128) (b : Fin 256), m ((c.tc : Thread Cert.KernelIdeal.nD Cert.KernelIdeal.τ).loc Cert.KernelIdeal.main_arg12) (ValueIdx.ix2 a b) = ((r a b : ℝ) : EReal) :=
  allReal_ix2 _ (reals_of_pre m h c).arg12

/-- Argument 13 (f32[256]) holds real numbers. -/
theorem real_arg13 (h : Cert.Pre_KernelIdeal m) (c : Dev Cert.KernelIdeal.nD) :
    ∃ r : (⟨1, ![256]⟩ : Shape).Idx → ℝ, ∀ i : (⟨1, ![256]⟩ : Shape).Idx, m ((c.tc : Thread Cert.KernelIdeal.nD Cert.KernelIdeal.τ).loc Cert.KernelIdeal.main_arg13) i = ((r i : ℝ) : EReal) :=
  (reals_of_pre m h c).arg13

/-- Argument 13 read at a coordinate. -/
theorem real1_arg13 (h : Cert.Pre_KernelIdeal m) (c : Dev Cert.KernelIdeal.nD) :
    ∃ r : Fin 256 → ℝ, ∀ a : Fin 256, m ((c.tc : Thread Cert.KernelIdeal.nD Cert.KernelIdeal.τ).loc Cert.KernelIdeal.main_arg13) (ValueIdx.ix1 a) = ((r a : ℝ) : EReal) :=
  allReal_ix1 _ (reals_of_pre m h c).arg13

/-- Argument 14 (f32[128, 256]) holds real numbers. -/
theorem real_arg14 (h : Cert.Pre_KernelIdeal m) (c : Dev Cert.KernelIdeal.nD) :
    ∃ r : (⟨2, ![128, 256]⟩ : Shape).Idx → ℝ, ∀ i : (⟨2, ![128, 256]⟩ : Shape).Idx, m ((c.tc : Thread Cert.KernelIdeal.nD Cert.KernelIdeal.τ).loc Cert.KernelIdeal.main_arg14) i = ((r i : ℝ) : EReal) :=
  (reals_of_pre m h c).arg14

/-- Argument 14 read at a row and a column. -/
theorem real2_arg14 (h : Cert.Pre_KernelIdeal m) (c : Dev Cert.KernelIdeal.nD) :
    ∃ r : Fin 128 → Fin 256 → ℝ, ∀ (a : Fin 128) (b : Fin 256), m ((c.tc : Thread Cert.KernelIdeal.nD Cert.KernelIdeal.τ).loc Cert.KernelIdeal.main_arg14) (ValueIdx.ix2 a b) = ((r a b : ℝ) : EReal) :=
  allReal_ix2 _ (reals_of_pre m h c).arg14

/-- Argument 15 (f32[256]) holds real numbers. -/
theorem real_arg15 (h : Cert.Pre_KernelIdeal m) (c : Dev Cert.KernelIdeal.nD) :
    ∃ r : (⟨1, ![256]⟩ : Shape).Idx → ℝ, ∀ i : (⟨1, ![256]⟩ : Shape).Idx, m ((c.tc : Thread Cert.KernelIdeal.nD Cert.KernelIdeal.τ).loc Cert.KernelIdeal.main_arg15) i = ((r i : ℝ) : EReal) :=
  (reals_of_pre m h c).arg15

/-- Argument 15 read at a coordinate. -/
theorem real1_arg15 (h : Cert.Pre_KernelIdeal m) (c : Dev Cert.KernelIdeal.nD) :
    ∃ r : Fin 256 → ℝ, ∀ a : Fin 256, m ((c.tc : Thread Cert.KernelIdeal.nD Cert.KernelIdeal.τ).loc Cert.KernelIdeal.main_arg15) (ValueIdx.ix1 a) = ((r a : ℝ) : EReal) :=
  allReal_ix1 _ (reals_of_pre m h c).arg15

/-- Argument 16 (f32[128, 256]) holds real numbers. -/
theorem real_arg16 (h : Cert.Pre_KernelIdeal m) (c : Dev Cert.KernelIdeal.nD) :
    ∃ r : (⟨2, ![128, 256]⟩ : Shape).Idx → ℝ, ∀ i : (⟨2, ![128, 256]⟩ : Shape).Idx, m ((c.tc : Thread Cert.KernelIdeal.nD Cert.KernelIdeal.τ).loc Cert.KernelIdeal.main_arg16) i = ((r i : ℝ) : EReal) :=
  (reals_of_pre m h c).arg16

/-- Argument 16 read at a row and a column. -/
theorem real2_arg16 (h : Cert.Pre_KernelIdeal m) (c : Dev Cert.KernelIdeal.nD) :
    ∃ r : Fin 128 → Fin 256 → ℝ, ∀ (a : Fin 128) (b : Fin 256), m ((c.tc : Thread Cert.KernelIdeal.nD Cert.KernelIdeal.τ).loc Cert.KernelIdeal.main_arg16) (ValueIdx.ix2 a b) = ((r a b : ℝ) : EReal) :=
  allReal_ix2 _ (reals_of_pre m h c).arg16

/-- Argument 17 (f32[256]) holds real numbers. -/
theorem real_arg17 (h : Cert.Pre_KernelIdeal m) (c : Dev Cert.KernelIdeal.nD) :
    ∃ r : (⟨1, ![256]⟩ : Shape).Idx → ℝ, ∀ i : (⟨1, ![256]⟩ : Shape).Idx, m ((c.tc : Thread Cert.KernelIdeal.nD Cert.KernelIdeal.τ).loc Cert.KernelIdeal.main_arg17) i = ((r i : ℝ) : EReal) :=
  (reals_of_pre m h c).arg17

/-- Argument 17 read at a coordinate. -/
theorem real1_arg17 (h : Cert.Pre_KernelIdeal m) (c : Dev Cert.KernelIdeal.nD) :
    ∃ r : Fin 256 → ℝ, ∀ a : Fin 256, m ((c.tc : Thread Cert.KernelIdeal.nD Cert.KernelIdeal.τ).loc Cert.KernelIdeal.main_arg17) (ValueIdx.ix1 a) = ((r a : ℝ) : EReal) :=
  allReal_ix1 _ (reals_of_pre m h c).arg17

/-- Argument 18 (f32[128, 256]) holds real numbers. -/
theorem real_arg18 (h : Cert.Pre_KernelIdeal m) (c : Dev Cert.KernelIdeal.nD) :
    ∃ r : (⟨2, ![128, 256]⟩ : Shape).Idx → ℝ, ∀ i : (⟨2, ![128, 256]⟩ : Shape).Idx, m ((c.tc : Thread Cert.KernelIdeal.nD Cert.KernelIdeal.τ).loc Cert.KernelIdeal.main_arg18) i = ((r i : ℝ) : EReal) :=
  (reals_of_pre m h c).arg18

/-- Argument 18 read at a row and a column. -/
theorem real2_arg18 (h : Cert.Pre_KernelIdeal m) (c : Dev Cert.KernelIdeal.nD) :
    ∃ r : Fin 128 → Fin 256 → ℝ, ∀ (a : Fin 128) (b : Fin 256), m ((c.tc : Thread Cert.KernelIdeal.nD Cert.KernelIdeal.τ).loc Cert.KernelIdeal.main_arg18) (ValueIdx.ix2 a b) = ((r a b : ℝ) : EReal) :=
  allReal_ix2 _ (reals_of_pre m h c).arg18

/-- Argument 19 (f32[256]) holds real numbers. -/
theorem real_arg19 (h : Cert.Pre_KernelIdeal m) (c : Dev Cert.KernelIdeal.nD) :
    ∃ r : (⟨1, ![256]⟩ : Shape).Idx → ℝ, ∀ i : (⟨1, ![256]⟩ : Shape).Idx, m ((c.tc : Thread Cert.KernelIdeal.nD Cert.KernelIdeal.τ).loc Cert.KernelIdeal.main_arg19) i = ((r i : ℝ) : EReal) :=
  (reals_of_pre m h c).arg19

/-- Argument 19 read at a coordinate. -/
theorem real1_arg19 (h : Cert.Pre_KernelIdeal m) (c : Dev Cert.KernelIdeal.nD) :
    ∃ r : Fin 256 → ℝ, ∀ a : Fin 256, m ((c.tc : Thread Cert.KernelIdeal.nD Cert.KernelIdeal.τ).loc Cert.KernelIdeal.main_arg19) (ValueIdx.ix1 a) = ((r a : ℝ) : EReal) :=
  allReal_ix1 _ (reals_of_pre m h c).arg19

end Cert.Proof.Finite
-- ==== Proof.KernelIdeal.HostRead.lean ====
import proofs.«118558_j17497696764591_2_alg».proof.Proof.Gen.KernelIdeal.Regions
import Idealize.ShloMosaic.Lib.StableHlo.Run
import Idealize.ShloMosaic.Lib.ValueIdx
import Idealize.ShloMosaic.Lib.Pipeline.Value
import Idealize.ShloMosaic.PureOps.Ideal.Laws

/-
  The kernel program's two host stretches, read at an index.

  Before each attention layer's kernels the program prepares, on the host, the fused operands of the layer's one
  projection: the query weight multiplied entry by entry by the layer's scale literal, then the scaled query weight,
  the key weight and the value weight side by side (a concatenation along the columns); the same for the three biases
  (the query bias scaled), end to end and then reshaped to a one-row matrix; and the skip bias reshaped to a one-row
  matrix. `after<k>_W`, `after<k>_B`, `after<k>_S` state what the stretch leaves in those three buffers as terms of
  the contents it starts from, for any starting valuation. At the exact values the remaining lemmas read these at an
  index: a concatenation of three pieces reads, in block `k`, piece `k` at the coordinate less the extents before it; a
  vector reshaped to a one-row matrix reads the vector at the column; a product with a spread scalar literal is the
  product with the literal's value.
-/

noncomputable section

namespace Cert.KernelIdeal.HostRead

open Cert.KernelIdeal Cert.KernelIdeal.Gen Idealize.ShloMosaic Idealize.ShloMosaic.TcCoe Idealize.SL.Sem Idealize.ShloMosaic.StableHlo Idealize.ShloMosaic.ValueIdx

/-! ## The host stretch `hostOps0` -/

section Terms
variable {F : FTy → Type} [FloatOps F]

set_option maxRecDepth 4096 in
/-- The fused weight after the stretch: the scaled query weight, the key weight and the value weight side by side. -/
theorem after0_W (W : Valuation τ sig (Elt F)) :
    after hostOps0 W (main_v2 : DevRef τ sig)
      = concatenate S256x384 1
          [⟨S256x128, mulf (W (main_arg4 : DevRef τ sig)) (broadcastInDim S256x128 ![] bcast_S_S256x128 (constant S_ .f32 0x3DB504F3#32))⟩,
            ⟨S256x128, W (main_arg6 : DevRef τ sig)⟩, ⟨S256x128, W (main_arg8 : DevRef τ sig)⟩] concatenates_S256x128_S256x128_S256x128_S256x384_d1 := by
  after_results
  rfl

set_option maxRecDepth 4096 in
/-- The fused bias after the stretch, as a one-row matrix: the scaled query bias, the key bias and the value bias end to end. -/
theorem after0_B (W : Valuation τ sig (Elt F)) :
    after hostOps0 W (main_v6 : DevRef τ sig)
      = shapeCast S1x384 (concatenate S384 0
          [⟨S128, mulf (W (main_arg5 : DevRef τ sig)) (broadcastInDim S128 ![] bcast_S_S128 (constant S_ .f32 0x3DB504F3#32))⟩,
            ⟨S128, W (main_arg7 : DevRef τ sig)⟩, ⟨S128, W (main_arg9 : DevRef τ sig)⟩] concatenates_S128_S128_S128_S384_d0) shapeCasts_S384_S1x384 := by
  after_results
  rfl

set_option maxRecDepth 4096 in
/-- The skip bias after the stretch, as a one-row matrix. -/
theorem after0_S (W : Valuation τ sig (Elt F)) :
    after hostOps0 W (main_v7 : DevRef τ sig) = shapeCast S1x128 (W (main_arg11 : DevRef τ sig)) shapeCasts_S128_S1x128 := by
  after_results
  rfl

end Terms

/-- A scalar literal spread over the weight's shape reads the literal's value everywhere. -/
theorem constW0_apply (w : BitVec 32) (e : Fin 256) (d : Fin 128) :
    broadcastInDim S256x128 ![] bcast_S_S256x128 (constant (F := Ideal) S_ .f32 w) (ix2 e d) = Ideal.ofBits .f32 w := by
  rw [broadcastInDim_apply _ _ _ (ix2 e d) ix0 (fun a => a.elim0)]
  rfl

/-- A scalar literal spread over the bias's shape reads the literal's value everywhere. -/
theorem constB0_apply (w : BitVec 32) (d : Fin 128) :
    broadcastInDim S128 ![] bcast_S_S128 (constant (F := Ideal) S_ .f32 w) (ix1 d) = Ideal.ofBits .f32 w := by
  rw [broadcastInDim_apply _ _ _ (ix1 d) ix0 (fun a => a.elim0)]
  rfl

/-- Three 256 × 128 matrices side by side, read in column block 0 (columns 0 … 127): piece 0 at the column less 0. -/
theorem catW0_q (x0 x1 x2 : FVec Ideal S256x128 .f32) (e : Fin 256) (c : Fin 384) (d : Fin 128) (hc : c.val = d.val) :
    concatenate S256x384 1 [⟨S256x128, x0⟩, ⟨S256x128, x1⟩, ⟨S256x128, x2⟩] concatenates_S256x128_S256x128_S256x128_S256x384_d1 (ix2 e c) = x0 (ix2 e d) :=
  concatenate_apply_piece 1 _ _ (ix2 e c) 0 (by show (0 : Nat) < 3; decide) S256x128 x0 rfl rfl 0 rfl (ix2 e d)
    (fun b hb => match b, hb with | ⟨0, _⟩, _ => rfl | ⟨1, _⟩, hb => absurd rfl hb) ((Nat.zero_add _).trans hc.symm)

/-- Three vectors of 128 end to end, read in block 0 (positions 0 … 127): piece 0 at the position less 0. -/
theorem catB0_q (x0 x1 x2 : FVec Ideal S128 .f32) (c : Fin 384) (d : Fin 128) (hc : c.val = d.val) :
    concatenate S384 0 [⟨S128, x0⟩, ⟨S128, x1⟩, ⟨S128, x2⟩] concatenates_S128_S128_S128_S384_d0 (ix1 c) = x0 (ix1 d) :=
  concatenate_apply_piece 0 _ _ (ix1 c) 0 (by show (0 : Nat) < 3; decide) S128 x0 rfl rfl 0 rfl (ix1 d)
    (fun b hb => match b, hb with | ⟨0, _⟩, hb => absurd rfl hb) ((Nat.zero_add _).trans hc.symm)

/-- Three 256 × 128 matrices side by side, read in column block 1 (columns 128 … 255): piece 1 at the column less 128. -/
theorem catW0_k (x0 x1 x2 : FVec Ideal S256x128 .f32) (e : Fin 256) (c : Fin 384) (d : Fin 128) (hc : c.val = 128 + d.val) :
    concatenate S256x384 1 [⟨S256x128, x0⟩, ⟨S256x128, x1⟩, ⟨S256x128, x2⟩] concatenates_S256x128_S256x128_S256x128_S256x384_d1 (ix2 e c) = x1 (ix2 e d) :=
  concatenate_apply_piece 1 _ _ (ix2 e c) 1 (by show (1 : Nat) < 3; decide) S256x128 x1 rfl rfl 128 rfl (ix2 e d)
    (fun b hb => match b, hb with | ⟨0, _⟩, _ => rfl | ⟨1, _⟩, hb => absurd rfl hb) hc.symm

/-- Three vectors of 128 end to end, read in block 1 (positions 128 … 255): piece 1 at the position less 128. -/
theorem catB0_k (x0 x1 x2 : FVec Ideal S128 .f32) (c : Fin 384) (d : Fin 128) (hc : c.val = 128 + d.val) :
    concatenate S384 0 [⟨S128, x0⟩, ⟨S128, x1⟩, ⟨S128, x2⟩] concatenates_S128_S128_S128_S384_d0 (ix1 c) = x1 (ix1 d) :=
  concatenate_apply_piece 0 _ _ (ix1 c) 1 (by show (1 : Nat) < 3; decide) S128 x1 rfl rfl 128 rfl (ix1 d)
    (fun b hb => match b, hb with | ⟨0, _⟩, hb => absurd rfl hb) hc.symm

/-- Three 256 × 128 matrices side by side, read in column block 2 (columns 256 … 383): piece 2 at the column less 256. -/
theorem catW0_v (x0 x1 x2 : FVec Ideal S256x128 .f32) (e : Fin 256) (c : Fin 384) (d : Fin 128) (hc : c.val = 256 + d.val) :
    concatenate S256x384 1 [⟨S256x128, x0⟩, ⟨S256x128, x1⟩, ⟨S256x128, x2⟩] concatenates_S256x128_S256x128_S256x128_S256x384_d1 (ix2 e c) = x2 (ix2 e d) :=
  concatenate_apply_piece 1 _ _ (ix2 e c) 2 (by show (2 : Nat) < 3; decide) S256x128 x2 rfl rfl 256 rfl (ix2 e d)
    (fun b hb => match b, hb with | ⟨0, _⟩, _ => rfl | ⟨1, _⟩, hb => absurd rfl hb) hc.symm

/-- Three vectors of 128 end to end, read in block 2 (positions 256 … 383): piece 2 at the position less 256. -/
theorem catB0_v (x0 x1 x2 : FVec Ideal S128 .f32) (c : Fin 384) (d : Fin 128) (hc : c.val = 256 + d.val) :
    concatenate S384 0 [⟨S128, x0⟩, ⟨S128, x1⟩, ⟨S128, x2⟩] concatenates_S128_S128_S128_S384_d0 (ix1 c) = x2 (ix1 d) :=
  concatenate_apply_piece 0 _ _ (ix1 c) 2 (by show (2 : Nat) < 3; decide) S128 x2 rfl rfl 256 rfl (ix1 d)
    (fun b hb => match b, hb with | ⟨0, _⟩, hb => absurd rfl hb) hc.symm

/-- A vector of 384 as a one-row matrix, read at a column: the vector there. -/
theorem rowB0_apply (x : FVec Ideal S384 .f32) (c : Fin 384) :
    shapeCast S1x384 x shapeCasts_S384_S1x384 (ix2 (0 : Fin 1) c) = x (ix1 c) :=
  shapeCast_apply x _ (ix2 (0 : Fin 1) c) (ix1 c) (by
    rw [Shape.rowMajor_val_one, Shape.rowMajor_val_two]
    show c.val = 0 * 384 + c.val
    omega)

/-- A vector of 128 as a one-row matrix, read at a column: the vector there. -/
theorem rowS0_apply (x : FVec Ideal S128 .f32) (d : Fin 128) :
    shapeCast S1x128 x shapeCasts_S128_S1x128 (ix2 (0 : Fin 1) d) = x (ix1 d) :=
  shapeCast_apply x _ (ix2 (0 : Fin 1) d) (ix1 d) (by
    rw [Shape.rowMajor_val_one, Shape.rowMajor_val_two]
    show d.val = 0 * 128 + d.val
    omega)

section Reads
variable (W : Valuation τ sig (Elt Ideal))

/-- The fused weight in column block 0 (`A` names the contents of the query weight's buffer): the query weight times the scale literal. -/
theorem after0_v2_q_of (A : FVec Ideal S256x128 .f32) (hA : W (main_arg4 : DevRef τ sig) = A) (e : Fin 256) (c : Fin 384) (d : Fin 128)
    (hc : c.val = d.val) : after hostOps0 W (main_v2 : DevRef τ sig) (ix2 e c) = A (ix2 e d) * Ideal.ofBits .f32 0x3DB504F3#32 := by
  subst hA
  rw [after0_W, catW0_q _ _ _ e c d hc]
  rw [mulf_apply, constW0_apply]

theorem after0_v2_q (A : FVec Ideal S256x128 .f32) (hA : W (main_arg4 : DevRef τ sig) = A) (e : Fin 256) (d : Fin 128) :
    after hostOps0 W (main_v2 : DevRef τ sig) (ix2 e (⟨d.val, by have := d.isLt; omega⟩ : Fin 384)) = A (ix2 e d) * Ideal.ofBits .f32 0x3DB504F3#32 :=
  after0_v2_q_of W A hA e _ d rfl

/-- The fused bias row in block 0 (`A` names the contents of the query bias's buffer): the query bias times the scale literal. -/
theorem after0_v6_q_of (A : FVec Ideal S128 .f32) (hA : W (main_arg5 : DevRef τ sig) = A) (c : Fin 384) (d : Fin 128)
    (hc : c.val = d.val) : after hostOps0 W (main_v6 : DevRef τ sig) (ix2 (0 : Fin 1) c) = A (ix1 d) * Ideal.ofBits .f32 0x3DB504F3#32 := by
  subst hA
  rw [after0_B, rowB0_apply, catB0_q _ _ _ c d hc]
  rw [mulf_apply, constB0_apply]

theorem after0_v6_q (A : FVec Ideal S128 .f32) (hA : W (main_arg5 : DevRef τ sig) = A) (d : Fin 128) :
    after hostOps0 W (main_v6 : DevRef τ sig) (ix2 (0 : Fin 1) (⟨d.val, by have := d.isLt; omega⟩ : Fin 384)) = A (ix1 d) * Ideal.ofBits .f32 0x3DB504F3#32 :=
  after0_v6_q_of W A hA _ d rfl

/-- The fused weight in column block 1 (`A` names the contents of the key weight's buffer): the key weight. -/
theorem after0_v2_k_of (A : FVec Ideal S256x128 .f32) (hA : W (main_arg6 : DevRef τ sig) = A) (e : Fin 256) (c : Fin 384) (d : Fin 128)
    (hc : c.val = 128 + d.val) : after hostOps0 W (main_v2 : DevRef τ sig) (ix2 e c) = A (ix2 e d) := by
  subst hA
  rw [after0_W, catW0_k _ _ _ e c d hc]

theorem after0_v2_k (A : FVec Ideal S256x128 .f32) (hA : W (main_arg6 : DevRef τ sig) = A) (e : Fin 256) (d : Fin 128) :
    after hostOps0 W (main_v2 : DevRef τ sig) (ix2 e (⟨128 + d.val, by have := d.isLt; omega⟩ : Fin 384)) = A (ix2 e d) :=
  after0_v2_k_of W A hA e _ d rfl

/-- The fused bias row in block 1 (`A` names the contents of the key bias's buffer): the key bias. -/
theorem after0_v6_k_of (A : FVec Ideal S128 .f32) (hA : W (main_arg7 : DevRef τ sig) = A) (c : Fin 384) (d : Fin 128)
    (hc : c.val = 128 + d.val) : after hostOps0 W (main_v6 : DevRef τ sig) (ix2 (0 : Fin 1) c) = A (ix1 d) := by
  subst hA
  rw [after0_B, rowB0_apply, catB0_k _ _ _ c d hc]

theorem after0_v6_k (A : FVec Ideal S128 .f32) (hA : W (main_arg7 : DevRef τ sig) = A) (d : Fin 128) :
    after hostOps0 W (main_v6 : DevRef τ sig) (ix2 (0 : Fin 1) (⟨128 + d.val, by have := d.isLt; omega⟩ : Fin 384)) = A (ix1 d) :=
  after0_v6_k_of W A hA _ d rfl

/-- The fused weight in column block 2 (`A` names the contents of the value weight's buffer): the value weight. -/
theorem after0_v2_v_of (A : FVec Ideal S256x128 .f32) (hA : W (main_arg8 : DevRef τ sig) = A) (e : Fin 256) (c : Fin 384) (d : Fin 128)
    (hc : c.val = 256 + d.val) : after hostOps0 W (main_v2 : DevRef τ sig) (ix2 e c) = A (ix2 e d) := by
  subst hA
  rw [after0_W, catW0_v _ _ _ e c d hc]

theorem after0_v2_v (A : FVec Ideal S256x128 .f32) (hA : W (main_arg8 : DevRef τ sig) = A) (e : Fin 256) (d : Fin 128) :
    after hostOps0 W (main_v2 : DevRef τ sig) (ix2 e (⟨256 + d.val, by have := d.isLt; omega⟩ : Fin 384)) = A (ix2 e d) :=
  after0_v2_v_of W A hA e _ d rfl

/-- The fused bias row in block 2 (`A` names the contents of the value bias's buffer): the value bias. -/
theorem after0_v6_v_of (A : FVec Ideal S128 .f32) (hA : W (main_arg9 : DevRef τ sig) = A) (c : Fin 384) (d : Fin 128)
    (hc : c.val = 256 + d.val) : after hostOps0 W (main_v6 : DevRef τ sig) (ix2 (0 : Fin 1) c) = A (ix1 d) := by
  subst hA
  rw [after0_B, rowB0_apply, catB0_v _ _ _ c d hc]

theorem after0_v6_v (A : FVec Ideal S128 .f32) (hA : W (main_arg9 : DevRef τ sig) = A) (d : Fin 128) :
    after hostOps0 W (main_v6 : DevRef τ sig) (ix2 (0 : Fin 1) (⟨256 + d.val, by have := d.isLt; omega⟩ : Fin 384)) = A (ix1 d) :=
  after0_v6_v_of W A hA _ d rfl

/-- The skip bias row (`A` names the contents of the skip bias's buffer): the skip bias. -/
theorem after0_v7 (A : FVec Ideal S128 .f32) (hA : W (main_arg11 : DevRef τ sig) = A) (d : Fin 128) :
    after hostOps0 W (main_v7 : DevRef τ sig) (ix2 (0 : Fin 1) d) = A (ix1 d) := by
  subst hA
  rw [after0_S, rowS0_apply]

end Reads

/-! ## The host stretch `hostOps2` -/

section Terms
variable {F : FTy → Type} [FloatOps F]

set_option maxRecDepth 4096 in
/-- The fused weight after the stretch: the scaled query weight, the key weight and the value weight side by side. -/
theorem after2_W (W : Valuation τ sig (Elt F)) :
    after hostOps2 W (main_v12 : DevRef τ sig)
      = concatenate S128x768 1
          [⟨S128x256, mulf (W (main_arg12 : DevRef τ sig)) (broadcastInDim S128x256 ![] bcast_S_S128x256 (constant S_ .f32 0x3D800000#32))⟩,
            ⟨S128x256, W (main_arg14 : DevRef τ sig)⟩, ⟨S128x256, W (main_arg16 : DevRef τ sig)⟩] concatenates_S128x256_S128x256_S128x256_S128x768_d1 := by
  after_results
  rfl

set_option maxRecDepth 4096 in
/-- The fused bias after the stretch, as a one-row matrix: the scaled query bias, the key bias and the value bias end to end. -/
theorem after2_B (W : Valuation τ sig (Elt F)) :
    after hostOps2 W (main_v16 : DevRef τ sig)
      = shapeCast S1x768 (concatenate S768 0
          [⟨S256, mulf (W (main_arg13 : DevRef τ sig)) (broadcastInDim S256 ![] bcast_S_S256 (constant S_ .f32 0x3D800000#32))⟩,
            ⟨S256, W (main_arg15 : DevRef τ sig)⟩, ⟨S256, W (main_arg17 : DevRef τ sig)⟩] concatenates_S256_S256_S256_S768_d0) shapeCasts_S768_S1x768 := by
  after_results
  rfl

set_option maxRecDepth 4096 in
/-- The skip bias after the stretch, as a one-row matrix. -/
theorem after2_S (W : Valuation τ sig (Elt F)) :
    after hostOps2 W (main_v17 : DevRef τ sig) = shapeCast S1x256 (W (main_arg19 : DevRef τ sig)) shapeCasts_S256_S1x256 := by
  after_results
  rfl

end Terms

/-- A scalar literal spread over the weight's shape reads the literal's value everywhere. -/
theorem constW2_apply (w : BitVec 32) (e : Fin 128) (d : Fin 256) :
    broadcastInDim S128x256 ![] bcast_S_S128x256 (constant (F := Ideal) S_ .f32 w) (ix2 e d) = Ideal.ofBits .f32 w := by
  rw [broadcastInDim_apply _ _ _ (ix2 e d) ix0 (fun a => a.elim0)]
  rfl

/-- A scalar literal spread over the bias's shape reads the literal's value everywhere. -/
theorem constB2_apply (w : BitVec 32) (d : Fin 256) :
    broadcastInDim S256 ![] bcast_S_S256 (constant (F := Ideal) S_ .f32 w) (ix1 d) = Ideal.ofBits .f32 w := by
  rw [broadcastInDim_apply _ _ _ (ix1 d) ix0 (fun a => a.elim0)]
  rfl

/-- Three 128 × 256 matrices side by side, read in column block 0 (columns 0 … 255): piece 0 at the column less 0. -/
theorem catW2_q (x0 x1 x2 : FVec Ideal S128x256 .f32) (e : Fin 128) (c : Fin 768) (d : Fin 256) (hc : c.val = d.val) :
    concatenate S128x768 1 [⟨S128x256, x0⟩, ⟨S128x256, x1⟩, ⟨S128x256, x2⟩] concatenates_S128x256_S128x256_S128x256_S128x768_d1 (ix2 e c) = x0 (ix2 e d) :=
  concatenate_apply_piece 1 _ _ (ix2 e c) 0 (by show (0 : Nat) < 3; decide) S128x256 x0 rfl rfl 0 rfl (ix2 e d)
    (fun b hb => match b, hb with | ⟨0, _⟩, _ => rfl | ⟨1, _⟩, hb => absurd rfl hb) ((Nat.zero_add _).trans hc.symm)

/-- Three vectors of 256 end to end, read in block 0 (positions 0 … 255): piece 0 at the position less 0. -/
theorem catB2_q (x0 x1 x2 : FVec Ideal S256 .f32) (c : Fin 768) (d : Fin 256) (hc : c.val = d.val) :
    concatenate S768 0 [⟨S256, x0⟩, ⟨S256, x1⟩, ⟨S256, x2⟩] concatenates_S256_S256_S256_S768_d0 (ix1 c) = x0 (ix1 d) :=
  concatenate_apply_piece 0 _ _ (ix1 c) 0 (by show (0 : Nat) < 3; decide) S256 x0 rfl rfl 0 rfl (ix1 d)
    (fun b hb => match b, hb with | ⟨0, _⟩, hb => absurd rfl hb) ((Nat.zero_add _).trans hc.symm)

/-- Three 128 × 256 matrices side by side, read in column block 1 (columns 256 … 511): piece 1 at the column less 256. -/
theorem catW2_k (x0 x1 x2 : FVec Ideal S128x256 .f32) (e : Fin 128) (c : Fin 768) (d : Fin 256) (hc : c.val = 256 + d.val) :
    concatenate S128x768 1 [⟨S128x256, x0⟩, ⟨S128x256, x1⟩, ⟨S128x256, x2⟩] concatenates_S128x256_S128x256_S128x256_S128x768_d1 (ix2 e c) = x1 (ix2 e d) :=
  concatenate_apply_piece 1 _ _ (ix2 e c) 1 (by show (1 : Nat) < 3; decide) S128x256 x1 rfl rfl 256 rfl (ix2 e d)
    (fun b hb => match b, hb with | ⟨0, _⟩, _ => rfl | ⟨1, _⟩, hb => absurd rfl hb) hc.symm

/-- Three vectors of 256 end to end, read in block 1 (positions 256 … 511): piece 1 at the position less 256. -/
theorem catB2_k (x0 x1 x2 : FVec Ideal S256 .f32) (c : Fin 768) (d : Fin 256) (hc : c.val = 256 + d.val) :
    concatenate S768 0 [⟨S256, x0⟩, ⟨S256, x1⟩, ⟨S256, x2⟩] concatenates_S256_S256_S256_S768_d0 (ix1 c) = x1 (ix1 d) :=
  concatenate_apply_piece 0 _ _ (ix1 c) 1 (by show (1 : Nat) < 3; decide) S256 x1 rfl rfl 256 rfl (ix1 d)
    (fun b hb => match b, hb with | ⟨0, _⟩, hb => absurd rfl hb) hc.symm

/-- Three 128 × 256 matrices side by side, read in column block 2 (columns 512 … 767): piece 2 at the column less 512. -/
theorem catW2_v (x0 x1 x2 : FVec Ideal S128x256 .f32) (e : Fin 128) (c : Fin 768) (d : Fin 256) (hc : c.val = 512 + d.val) :
    concatenate S128x768 1 [⟨S128x256, x0⟩, ⟨S128x256, x1⟩, ⟨S128x256, x2⟩] concatenates_S128x256_S128x256_S128x256_S128x768_d1 (ix2 e c) = x2 (ix2 e d) :=
  concatenate_apply_piece 1 _ _ (ix2 e c) 2 (by show (2 : Nat) < 3; decide) S128x256 x2 rfl rfl 512 rfl (ix2 e d)
    (fun b hb => match b, hb with | ⟨0, _⟩, _ => rfl | ⟨1, _⟩, hb => absurd rfl hb) hc.symm

/-- Three vectors of 256 end to end, read in block 2 (positions 512 … 767): piece 2 at the position less 512. -/
theorem catB2_v (x0 x1 x2 : FVec Ideal S256 .f32) (c : Fin 768) (d : Fin 256) (hc : c.val = 512 + d.val) :
    concatenate S768 0 [⟨S256, x0⟩, ⟨S256, x1⟩, ⟨S256, x2⟩] concatenates_S256_S256_S256_S768_d0 (ix1 c) = x2 (ix1 d) :=
  concatenate_apply_piece 0 _ _ (ix1 c) 2 (by show (2 : Nat) < 3; decide) S256 x2 rfl rfl 512 rfl (ix1 d)
    (fun b hb => match b, hb with | ⟨0, _⟩, hb => absurd rfl hb) hc.symm

/-- A vector of 768 as a one-row matrix, read at a column: the vector there. -/
theorem rowB2_apply (x : FVec Ideal S768 .f32) (c : Fin 768) :
    shapeCast S1x768 x shapeCasts_S768_S1x768 (ix2 (0 : Fin 1) c) = x (ix1 c) :=
  shapeCast_apply x _ (ix2 (0 : Fin 1) c) (ix1 c) (by
    rw [Shape.rowMajor_val_one, Shape.rowMajor_val_two]
    show c.val = 0 * 768 + c.val
    omega)

/-- A vector of 256 as a one-row matrix, read at a column: the vector there. -/
theorem rowS2_apply (x : FVec Ideal S256 .f32) (d : Fin 256) :
    shapeCast S1x256 x shapeCasts_S256_S1x256 (ix2 (0 : Fin 1) d) = x (ix1 d) :=
  shapeCast_apply x _ (ix2 (0 : Fin 1) d) (ix1 d) (by
    rw [Shape.rowMajor_val_one, Shape.rowMajor_val_two]
    show d.val = 0 * 256 + d.val
    omega)

section Reads
variable (W : Valuation τ sig (Elt Ideal))

/-- The fused weight in column block 0 (`A` names the contents of the query weight's buffer): the query weight times the scale literal. -/
theorem after2_v12_q_of (A : FVec Ideal S128x256 .f32) (hA : W (main_arg12 : DevRef τ sig) = A) (e : Fin 128) (c : Fin 768) (d : Fin 256)
    (hc : c.val = d.val) : after hostOps2 W (main_v12 : DevRef τ sig) (ix2 e c) = A (ix2 e d) * Ideal.ofBits .f32 0x3D800000#32 := by
  subst hA
  rw [after2_W, catW2_q _ _ _ e c d hc]
  rw [mulf_apply, constW2_apply]

theorem after2_v12_q (A : FVec Ideal S128x256 .f32) (hA : W (main_arg12 : DevRef τ sig) = A) (e : Fin 128) (d : Fin 256) :
    after hostOps2 W (main_v12 : DevRef τ sig) (ix2 e (⟨d.val, by have := d.isLt; omega⟩ : Fin 768)) = A (ix2 e d) * Ideal.ofBits .f32 0x3D800000#32 :=
  after2_v12_q_of W A hA e _ d rfl

/-- The fused bias row in block 0 (`A` names the contents of the query bias's buffer): the query bias times the scale literal. -/
theorem after2_v16_q_of (A : FVec Ideal S256 .f32) (hA : W (main_arg13 : DevRef τ sig) = A) (c : Fin 768) (d : Fin 256)
    (hc : c.val = d.val) : after hostOps2 W (main_v16 : DevRef τ sig) (ix2 (0 : Fin 1) c) = A (ix1 d) * Ideal.ofBits .f32 0x3D800000#32 := by
  subst hA
  rw [after2_B, rowB2_apply, catB2_q _ _ _ c d hc]
  rw [mulf_apply, constB2_apply]

theorem after2_v16_q (A : FVec Ideal S256 .f32) (hA : W (main_arg13 : DevRef τ sig) = A) (d : Fin 256) :
    after hostOps2 W (main_v16 : DevRef τ sig) (ix2 (0 : Fin 1) (⟨d.val, by have := d.isLt; omega⟩ : Fin 768)) = A (ix1 d) * Ideal.ofBits .f32 0x3D800000#32 :=
  after2_v16_q_of W A hA _ d rfl

/-- The fused weight in column block 1 (`A` names the contents of the key weight's buffer): the key weight. -/
theorem after2_v12_k_of (A : FVec Ideal S128x256 .f32) (hA : W (main_arg14 : DevRef τ sig) = A) (e : Fin 128) (c : Fin 768) (d : Fin 256)
    (hc : c.val = 256 + d.val) : after hostOps2 W (main_v12 : DevRef τ sig) (ix2 e c) = A (ix2 e d) := by
  subst hA
  rw [after2_W, catW2_k _ _ _ e c d hc]

theorem after2_v12_k (A : FVec Ideal S128x256 .f32) (hA : W (main_arg14 : DevRef τ sig) = A) (e : Fin 128) (d : Fin 256) :
    after hostOps2 W (main_v12 : DevRef τ sig) (ix2 e (⟨256 + d.val, by have := d.isLt; omega⟩ : Fin 768)) = A (ix2 e d) :=
  after2_v12_k_of W A hA e _ d rfl

/-- The fused bias row in block 1 (`A` names the contents of the key bias's buffer): the key bias. -/
theorem after2_v16_k_of (A : FVec Ideal S256 .f32) (hA : W (main_arg15 : DevRef τ sig) = A) (c : Fin 768) (d : Fin 256)
    (hc : c.val = 256 + d.val) : after hostOps2 W (main_v16 : DevRef τ sig) (ix2 (0 : Fin 1) c) = A (ix1 d) := by
  subst hA
  rw [after2_B, rowB2_apply, catB2_k _ _ _ c d hc]

theorem after2_v16_k (A : FVec Ideal S256 .f32) (hA : W (main_arg15 : DevRef τ sig) = A) (d : Fin 256) :
    after hostOps2 W (main_v16 : DevRef τ sig) (ix2 (0 : Fin 1) (⟨256 + d.val, by have := d.isLt; omega⟩ : Fin 768)) = A (ix1 d) :=
  after2_v16_k_of W A hA _ d rfl

/-- The fused weight in column block 2 (`A` names the contents of the value weight's buffer): the value weight. -/
theorem after2_v12_v_of (A : FVec Ideal S128x256 .f32) (hA : W (main_arg16 : DevRef τ sig) = A) (e : Fin 128) (c : Fin 768) (d : Fin 256)
    (hc : c.val = 512 + d.val) : after hostOps2 W (main_v12 : DevRef τ sig) (ix2 e c) = A (ix2 e d) := by
  subst hA
  rw [after2_W, catW2_v _ _ _ e c d hc]

theorem after2_v12_v (A : FVec Ideal S128x256 .f32) (hA : W (main_arg16 : DevRef τ sig) = A) (e : Fin 128) (d : Fin 256) :
    after hostOps2 W (main_v12 : DevRef τ sig) (ix2 e (⟨512 + d.val, by have := d.isLt; omega⟩ : Fin 768)) = A (ix2 e d) :=
  after2_v12_v_of W A hA e _ d rfl

/-- The fused bias row in block 2 (`A` names the contents of the value bias's buffer): the value bias. -/
theorem after2_v16_v_of (A : FVec Ideal S256 .f32) (hA : W (main_arg17 : DevRef τ sig) = A) (c : Fin 768) (d : Fin 256)
    (hc : c.val = 512 + d.val) : after hostOps2 W (main_v16 : DevRef τ sig) (ix2 (0 : Fin 1) c) = A (ix1 d) := by
  subst hA
  rw [after2_B, rowB2_apply, catB2_v _ _ _ c d hc]

theorem after2_v16_v (A : FVec Ideal S256 .f32) (hA : W (main_arg17 : DevRef τ sig) = A) (d : Fin 256) :
    after hostOps2 W (main_v16 : DevRef τ sig) (ix2 (0 : Fin 1) (⟨512 + d.val, by have := d.isLt; omega⟩ : Fin 768)) = A (ix1 d) :=
  after2_v16_v_of W A hA _ d rfl

/-- The skip bias row (`A` names the contents of the skip bias's buffer): the skip bias. -/
theorem after2_v17 (A : FVec Ideal S256 .f32) (hA : W (main_arg19 : DevRef τ sig) = A) (d : Fin 256) :
    after hostOps2 W (main_v17 : DevRef τ sig) (ix2 (0 : Fin 1) d) = A (ix1 d) := by
  subst hA
  rw [after2_S, rowS2_apply]

end Reads

end Cert.KernelIdeal.HostRead

end
-- ==== Proof.KernelIdeal.Val0.lean ====
/-
  Region 0 (the projection kernel of the first attention layer) read index by index on the extended reals.
  The region's two output arrays after the run are, entry by entry, the affine maps of the rows of the input
  array: row i of the fused array is (row i of h) · Wqkv + bqkv and row i of the skip array is (row i of h) · Ws + bs.
  A grid point t handles the block of rows 1024 t … 1024 t + 1023; the weights and biases are read whole at every
  point; the eight blocks tile the 8192 rows, so each output array is one function of the input arrays.
-/
import proofs.«118558_j17497696764591_2_alg».proof.Proof.KernelIdeal.Reg0
import proofs.«118558_j17497696764591_2_alg».proof.Proof.LibDotRow
import Idealize.ShloMosaic.Lib.Pipeline.Value
import Idealize.ShloMosaic.Lib.ValueIdx

noncomputable section

namespace Cert.KernelIdeal.Val0

open Cert.KernelIdeal Cert.KernelIdeal.Gen
open Idealize.ShloMosaic Idealize.ShloMosaic.TcCoe Idealize.SL.Sem Idealize.ShloMosaic.ValueIdx
open Idealize.ShloMosaic.Pipeline (Dat)

/-! ## The body's two stored values at an index -/

/-- The fused projection's stored block at (p, q): the product of row p of the block of h with column q of the
    weights, plus the bias at q (the roundings to bf16 are the identity on extended reals). -/
theorem pay2_apply (x : Vec Ideal S1024x256 .f32) (w : Vec Ideal S256x384 .f32) (b : Vec Ideal S1x384 .f32)
    (p : Fin 1024) (q : Fin 384) :
    k0_pay2 x w b (ix2 p q) = (∑ e : Fin 256, x (ix2 p e) * w (ix2 e q)) + b (ix2 0 q) := by
  unfold k0_pay2 k0_pay1
  simp only [shapeCast_self]
  show (FloatOps.matmul (F := Ideal) dot_S1024x256_S256x384_S1024x384_1_0_0_1_n_n none
          (truncf (F := Ideal) (φ := .f32) FTy.bf16 x bitsLt_bf16_f32)
          (truncf (F := Ideal) (φ := .f32) FTy.bf16 w bitsLt_bf16_f32) (constant (F := Ideal) S1024x384 FTy.f32 0x00000000#32)) (ix2 p q)
        + broadcastTo S1024x384 b broadcasts_S1x384_S1024x384 (ix2 p q) = _
  refine congrArg₂ (· + ·) ?_ ?_
  · refine (Ideal.matmul_constant_zero_apply dot_S1024x256_S256x384_S1024x384_1_0_0_1_n_n none _ _ (ix2 p q)).trans ?_
    exact DotRow.sum_contr dot_S1024x256_S256x384_S1024x384_1_0_0_1_n_n rfl rfl rfl rfl (fun _ _ => rfl) (fun _ _ => rfl) x w p q
  · exact broadcastTo_apply b _ (ix2 p q) (ix2 0 q) (fun a => by match a with | ⟨0, _⟩ => rfl | ⟨1, _⟩ => rfl)

/-- The skip term's stored block at (p, q), likewise. -/
theorem pay3_apply (x : Vec Ideal S1024x256 .f32) (w : Vec Ideal S256x128 .f32) (b : Vec Ideal S1x128 .f32)
    (p : Fin 1024) (q : Fin 128) :
    k0_pay3 x w b (ix2 p q) = (∑ e : Fin 256, x (ix2 p e) * w (ix2 e q)) + b (ix2 0 q) := by
  unfold k0_pay3 k0_pay1
  simp only [shapeCast_self]
  show (FloatOps.matmul (F := Ideal) dot_S1024x256_S256x128_S1024x128_1_0_0_1_n_n none
          (truncf (F := Ideal) (φ := .f32) FTy.bf16 x bitsLt_bf16_f32)
          (truncf (F := Ideal) (φ := .f32) FTy.bf16 w bitsLt_bf16_f32) (constant (F := Ideal) S1024x128 FTy.f32 0x00000000#32)) (ix2 p q)
        + broadcastTo S1024x128 b broadcasts_S1x128_S1024x128 (ix2 p q) = _
  refine congrArg₂ (· + ·) ?_ ?_
  · refine (Ideal.matmul_constant_zero_apply dot_S1024x256_S256x128_S1024x128_1_0_0_1_n_n none _ _ (ix2 p q)).trans ?_
    exact DotRow.sum_contr dot_S1024x256_S256x128_S1024x128_1_0_0_1_n_n rfl rfl rfl rfl (fun _ _ => rfl) (fun _ _ => rfl) x w p q
  · exact broadcastTo_apply b _ (ix2 p q) (ix2 0 q) (fun a => by match a with | ⟨0, _⟩ => rfl | ⟨1, _⟩ => rfl)

/-! ## The whole-array functions -/

/-- One entry of an affine projection of the rows of A0: (row i of A0) · (column j of A1) + A2 at j. -/
def affAt {K N : Nat} (A0 : (⟨2, ![8192, K]⟩ : Shape).Idx → EReal) (A1 : (⟨2, ![K, N]⟩ : Shape).Idx → EReal)
    (A2 : (⟨2, ![1, N]⟩ : Shape).Idx → EReal) (i : Fin 8192) (j : Fin N) : EReal :=
  (∑ e : Fin K, A0 (ix2 i e) * A1 (ix2 e j)) + A2 (ix2 0 j)

/-- The array of those entries. -/
def affArr {K N : Nat} (A0 : (⟨2, ![8192, K]⟩ : Shape).Idx → EReal) (A1 : (⟨2, ![K, N]⟩ : Shape).Idx → EReal)
    (A2 : (⟨2, ![1, N]⟩ : Shape).Idx → EReal) : (⟨2, ![8192, N]⟩ : Shape).Idx → EReal :=
  fun k => affAt A0 A1 A2 ⟨(k 0).val, idx2_lt0 k⟩ ⟨(k 1).val, idx2_lt1 k⟩

/-- The fused block computed from a block of rows that sits at rows 1024 r … of A0, and from the whole weights
    and bias, is the block of the array of affine entries at the same rows. -/
theorem block5 (A0 : S8192x256.Idx → EReal) (A1 : S256x384.Idx → EReal) (A2 : S1x384.Idx → EReal)
    (x : Vec Ideal S1024x256 .f32) (w : Vec Ideal S256x384 .f32) (b : Vec Ideal S1x384 .f32) (r : ℕ)
    (hx : ∀ (p : Fin 1024) (e : Fin 256) (k : S8192x256.Idx), (k 0).val = r * 1024 + p.val → (k 1).val = e.val → x (ix2 p e) = A0 k)
    (hw : w = A1) (hb : b = A2)
    (y : S1024x384.Idx) (i : S8192x384.Idx) (hi0 : (i 0).val = r * 1024 + (y 0).val) (hi1 : (i 1).val = (y 1).val) :
    k0_pay2 x w b y = affArr A0 A1 A2 i := by
  obtain ⟨p, q, rfl⟩ : ∃ (p : Fin 1024) (q : Fin 384), y = ix2 p q := ⟨y 0, y 1, eq_ix2 y⟩
  subst hw hb
  rw [pay2_apply]
  have hq : (⟨(i 1).val, idx2_lt1 i⟩ : Fin 384) = q := Fin.ext hi1
  show _ = affAt A0 w b ⟨(i 0).val, idx2_lt0 i⟩ ⟨(i 1).val, idx2_lt1 i⟩
  rw [hq]
  unfold affAt
  refine congrArg₂ (· + ·) (Finset.sum_congr rfl fun e _ => ?_) rfl
  rw [hx p e (ix2 ⟨(i 0).val, idx2_lt0 i⟩ e) hi0 rfl]

/-- The same for the skip term's block. -/
theorem block6 (A0 : S8192x256.Idx → EReal) (A1 : S256x128.Idx → EReal) (A2 : S1x128.Idx → EReal)
    (x : Vec Ideal S1024x256 .f32) (w : Vec Ideal S256x128 .f32) (b : Vec Ideal S1x128 .f32) (r : ℕ)
    (hx : ∀ (p : Fin 1024) (e : Fin 256) (k : S8192x256.Idx), (k 0).val = r * 1024 + p.val → (k 1).val = e.val → x (ix2 p e) = A0 k)
    (hw : w = A1) (hb : b = A2)
    (y : S1024x128.Idx) (i : S8192x128.Idx) (hi0 : (i 0).val = r * 1024 + (y 0).val) (hi1 : (i 1).val = (y 1).val) :
    k0_pay3 x w b y = affArr A0 A1 A2 i := by
  obtain ⟨p, q, rfl⟩ : ∃ (p : Fin 1024) (q : Fin 128), y = ix2 p q := ⟨y 0, y 1, eq_ix2 y⟩
  subst hw hb
  rw [pay3_apply]
  have hq : (⟨(i 1).val, idx2_lt1 i⟩ : Fin 128) = q := Fin.ext hi1
  show _ = affAt A0 w b ⟨(i 0).val, idx2_lt0 i⟩ ⟨(i 1).val, idx2_lt1 i⟩
  rw [hq]
  unfold affAt
  refine congrArg₂ (· + ·) (Finset.sum_congr rfl fun e _ => ?_) rfl
  rw [hx p e (ix2 ⟨(i 0).val, idx2_lt0 i⟩ e) hi0 rfl]

/-! ## From blocks to the arrays -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the eight points: the rows' window and the two outputs' move with the
    point along the rows, the weights' and biases' windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The rows' block at point t is rows 1024 t … of the input array. -/
theorem iblk0_apply (c : Dev nD) (t : Fin cfg0.N) (p : Fin 1024) (e : Fin 256) (k : S8192x256.Idx)
    (hk0 : (k 0).val = t.val * 1024 + p.val) (hk1 : (k 1).val = e.val) :
    (Reg0.iblk V c 0 t : Vec Ideal S1024x256 .f32) (ix2 p e) = (V c main_arg0 : S8192x256.Idx → EReal) k := by
  obtain ⟨e0, e1, -⟩ := idx_facts t
  unfold Reg0.iblk
  rw [View.read_apply]
  show V c main_arg0 _ = V c main_arg0 _
  refine congrArg _ (funext fun a => Fin.ext ?_)
  match a with
  | ⟨0, _⟩ => show win0_0.index t (0 : Fin 2) * 1024 + 1 * p.val = (k 0).val; rw [e0, hk0]; omega
  | ⟨1, _⟩ => show win0_0.index t (1 : Fin 2) * 256 + 1 * e.val = (k 1).val; rw [e1, hk1]; omega

/-- The fused weights' block is the whole array at every point. -/
theorem iblk1_eq (c : Dev nD) (t : Fin cfg0.N) :
    (Reg0.iblk V c 1 t : Vec Ideal S256x384 .f32) = (V c main_v2 : S256x384.Idx → EReal) := by
  obtain ⟨-, -, e0, e1, -⟩ := idx_facts t
  funext j
  unfold Reg0.iblk
  rw [View.read_apply]
  show V c main_v2 _ = V c main_v2 _
  refine congrArg _ (funext fun a => Fin.ext ?_)
  match a with
  | ⟨0, _⟩ => show win0_1.index t (0 : Fin 2) * 256 + 1 * (j 0).val = (j 0).val; rw [e0]; omega
  | ⟨1, _⟩ => show win0_1.index t (1 : Fin 2) * 384 + 1 * (j 1).val = (j 1).val; rw [e1]; omega

/-- The fused bias's block is the whole array at every point. -/
theorem iblk2_eq (c : Dev nD) (t : Fin cfg0.N) :
    (Reg0.iblk V c 2 t : Vec Ideal S1x384 .f32) = (V c main_v6 : S1x384.Idx → EReal) := by
  obtain ⟨-, -, -, -, e0, e1, -⟩ := idx_facts t
  funext j
  unfold Reg0.iblk
  rw [View.read_apply]
  show V c main_v6 _ = V c main_v6 _
  refine congrArg _ (funext fun a => Fin.ext ?_)
  match a with
  | ⟨0, _⟩ => show win0_2.index t (0 : Fin 2) * 1 + 1 * (j 0).val = (j 0).val; rw [e0]; omega
  | ⟨1, _⟩ => show win0_2.index t (1 : Fin 2) * 384 + 1 * (j 1).val = (j 1).val; rw [e1]; omega

/-- The skip weights' block is the whole array at every point. -/
theorem iblk3_eq (c : Dev nD) (t : Fin cfg0.N) :
    (Reg0.iblk V c 3 t : Vec Ideal S256x128 .f32) = (V c main_arg10 : S256x128.Idx → EReal) := by
  obtain ⟨-, -, -, -, -, -, e0, e1, -⟩ := idx_facts t
  funext j
  unfold Reg0.iblk
  rw [View.read_apply]
  show V c main_arg10 _ = V c main_arg10 _
  refine congrArg _ (funext fun a => Fin.ext ?_)
  match a with
  | ⟨0, _⟩ => show win0_3.index t (0 : Fin 2) * 256 + 1 * (j 0).val = (j 0).val; rw [e0]; omega
  | ⟨1, _⟩ => show win0_3.index t (1 : Fin 2) * 128 + 1 * (j 1).val = (j 1).val; rw [e1]; omega

/-- The skip bias's block is the whole array at every point. -/
theorem iblk4_eq (c : Dev nD) (t : Fin cfg0.N) :
    (Reg0.iblk V c 4 t : Vec Ideal S1x128 .f32) = (V c main_v7 : S1x128.Idx → EReal) := by
  obtain ⟨-, -, -, -, -, -, -, -, e0, e1, -⟩ := idx_facts t
  funext j
  unfold Reg0.iblk
  rw [View.read_apply]
  show V c main_v7 _ = V c main_v7 _
  refine congrArg _ (funext fun a => Fin.ext ?_)
  match a with
  | ⟨0, _⟩ => show win0_4.index t (0 : Fin 2) * 1 + 1 * (j 0).val = (j 0).val; rw [e0]; omega
  | ⟨1, _⟩ => show win0_4.index t (1 : Fin 2) * 128 + 1 * (j 1).val = (j 1).val; rw [e1]; omega

/-- What point t writes back to the fused array is block t of the array of affine entries. -/
theorem flushed5_eq (c : Dev nD) (t : Fin cfg0.N) :
    (Reg0.dat V c).flushed 5 t
      = ((cfg0.win 5).blk t).view.read (Elt Ideal)
          (affArr (V c main_arg0 : S8192x256.Idx → EReal) (V c main_v2 : S256x384.Idx → EReal) (V c main_v6 : S1x384.Idx → EReal)) := by
  show (cfg0.win 5).cut (grid0.coords t) ((Reg0.dat V c).after 5 t) = _
  rw [Reg0.after_5]
  unfold Reg0.outQkv
  rw [View.canon_unit_zero hz]
  simp only [View.ld_unit_zero (S := S1024x256) hz, View.ld_unit_zero (S := S256x384) hz, View.ld_unit_zero (S := S1x384) hz]
  obtain ⟨-, -, -, -, -, -, -, -, -, -, e0, e1, -⟩ := idx_facts t
  funext y
  show k0_pay2 (Reg0.iblk V c 0 t) (Reg0.iblk V c 1 t) (Reg0.iblk V c 2 t) y
    = affArr (V c main_arg0 : S8192x256.Idx → EReal) (V c main_v2 : S256x384.Idx → EReal) (V c main_v6 : S1x384.Idx → EReal)
        (((cfg0.win 5).blk t).view.emb y)
  refine block5 (V c main_arg0) (V c main_v2) (V c main_v6) (Reg0.iblk V c 0 t) (Reg0.iblk V c 1 t) (Reg0.iblk V c 2 t) t.val
    (fun p e k h0 h1 => iblk0_apply V c t p e k h0 h1) (iblk1_eq V c t) (iblk2_eq V c t) y (((cfg0.win 5).blk t).view.emb y) ?_ ?_
  · show win0_5.index t (0 : Fin 2) * 1024 + 1 * (y 0).val = t.val * 1024 + (y 0).val; rw [e0]; omega
  · show win0_5.index t (1 : Fin 2) * 384 + 1 * (y 1).val = (y 1).val; rw [e1]; omega

/-- What point t writes back to the skip array is block t of the array of affine entries. -/
theorem flushed6_eq (c : Dev nD) (t : Fin cfg0.N) :
    (Reg0.dat V c).flushed 6 t
      = ((cfg0.win 6).blk t).view.read (Elt Ideal)
          (affArr (V c main_arg0 : S8192x256.Idx → EReal) (V c main_arg10 : S256x128.Idx → EReal) (V c main_v7 : S1x128.Idx → EReal)) := by
  show (cfg0.win 6).cut (grid0.coords t) ((Reg0.dat V c).after 6 t) = _
  rw [Reg0.after_6]
  unfold Reg0.outS
  rw [View.canon_unit_zero hz]
  simp only [View.ld_unit_zero (S := S1024x256) hz, View.ld_unit_zero (S := S256x128) hz, View.ld_unit_zero (S := S1x128) hz]
  obtain ⟨-, -, -, -, -, -, -, -, -, -, -, -, e0, e1⟩ := idx_facts t
  funext y
  show k0_pay3 (Reg0.iblk V c 0 t) (Reg0.iblk V c 3 t) (Reg0.iblk V c 4 t) y
    = affArr (V c main_arg0 : S8192x256.Idx → EReal) (V c main_arg10 : S256x128.Idx → EReal) (V c main_v7 : S1x128.Idx → EReal)
        (((cfg0.win 6).blk t).view.emb y)
  refine block6 (V c main_arg0) (V c main_arg10) (V c main_v7) (Reg0.iblk V c 0 t) (Reg0.iblk V c 3 t) (Reg0.iblk V c 4 t) t.val
    (fun p e k h0 h1 => iblk0_apply V c t p e k h0 h1) (iblk3_eq V c t) (iblk4_eq V c t) y (((cfg0.win 6).blk t).view.emb y) ?_ ?_
  · show win0_6.index t (0 : Fin 2) * 1024 + 1 * (y 0).val = t.val * 1024 + (y 0).val; rw [e0]; omega
  · show win0_6.index t (1 : Fin 2) * 128 + 1 * (y 1).val = (y 1).val; rw [e1]; omega

/-- An index of the fused array is in point t's block iff each coordinate is in the block's range on its axis. -/
theorem mem_blk5 (t : Fin cfg0.N) (i : S8192x384.Idx) :
    i ∈ ((cfg0.win 5).blk t).view.set ↔ ∀ a : Fin 2, win0_5.index t a * S1024x384.size a ≤ (i a).val ∧ (i a).val < win0_5.index t a * S1024x384.size a + S1024x384.size a := by
  show i ∈ ((View.whole main_v8_0).slice (win0_5.rect t)).set ↔ _
  rw [View.set_slice_whole, Rect.mem_set_unit]
  exact Iff.rfl

/-- The same for the skip array. -/
theorem mem_blk6 (t : Fin cfg0.N) (i : S8192x128.Idx) :
    i ∈ ((cfg0.win 6).blk t).view.set ↔ ∀ a : Fin 2, win0_6.index t a * S1024x128.size a ≤ (i a).val ∧ (i a).val < win0_6.index t a * S1024x128.size a + S1024x128.size a := by
  show i ∈ ((View.whole main_v8_1).slice (win0_6.rect t)).set ↔ _
  rw [View.set_slice_whole, Rect.mem_set_unit]
  exact Iff.rfl

/-- Row i of the fused array is written back by the point i / 1024: the eight blocks tile the array. -/
theorem cover5 (i : S8192x384.Idx) : ∃ t : Fin cfg0.N, (cfg0.win 5).flush t = true ∧ i ∈ ((cfg0.win 5).blk t).view.set := by
  have hi0 : (i 0).val < 8192 := idx2_lt0 i
  have hi1 : (i 1).val < 384 := idx2_lt1 i
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, -, -, -, -, e0, e1, -⟩ := idx_facts t
  refine ⟨t, flush0_5 t, ?_⟩
  rw [mem_blk5]
  intro a
  match a with
  | ⟨0, _⟩ => show win0_5.index t (0 : Fin 2) * 1024 ≤ (i 0).val ∧ (i 0).val < win0_5.index t (0 : Fin 2) * 1024 + 1024; rw [e0, ht]; omega
  | ⟨1, _⟩ => show win0_5.index t (1 : Fin 2) * 384 ≤ (i 1).val ∧ (i 1).val < win0_5.index t (1 : Fin 2) * 384 + 384; rw [e1]; omega

/-- The same for the skip array. -/
theorem cover6 (i : S8192x128.Idx) : ∃ t : Fin cfg0.N, (cfg0.win 6).flush t = true ∧ i ∈ ((cfg0.win 6).blk t).view.set := by
  have hi0 : (i 0).val < 8192 := idx2_lt0 i
  have hi1 : (i 1).val < 128 := idx2_lt1 i
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, -, -, -, -, -, -, e0, e1⟩ := idx_facts t
  refine ⟨t, flush0_6 t, ?_⟩
  rw [mem_blk6]
  intro a
  match a with
  | ⟨0, _⟩ => show win0_6.index t (0 : Fin 2) * 1024 ≤ (i 0).val ∧ (i 0).val < win0_6.index t (0 : Fin 2) * 1024 + 1024; rw [e0, ht]; omega
  | ⟨1, _⟩ => show win0_6.index t (1 : Fin 2) * 128 ≤ (i 1).val ∧ (i 1).val < win0_6.index t (1 : Fin 2) * 128 + 128; rw [e1]; omega

/-- The fused array after the run: the array of affine entries of the input arrays. -/
theorem final5 (c : Dev nD) :
    (Reg0.dat V c).arrAt 5 cfg0.N
      = affArr (V c main_arg0 : S8192x256.Idx → EReal) (V c main_v2 : S256x384.Idx → EReal) (V c main_v6 : S1x384.Idx → EReal) :=
  (Reg0.dat V c).arrAt_eq_of_cover 5 _ (fun t _ => flushed5_eq V c t) cover5

/-- The skip array after the run. -/
theorem final6 (c : Dev nD) :
    (Reg0.dat V c).arrAt 6 cfg0.N
      = affArr (V c main_arg0 : S8192x256.Idx → EReal) (V c main_arg10 : S256x128.Idx → EReal) (V c main_v7 : S1x128.Idx → EReal) :=
  (Reg0.dat V c).arrAt_eq_of_cover 6 _ (fun t _ => flushed6_eq V c t) cover6

/-- The region's input arrays as functions of a literal index type: the rows h, the fused weights and bias, the skip
    weights and bias. -/
abbrev arrH (c : Dev nD) : S8192x256.Idx → EReal := V c main_arg0
abbrev arrWqkv (c : Dev nD) : S256x384.Idx → EReal := V c main_v2
abbrev arrBqkv (c : Dev nD) : S1x384.Idx → EReal := V c main_v6
abbrev arrWs (c : Dev nD) : S256x128.Idx → EReal := V c main_arg10
abbrev arrBs (c : Dev nD) : S1x128.Idx → EReal := V c main_v7
/-- The two output arrays after the run, likewise. -/
abbrev outQkv (c : Dev nD) : S8192x384.Idx → EReal := (Reg0.dat V c).arrAt 5 cfg0.N
abbrev outS (c : Dev nD) : S8192x128.Idx → EReal := (Reg0.dat V c).arrAt 6 cfg0.N

/-- Entry (i, j) of the fused array after the run: (row i of h) · (column j of the fused weights) + the fused bias at j. -/
theorem arr5_apply (c : Dev nD) (i : Fin 8192) (j : Fin 384) :
    outQkv V c (ix2 i j) = (∑ e : Fin 256, arrH V c (ix2 i e) * arrWqkv V c (ix2 e j)) + arrBqkv V c (ix2 0 j) := by
  show ((Reg0.dat V c).arrAt 5 cfg0.N : S8192x384.Idx → EReal) (ix2 i j) = _
  rw [final5]
  rfl

/-- Entry (i, j) of the skip array after the run: (row i of h) · (column j of the skip weights) + the skip bias at j. -/
theorem arr6_apply (c : Dev nD) (i : Fin 8192) (j : Fin 128) :
    outS V c (ix2 i j) = (∑ e : Fin 256, arrH V c (ix2 i e) * arrWs V c (ix2 e j)) + arrBs V c (ix2 0 j) := by
  show ((Reg0.dat V c).arrAt 6 cfg0.N : S8192x128.Idx → EReal) (ix2 i j) = _
  rw [final6]
  rfl

end Cert.KernelIdeal.Val0
end
-- ==== Proof.LibDotRowT.lean ====
/-
  A matrix product with ONE contracted axis against a TRANSPOSED right operand, read at an index, as a sum over the
  contracted coordinate.

  For dimension numbers `d` of an [M, K] by [N, K] product into [M, N] — both operands contracted on their
  second axis — the sum over the contraction index set of `L (d.lhsIdx (p, f) k) * R (d.rhsIdx (p, f) k)` is
  `∑ k : Fin K, L (p, k) * R (f, k)`: the contraction index is its one coordinate, the left operand's row is the
  output's row and the right operand's ROW the output's column.
-/
import Idealize.ShloMosaic.Lib.ValueIdx
import Idealize.ShloMosaic.PureOps.Ideal.Laws

noncomputable section

namespace Idealize.ShloMosaic.DotRowT

open Idealize.ShloMosaic Idealize.ShloMosaic.ValueIdx

variable {M K N : Nat}

/-- The contraction's sum over its index set is the sum over the contracted coordinate. -/
theorem sum_contr (d : DotDims ⟨2, ![M, K]⟩ ⟨2, ![N, K]⟩ ⟨2, ![M, N]⟩)
    (hl : d.lhsContracting = [1]) (hr : d.rhsContracting = [1])
    (hrank : d.contr.rank = 1) (hsize : d.contr.size ⟨0, by omega⟩ = K)
    (h0 : ∀ (j : (⟨2, ![M, N]⟩ : Shape).Idx) (k : d.contr.Idx), (d.lhsIdx j k 0).val = (j 0).val)
    (h1 : ∀ (j : (⟨2, ![M, N]⟩ : Shape).Idx) (k : d.contr.Idx), (d.rhsIdx j k 0).val = (j 1).val)
    (L : (⟨2, ![M, K]⟩ : Shape).Idx → EReal) (R : (⟨2, ![N, K]⟩ : Shape).Idx → EReal) (p : Fin M) (f : Fin N) :
    ∑ k : d.contr.Idx, L (d.lhsIdx (ix2 p f) k) * R (d.rhsIdx (ix2 p f) k) = ∑ k : Fin K, L (ix2 p k) * R (ix2 f k) := by
  rw [← Equiv.sum_comp (contrEquiv1 d K hrank hsize).symm]
  refine Finset.sum_congr rfl fun k _ => ?_
  have el : d.lhsIdx (ix2 p f) ((contrEquiv1 d K hrank hsize).symm k) = ix2 p k := by
    funext a; apply Fin.ext
    match a with
    | ⟨0, _⟩ => exact h0 _ _
    | ⟨1, _⟩ =>
      show (d.lhsIdx (ix2 p f) ((contrEquiv1 d K hrank hsize).symm k) 1).val = k.val
      rw [d.lhsIdx_val_of_single hl]
      exact contrEquiv1_symm_val d K hrank hsize k
  have er : d.rhsIdx (ix2 p f) ((contrEquiv1 d K hrank hsize).symm k) = ix2 f k := by
    funext a; apply Fin.ext
    match a with
    | ⟨0, _⟩ => exact h1 _ _
    | ⟨1, _⟩ =>
      show (d.rhsIdx (ix2 p f) ((contrEquiv1 d K hrank hsize).symm k) 1).val = k.val
      rw [d.rhsIdx_val_of_single hr]
      exact contrEquiv1_symm_val d K hrank hsize k
  rw [el, er]

end Idealize.ShloMosaic.DotRowT

end
-- ==== Proof.KernelIdeal.Val1.lean ====
/-
  Region 1 (the attention kernel of the first layer) read index by index on the extended reals.
  The region's output array after the run is, entry by entry, the activation of the attention entry: for query row i
  and feature d, the scores of row i against all 8192 key rows are shifted by their maximum and exponentiated, the
  exponentials weight the values' column d, the weighted sum is divided by the sum of the exponentials, the skip
  term at (i, d) is added, and select(x > 0, x, exp x - 1) is applied. Queries, keys and values are the three
  column blocks of one fused array. A grid point t handles the block of query rows 256 t … 256 t + 255 against all
  the keys and values; the 32 blocks tile the 8192 rows, so the output array is one function of the two input arrays.
-/
import proofs.«118558_j17497696764591_2_alg».proof.Proof.KernelIdeal.Reg1
import proofs.«118558_j17497696764591_2_alg».proof.Proof.LibDotRow
import proofs.«118558_j17497696764591_2_alg».proof.Proof.LibDotRowT
import Idealize.ShloMosaic.Lib.Pipeline.Value
import Idealize.ShloMosaic.Lib.ValueIdx

noncomputable section

namespace Cert.KernelIdeal.Val1

open Cert.KernelIdeal Cert.KernelIdeal.Gen
open Idealize.ShloMosaic Idealize.ShloMosaic.TcCoe Idealize.SL.Sem Idealize.ShloMosaic.ValueIdx
open Idealize.ShloMosaic.Pipeline (Dat)

/-! ## Layout steps at an index -/

/-- A vector of a values, recast as a column [a, 1] and broadcast along rows of length b, reads at (p, j) the value at p. -/
theorem keepdims_apply {α : Type} {a b : ℕ} (ha : a ≠ 1) (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (j : Fin b) :
    broadcastTo ⟨2, ![a, b]⟩ (shapeCast ⟨2, ![a, 1]⟩ x h1) h2 (ix2 p j) = x (ix1 p) := by
  refine (broadcastTo_apply _ h2 (ix2 p j) (ix2 p (0 : Fin 1)) (fun d => ?_)).trans ?_
  · match d with
    | ⟨0, _⟩ => show p.val = if a = 1 then 0 else p.val; rw [if_neg ha]
    | ⟨1, _⟩ => rfl
  · refine shapeCast_apply x h1 (ix2 p (0 : Fin 1)) (ix1 p) ?_
    rw [Shape.rowMajor_val_one, Shape.rowMajor_val_two]
    show p.val = p.val * 1 + 0
    omega

/-! ## The attention body's stored value at an index -/

/-- The score of query row p (of R query rows) against key row j: the product over the 128 features. -/
def sc {R : ℕ} (q : (⟨2, ![R, 128]⟩ : Shape).Idx → EReal) (k : S8192x128.Idx → EReal) (p : Fin R) (j : Fin 8192) : EReal :=
  ∑ e : Fin 128, q (ix2 p e) * k (ix2 j e)

/-- The row maximum of the scores of query row p: the fold of max from the word for -∞ over the 8192 keys. -/
def rowM {R : ℕ} (q : (⟨2, ![R, 128]⟩ : Shape).Idx → EReal) (k : S8192x128.Idx → EReal) (p : Fin R) : EReal :=
  (Finset.univ : Finset (Fin 8192)).fold max (Ideal.ofBits .f32 0xFF800000#32) (fun j => sc q k p j)

/-- The entry before the activation: the exponentials of the shifted scores weight the values, the sum is divided by
    the sum of the exponentials, and the skip term is added. -/
def preAct {R : ℕ} (q : (⟨2, ![R, 128]⟩ : Shape).Idx → EReal) (k v : S8192x128.Idx → EReal) (s : (⟨2, ![R, 128]⟩ : Shape).Idx → EReal)
    (p : Fin R) (d : Fin 128) : EReal :=
  Ideal.div (∑ j : Fin 8192, Ideal.exp (sc q k p j - rowM q k p) * v (ix2 j d))
      (∑ j : Fin 8192, Ideal.exp (sc q k p j - rowM q k p))
    + s (ix2 p d)

/-- The activation as the body spells it: select(x > 0, x, exp x - 1). -/
def eluE (x : EReal) : EReal :=
  Scalar.select (Ideal.cmp .ogt x (Ideal.ofBits .f32 0x00000000#32)) x (Ideal.exp x - Ideal.ofBits .f32 0x3F800000#32)

/-- The scores' product, both operands contracted on their feature axis, read at (p, j). -/
theorem scores_apply (q : FVec Ideal S256x128 .bf16) (k : FVec Ideal S8192x128 .bf16) (p : Fin 256) (j : Fin 8192) :
    (FloatOps.matmul (F := Ideal) dot_S256x128_S8192x128_S256x8192_1_1_0_0_n_n none q k
        (constant (F := Ideal) S256x8192 .f32 0x00000000#32)) (ix2 p j) = sc q k p j := by
  refine (Ideal.matmul_constant_zero_apply dot_S256x128_S8192x128_S256x8192_1_1_0_0_n_n none _ _ (ix2 p j)).trans ?_
  exact DotRowT.sum_contr dot_S256x128_S8192x128_S256x8192_1_1_0_0_n_n rfl rfl rfl rfl (fun _ _ => rfl) (fun _ _ => rfl) q k p j

/-- The row maximum: a max-reduction along the keys, read at p, is the fold of max from the accumulator's word. -/
theorem rowmax_apply (src : FVec Ideal S256x8192 .f32) (hφ : FKind.Formats .f32)
    (hacc : (0xFF800000#32 : BitVec 32) = FKind.maximumf.neutral .f32 hφ) (p : Fin 256) :
    multiReduction .maximumf [1] S256 src 0xFF800000#32 reduces_S256x8192_S256 hφ hacc (ix1 p)
      = (Finset.univ : Finset (Fin 8192)).fold max (Ideal.ofBits .f32 0xFF800000#32) (fun j => src (ix2 p j)) := by
  refine (Ideal.multiReduction_maximumf_single src 0xFF800000#32 reduces_S256x8192_S256 hφ hacc (ix1 p)).trans ?_
  have hl : (src ∘ (reduces_S256x8192_S256).lift (ix1 p)) = fun j : Fin 8192 => src (ix2 p j) := by
    funext j
    refine congrArg src (funext fun a => Fin.ext ?_)
    match a with
    | ⟨0, _⟩ => rfl
    | ⟨1, _⟩ => rfl
  exact congrArg (fun f => (Finset.univ : Finset (Fin 8192)).fold max (Ideal.ofBits .f32 0xFF800000#32) f) hl

/-- The row sum: an add-reduction along the keys, read at p, is the sum over the 8192 keys. -/
theorem rowsum_apply (src : FVec Ideal S256x8192 .f32) (hφ : FKind.Formats .f32)
    (hacc : (0x00000000#32 : BitVec 32) = FKind.add.neutral .f32 hφ) (p : Fin 256) :
    multiReduction .add [1] S256 src 0x00000000#32 reduces_S256x8192_S256 hφ hacc (ix1 p)
      = ∑ j : Fin 8192, src (ix2 p j) := by
  refine (Ideal.multiReduction_add_single src 0x00000000#32 reduces_S256x8192_S256 hφ hacc (ix1 p)).trans ?_
  refine Finset.sum_congr rfl fun j _ => ?_
  refine congrArg src (funext fun a => Fin.ext ?_)
  match a with
  | ⟨0, _⟩ => rfl
  | ⟨1, _⟩ => rfl

/-! ## The body's vectors, named -/

/-- The scores of a block of 256 queries against the 8192 keys. -/
def SCv (q : FVec Ideal S256x128 .bf16) (k : FVec Ideal S8192x128 .bf16) : FVec Ideal S256x8192 .f32 :=
  matmul dot_S256x128_S8192x128_S256x8192_1_1_0_0_n_n none q k (constant S256x8192 .f32 0x00000000#32)

/-- Their row maxima. -/
def Mv (q : FVec Ideal S256x128 .bf16) (k : FVec Ideal S8192x128 .bf16) : FVec Ideal S256 .f32 :=
  multiReduction .maximumf [1] S256 (SCv q k) 0xFF800000#32 reduces_S256x8192_S256 (.inl rfl) rfl

/-- The exponentials of the scores shifted by their row maxima. -/
def Ev (q : FVec Ideal S256x128 .bf16) (k : FVec Ideal S8192x128 .bf16) : FVec Ideal S256x8192 .f32 :=
  exp (subf (SCv q k) (broadcastTo S256x8192 (shapeCast S256x1 (Mv q k) shapeCasts_S256_S256x1) broadcasts_S256x1_S256x8192))

/-- Their row sums. -/
def Lv (q : FVec Ideal S256x128 .bf16) (k : FVec Ideal S8192x128 .bf16) : FVec Ideal S256 .f32 :=
  multiReduction .add [1] S256 (Ev q k) 0x00000000#32 reduces_S256x8192_S256 (.inl rfl) rfl

/-- The block before the activation: the weighted values divided by the row sums, plus the skip block. -/
def Xv (q : FVec Ideal S256x128 .bf16) (k v : FVec Ideal S8192x128 .bf16) (s : FVec Ideal S256x128 .f32) : FVec Ideal S256x128 .f32 :=
  addf (divf (matmul dot_S256x8192_S8192x128_S256x128_1_0_0_1_n_n none (truncf .bf16 (Ev q k) bitsLt_bf16_f32) v
        (constant S256x128 .f32 0x00000000#32))
      (broadcastTo S256x128 (shapeCast S256x1 (Lv q k) shapeCasts_S256_S256x1) broadcasts_S256x1_S256x128)) s

/-- The body's stored block is the activation of that block (the casts of a shape to itself are the identity). -/
theorem pay1_eq (q : Vec Ideal S256x128 .bf16) (k v : Vec Ideal S8192x128 .bf16) (s : Vec Ideal S256x128 .f32) :
    k1_pay1 q k v s
      = select (cmpf .ogt (Xv q k v s) (broadcast S256x128 (Scalar.ofBits (F := Ideal) .f32 0x00000000#32))) (Xv q k v s)
          (subf (exp (Xv q k v s)) (broadcast S256x128 (Scalar.ofBits (F := Ideal) .f32 0x3F800000#32))) := by
  unfold k1_pay1
  simp only [shapeCast_self]
  rfl

theorem SCv_apply (q : FVec Ideal S256x128 .bf16) (k : FVec Ideal S8192x128 .bf16) (p : Fin 256) (j : Fin 8192) :
    SCv q k (ix2 p j) = sc q k p j := scores_apply q k p j

theorem Mv_apply (q : FVec Ideal S256x128 .bf16) (k : FVec Ideal S8192x128 .bf16) (p : Fin 256) :
    Mv q k (ix1 p) = rowM q k p := by
  refine (rowmax_apply (SCv q k) (.inl rfl) rfl p).trans ?_
  exact congrArg (fun f => (Finset.univ : Finset (Fin 8192)).fold max (Ideal.ofBits .f32 0xFF800000#32) f)
    (funext fun j => SCv_apply q k p j)

theorem Ev_apply (q : FVec Ideal S256x128 .bf16) (k : FVec Ideal S8192x128 .bf16) (p : Fin 256) (j : Fin 8192) :
    Ev q k (ix2 p j) = Ideal.exp (sc q k p j - rowM q k p) := by
  show Ideal.exp (SCv q k (ix2 p j)
      - broadcastTo S256x8192 (shapeCast S256x1 (Mv q k) shapeCasts_S256_S256x1) broadcasts_S256x1_S256x8192 (ix2 p j)) = _
  rw [SCv_apply, keepdims_apply (by decide) (Mv q k) shapeCasts_S256_S256x1 broadcasts_S256x1_S256x8192 p j, Mv_apply]

theorem Lv_apply (q : FVec Ideal S256x128 .bf16) (k : FVec Ideal S8192x128 .bf16) (p : Fin 256) :
    Lv q k (ix1 p) = ∑ j : Fin 8192, Ideal.exp (sc q k p j - rowM q k p) := by
  refine (rowsum_apply (Ev q k) (.inl rfl) rfl p).trans ?_
  exact Finset.sum_congr rfl fun j _ => Ev_apply q k p j

theorem Xv_apply (q : FVec Ideal S256x128 .bf16) (k v : FVec Ideal S8192x128 .bf16) (s : FVec Ideal S256x128 .f32)
    (p : Fin 256) (d : Fin 128) : Xv q k v s (ix2 p d) = preAct q k v s p d := by
  show Ideal.div
      ((FloatOps.matmul (F := Ideal) dot_S256x8192_S8192x128_S256x128_1_0_0_1_n_n none
          (truncf (F := Ideal) (φ := .f32) .bf16 (Ev q k) bitsLt_bf16_f32) v (constant (F := Ideal) S256x128 .f32 0x00000000#32)) (ix2 p d))
      (broadcastTo S256x128 (shapeCast S256x1 (Lv q k) shapeCasts_S256_S256x1) broadcasts_S256x1_S256x128 (ix2 p d))
    + s (ix2 p d) = _
  unfold preAct
  refine congrArg₂ (· + ·) (congrArg₂ Ideal.div ?_ ?_) rfl
  · refine (Ideal.matmul_constant_zero_apply dot_S256x8192_S8192x128_S256x128_1_0_0_1_n_n none _ _ (ix2 p d)).trans ?_
    refine (DotRow.sum_contr dot_S256x8192_S8192x128_S256x128_1_0_0_1_n_n rfl rfl rfl rfl (fun _ _ => rfl) (fun _ _ => rfl)
      (Ev q k) v p d).trans ?_
    exact Finset.sum_congr rfl fun j _ => congrArg (· * v (ix2 j d)) (Ev_apply q k p j)
  · exact (keepdims_apply (by decide) (Lv q k) shapeCasts_S256_S256x1 broadcasts_S256x1_S256x128 p d).trans (Lv_apply q k p)

/-- The body's stored block at (p, d): the activation of the attention entry. -/
theorem pay1_apply (q : Vec Ideal S256x128 .bf16) (k v : Vec Ideal S8192x128 .bf16) (s : Vec Ideal S256x128 .f32)
    (p : Fin 256) (d : Fin 128) : k1_pay1 q k v s (ix2 p d) = eluE (preAct q k v s p d) := by
  rw [pay1_eq]
  show eluE (Xv q k v s (ix2 p d)) = _
  rw [Xv_apply]

/-! ## The whole-array function -/

/-- The entry depends on the queries only through row p and on the skip term only through (p, d). -/
theorem preAct_congr {R R' : ℕ} (q : (⟨2, ![R, 128]⟩ : Shape).Idx → EReal) (q' : (⟨2, ![R', 128]⟩ : Shape).Idx → EReal)
    (k v : S8192x128.Idx → EReal) (s : (⟨2, ![R, 128]⟩ : Shape).Idx → EReal) (s' : (⟨2, ![R', 128]⟩ : Shape).Idx → EReal)
    (p : Fin R) (p' : Fin R') (d : Fin 128) (hq : ∀ e : Fin 128, q (ix2 p e) = q' (ix2 p' e)) (hs : s (ix2 p d) = s' (ix2 p' d)) :
    preAct q k v s p d = preAct q' k v s' p' d := by
  have hsc : ∀ j, sc q k p j = sc q' k p' j := fun j => Finset.sum_congr rfl fun e _ => by rw [hq e]
  have hM : rowM q k p = rowM q' k p' :=
    congrArg (fun f => (Finset.univ : Finset (Fin 8192)).fold max (Ideal.ofBits .f32 0xFF800000#32) f) (funext hsc)
  unfold preAct
  rw [hM, hs]
  simp only [hsc]

/-- The query, key and value columns of a fused [8192, 384] array: columns 0…127, 128…255, 256…383. -/
def colQ (A : S8192x384.Idx → EReal) : S8192x128.Idx → EReal :=
  fun y => A (ix2 (⟨(y 0).val, idx2_lt0 y⟩ : Fin 8192) (⟨(y 1).val, by have := idx2_lt1 y; omega⟩ : Fin 384))
def colK (A : S8192x384.Idx → EReal) : S8192x128.Idx → EReal :=
  fun y => A (ix2 (⟨(y 0).val, idx2_lt0 y⟩ : Fin 8192) (⟨128 + (y 1).val, by have := idx2_lt1 y; omega⟩ : Fin 384))
def colV (A : S8192x384.Idx → EReal) : S8192x128.Idx → EReal :=
  fun y => A (ix2 (⟨(y 0).val, idx2_lt0 y⟩ : Fin 8192) (⟨256 + (y 1).val, by have := idx2_lt1 y; omega⟩ : Fin 384))

/-- One entry of the layer's output: the activation of the attention entry of row i, feature d, over the fused array A
    (queries, keys and values in its three column blocks) and the skip array B. -/
def attnAt (A : S8192x384.Idx → EReal) (B : S8192x128.Idx → EReal) (i : Fin 8192) (d : Fin 128) : EReal :=
  eluE (preAct (colQ A) (colK A) (colV A) B i d)

/-- The array of those entries. -/
def attnArr (A : S8192x384.Idx → EReal) (B : S8192x128.Idx → EReal) : S8192x128.Idx → EReal :=
  fun y => attnAt A B ⟨(y 0).val, idx2_lt0 y⟩ ⟨(y 1).val, idx2_lt1 y⟩

/-- The block stored at a point whose queries and skip block sit at rows 256 r … of the arrays, and whose keys and
    values are the whole key and value columns, is the block of the array of entries at the same rows. -/
theorem block4 (A : S8192x384.Idx → EReal) (B : S8192x128.Idx → EReal)
    (q : Vec Ideal S256x128 .bf16) (k v : Vec Ideal S8192x128 .bf16) (s : Vec Ideal S256x128 .f32) (r : ℕ)
    (hq : ∀ (p : Fin 256) (e : Fin 128) (i : Fin 8192), i.val = r * 256 + p.val → q (ix2 p e) = colQ A (ix2 i e))
    (hk : k = colK A) (hv : v = colV A)
    (hs : ∀ (p : Fin 256) (d : Fin 128) (i : Fin 8192), i.val = r * 256 + p.val → s (ix2 p d) = B (ix2 i d))
    (y : S256x128.Idx) (i : S8192x128.Idx) (hi0 : (i 0).val = r * 256 + (y 0).val) (hi1 : (i 1).val = (y 1).val) :
    k1_pay1 q k v s y = attnArr A B i := by
  obtain ⟨p, d, rfl⟩ : ∃ (p : Fin 256) (d : Fin 128), y = ix2 p d := ⟨y 0, y 1, eq_ix2 y⟩
  subst hk hv
  rw [pay1_apply]
  have hd : (⟨(i 1).val, idx2_lt1 i⟩ : Fin 128) = d := Fin.ext hi1
  show _ = eluE (preAct (colQ A) (colK A) (colV A) B ⟨(i 0).val, idx2_lt0 i⟩ ⟨(i 1).val, idx2_lt1 i⟩)
  rw [hd]
  exact congrArg eluE (preAct_congr q (colQ A) (colK A) (colV A) s B p ⟨(i 0).val, idx2_lt0 i⟩ d
    (fun e => hq p e ⟨(i 0).val, idx2_lt0 i⟩ hi0) (hs p d ⟨(i 0).val, idx2_lt0 i⟩ hi0))

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 32 points: the queries', the skip term's and the output's windows move
    with the point along the rows; the keys' window stays at column block 1 and the values' at column block 2. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 1
    ∧ win1_2.index t (0 : Fin 2) = 0 ∧ win1_2.index t (1 : Fin 2) = 2
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The fused array and the skip array as the region finds them, and the output array after the run, as functions of
    a literal index type. -/
abbrev arrQkv (c : Dev nD) : S8192x384.Idx → EReal := V c main_v8_0
abbrev arrS (c : Dev nD) : S8192x128.Idx → EReal := V c main_v8_1
abbrev outH (c : Dev nD) : S8192x128.Idx → EReal := (Reg1.dat V c).arrAt 4 cfg1.N

/-- The queries' block at point t is rows 256 t … of the query columns. -/
theorem iblk0_apply (c : Dev nD) (t : Fin cfg1.N) (p : Fin 256) (e : Fin 128) (i : Fin 8192) (hi : i.val = t.val * 256 + p.val) :
    (Reg1.iblk V c 0 t : Vec Ideal S256x128 .bf16) (ix2 p e) = colQ (arrQkv V c) (ix2 i e) := by
  obtain ⟨e0, e1, -⟩ := idx_facts t
  unfold Reg1.iblk
  rw [View.read_apply]
  show V c main_v8_0 _ = V c main_v8_0 _
  refine congrArg _ (funext fun a => Fin.ext ?_)
  match a with
  | ⟨0, _⟩ => show win1_0.index t (0 : Fin 2) * 256 + 1 * p.val = i.val; rw [e0, hi]; omega
  | ⟨1, _⟩ => show win1_0.index t (1 : Fin 2) * 128 + 1 * e.val = e.val; rw [e1]; omega

/-- The keys' block is the key columns at every point. -/
theorem iblk1_eq (c : Dev nD) (t : Fin cfg1.N) :
    (Reg1.iblk V c 1 t : Vec Ideal S8192x128 .bf16) = colK (arrQkv V c) := by
  obtain ⟨-, -, e0, e1, -⟩ := idx_facts t
  funext j
  unfold Reg1.iblk
  rw [View.read_apply]
  show V c main_v8_0 _ = V c main_v8_0 _
  refine congrArg _ (funext fun a => Fin.ext ?_)
  match a with
  | ⟨0, _⟩ => show win1_1.index t (0 : Fin 2) * 8192 + 1 * (j 0).val = (j 0).val; rw [e0]; omega
  | ⟨1, _⟩ => show win1_1.index t (1 : Fin 2) * 128 + 1 * (j 1).val = 128 + (j 1).val; rw [e1]; omega

/-- The values' block is the value columns at every point. -/
theorem iblk2_eq (c : Dev nD) (t : Fin cfg1.N) :
    (Reg1.iblk V c 2 t : Vec Ideal S8192x128 .bf16) = colV (arrQkv V c) := by
  obtain ⟨-, -, -, -, e0, e1, -⟩ := idx_facts t
  funext j
  unfold Reg1.iblk
  rw [View.read_apply]
  show V c main_v8_0 _ = V c main_v8_0 _
  refine congrArg _ (funext fun a => Fin.ext ?_)
  match a with
  | ⟨0, _⟩ => show win1_2.index t (0 : Fin 2) * 8192 + 1 * (j 0).val = (j 0).val; rw [e0]; omega
  | ⟨1, _⟩ => show win1_2.index t (1 : Fin 2) * 128 + 1 * (j 1).val = 256 + (j 1).val; rw [e1]; omega

/-- The skip term's block at point t is rows 256 t … of the skip array. -/
theorem iblk3_apply (c : Dev nD) (t : Fin cfg1.N) (p : Fin 256) (d : Fin 128) (i : Fin 8192) (hi : i.val = t.val * 256 + p.val) :
    (Reg1.iblk V c 3 t : Vec Ideal S256x128 .f32) (ix2 p d) = arrS V c (ix2 i d) := by
  obtain ⟨-, -, -, -, -, -, e0, e1, -⟩ := idx_facts t
  unfold Reg1.iblk
  rw [View.read_apply]
  show V c main_v8_1 _ = V c main_v8_1 _
  refine congrArg _ (funext fun a => Fin.ext ?_)
  match a with
  | ⟨0, _⟩ => show win1_3.index t (0 : Fin 2) * 256 + 1 * p.val = i.val; rw [e0, hi]; omega
  | ⟨1, _⟩ => show win1_3.index t (1 : Fin 2) * 128 + 1 * d.val = d.val; rw [e1]; omega

/-- What point t writes back is block t of the array of entries. -/
theorem flushed4_eq (c : Dev nD) (t : Fin cfg1.N) :
    (Reg1.dat V c).flushed 4 t = ((cfg1.win 4).blk t).view.read (Elt Ideal) (attnArr (arrQkv V c) (arrS V c)) := by
  show (cfg1.win 4).cut (grid1.coords t) ((Reg1.dat V c).after 4 t) = _
  rw [Reg1.after_4]
  unfold Reg1.outO
  rw [View.canon_unit_zero hz]
  simp only [View.ld_unit_zero (S := S256x128) hz, View.ld_unit_zero (S := S8192x128) hz]
  obtain ⟨-, -, -, -, -, -, -, -, e0, e1⟩ := idx_facts t
  funext y
  show k1_pay1 (Reg1.iblk V c 0 t) (Reg1.iblk V c 1 t) (Reg1.iblk V c 2 t) (Reg1.iblk V c 3 t) y
    = attnArr (arrQkv V c) (arrS V c) (((cfg1.win 4).blk t).view.emb y)
  refine block4 (arrQkv V c) (arrS V c) (Reg1.iblk V c 0 t) (Reg1.iblk V c 1 t) (Reg1.iblk V c 2 t) (Reg1.iblk V c 3 t) t.val
    (fun p e i hi => iblk0_apply V c t p e i hi) (iblk1_eq V c t) (iblk2_eq V c t) (fun p d i hi => iblk3_apply V c t p d i hi)
    y (((cfg1.win 4).blk t).view.emb y) ?_ ?_
  · show win1_4.index t (0 : Fin 2) * 256 + 1 * (y 0).val = t.val * 256 + (y 0).val; rw [e0]; omega
  · show win1_4.index t (1 : Fin 2) * 128 + 1 * (y 1).val = (y 1).val; rw [e1]; omega

/-- An index of the output array is in point t's block iff each coordinate is in the block's range on its axis. -/
theorem mem_blk4 (t : Fin cfg1.N) (i : S8192x128.Idx) :
    i ∈ ((cfg1.win 4).blk t).view.set ↔ ∀ a : Fin 2, win1_4.index t a * S256x128.size a ≤ (i a).val ∧ (i a).val < win1_4.index t a * S256x128.size a + S256x128.size a := by
  show i ∈ ((View.whole main_v9).slice (win1_4.rect t)).set ↔ _
  rw [View.set_slice_whole, Rect.mem_set_unit]
  exact Iff.rfl

/-- Row i of the output is written back by the point i / 256: the 32 blocks tile the array. -/
theorem cover4 (i : S8192x128.Idx) : ∃ t : Fin cfg1.N, (cfg1.win 4).flush t = true ∧ i ∈ ((cfg1.win 4).blk t).view.set := by
  have hi0 : (i 0).val < 8192 := idx2_lt0 i
  have hi1 : (i 1).val < 128 := idx2_lt1 i
  have hN : cfg1.N = 32 := N_1
  obtain ⟨t, ht⟩ : ∃ t : Fin cfg1.N, t.val = (i 0).val / 256 := ⟨⟨(i 0).val / 256, by rw [hN]; omega⟩, rfl⟩
  obtain ⟨-, -, -, -, -, -, -, -, e0, e1⟩ := idx_facts t
  refine ⟨t, flush1_4 t, ?_⟩
  rw [mem_blk4]
  intro a
  match a with
  | ⟨0, _⟩ => show win1_4.index t (0 : Fin 2) * 256 ≤ (i 0).val ∧ (i 0).val < win1_4.index t (0 : Fin 2) * 256 + 256; rw [e0, ht]; omega
  | ⟨1, _⟩ => show win1_4.index t (1 : Fin 2) * 128 ≤ (i 1).val ∧ (i 1).val < win1_4.index t (1 : Fin 2) * 128 + 128; rw [e1]; omega

/-- The output array after the run: the array of attention entries of the fused array and the skip array. -/
theorem final4 (c : Dev nD) : (Reg1.dat V c).arrAt 4 cfg1.N = attnArr (arrQkv V c) (arrS V c) :=
  (Reg1.dat V c).arrAt_eq_of_cover 4 _ (fun t _ => flushed4_eq V c t) cover4

/-- Entry (i, d) of the output after the run. -/
theorem arr4_apply (c : Dev nD) (i : Fin 8192) (d : Fin 128) :
    outH V c (ix2 i d) = eluE (preAct (colQ (arrQkv V c)) (colK (arrQkv V c)) (colV (arrQkv V c)) (arrS V c) i d) := by
  show ((Reg1.dat V c).arrAt 4 cfg1.N : S8192x128.Idx → EReal) (ix2 i d) = _
  rw [final4]
  rfl

/-- The three column blocks read at an index. -/
theorem colQ_apply (A : S8192x384.Idx → EReal) (i : Fin 8192) (e : Fin 128) : colQ A (ix2 i e) = A (ix2 i (⟨e.val, by omega⟩ : Fin 384)) := rfl
theorem colK_apply (A : S8192x384.Idx → EReal) (i : Fin 8192) (e : Fin 128) : colK A (ix2 i e) = A (ix2 i (⟨128 + e.val, by omega⟩ : Fin 384)) := rfl
theorem colV_apply (A : S8192x384.Idx → EReal) (i : Fin 8192) (e : Fin 128) : colV A (ix2 i e) = A (ix2 i (⟨256 + e.val, by omega⟩ : Fin 384)) := rfl

end Cert.KernelIdeal.Val1
end
-- ==== Proof.KernelIdeal.Val2.lean ====
/-
  Region 2 (the projection kernel of the second attention layer) read index by index on the extended reals.
  The region's two output arrays after the run are, entry by entry, the affine maps of the rows of the input
  array: row i of the fused array is (row i of h) · Wqkv + bqkv and row i of the skip array is (row i of h) · Ws + bs.
  A grid point t handles the block of rows 1024 t … 1024 t + 1023; the weights and biases are read whole at every
  point; the eight blocks tile the 8192 rows, so each output array is one function of the input arrays.
-/
import proofs.«118558_j17497696764591_2_alg».proof.Proof.KernelIdeal.Reg2
import proofs.«118558_j17497696764591_2_alg».proof.Proof.LibDotRow
import Idealize.ShloMosaic.Lib.Pipeline.Value
import Idealize.ShloMosaic.Lib.ValueIdx

noncomputable section

namespace Cert.KernelIdeal.Val2

open Cert.KernelIdeal Cert.KernelIdeal.Gen
open Idealize.ShloMosaic Idealize.ShloMosaic.TcCoe Idealize.SL.Sem Idealize.ShloMosaic.ValueIdx
open Idealize.ShloMosaic.Pipeline (Dat)

/-! ## The body's two stored values at an index -/

/-- The fused projection's stored block at (p, q): the product of row p of the block of h with column q of the
    weights, plus the bias at q (the roundings to bf16 are the identity on extended reals). -/
theorem pay2_apply (x : Vec Ideal S1024x128 .f32) (w : Vec Ideal S128x768 .f32) (b : Vec Ideal S1x768 .f32)
    (p : Fin 1024) (q : Fin 768) :
    k2_pay2 x w b (ix2 p q) = (∑ e : Fin 128, x (ix2 p e) * w (ix2 e q)) + b (ix2 0 q) := by
  unfold k2_pay2 k2_pay1
  simp only [shapeCast_self]
  show (FloatOps.matmul (F := Ideal) dot_S1024x128_S128x768_S1024x768_1_0_0_1_n_n none
          (truncf (F := Ideal) (φ := .f32) FTy.bf16 x bitsLt_bf16_f32)
          (truncf (F := Ideal) (φ := .f32) FTy.bf16 w bitsLt_bf16_f32) (constant (F := Ideal) S1024x768 FTy.f32 0x00000000#32)) (ix2 p q)
        + broadcastTo S1024x768 b broadcasts_S1x768_S1024x768 (ix2 p q) = _
  refine congrArg₂ (· + ·) ?_ ?_
  · refine (Ideal.matmul_constant_zero_apply dot_S1024x128_S128x768_S1024x768_1_0_0_1_n_n none _ _ (ix2 p q)).trans ?_
    exact DotRow.sum_contr dot_S1024x128_S128x768_S1024x768_1_0_0_1_n_n rfl rfl rfl rfl (fun _ _ => rfl) (fun _ _ => rfl) x w p q
  · exact broadcastTo_apply b _ (ix2 p q) (ix2 0 q) (fun a => by match a with | ⟨0, _⟩ => rfl | ⟨1, _⟩ => rfl)

/-- The skip term's stored block at (p, q), likewise. -/
theorem pay3_apply (x : Vec Ideal S1024x128 .f32) (w : Vec Ideal S128x256 .f32) (b : Vec Ideal S1x256 .f32)
    (p : Fin 1024) (q : Fin 256) :
    k2_pay3 x w b (ix2 p q) = (∑ e : Fin 128, x (ix2 p e) * w (ix2 e q)) + b (ix2 0 q) := by
  unfold k2_pay3 k2_pay1
  simp only [shapeCast_self]
  show (FloatOps.matmul (F := Ideal) dot_S1024x128_S128x256_S1024x256_1_0_0_1_n_n none
          (truncf (F := Ideal) (φ := .f32) FTy.bf16 x bitsLt_bf16_f32)
          (truncf (F := Ideal) (φ := .f32) FTy.bf16 w bitsLt_bf16_f32) (constant (F := Ideal) S1024x256 FTy.f32 0x00000000#32)) (ix2 p q)
        + broadcastTo S1024x256 b broadcasts_S1x256_S1024x256 (ix2 p q) = _
  refine congrArg₂ (· + ·) ?_ ?_
  · refine (Ideal.matmul_constant_zero_apply dot_S1024x128_S128x256_S1024x256_1_0_0_1_n_n none _ _ (ix2 p q)).trans ?_
    exact DotRow.sum_contr dot_S1024x128_S128x256_S1024x256_1_0_0_1_n_n rfl rfl rfl rfl (fun _ _ => rfl) (fun _ _ => rfl) x w p q
  · exact broadcastTo_apply b _ (ix2 p q) (ix2 0 q) (fun a => by match a with | ⟨0, _⟩ => rfl | ⟨1, _⟩ => rfl)

/-! ## The whole-array functions -/

/-- One entry of an affine projection of the rows of A0: (row i of A0) · (column j of A1) + A2 at j. -/
def affAt {K N : Nat} (A0 : (⟨2, ![8192, K]⟩ : Shape).Idx → EReal) (A1 : (⟨2, ![K, N]⟩ : Shape).Idx → EReal)
    (A2 : (⟨2, ![1, N]⟩ : Shape).Idx → EReal) (i : Fin 8192) (j : Fin N) : EReal :=
  (∑ e : Fin K, A0 (ix2 i e) * A1 (ix2 e j)) + A2 (ix2 0 j)

/-- The array of those entries. -/
def affArr {K N : Nat} (A0 : (⟨2, ![8192, K]⟩ : Shape).Idx → EReal) (A1 : (⟨2, ![K, N]⟩ : Shape).Idx → EReal)
    (A2 : (⟨2, ![1, N]⟩ : Shape).Idx → EReal) : (⟨2, ![8192, N]⟩ : Shape).Idx → EReal :=
  fun k => affAt A0 A1 A2 ⟨(k 0).val, idx2_lt0 k⟩ ⟨(k 1).val, idx2_lt1 k⟩

/-- The fused block computed from a block of rows that sits at rows 1024 r … of A0, and from the whole weights
    and bias, is the block of the array of affine entries at the same rows. -/
theorem block5 (A0 : S8192x128.Idx → EReal) (A1 : S128x768.Idx → EReal) (A2 : S1x768.Idx → EReal)
    (x : Vec Ideal S1024x128 .f32) (w : Vec Ideal S128x768 .f32) (b : Vec Ideal S1x768 .f32) (r : ℕ)
    (hx : ∀ (p : Fin 1024) (e : Fin 128) (k : S8192x128.Idx), (k 0).val = r * 1024 + p.val → (k 1).val = e.val → x (ix2 p e) = A0 k)
    (hw : w = A1) (hb : b = A2)
    (y : S1024x768.Idx) (i : S8192x768.Idx) (hi0 : (i 0).val = r * 1024 + (y 0).val) (hi1 : (i 1).val = (y 1).val) :
    k2_pay2 x w b y = affArr A0 A1 A2 i := by
  obtain ⟨p, q, rfl⟩ : ∃ (p : Fin 1024) (q : Fin 768), y = ix2 p q := ⟨y 0, y 1, eq_ix2 y⟩
  subst hw hb
  rw [pay2_apply]
  have hq : (⟨(i 1).val, idx2_lt1 i⟩ : Fin 768) = q := Fin.ext hi1
  show _ = affAt A0 w b ⟨(i 0).val, idx2_lt0 i⟩ ⟨(i 1).val, idx2_lt1 i⟩
  rw [hq]
  unfold affAt
  refine congrArg₂ (· + ·) (Finset.sum_congr rfl fun e _ => ?_) rfl
  rw [hx p e (ix2 ⟨(i 0).val, idx2_lt0 i⟩ e) hi0 rfl]

/-- The same for the skip term's block. -/
theorem block6 (A0 : S8192x128.Idx → EReal) (A1 : S128x256.Idx → EReal) (A2 : S1x256.Idx → EReal)
    (x : Vec Ideal S1024x128 .f32) (w : Vec Ideal S128x256 .f32) (b : Vec Ideal S1x256 .f32) (r : ℕ)
    (hx : ∀ (p : Fin 1024) (e : Fin 128) (k : S8192x128.Idx), (k 0).val = r * 1024 + p.val → (k 1).val = e.val → x (ix2 p e) = A0 k)
    (hw : w = A1) (hb : b = A2)
    (y : S1024x256.Idx) (i : S8192x256.Idx) (hi0 : (i 0).val = r * 1024 + (y 0).val) (hi1 : (i 1).val = (y 1).val) :
    k2_pay3 x w b y = affArr A0 A1 A2 i := by
  obtain ⟨p, q, rfl⟩ : ∃ (p : Fin 1024) (q : Fin 256), y = ix2 p q := ⟨y 0, y 1, eq_ix2 y⟩
  subst hw hb
  rw [pay3_apply]
  have hq : (⟨(i 1).val, idx2_lt1 i⟩ : Fin 256) = q := Fin.ext hi1
  show _ = affAt A0 w b ⟨(i 0).val, idx2_lt0 i⟩ ⟨(i 1).val, idx2_lt1 i⟩
  rw [hq]
  unfold affAt
  refine congrArg₂ (· + ·) (Finset.sum_congr rfl fun e _ => ?_) rfl
  rw [hx p e (ix2 ⟨(i 0).val, idx2_lt0 i⟩ e) hi0 rfl]

/-! ## From blocks to the arrays -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the eight points: the rows' window and the two outputs' move with the
    point along the rows, the weights' and biases' windows stay at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- The rows' block at point t is rows 1024 t … of the input array. -/
theorem iblk0_apply (c : Dev nD) (t : Fin cfg2.N) (p : Fin 1024) (e : Fin 128) (k : S8192x128.Idx)
    (hk0 : (k 0).val = t.val * 1024 + p.val) (hk1 : (k 1).val = e.val) :
    (Reg2.iblk V c 0 t : Vec Ideal S1024x128 .f32) (ix2 p e) = (V c main_v9 : S8192x128.Idx → EReal) k := by
  obtain ⟨e0, e1, -⟩ := idx_facts t
  unfold Reg2.iblk
  rw [View.read_apply]
  show V c main_v9 _ = V c main_v9 _
  refine congrArg _ (funext fun a => Fin.ext ?_)
  match a with
  | ⟨0, _⟩ => show win2_0.index t (0 : Fin 2) * 1024 + 1 * p.val = (k 0).val; rw [e0, hk0]; omega
  | ⟨1, _⟩ => show win2_0.index t (1 : Fin 2) * 128 + 1 * e.val = (k 1).val; rw [e1, hk1]; omega

/-- The fused weights' block is the whole array at every point. -/
theorem iblk1_eq (c : Dev nD) (t : Fin cfg2.N) :
    (Reg2.iblk V c 1 t : Vec Ideal S128x768 .f32) = (V c main_v12 : S128x768.Idx → EReal) := by
  obtain ⟨-, -, e0, e1, -⟩ := idx_facts t
  funext j
  unfold Reg2.iblk
  rw [View.read_apply]
  show V c main_v12 _ = V c main_v12 _
  refine congrArg _ (funext fun a => Fin.ext ?_)
  match a with
  | ⟨0, _⟩ => show win2_1.index t (0 : Fin 2) * 128 + 1 * (j 0).val = (j 0).val; rw [e0]; omega
  | ⟨1, _⟩ => show win2_1.index t (1 : Fin 2) * 768 + 1 * (j 1).val = (j 1).val; rw [e1]; omega

/-- The fused bias's block is the whole array at every point. -/
theorem iblk2_eq (c : Dev nD) (t : Fin cfg2.N) :
    (Reg2.iblk V c 2 t : Vec Ideal S1x768 .f32) = (V c main_v16 : S1x768.Idx → EReal) := by
  obtain ⟨-, -, -, -, e0, e1, -⟩ := idx_facts t
  funext j
  unfold Reg2.iblk
  rw [View.read_apply]
  show V c main_v16 _ = V c main_v16 _
  refine congrArg _ (funext fun a => Fin.ext ?_)
  match a with
  | ⟨0, _⟩ => show win2_2.index t (0 : Fin 2) * 1 + 1 * (j 0).val = (j 0).val; rw [e0]; omega
  | ⟨1, _⟩ => show win2_2.index t (1 : Fin 2) * 768 + 1 * (j 1).val = (j 1).val; rw [e1]; omega

/-- The skip weights' block is the whole array at every point. -/
theorem iblk3_eq (c : Dev nD) (t : Fin cfg2.N) :
    (Reg2.iblk V c 3 t : Vec Ideal S128x256 .f32) = (V c main_arg18 : S128x256.Idx → EReal) := by
  obtain ⟨-, -, -, -, -, -, e0, e1, -⟩ := idx_facts t
  funext j
  unfold Reg2.iblk
  rw [View.read_apply]
  show V c main_arg18 _ = V c main_arg18 _
  refine congrArg _ (funext fun a => Fin.ext ?_)
  match a with
  | ⟨0, _⟩ => show win2_3.index t (0 : Fin 2) * 128 + 1 * (j 0).val = (j 0).val; rw [e0]; omega
  | ⟨1, _⟩ => show win2_3.index t (1 : Fin 2) * 256 + 1 * (j 1).val = (j 1).val; rw [e1]; omega

/-- The skip bias's block is the whole array at every point. -/
theorem iblk4_eq (c : Dev nD) (t : Fin cfg2.N) :
    (Reg2.iblk V c 4 t : Vec Ideal S1x256 .f32) = (V c main_v17 : S1x256.Idx → EReal) := by
  obtain ⟨-, -, -, -, -, -, -, -, e0, e1, -⟩ := idx_facts t
  funext j
  unfold Reg2.iblk
  rw [View.read_apply]
  show V c main_v17 _ = V c main_v17 _
  refine congrArg _ (funext fun a => Fin.ext ?_)
  match a with
  | ⟨0, _⟩ => show win2_4.index t (0 : Fin 2) * 1 + 1 * (j 0).val = (j 0).val; rw [e0]; omega
  | ⟨1, _⟩ => show win2_4.index t (1 : Fin 2) * 256 + 1 * (j 1).val = (j 1).val; rw [e1]; omega

/-- What point t writes back to the fused array is block t of the array of affine entries. -/
theorem flushed5_eq (c : Dev nD) (t : Fin cfg2.N) :
    (Reg2.dat V c).flushed 5 t
      = ((cfg2.win 5).blk t).view.read (Elt Ideal)
          (affArr (V c main_v9 : S8192x128.Idx → EReal) (V c main_v12 : S128x768.Idx → EReal) (V c main_v16 : S1x768.Idx → EReal)) := by
  show (cfg2.win 5).cut (grid2.coords t) ((Reg2.dat V c).after 5 t) = _
  rw [Reg2.after_5]
  unfold Reg2.outQkv
  rw [View.canon_unit_zero hz]
  simp only [View.ld_unit_zero (S := S1024x128) hz, View.ld_unit_zero (S := S128x768) hz, View.ld_unit_zero (S := S1x768) hz]
  obtain ⟨-, -, -, -, -, -, -, -, -, -, e0, e1, -⟩ := idx_facts t
  funext y
  show k2_pay2 (Reg2.iblk V c 0 t) (Reg2.iblk V c 1 t) (Reg2.iblk V c 2 t) y
    = affArr (V c main_v9 : S8192x128.Idx → EReal) (V c main_v12 : S128x768.Idx → EReal) (V c main_v16 : S1x768.Idx → EReal)
        (((cfg2.win 5).blk t).view.emb y)
  refine block5 (V c main_v9) (V c main_v12) (V c main_v16) (Reg2.iblk V c 0 t) (Reg2.iblk V c 1 t) (Reg2.iblk V c 2 t) t.val
    (fun p e k h0 h1 => iblk0_apply V c t p e k h0 h1) (iblk1_eq V c t) (iblk2_eq V c t) y (((cfg2.win 5).blk t).view.emb y) ?_ ?_
  · show win2_5.index t (0 : Fin 2) * 1024 + 1 * (y 0).val = t.val * 1024 + (y 0).val; rw [e0]; omega
  · show win2_5.index t (1 : Fin 2) * 768 + 1 * (y 1).val = (y 1).val; rw [e1]; omega

/-- What point t writes back to the skip array is block t of the array of affine entries. -/
theorem flushed6_eq (c : Dev nD) (t : Fin cfg2.N) :
    (Reg2.dat V c).flushed 6 t
      = ((cfg2.win 6).blk t).view.read (Elt Ideal)
          (affArr (V c main_v9 : S8192x128.Idx → EReal) (V c main_arg18 : S128x256.Idx → EReal) (V c main_v17 : S1x256.Idx → EReal)) := by
  show (cfg2.win 6).cut (grid2.coords t) ((Reg2.dat V c).after 6 t) = _
  rw [Reg2.after_6]
  unfold Reg2.outS
  rw [View.canon_unit_zero hz]
  simp only [View.ld_unit_zero (S := S1024x128) hz, View.ld_unit_zero (S := S128x256) hz, View.ld_unit_zero (S := S1x256) hz]
  obtain ⟨-, -, -, -, -, -, -, -, -, -, -, -, e0, e1⟩ := idx_facts t
  funext y
  show k2_pay3 (Reg2.iblk V c 0 t) (Reg2.iblk V c 3 t) (Reg2.iblk V c 4 t) y
    = affArr (V c main_v9 : S8192x128.Idx → EReal) (V c main_arg18 : S128x256.Idx → EReal) (V c main_v17 : S1x256.Idx → EReal)
        (((cfg2.win 6).blk t).view.emb y)
  refine block6 (V c main_v9) (V c main_arg18) (V c main_v17) (Reg2.iblk V c 0 t) (Reg2.iblk V c 3 t) (Reg2.iblk V c 4 t) t.val
    (fun p e k h0 h1 => iblk0_apply V c t p e k h0 h1) (iblk3_eq V c t) (iblk4_eq V c t) y (((cfg2.win 6).blk t).view.emb y) ?_ ?_
  · show win2_6.index t (0 : Fin 2) * 1024 + 1 * (y 0).val = t.val * 1024 + (y 0).val; rw [e0]; omega
  · show win2_6.index t (1 : Fin 2) * 256 + 1 * (y 1).val = (y 1).val; rw [e1]; omega

/-- An index of the fused array is in point t's block iff each coordinate is in the block's range on its axis. -/
theorem mem_blk5 (t : Fin cfg2.N) (i : S8192x768.Idx) :
    i ∈ ((cfg2.win 5).blk t).view.set ↔ ∀ a : Fin 2, win2_5.index t a * S1024x768.size a ≤ (i a).val ∧ (i a).val < win2_5.index t a * S1024x768.size a + S1024x768.size a := by
  show i ∈ ((View.whole main_v18_0).slice (win2_5.rect t)).set ↔ _
  rw [View.set_slice_whole, Rect.mem_set_unit]
  exact Iff.rfl

/-- The same for the skip array. -/
theorem mem_blk6 (t : Fin cfg2.N) (i : S8192x256.Idx) :
    i ∈ ((cfg2.win 6).blk t).view.set ↔ ∀ a : Fin 2, win2_6.index t a * S1024x256.size a ≤ (i a).val ∧ (i a).val < win2_6.index t a * S1024x256.size a + S1024x256.size a := by
  show i ∈ ((View.whole main_v18_1).slice (win2_6.rect t)).set ↔ _
  rw [View.set_slice_whole, Rect.mem_set_unit]
  exact Iff.rfl

/-- Row i of the fused array is written back by the point i / 1024: the eight blocks tile the array. -/
theorem cover5 (i : S8192x768.Idx) : ∃ t : Fin cfg2.N, (cfg2.win 5).flush t = true ∧ i ∈ ((cfg2.win 5).blk t).view.set := by
  have hi0 : (i 0).val < 8192 := idx2_lt0 i
  have hi1 : (i 1).val < 768 := idx2_lt1 i
  have hN : cfg2.N = 8 := N_2
  obtain ⟨t, ht⟩ : ∃ t : Fin cfg2.N, t.val = (i 0).val / 1024 := ⟨⟨(i 0).val / 1024, by rw [hN]; omega⟩, rfl⟩
  obtain ⟨-, -, -, -, -, -, -, -, -, -, e0, e1, -⟩ := idx_facts t
  refine ⟨t, flush2_5 t, ?_⟩
  rw [mem_blk5]
  intro a
  match a with
  | ⟨0, _⟩ => show win2_5.index t (0 : Fin 2) * 1024 ≤ (i 0).val ∧ (i 0).val < win2_5.index t (0 : Fin 2) * 1024 + 1024; rw [e0, ht]; omega
  | ⟨1, _⟩ => show win2_5.index t (1 : Fin 2) * 768 ≤ (i 1).val ∧ (i 1).val < win2_5.index t (1 : Fin 2) * 768 + 768; rw [e1]; omega

/-- The same for the skip array. -/
theorem cover6 (i : S8192x256.Idx) : ∃ t : Fin cfg2.N, (cfg2.win 6).flush t = true ∧ i ∈ ((cfg2.win 6).blk t).view.set := by
  have hi0 : (i 0).val < 8192 := idx2_lt0 i
  have hi1 : (i 1).val < 256 := idx2_lt1 i
  have hN : cfg2.N = 8 := N_2
  obtain ⟨t, ht⟩ : ∃ t : Fin cfg2.N, t.val = (i 0).val / 1024 := ⟨⟨(i 0).val / 1024, by rw [hN]; omega⟩, rfl⟩
  obtain ⟨-, -, -, -, -, -, -, -, -, -, -, -, e0, e1⟩ := idx_facts t
  refine ⟨t, flush2_6 t, ?_⟩
  rw [mem_blk6]
  intro a
  match a with
  | ⟨0, _⟩ => show win2_6.index t (0 : Fin 2) * 1024 ≤ (i 0).val ∧ (i 0).val < win2_6.index t (0 : Fin 2) * 1024 + 1024; rw [e0, ht]; omega
  | ⟨1, _⟩ => show win2_6.index t (1 : Fin 2) * 256 ≤ (i 1).val ∧ (i 1).val < win2_6.index t (1 : Fin 2) * 256 + 256; rw [e1]; omega

/-- The fused array after the run: the array of affine entries of the input arrays. -/
theorem final5 (c : Dev nD) :
    (Reg2.dat V c).arrAt 5 cfg2.N
      = affArr (V c main_v9 : S8192x128.Idx → EReal) (V c main_v12 : S128x768.Idx → EReal) (V c main_v16 : S1x768.Idx → EReal) :=
  (Reg2.dat V c).arrAt_eq_of_cover 5 _ (fun t _ => flushed5_eq V c t) cover5

/-- The skip array after the run. -/
theorem final6 (c : Dev nD) :
    (Reg2.dat V c).arrAt 6 cfg2.N
      = affArr (V c main_v9 : S8192x128.Idx → EReal) (V c main_arg18 : S128x256.Idx → EReal) (V c main_v17 : S1x256.Idx → EReal) :=
  (Reg2.dat V c).arrAt_eq_of_cover 6 _ (fun t _ => flushed6_eq V c t) cover6

/-- The region's input arrays as functions of a literal index type: the rows h, the fused weights and bias, the skip
    weights and bias. -/
abbrev arrH (c : Dev nD) : S8192x128.Idx → EReal := V c main_v9
abbrev arrWqkv (c : Dev nD) : S128x768.Idx → EReal := V c main_v12
abbrev arrBqkv (c : Dev nD) : S1x768.Idx → EReal := V c main_v16
abbrev arrWs (c : Dev nD) : S128x256.Idx → EReal := V c main_arg18
abbrev arrBs (c : Dev nD) : S1x256.Idx → EReal := V c main_v17
/-- The two output arrays after the run, likewise. -/
abbrev outQkv (c : Dev nD) : S8192x768.Idx → EReal := (Reg2.dat V c).arrAt 5 cfg2.N
abbrev outS (c : Dev nD) : S8192x256.Idx → EReal := (Reg2.dat V c).arrAt 6 cfg2.N

/-- Entry (i, j) of the fused array after the run: (row i of h) · (column j of the fused weights) + the fused bias at j. -/
theorem arr5_apply (c : Dev nD) (i : Fin 8192) (j : Fin 768) :
    outQkv V c (ix2 i j) = (∑ e : Fin 128, arrH V c (ix2 i e) * arrWqkv V c (ix2 e j)) + arrBqkv V c (ix2 0 j) := by
  show ((Reg2.dat V c).arrAt 5 cfg2.N : S8192x768.Idx → EReal) (ix2 i j) = _
  rw [final5]
  rfl

/-- Entry (i, j) of the skip array after the run: (row i of h) · (column j of the skip weights) + the skip bias at j. -/
theorem arr6_apply (c : Dev nD) (i : Fin 8192) (j : Fin 256) :
    outS V c (ix2 i j) = (∑ e : Fin 128, arrH V c (ix2 i e) * arrWs V c (ix2 e j)) + arrBs V c (ix2 0 j) := by
  show ((Reg2.dat V c).arrAt 6 cfg2.N : S8192x256.Idx → EReal) (ix2 i j) = _
  rw [final6]
  rfl

end Cert.KernelIdeal.Val2
end
-- ==== Proof.KernelIdeal.Val3.lean ====
/-
  Region 3 (the attention kernel of the second layer) read index by index on the extended reals.
  The region's output array after the run is, entry by entry, the attention entry: for query row i
  and feature d, the scores of row i against all 8192 key rows are shifted by their maximum and exponentiated, the
  exponentials weight the values' column d, the weighted sum is divided by the sum of the exponentials, the skip
  term at (i, d) is added (this layer has no activation). Queries, keys and values are the three
  column blocks of one fused array. A grid point t handles the block of query rows 256 t … 256 t + 255 against all
  the keys and values; the 32 blocks tile the 8192 rows, so the output array is one function of the two input arrays.
-/
import proofs.«118558_j17497696764591_2_alg».proof.Proof.KernelIdeal.Reg3
import proofs.«118558_j17497696764591_2_alg».proof.Proof.LibDotRow
import proofs.«118558_j17497696764591_2_alg».proof.Proof.LibDotRowT
import Idealize.ShloMosaic.Lib.Pipeline.Value
import Idealize.ShloMosaic.Lib.ValueIdx

noncomputable section

namespace Cert.KernelIdeal.Val3

open Cert.KernelIdeal Cert.KernelIdeal.Gen
open Idealize.ShloMosaic Idealize.ShloMosaic.TcCoe Idealize.SL.Sem Idealize.ShloMosaic.ValueIdx
open Idealize.ShloMosaic.Pipeline (Dat)

/-! ## Layout steps at an index -/

/-- A vector of a values, recast as a column [a, 1] and broadcast along rows of length b, reads at (p, j) the value at p. -/
theorem keepdims_apply {α : Type} {a b : ℕ} (ha : a ≠ 1) (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (j : Fin b) :
    broadcastTo ⟨2, ![a, b]⟩ (shapeCast ⟨2, ![a, 1]⟩ x h1) h2 (ix2 p j) = x (ix1 p) := by
  refine (broadcastTo_apply _ h2 (ix2 p j) (ix2 p (0 : Fin 1)) (fun d => ?_)).trans ?_
  · match d with
    | ⟨0, _⟩ => show p.val = if a = 1 then 0 else p.val; rw [if_neg ha]
    | ⟨1, _⟩ => rfl
  · refine shapeCast_apply x h1 (ix2 p (0 : Fin 1)) (ix1 p) ?_
    rw [Shape.rowMajor_val_one, Shape.rowMajor_val_two]
    show p.val = p.val * 1 + 0
    omega

/-! ## The attention body's stored value at an index -/

/-- The score of query row p (of R query rows) against key row j: the product over the 256 features. -/
def sc {R : ℕ} (q : (⟨2, ![R, 256]⟩ : Shape).Idx → EReal) (k : S8192x256.Idx → EReal) (p : Fin R) (j : Fin 8192) : EReal :=
  ∑ e : Fin 256, q (ix2 p e) * k (ix2 j e)

/-- The row maximum of the scores of query row p: the fold of max from the word for -∞ over the 8192 keys. -/
def rowM {R : ℕ} (q : (⟨2, ![R, 256]⟩ : Shape).Idx → EReal) (k : S8192x256.Idx → EReal) (p : Fin R) : EReal :=
  (Finset.univ : Finset (Fin 8192)).fold max (Ideal.ofBits .f32 0xFF800000#32) (fun j => sc q k p j)

/-- The entry: the exponentials of the shifted scores weight the values, the sum is divided by
    the sum of the exponentials, and the skip term is added. -/
def preAct {R : ℕ} (q : (⟨2, ![R, 256]⟩ : Shape).Idx → EReal) (k v : S8192x256.Idx → EReal) (s : (⟨2, ![R, 256]⟩ : Shape).Idx → EReal)
    (p : Fin R) (d : Fin 256) : EReal :=
  Ideal.div (∑ j : Fin 8192, Ideal.exp (sc q k p j - rowM q k p) * v (ix2 j d))
      (∑ j : Fin 8192, Ideal.exp (sc q k p j - rowM q k p))
    + s (ix2 p d)

/-- The scores' product, both operands contracted on their feature axis, read at (p, j). -/
theorem scores_apply (q : FVec Ideal S256x256 .bf16) (k : FVec Ideal S8192x256 .bf16) (p : Fin 256) (j : Fin 8192) :
    (FloatOps.matmul (F := Ideal) dot_S256x256_S8192x256_S256x8192_1_1_0_0_n_n none q k
        (constant (F := Ideal) S256x8192 .f32 0x00000000#32)) (ix2 p j) = sc q k p j := by
  refine (Ideal.matmul_constant_zero_apply dot_S256x256_S8192x256_S256x8192_1_1_0_0_n_n none _ _ (ix2 p j)).trans ?_
  exact DotRowT.sum_contr dot_S256x256_S8192x256_S256x8192_1_1_0_0_n_n rfl rfl rfl rfl (fun _ _ => rfl) (fun _ _ => rfl) q k p j

/-- The row maximum: a max-reduction along the keys, read at p, is the fold of max from the accumulator's word. -/
theorem rowmax_apply (src : FVec Ideal S256x8192 .f32) (hφ : FKind.Formats .f32)
    (hacc : (0xFF800000#32 : BitVec 32) = FKind.maximumf.neutral .f32 hφ) (p : Fin 256) :
    multiReduction .maximumf [1] S256 src 0xFF800000#32 reduces_S256x8192_S256 hφ hacc (ix1 p)
      = (Finset.univ : Finset (Fin 8192)).fold max (Ideal.ofBits .f32 0xFF800000#32) (fun j => src (ix2 p j)) := by
  refine (Ideal.multiReduction_maximumf_single src 0xFF800000#32 reduces_S256x8192_S256 hφ hacc (ix1 p)).trans ?_
  have hl : (src ∘ (reduces_S256x8192_S256).lift (ix1 p)) = fun j : Fin 8192 => src (ix2 p j) := by
    funext j
    refine congrArg src (funext fun a => Fin.ext ?_)
    match a with
    | ⟨0, _⟩ => rfl
    | ⟨1, _⟩ => rfl
  exact congrArg (fun f => (Finset.univ : Finset (Fin 8192)).fold max (Ideal.ofBits .f32 0xFF800000#32) f) hl

/-- The row sum: an add-reduction along the keys, read at p, is the sum over the 8192 keys. -/
theorem rowsum_apply (src : FVec Ideal S256x8192 .f32) (hφ : FKind.Formats .f32)
    (hacc : (0x00000000#32 : BitVec 32) = FKind.add.neutral .f32 hφ) (p : Fin 256) :
    multiReduction .add [1] S256 src 0x00000000#32 reduces_S256x8192_S256 hφ hacc (ix1 p)
      = ∑ j : Fin 8192, src (ix2 p j) := by
  refine (Ideal.multiReduction_add_single src 0x00000000#32 reduces_S256x8192_S256 hφ hacc (ix1 p)).trans ?_
  refine Finset.sum_congr rfl fun j _ => ?_
  refine congrArg src (funext fun a => Fin.ext ?_)
  match a with
  | ⟨0, _⟩ => rfl
  | ⟨1, _⟩ => rfl

/-! ## The body's vectors, named -/

/-- The scores of a block of 256 queries against the 8192 keys. -/
def SCv (q : FVec Ideal S256x256 .bf16) (k : FVec Ideal S8192x256 .bf16) : FVec Ideal S256x8192 .f32 :=
  matmul dot_S256x256_S8192x256_S256x8192_1_1_0_0_n_n none q k (constant S256x8192 .f32 0x00000000#32)

/-- Their row maxima. -/
def Mv (q : FVec Ideal S256x256 .bf16) (k : FVec Ideal S8192x256 .bf16) : FVec Ideal S256 .f32 :=
  multiReduction .maximumf [1] S256 (SCv q k) 0xFF800000#32 reduces_S256x8192_S256 (.inl rfl) rfl

/-- The exponentials of the scores shifted by their row maxima. -/
def Ev (q : FVec Ideal S256x256 .bf16) (k : FVec Ideal S8192x256 .bf16) : FVec Ideal S256x8192 .f32 :=
  exp (subf (SCv q k) (broadcastTo S256x8192 (shapeCast S256x1 (Mv q k) shapeCasts_S256_S256x1) broadcasts_S256x1_S256x8192))

/-- Their row sums. -/
def Lv (q : FVec Ideal S256x256 .bf16) (k : FVec Ideal S8192x256 .bf16) : FVec Ideal S256 .f32 :=
  multiReduction .add [1] S256 (Ev q k) 0x00000000#32 reduces_S256x8192_S256 (.inl rfl) rfl

/-- The stored block: the weighted values divided by the row sums, plus the skip block. -/
def Xv (q : FVec Ideal S256x256 .bf16) (k v : FVec Ideal S8192x256 .bf16) (s : FVec Ideal S256x256 .f32) : FVec Ideal S256x256 .f32 :=
  addf (divf (matmul dot_S256x8192_S8192x256_S256x256_1_0_0_1_n_n none (truncf .bf16 (Ev q k) bitsLt_bf16_f32) v
        (constant S256x256 .f32 0x00000000#32))
      (broadcastTo S256x256 (shapeCast S256x1 (Lv q k) shapeCasts_S256_S256x1) broadcasts_S256x1_S256x256)) s

/-- The body's stored block is that block (the casts of a shape to itself are the identity). -/
theorem pay1_eq (q : Vec Ideal S256x256 .bf16) (k v : Vec Ideal S8192x256 .bf16) (s : Vec Ideal S256x256 .f32) :
    k3_pay1 q k v s = Xv q k v s := by
  unfold k3_pay1
  simp only [shapeCast_self]
  rfl

theorem SCv_apply (q : FVec Ideal S256x256 .bf16) (k : FVec Ideal S8192x256 .bf16) (p : Fin 256) (j : Fin 8192) :
    SCv q k (ix2 p j) = sc q k p j := scores_apply q k p j

theorem Mv_apply (q : FVec Ideal S256x256 .bf16) (k : FVec Ideal S8192x256 .bf16) (p : Fin 256) :
    Mv q k (ix1 p) = rowM q k p := by
  refine (rowmax_apply (SCv q k) (.inl rfl) rfl p).trans ?_
  exact congrArg (fun f => (Finset.univ : Finset (Fin 8192)).fold max (Ideal.ofBits .f32 0xFF800000#32) f)
    (funext fun j => SCv_apply q k p j)

theorem Ev_apply (q : FVec Ideal S256x256 .bf16) (k : FVec Ideal S8192x256 .bf16) (p : Fin 256) (j : Fin 8192) :
    Ev q k (ix2 p j) = Ideal.exp (sc q k p j - rowM q k p) := by
  show Ideal.exp (SCv q k (ix2 p j)
      - broadcastTo S256x8192 (shapeCast S256x1 (Mv q k) shapeCasts_S256_S256x1) broadcasts_S256x1_S256x8192 (ix2 p j)) = _
  rw [SCv_apply, keepdims_apply (by decide) (Mv q k) shapeCasts_S256_S256x1 broadcasts_S256x1_S256x8192 p j, Mv_apply]

theorem Lv_apply (q : FVec Ideal S256x256 .bf16) (k : FVec Ideal S8192x256 .bf16) (p : Fin 256) :
    Lv q k (ix1 p) = ∑ j : Fin 8192, Ideal.exp (sc q k p j - rowM q k p) := by
  refine (rowsum_apply (Ev q k) (.inl rfl) rfl p).trans ?_
  exact Finset.sum_congr rfl fun j _ => Ev_apply q k p j

theorem Xv_apply (q : FVec Ideal S256x256 .bf16) (k v : FVec Ideal S8192x256 .bf16) (s : FVec Ideal S256x256 .f32)
    (p : Fin 256) (d : Fin 256) : Xv q k v s (ix2 p d) = preAct q k v s p d := by
  show Ideal.div
      ((FloatOps.matmul (F := Ideal) dot_S256x8192_S8192x256_S256x256_1_0_0_1_n_n none
          (truncf (F := Ideal) (φ := .f32) .bf16 (Ev q k) bitsLt_bf16_f32) v (constant (F := Ideal) S256x256 .f32 0x00000000#32)) (ix2 p d))
      (broadcastTo S256x256 (shapeCast S256x1 (Lv q k) shapeCasts_S256_S256x1) broadcasts_S256x1_S256x256 (ix2 p d))
    + s (ix2 p d) = _
  unfold preAct
  refine congrArg₂ (· + ·) (congrArg₂ Ideal.div ?_ ?_) rfl
  · refine (Ideal.matmul_constant_zero_apply dot_S256x8192_S8192x256_S256x256_1_0_0_1_n_n none _ _ (ix2 p d)).trans ?_
    refine (DotRow.sum_contr dot_S256x8192_S8192x256_S256x256_1_0_0_1_n_n rfl rfl rfl rfl (fun _ _ => rfl) (fun _ _ => rfl)
      (Ev q k) v p d).trans ?_
    exact Finset.sum_congr rfl fun j _ => congrArg (· * v (ix2 j d)) (Ev_apply q k p j)
  · exact (keepdims_apply (by decide) (Lv q k) shapeCasts_S256_S256x1 broadcasts_S256x1_S256x256 p d).trans (Lv_apply q k p)

/-- The body's stored block at (p, d): the attention entry. -/
theorem pay1_apply (q : Vec Ideal S256x256 .bf16) (k v : Vec Ideal S8192x256 .bf16) (s : Vec Ideal S256x256 .f32)
    (p : Fin 256) (d : Fin 256) : k3_pay1 q k v s (ix2 p d) = preAct q k v s p d := by
  rw [pay1_eq, Xv_apply]

/-! ## The whole-array function -/

/-- The entry depends on the queries only through row p and on the skip term only through (p, d). -/
theorem preAct_congr {R R' : ℕ} (q : (⟨2, ![R, 256]⟩ : Shape).Idx → EReal) (q' : (⟨2, ![R', 256]⟩ : Shape).Idx → EReal)
    (k v : S8192x256.Idx → EReal) (s : (⟨2, ![R, 256]⟩ : Shape).Idx → EReal) (s' : (⟨2, ![R', 256]⟩ : Shape).Idx → EReal)
    (p : Fin R) (p' : Fin R') (d : Fin 256) (hq : ∀ e : Fin 256, q (ix2 p e) = q' (ix2 p' e)) (hs : s (ix2 p d) = s' (ix2 p' d)) :
    preAct q k v s p d = preAct q' k v s' p' d := by
  have hsc : ∀ j, sc q k p j = sc q' k p' j := fun j => Finset.sum_congr rfl fun e _ => by rw [hq e]
  have hM : rowM q k p = rowM q' k p' :=
    congrArg (fun f => (Finset.univ : Finset (Fin 8192)).fold max (Ideal.ofBits .f32 0xFF800000#32) f) (funext hsc)
  unfold preAct
  rw [hM, hs]
  simp only [hsc]

/-- The query, key and value columns of a fused [8192, 768] array: columns 0…255, 256…511, 512…767. -/
def colQ (A : S8192x768.Idx → EReal) : S8192x256.Idx → EReal :=
  fun y => A (ix2 (⟨(y 0).val, idx2_lt0 y⟩ : Fin 8192) (⟨(y 1).val, by have := idx2_lt1 y; omega⟩ : Fin 768))
def colK (A : S8192x768.Idx → EReal) : S8192x256.Idx → EReal :=
  fun y => A (ix2 (⟨(y 0).val, idx2_lt0 y⟩ : Fin 8192) (⟨256 + (y 1).val, by have := idx2_lt1 y; omega⟩ : Fin 768))
def colV (A : S8192x768.Idx → EReal) : S8192x256.Idx → EReal :=
  fun y => A (ix2 (⟨(y 0).val, idx2_lt0 y⟩ : Fin 8192) (⟨512 + (y 1).val, by have := idx2_lt1 y; omega⟩ : Fin 768))

/-- One entry of the layer's output: the attention entry of row i, feature d, over the fused array A
    (queries, keys and values in its three column blocks) and the skip array B. -/
def attnAt (A : S8192x768.Idx → EReal) (B : S8192x256.Idx → EReal) (i : Fin 8192) (d : Fin 256) : EReal :=
  preAct (colQ A) (colK A) (colV A) B i d

/-- The array of those entries. -/
def attnArr (A : S8192x768.Idx → EReal) (B : S8192x256.Idx → EReal) : S8192x256.Idx → EReal :=
  fun y => attnAt A B ⟨(y 0).val, idx2_lt0 y⟩ ⟨(y 1).val, idx2_lt1 y⟩

/-- The block stored at a point whose queries and skip block sit at rows 256 r … of the arrays, and whose keys and
    values are the whole key and value columns, is the block of the array of entries at the same rows. -/
theorem block4 (A : S8192x768.Idx → EReal) (B : S8192x256.Idx → EReal)
    (q : Vec Ideal S256x256 .bf16) (k v : Vec Ideal S8192x256 .bf16) (s : Vec Ideal S256x256 .f32) (r : ℕ)
    (hq : ∀ (p : Fin 256) (e : Fin 256) (i : Fin 8192), i.val = r * 256 + p.val → q (ix2 p e) = colQ A (ix2 i e))
    (hk : k = colK A) (hv : v = colV A)
    (hs : ∀ (p : Fin 256) (d : Fin 256) (i : Fin 8192), i.val = r * 256 + p.val → s (ix2 p d) = B (ix2 i d))
    (y : S256x256.Idx) (i : S8192x256.Idx) (hi0 : (i 0).val = r * 256 + (y 0).val) (hi1 : (i 1).val = (y 1).val) :
    k3_pay1 q k v s y = attnArr A B i := by
  obtain ⟨p, d, rfl⟩ : ∃ (p : Fin 256) (d : Fin 256), y = ix2 p d := ⟨y 0, y 1, eq_ix2 y⟩
  subst hk hv
  rw [pay1_apply]
  have hd : (⟨(i 1).val, idx2_lt1 i⟩ : Fin 256) = d := Fin.ext hi1
  show _ = preAct (colQ A) (colK A) (colV A) B ⟨(i 0).val, idx2_lt0 i⟩ ⟨(i 1).val, idx2_lt1 i⟩
  rw [hd]
  exact preAct_congr q (colQ A) (colK A) (colV A) s B p ⟨(i 0).val, idx2_lt0 i⟩ d
    (fun e => hq p e ⟨(i 0).val, idx2_lt0 i⟩ hi0) (hs p d ⟨(i 0).val, idx2_lt0 i⟩ hi0)

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 32 points: the queries', the skip term's and the output's windows move
    with the point along the rows; the keys' window stays at column block 1 and the values' at column block 2. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 1
    ∧ win3_2.index t (0 : Fin 2) = 0 ∧ win3_2.index t (1 : Fin 2) = 2
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- The fused array and the skip array as the region finds them, and the output array after the run, as functions of
    a literal index type. -/
abbrev arrQkv (c : Dev nD) : S8192x768.Idx → EReal := V c main_v18_0
abbrev arrS (c : Dev nD) : S8192x256.Idx → EReal := V c main_v18_1
abbrev outH (c : Dev nD) : S8192x256.Idx → EReal := (Reg3.dat V c).arrAt 4 cfg3.N

/-- The queries' block at point t is rows 256 t … of the query columns. -/
theorem iblk0_apply (c : Dev nD) (t : Fin cfg3.N) (p : Fin 256) (e : Fin 256) (i : Fin 8192) (hi : i.val = t.val * 256 + p.val) :
    (Reg3.iblk V c 0 t : Vec Ideal S256x256 .bf16) (ix2 p e) = colQ (arrQkv V c) (ix2 i e) := by
  obtain ⟨e0, e1, -⟩ := idx_facts t
  unfold Reg3.iblk
  rw [View.read_apply]
  show V c main_v18_0 _ = V c main_v18_0 _
  refine congrArg _ (funext fun a => Fin.ext ?_)
  match a with
  | ⟨0, _⟩ => show win3_0.index t (0 : Fin 2) * 256 + 1 * p.val = i.val; rw [e0, hi]; omega
  | ⟨1, _⟩ => show win3_0.index t (1 : Fin 2) * 256 + 1 * e.val = e.val; rw [e1]; omega

/-- The keys' block is the key columns at every point. -/
theorem iblk1_eq (c : Dev nD) (t : Fin cfg3.N) :
    (Reg3.iblk V c 1 t : Vec Ideal S8192x256 .bf16) = colK (arrQkv V c) := by
  obtain ⟨-, -, e0, e1, -⟩ := idx_facts t
  funext j
  unfold Reg3.iblk
  rw [View.read_apply]
  show V c main_v18_0 _ = V c main_v18_0 _
  refine congrArg _ (funext fun a => Fin.ext ?_)
  match a with
  | ⟨0, _⟩ => show win3_1.index t (0 : Fin 2) * 8192 + 1 * (j 0).val = (j 0).val; rw [e0]; omega
  | ⟨1, _⟩ => show win3_1.index t (1 : Fin 2) * 256 + 1 * (j 1).val = 256 + (j 1).val; rw [e1]; omega

/-- The values' block is the value columns at every point. -/
theorem iblk2_eq (c : Dev nD) (t : Fin cfg3.N) :
    (Reg3.iblk V c 2 t : Vec Ideal S8192x256 .bf16) = colV (arrQkv V c) := by
  obtain ⟨-, -, -, -, e0, e1, -⟩ := idx_facts t
  funext j
  unfold Reg3.iblk
  rw [View.read_apply]
  show V c main_v18_0 _ = V c main_v18_0 _
  refine congrArg _ (funext fun a => Fin.ext ?_)
  match a with
  | ⟨0, _⟩ => show win3_2.index t (0 : Fin 2) * 8192 + 1 * (j 0).val = (j 0).val; rw [e0]; omega
  | ⟨1, _⟩ => show win3_2.index t (1 : Fin 2) * 256 + 1 * (j 1).val = 512 + (j 1).val; rw [e1]; omega

/-- The skip term's block at point t is rows 256 t … of the skip array. -/
theorem iblk3_apply (c : Dev nD) (t : Fin cfg3.N) (p : Fin 256) (d : Fin 256) (i : Fin 8192) (hi : i.val = t.val * 256 + p.val) :
    (Reg3.iblk V c 3 t : Vec Ideal S256x256 .f32) (ix2 p d) = arrS V c (ix2 i d) := by
  obtain ⟨-, -, -, -, -, -, e0, e1, -⟩ := idx_facts t
  unfold Reg3.iblk
  rw [View.read_apply]
  show V c main_v18_1 _ = V c main_v18_1 _
  refine congrArg _ (funext fun a => Fin.ext ?_)
  match a with
  | ⟨0, _⟩ => show win3_3.index t (0 : Fin 2) * 256 + 1 * p.val = i.val; rw [e0, hi]; omega
  | ⟨1, _⟩ => show win3_3.index t (1 : Fin 2) * 256 + 1 * d.val = d.val; rw [e1]; omega

/-- What point t writes back is block t of the array of entries. -/
theorem flushed4_eq (c : Dev nD) (t : Fin cfg3.N) :
    (Reg3.dat V c).flushed 4 t = ((cfg3.win 4).blk t).view.read (Elt Ideal) (attnArr (arrQkv V c) (arrS V c)) := by
  show (cfg3.win 4).cut (grid3.coords t) ((Reg3.dat V c).after 4 t) = _
  rw [Reg3.after_4]
  unfold Reg3.outO
  rw [View.canon_unit_zero hz]
  simp only [View.ld_unit_zero (S := S256x256) hz, View.ld_unit_zero (S := S8192x256) hz]
  obtain ⟨-, -, -, -, -, -, -, -, e0, e1⟩ := idx_facts t
  funext y
  show k3_pay1 (Reg3.iblk V c 0 t) (Reg3.iblk V c 1 t) (Reg3.iblk V c 2 t) (Reg3.iblk V c 3 t) y
    = attnArr (arrQkv V c) (arrS V c) (((cfg3.win 4).blk t).view.emb y)
  refine block4 (arrQkv V c) (arrS V c) (Reg3.iblk V c 0 t) (Reg3.iblk V c 1 t) (Reg3.iblk V c 2 t) (Reg3.iblk V c 3 t) t.val
    (fun p e i hi => iblk0_apply V c t p e i hi) (iblk1_eq V c t) (iblk2_eq V c t) (fun p d i hi => iblk3_apply V c t p d i hi)
    y (((cfg3.win 4).blk t).view.emb y) ?_ ?_
  · show win3_4.index t (0 : Fin 2) * 256 + 1 * (y 0).val = t.val * 256 + (y 0).val; rw [e0]; omega
  · show win3_4.index t (1 : Fin 2) * 256 + 1 * (y 1).val = (y 1).val; rw [e1]; omega

/-- An index of the output array is in point t's block iff each coordinate is in the block's range on its axis. -/
theorem mem_blk4 (t : Fin cfg3.N) (i : S8192x256.Idx) :
    i ∈ ((cfg3.win 4).blk t).view.set ↔ ∀ a : Fin 2, win3_4.index t a * S256x256.size a ≤ (i a).val ∧ (i a).val < win3_4.index t a * S256x256.size a + S256x256.size a := by
  show i ∈ ((View.whole main_v19).slice (win3_4.rect t)).set ↔ _
  rw [View.set_slice_whole, Rect.mem_set_unit]
  exact Iff.rfl

/-- Row i of the output is written back by the point i / 256: the 32 blocks tile the array. -/
theorem cover4 (i : S8192x256.Idx) : ∃ t : Fin cfg3.N, (cfg3.win 4).flush t = true ∧ i ∈ ((cfg3.win 4).blk t).view.set := by
  have hi0 : (i 0).val < 8192 := idx2_lt0 i
  have hi1 : (i 1).val < 256 := idx2_lt1 i
  have hN : cfg3.N = 32 := N_3
  obtain ⟨t, ht⟩ : ∃ t : Fin cfg3.N, t.val = (i 0).val / 256 := ⟨⟨(i 0).val / 256, by rw [hN]; omega⟩, rfl⟩
  obtain ⟨-, -, -, -, -, -, -, -, e0, e1⟩ := idx_facts t
  refine ⟨t, flush3_4 t, ?_⟩
  rw [mem_blk4]
  intro a
  match a with
  | ⟨0, _⟩ => show win3_4.index t (0 : Fin 2) * 256 ≤ (i 0).val ∧ (i 0).val < win3_4.index t (0 : Fin 2) * 256 + 256; rw [e0, ht]; omega
  | ⟨1, _⟩ => show win3_4.index t (1 : Fin 2) * 256 ≤ (i 1).val ∧ (i 1).val < win3_4.index t (1 : Fin 2) * 256 + 256; rw [e1]; omega

/-- The output array after the run: the array of attention entries of the fused array and the skip array. -/
theorem final4 (c : Dev nD) : (Reg3.dat V c).arrAt 4 cfg3.N = attnArr (arrQkv V c) (arrS V c) :=
  (Reg3.dat V c).arrAt_eq_of_cover 4 _ (fun t _ => flushed4_eq V c t) cover4

/-- Entry (i, d) of the output after the run. -/
theorem arr4_apply (c : Dev nD) (i : Fin 8192) (d : Fin 256) :
    outH V c (ix2 i d) = preAct (colQ (arrQkv V c)) (colK (arrQkv V c)) (colV (arrQkv V c)) (arrS V c) i d := by
  show ((Reg3.dat V c).arrAt 4 cfg3.N : S8192x256.Idx → EReal) (ix2 i d) = _
  rw [final4]
  rfl

/-- The three column blocks read at an index. -/
theorem colQ_apply (A : S8192x768.Idx → EReal) (i : Fin 8192) (e : Fin 256) : colQ A (ix2 i e) = A (ix2 i (⟨e.val, by omega⟩ : Fin 768)) := rfl
theorem colK_apply (A : S8192x768.Idx → EReal) (i : Fin 8192) (e : Fin 256) : colK A (ix2 i e) = A (ix2 i (⟨256 + e.val, by omega⟩ : Fin 768)) := rfl
theorem colV_apply (A : S8192x768.Idx → EReal) (i : Fin 8192) (e : Fin 256) : colV A (ix2 i e) = A (ix2 i (⟨512 + e.val, by omega⟩ : Fin 768)) := rfl

end Cert.KernelIdeal.Val3
end
-- ==== Proof.KernelIdeal.Stages.lean ====
/-
  The four regions on real data. Each region's output array was read entry by entry as a formula in the extended-real
  operations over the region's input arrays; here, when the input arrays are entry by entry coercions of real numbers,
  each output entry is the coercion of the corresponding real quantity: an affine projection for the two projection
  regions, the attention entry with deferred normalisation (followed by the exponential linear unit in layer 1) for
  the two attention regions.
-/
import proofs.«118558_j17497696764591_2_alg».proof.Proof.KernelIdeal.Val0
import proofs.«118558_j17497696764591_2_alg».proof.Proof.KernelIdeal.Val1
import proofs.«118558_j17497696764591_2_alg».proof.Proof.KernelIdeal.Val2
import proofs.«118558_j17497696764591_2_alg».proof.Proof.KernelIdeal.Val3
import proofs.«118558_j17497696764591_2_alg».proof.Proof.LibAttentionLaws

noncomputable section

namespace Cert.KernelIdeal.Stages

open Cert.KernelIdeal Cert.KernelIdeal.Gen
open Idealize.ShloMosaic Idealize.ShloMosaic.TcCoe Idealize.SL.Sem Idealize.ShloMosaic.ValueIdx
open AttentionLaws

variable (V : (c : Dev nD) → (b : Ref sig .tc) → Buf (Elt Ideal) ((c : Thread nD τ).loc b)) (c : Dev nD)

/-- Layer 1's projection region on real data. If the rows array, the fused weights (the query columns already
    scaled by c) and bias, and the skip weights and bias are entry by entry coercions of reals, then the region's two
    output arrays are entry by entry the coercions of the real affine projections: the query columns through the
    scaled weights and bias, the key and value columns and the skip term through theirs. -/
theorem proj1 (xr : Fin 8192 → Fin 256 → ℝ) (Wq Wk Wv Ws : Fin 256 → Fin 128 → ℝ) (bq bk bv bs : Fin 128 → ℝ) (cs : ℝ)
    (hH : ∀ (i : Fin 8192) (e : Fin 256), Val0.arrH V c (ix2 i e) = ((xr i e : ℝ) : EReal))
    (hWq : ∀ (e : Fin 256) (d : Fin 128), Val0.arrWqkv V c (ix2 e (⟨d.val, by omega⟩ : Fin 384)) = ((Wq e d : ℝ) : EReal) * ((cs : ℝ) : EReal))
    (hWk : ∀ (e : Fin 256) (d : Fin 128), Val0.arrWqkv V c (ix2 e (⟨128 + d.val, by omega⟩ : Fin 384)) = ((Wk e d : ℝ) : EReal))
    (hWv : ∀ (e : Fin 256) (d : Fin 128), Val0.arrWqkv V c (ix2 e (⟨256 + d.val, by omega⟩ : Fin 384)) = ((Wv e d : ℝ) : EReal))
    (hbq : ∀ d : Fin 128, Val0.arrBqkv V c (ix2 (0 : Fin 1) (⟨d.val, by omega⟩ : Fin 384)) = ((bq d : ℝ) : EReal) * ((cs : ℝ) : EReal))
    (hbk : ∀ d : Fin 128, Val0.arrBqkv V c (ix2 (0 : Fin 1) (⟨128 + d.val, by omega⟩ : Fin 384)) = ((bk d : ℝ) : EReal))
    (hbv : ∀ d : Fin 128, Val0.arrBqkv V c (ix2 (0 : Fin 1) (⟨256 + d.val, by omega⟩ : Fin 384)) = ((bv d : ℝ) : EReal))
    (hWs : ∀ (e : Fin 256) (d : Fin 128), Val0.arrWs V c (ix2 e d) = ((Ws e d : ℝ) : EReal))
    (hbs : ∀ d : Fin 128, Val0.arrBs V c (ix2 (0 : Fin 1) d) = ((bs d : ℝ) : EReal)) :
    (∀ (i : Fin 8192) (d : Fin 128), Val0.outQkv V c (ix2 i (⟨d.val, by omega⟩ : Fin 384))
        = ((proj (xr i) (fun e d => Wq e d * cs) (fun d => bq d * cs) d : ℝ) : EReal))
    ∧ (∀ (i : Fin 8192) (d : Fin 128), Val0.outQkv V c (ix2 i (⟨128 + d.val, by omega⟩ : Fin 384)) = ((proj (xr i) Wk bk d : ℝ) : EReal))
    ∧ (∀ (i : Fin 8192) (d : Fin 128), Val0.outQkv V c (ix2 i (⟨256 + d.val, by omega⟩ : Fin 384)) = ((proj (xr i) Wv bv d : ℝ) : EReal))
    ∧ (∀ (i : Fin 8192) (d : Fin 128), Val0.outS V c (ix2 i d) = ((proj (xr i) Ws bs d : ℝ) : EReal)) := by
  refine ⟨fun i d => ?_, fun i d => ?_, fun i d => ?_, fun i d => ?_⟩
  · refine (Val0.arr5_apply V c i _).trans ?_
    refine Eq.trans (congrArg₂ (· + ·) (Finset.sum_congr rfl fun e _ => congrArg₂ (· * ·) (hH i e) (hWq e d)) (hbq d)) ?_
    exact proj_scaled_coe (xr i) Wq bq cs d
  · refine (Val0.arr5_apply V c i _).trans ?_
    refine Eq.trans (congrArg₂ (· + ·) (Finset.sum_congr rfl fun e _ => congrArg₂ (· * ·) (hH i e) (hWk e d)) (hbk d)) ?_
    exact proj_coe (xr i) Wk bk d
  · refine (Val0.arr5_apply V c i _).trans ?_
    refine Eq.trans (congrArg₂ (· + ·) (Finset.sum_congr rfl fun e _ => congrArg₂ (· * ·) (hH i e) (hWv e d)) (hbv d)) ?_
    exact proj_coe (xr i) Wv bv d
  · refine (Val0.arr6_apply V c i d).trans ?_
    refine Eq.trans (congrArg₂ (· + ·) (Finset.sum_congr rfl fun e _ => congrArg₂ (· * ·) (hH i e) (hWs e d)) (hbs d)) ?_
    exact proj_coe (xr i) Ws bs d

/-- Layer 1's attention entry on real data, before any activation. If the fused array's query, key and value
    columns and the skip array are entry by entry coercions of reals, the entry at (i, d) is the coercion of the real
    attention entry with the normalisation deferred. -/
theorem pre1 (qs ks vs ss : Fin 8192 → Fin 128 → ℝ)
    (hq : ∀ (i : Fin 8192) (e : Fin 128), Val1.arrQkv V c (ix2 i (⟨e.val, by omega⟩ : Fin 384)) = ((qs i e : ℝ) : EReal))
    (hk : ∀ (i : Fin 8192) (e : Fin 128), Val1.arrQkv V c (ix2 i (⟨128 + e.val, by omega⟩ : Fin 384)) = ((ks i e : ℝ) : EReal))
    (hv : ∀ (i : Fin 8192) (e : Fin 128), Val1.arrQkv V c (ix2 i (⟨256 + e.val, by omega⟩ : Fin 384)) = ((vs i e : ℝ) : EReal))
    (hs : ∀ (i : Fin 8192) (d : Fin 128), Val1.arrS V c (ix2 i d) = ((ss i d : ℝ) : EReal))
    (i : Fin 8192) (d : Fin 128) :
    Val1.preAct (Val1.colQ (Val1.arrQkv V c)) (Val1.colK (Val1.arrQkv V c)) (Val1.colV (Val1.arrQkv V c)) (Val1.arrS V c) i d
      = ((attnDeferred (fun j : Fin 8192 => ∑ e : Fin 128, qs i e * ks j e) (fun j => vs j d) (ss i d) : ℝ) : EReal) := by
  unfold Val1.preAct
  refine deferred_row_coe (fun j : Fin 8192 => ∑ e : Fin 128, qs i e * ks j e) (fun j => vs j d) (ss i d)
    (fun j => Val1.sc (Val1.colQ (Val1.arrQkv V c)) (Val1.colK (Val1.arrQkv V c)) i j)
    (fun j => Val1.colV (Val1.arrQkv V c) (ix2 j d)) (Val1.arrS V c (ix2 i d))
    (Val1.rowM (Val1.colQ (Val1.arrQkv V c)) (Val1.colK (Val1.arrQkv V c)) i) _ _ ?_ ?_ ?_ ?_ rfl rfl
  · intro j
    unfold Val1.sc
    exact (Finset.sum_congr rfl fun e _ => congrArg₂ (· * ·) (hq i e) (hk j e)).trans (coe_sum_mul Finset.univ (fun e => qs i e) (fun e => ks j e))
  · intro j
    exact hv j d
  · exact hs i d
  · unfold Val1.rowM
    rw [ofBits_f32_neg_inf]

/-- Layer 1's attention region on real data: the output entry at (i, d) is the coercion of the exponential linear
    unit of the real attention entry. -/
theorem attn1 (qs ks vs ss : Fin 8192 → Fin 128 → ℝ)
    (hq : ∀ (i : Fin 8192) (e : Fin 128), Val1.arrQkv V c (ix2 i (⟨e.val, by omega⟩ : Fin 384)) = ((qs i e : ℝ) : EReal))
    (hk : ∀ (i : Fin 8192) (e : Fin 128), Val1.arrQkv V c (ix2 i (⟨128 + e.val, by omega⟩ : Fin 384)) = ((ks i e : ℝ) : EReal))
    (hv : ∀ (i : Fin 8192) (e : Fin 128), Val1.arrQkv V c (ix2 i (⟨256 + e.val, by omega⟩ : Fin 384)) = ((vs i e : ℝ) : EReal))
    (hs : ∀ (i : Fin 8192) (d : Fin 128), Val1.arrS V c (ix2 i d) = ((ss i d : ℝ) : EReal))
    (i : Fin 8192) (d : Fin 128) :
    Val1.outH V c (ix2 i d)
      = ((elu (attnDeferred (fun j : Fin 8192 => ∑ e : Fin 128, qs i e * ks j e) (fun j => vs j d) (ss i d)) : ℝ) : EReal) := by
  rw [Val1.arr4_apply, pre1 V c qs ks vs ss hq hk hv hs i d]
  unfold Val1.eluE
  rw [Ideal.ofBits_zero_f32, ofBits_f32_one]
  exact elu_direct_coe _

/-- Layer 2's projection region on real data. If the rows array, the fused weights (the query columns already
    scaled by c) and bias, and the skip weights and bias are entry by entry coercions of reals, then the region's two
    output arrays are entry by entry the coercions of the real affine projections: the query columns through the
    scaled weights and bias, the key and value columns and the skip term through theirs. -/
theorem proj2 (xr : Fin 8192 → Fin 128 → ℝ) (Wq Wk Wv Ws : Fin 128 → Fin 256 → ℝ) (bq bk bv bs : Fin 256 → ℝ) (cs : ℝ)
    (hH : ∀ (i : Fin 8192) (e : Fin 128), Val2.arrH V c (ix2 i e) = ((xr i e : ℝ) : EReal))
    (hWq : ∀ (e : Fin 128) (d : Fin 256), Val2.arrWqkv V c (ix2 e (⟨d.val, by omega⟩ : Fin 768)) = ((Wq e d : ℝ) : EReal) * ((cs : ℝ) : EReal))
    (hWk : ∀ (e : Fin 128) (d : Fin 256), Val2.arrWqkv V c (ix2 e (⟨256 + d.val, by omega⟩ : Fin 768)) = ((Wk e d : ℝ) : EReal))
    (hWv : ∀ (e : Fin 128) (d : Fin 256), Val2.arrWqkv V c (ix2 e (⟨512 + d.val, by omega⟩ : Fin 768)) = ((Wv e d : ℝ) : EReal))
    (hbq : ∀ d : Fin 256, Val2.arrBqkv V c (ix2 (0 : Fin 1) (⟨d.val, by omega⟩ : Fin 768)) = ((bq d : ℝ) : EReal) * ((cs : ℝ) : EReal))
    (hbk : ∀ d : Fin 256, Val2.arrBqkv V c (ix2 (0 : Fin 1) (⟨256 + d.val, by omega⟩ : Fin 768)) = ((bk d : ℝ) : EReal))
    (hbv : ∀ d : Fin 256, Val2.arrBqkv V c (ix2 (0 : Fin 1) (⟨512 + d.val, by omega⟩ : Fin 768)) = ((bv d : ℝ) : EReal))
    (hWs : ∀ (e : Fin 128) (d : Fin 256), Val2.arrWs V c (ix2 e d) = ((Ws e d : ℝ) : EReal))
    (hbs : ∀ d : Fin 256, Val2.arrBs V c (ix2 (0 : Fin 1) d) = ((bs d : ℝ) : EReal)) :
    (∀ (i : Fin 8192) (d : Fin 256), Val2.outQkv V c (ix2 i (⟨d.val, by omega⟩ : Fin 768))
        = ((proj (xr i) (fun e d => Wq e d * cs) (fun d => bq d * cs) d : ℝ) : EReal))
    ∧ (∀ (i : Fin 8192) (d : Fin 256), Val2.outQkv V c (ix2 i (⟨256 + d.val, by omega⟩ : Fin 768)) = ((proj (xr i) Wk bk d : ℝ) : EReal))
    ∧ (∀ (i : Fin 8192) (d : Fin 256), Val2.outQkv V c (ix2 i (⟨512 + d.val, by omega⟩ : Fin 768)) = ((proj (xr i) Wv bv d : ℝ) : EReal))
    ∧ (∀ (i : Fin 8192) (d : Fin 256), Val2.outS V c (ix2 i d) = ((proj (xr i) Ws bs d : ℝ) : EReal)) := by
  refine ⟨fun i d => ?_, fun i d => ?_, fun i d => ?_, fun i d => ?_⟩
  · refine (Val2.arr5_apply V c i _).trans ?_
    refine Eq.trans (congrArg₂ (· + ·) (Finset.sum_congr rfl fun e _ => congrArg₂ (· * ·) (hH i e) (hWq e d)) (hbq d)) ?_
    exact proj_scaled_coe (xr i) Wq bq cs d
  · refine (Val2.arr5_apply V c i _).trans ?_
    refine Eq.trans (congrArg₂ (· + ·) (Finset.sum_congr rfl fun e _ => congrArg₂ (· * ·) (hH i e) (hWk e d)) (hbk d)) ?_
    exact proj_coe (xr i) Wk bk d
  · refine (Val2.arr5_apply V c i _).trans ?_
    refine Eq.trans (congrArg₂ (· + ·) (Finset.sum_congr rfl fun e _ => congrArg₂ (· * ·) (hH i e) (hWv e d)) (hbv d)) ?_
    exact proj_coe (xr i) Wv bv d
  · refine (Val2.arr6_apply V c i d).trans ?_
    refine Eq.trans (congrArg₂ (· + ·) (Finset.sum_congr rfl fun e _ => congrArg₂ (· * ·) (hH i e) (hWs e d)) (hbs d)) ?_
    exact proj_coe (xr i) Ws bs d

/-- Layer 2's attention entry on real data, before any activation. If the fused array's query, key and value
    columns and the skip array are entry by entry coercions of reals, the entry at (i, d) is the coercion of the real
    attention entry with the normalisation deferred. -/
theorem pre2 (qs ks vs ss : Fin 8192 → Fin 256 → ℝ)
    (hq : ∀ (i : Fin 8192) (e : Fin 256), Val3.arrQkv V c (ix2 i (⟨e.val, by omega⟩ : Fin 768)) = ((qs i e : ℝ) : EReal))
    (hk : ∀ (i : Fin 8192) (e : Fin 256), Val3.arrQkv V c (ix2 i (⟨256 + e.val, by omega⟩ : Fin 768)) = ((ks i e : ℝ) : EReal))
    (hv : ∀ (i : Fin 8192) (e : Fin 256), Val3.arrQkv V c (ix2 i (⟨512 + e.val, by omega⟩ : Fin 768)) = ((vs i e : ℝ) : EReal))
    (hs : ∀ (i : Fin 8192) (d : Fin 256), Val3.arrS V c (ix2 i d) = ((ss i d : ℝ) : EReal))
    (i : Fin 8192) (d : Fin 256) :
    Val3.preAct (Val3.colQ (Val3.arrQkv V c)) (Val3.colK (Val3.arrQkv V c)) (Val3.colV (Val3.arrQkv V c)) (Val3.arrS V c) i d
      = ((attnDeferred (fun j : Fin 8192 => ∑ e : Fin 256, qs i e * ks j e) (fun j => vs j d) (ss i d) : ℝ) : EReal) := by
  unfold Val3.preAct
  refine deferred_row_coe (fun j : Fin 8192 => ∑ e : Fin 256, qs i e * ks j e) (fun j => vs j d) (ss i d)
    (fun j => Val3.sc (Val3.colQ (Val3.arrQkv V c)) (Val3.colK (Val3.arrQkv V c)) i j)
    (fun j => Val3.colV (Val3.arrQkv V c) (ix2 j d)) (Val3.arrS V c (ix2 i d))
    (Val3.rowM (Val3.colQ (Val3.arrQkv V c)) (Val3.colK (Val3.arrQkv V c)) i) _ _ ?_ ?_ ?_ ?_ rfl rfl
  · intro j
    unfold Val3.sc
    exact (Finset.sum_congr rfl fun e _ => congrArg₂ (· * ·) (hq i e) (hk j e)).trans (coe_sum_mul Finset.univ (fun e => qs i e) (fun e => ks j e))
  · intro j
    exact hv j d
  · exact hs i d
  · unfold Val3.rowM
    rw [ofBits_f32_neg_inf]

/-- Layer 2's attention region on real data: the output entry at (i, d) is the coercion of the real attention entry. -/
theorem attn2 (qs ks vs ss : Fin 8192 → Fin 256 → ℝ)
    (hq : ∀ (i : Fin 8192) (e : Fin 256), Val3.arrQkv V c (ix2 i (⟨e.val, by omega⟩ : Fin 768)) = ((qs i e : ℝ) : EReal))
    (hk : ∀ (i : Fin 8192) (e : Fin 256), Val3.arrQkv V c (ix2 i (⟨256 + e.val, by omega⟩ : Fin 768)) = ((ks i e : ℝ) : EReal))
    (hv : ∀ (i : Fin 8192) (e : Fin 256), Val3.arrQkv V c (ix2 i (⟨512 + e.val, by omega⟩ : Fin 768)) = ((vs i e : ℝ) : EReal))
    (hs : ∀ (i : Fin 8192) (d : Fin 256), Val3.arrS V c (ix2 i d) = ((ss i d : ℝ) : EReal))
    (i : Fin 8192) (d : Fin 256) :
    Val3.outH V c (ix2 i d)
      = ((attnDeferred (fun j : Fin 8192 => ∑ e : Fin 256, qs i e * ks j e) (fun j => vs j d) (ss i d) : ℝ) : EReal) := by
  rw [Val3.arr4_apply, pre2 V c qs ks vs ss hq hk hv hs i d]

end Cert.KernelIdeal.Stages

end
-- ==== Proof.KernelIdeal.Bridge.lean ====
/-
  The kernel program's result on real data. The program is: host operations that fold the scale into the query
  weights and bias and lay the three weight matrices (and biases) side by side; layer 1's projection region and its
  attention region; the same host operations for layer 2; its projection region and its attention region. Each item is
  entered with the buffers as the items before it left them. Following the arrays from the launch contents through the
  items: when every argument array is entry by entry the coercion of a real array and the two scale literals denote
  real numbers, the result array's entry at (i, d) is the coercion of the real two-layer network with the scale folded
  into the query projection and the softmax normalisation deferred.
-/
import proofs.«118558_j17497696764591_2_alg».proof.Proof.KernelIdeal.Outs
import proofs.«118558_j17497696764591_2_alg».proof.Proof.KernelIdeal.HostRead
import proofs.«118558_j17497696764591_2_alg».proof.Proof.KernelIdeal.Stages

noncomputable section

namespace Cert.KernelIdeal.Bridge

open Cert.KernelIdeal Cert.KernelIdeal.Gen Cert.KernelIdeal.Run
open Idealize.ShloMosaic Idealize.ShloMosaic.TcCoe Idealize.SL.Sem Idealize.ShloMosaic.ValueIdx
open AttentionLaws

variable (m : (ℓ : Loc nD τ sig) → Buf (Elt Ideal) ℓ) (c : Dev nD)

/-! ## What each region finds in its windows' arrays -/

/-- An argument array is as launched when layer 1's projection region is entered. -/
theorem V1_arg (r : Ref sig .tc) (h : r ∉ hostOps0_W) : V1 m c r = m ((c.tc : Thread nD τ).loc r) :=
  V1_of m c r h

/-- An argument array is as launched when layer 2's host operations start. -/
theorem V3_arg (r : Ref sig .tc) (h3 : r ∉ ([main_v9] : List (Ref sig .tc))) (h2 : r ∉ ([main_v8_0, main_v8_1] : List (Ref sig .tc)))
    (h1 : r ∉ hostOps0_W) : V3 m (oB m) c r = m ((c.tc : Thread nD τ).loc r) :=
  (V3_of m (oB m) c r h3).trans ((V2_of m (oB m) c r h2).trans (V1_of m c r h1))

/-- Layer 1's attention region finds, in the fused array and the skip array, what its projection region left. -/
theorem oA_v8_0 : oA m 2 main_v8_0 c = (Reg0.dat (tc (V1 m)) c).arrAt 5 cfg0.N := by
  show Function.update (Function.update (tc (V1 m) c) main_v8_0 ((Reg0.dat (tc (V1 m)) c).arrAt 5 cfg0.N))
    main_v8_1 ((Reg0.dat (tc (V1 m)) c).arrAt 6 cfg0.N) main_v8_0 = _
  rw [Function.update_of_ne (by decide), Function.update_self]
theorem oA_v8_1 : oA m 2 main_v8_1 c = (Reg0.dat (tc (V1 m)) c).arrAt 6 cfg0.N := by
  show Function.update (Function.update (tc (V1 m) c) main_v8_0 ((Reg0.dat (tc (V1 m)) c).arrAt 5 cfg0.N))
    main_v8_1 ((Reg0.dat (tc (V1 m)) c).arrAt 6 cfg0.N) main_v8_1 = _
  rw [Function.update_self]
theorem arrQkv1_eq : Val1.arrQkv (tc (V2 m (oA m))) c = Val0.outQkv (tc (V1 m)) c :=
  (V2_v8_0 m (oA m) c).trans (oA_v8_0 m c)
theorem arrS1_eq : Val1.arrS (tc (V2 m (oA m))) c = Val0.outS (tc (V1 m)) c :=
  (V2_v8_1 m (oA m) c).trans (oA_v8_1 m c)

/-- Layer 2's projection region finds, in its rows array, what layer 1's attention region left. -/
theorem oB_v9 : oB m 3 main_v9 c = (Reg1.dat (tc (V2 m (oA m))) c).arrAt 4 cfg1.N := by
  show Function.update (tc (V2 m (oA m)) c) main_v9 ((Reg1.dat (tc (V2 m (oA m))) c).arrAt 4 cfg1.N) main_v9 = _
  rw [Function.update_self]
theorem arrH2_eq : Val2.arrH (tc (V4 m (oB m))) c = Val1.outH (tc (V2 m (oA m))) c :=
  (V4_of m (oB m) c main_v9 (by decide)).trans ((V3_v9 m (oB m) c).trans (oB_v9 m c))

/-- Layer 2's attention region finds, in the fused array and the skip array, what its projection region left. -/
theorem oC_v18_0 : oC m 5 main_v18_0 c = (Reg2.dat (tc (V4 m (oB m))) c).arrAt 5 cfg2.N := by
  show Function.update (Function.update (tc (V4 m (oB m)) c) main_v18_0 ((Reg2.dat (tc (V4 m (oB m))) c).arrAt 5 cfg2.N))
      main_v18_1 ((Reg2.dat (tc (V4 m (oB m))) c).arrAt 6 cfg2.N) main_v18_0 = _
  rw [Function.update_of_ne (by decide), Function.update_self]
theorem oC_v18_1 : oC m 5 main_v18_1 c = (Reg2.dat (tc (V4 m (oB m))) c).arrAt 6 cfg2.N := by
  show Function.update (Function.update (tc (V4 m (oB m)) c) main_v18_0 ((Reg2.dat (tc (V4 m (oB m))) c).arrAt 5 cfg2.N))
      main_v18_1 ((Reg2.dat (tc (V4 m (oB m))) c).arrAt 6 cfg2.N) main_v18_1 = _
  rw [Function.update_self]
theorem arrQkv3_eq : Val3.arrQkv (tc (V5 m (oC m))) c = Val2.outQkv (tc (V4 m (oB m))) c :=
  (V5_v18_0 m (oC m) c).trans (oC_v18_0 m c)
theorem arrS3_eq : Val3.arrS (tc (V5 m (oC m))) c = Val2.outS (tc (V4 m (oB m))) c :=
  (V5_v18_1 m (oC m) c).trans (oC_v18_1 m c)

/-! ## Layer 1 -/

section Layer1

variable (xr : Fin 8192 → Fin 256 → ℝ) (Wq1r Wk1r Wv1r Ws1r : Fin 256 → Fin 128 → ℝ) (bq1r bk1r bv1r bs1r : Fin 128 → ℝ) (c1 : ℝ)

/-- Layer 1's output array, what its attention region leaves, on real arguments: entry (i, d) is the coercion of the
    exponential linear unit of the real layer with folded scale and deferred normalisation. -/
theorem hidden_apply_coe
    (hx : ∀ (i : Fin 8192) (e : Fin 256), (m ((c.tc : Thread nD τ).loc main_arg0) : FVec Ideal S8192x256 .f32) (ix2 i e) = ((xr i e : ℝ) : EReal))
    (hWq1 : ∀ (e : Fin 256) (d : Fin 128), (m ((c.tc : Thread nD τ).loc main_arg4) : FVec Ideal S256x128 .f32) (ix2 e d) = ((Wq1r e d : ℝ) : EReal))
    (hbq1 : ∀ d : Fin 128, (m ((c.tc : Thread nD τ).loc main_arg5) : FVec Ideal S128 .f32) (ix1 d) = ((bq1r d : ℝ) : EReal))
    (hWk1 : ∀ (e : Fin 256) (d : Fin 128), (m ((c.tc : Thread nD τ).loc main_arg6) : FVec Ideal S256x128 .f32) (ix2 e d) = ((Wk1r e d : ℝ) : EReal))
    (hbk1 : ∀ d : Fin 128, (m ((c.tc : Thread nD τ).loc main_arg7) : FVec Ideal S128 .f32) (ix1 d) = ((bk1r d : ℝ) : EReal))
    (hWv1 : ∀ (e : Fin 256) (d : Fin 128), (m ((c.tc : Thread nD τ).loc main_arg8) : FVec Ideal S256x128 .f32) (ix2 e d) = ((Wv1r e d : ℝ) : EReal))
    (hbv1 : ∀ d : Fin 128, (m ((c.tc : Thread nD τ).loc main_arg9) : FVec Ideal S128 .f32) (ix1 d) = ((bv1r d : ℝ) : EReal))
    (hWs1 : ∀ (e : Fin 256) (d : Fin 128), (m ((c.tc : Thread nD τ).loc main_arg10) : FVec Ideal S256x128 .f32) (ix2 e d) = ((Ws1r e d : ℝ) : EReal))
    (hbs1 : ∀ d : Fin 128, (m ((c.tc : Thread nD τ).loc main_arg11) : FVec Ideal S128 .f32) (ix1 d) = ((bs1r d : ℝ) : EReal))
    (hc1 : Ideal.ofBits .f32 0x3DB504F3#32 = ((c1 : ℝ) : EReal)) (i : Fin 8192) (d : Fin 128) :
    Val1.outH (tc (V2 m (oA m))) c (ix2 i d)
      = ((elu (layerDeferred c1 Wq1r Wk1r Wv1r Ws1r bq1r bk1r bv1r bs1r xr i d) : ℝ) : EReal) := by
  obtain ⟨pq, pk, pv, ps⟩ := Stages.proj1 (tc (V1 m)) c xr Wq1r Wk1r Wv1r Ws1r bq1r bk1r bv1r bs1r c1
    (fun i e => (congrFun (V1_arg m c main_arg0 (by decide)) (ix2 i e)).trans (hx i e))
    (fun e d => (HostRead.after0_v2_q (V0 m c) _ rfl e d).trans (congrArg₂ (· * ·) (hWq1 e d) hc1))
    (fun e d => (HostRead.after0_v2_k (V0 m c) _ rfl e d).trans (hWk1 e d))
    (fun e d => (HostRead.after0_v2_v (V0 m c) _ rfl e d).trans (hWv1 e d))
    (fun d => (HostRead.after0_v6_q (V0 m c) _ rfl d).trans (congrArg₂ (· * ·) (hbq1 d) hc1))
    (fun d => (HostRead.after0_v6_k (V0 m c) _ rfl d).trans (hbk1 d))
    (fun d => (HostRead.after0_v6_v (V0 m c) _ rfl d).trans (hbv1 d))
    (fun e d => (congrFun (V1_arg m c main_arg10 (by decide)) (ix2 e d)).trans (hWs1 e d))
    (fun d => (HostRead.after0_v7 (V0 m c) _ rfl d).trans (hbs1 d))
  refine (Stages.attn1 (tc (V2 m (oA m))) c
    (fun i e => proj (xr i) (fun e d => Wq1r e d * c1) (fun d => bq1r d * c1) e)
    (fun i e => proj (xr i) Wk1r bk1r e) (fun i e => proj (xr i) Wv1r bv1r e) (fun i e => proj (xr i) Ws1r bs1r e)
    (fun i e => (congrFun (arrQkv1_eq m c) _).trans (pq i e))
    (fun i e => (congrFun (arrQkv1_eq m c) _).trans (pk i e))
    (fun i e => (congrFun (arrQkv1_eq m c) _).trans (pv i e))
    (fun i d => (congrFun (arrS1_eq m c) _).trans (ps i d)) i d).trans ?_
  rfl

end Layer1

/-! ## Layer 2 -/

section Layer2

variable (hr : Fin 8192 → Fin 128 → ℝ) (Wq2r Wk2r Wv2r Ws2r : Fin 128 → Fin 256 → ℝ) (bq2r bk2r bv2r bs2r : Fin 256 → ℝ) (c2 : ℝ)

/-- The result array, what layer 2's attention region leaves, when layer 1's output array is entry by entry the
    coercion of a real array hr and layer 2's arguments are coercions of reals: entry (i, d) is the coercion of the real
    layer with folded scale and deferred normalisation, applied to hr. -/
theorem result_of_hidden
    (hh : ∀ (i : Fin 8192) (e : Fin 128), Val1.outH (tc (V2 m (oA m))) c (ix2 i e) = ((hr i e : ℝ) : EReal))
    (hWq2 : ∀ (e : Fin 128) (d : Fin 256), (m ((c.tc : Thread nD τ).loc main_arg12) : FVec Ideal S128x256 .f32) (ix2 e d) = ((Wq2r e d : ℝ) : EReal))
    (hbq2 : ∀ d : Fin 256, (m ((c.tc : Thread nD τ).loc main_arg13) : FVec Ideal S256 .f32) (ix1 d) = ((bq2r d : ℝ) : EReal))
    (hWk2 : ∀ (e : Fin 128) (d : Fin 256), (m ((c.tc : Thread nD τ).loc main_arg14) : FVec Ideal S128x256 .f32) (ix2 e d) = ((Wk2r e d : ℝ) : EReal))
    (hbk2 : ∀ d : Fin 256, (m ((c.tc : Thread nD τ).loc main_arg15) : FVec Ideal S256 .f32) (ix1 d) = ((bk2r d : ℝ) : EReal))
    (hWv2 : ∀ (e : Fin 128) (d : Fin 256), (m ((c.tc : Thread nD τ).loc main_arg16) : FVec Ideal S128x256 .f32) (ix2 e d) = ((Wv2r e d : ℝ) : EReal))
    (hbv2 : ∀ d : Fin 256, (m ((c.tc : Thread nD τ).loc main_arg17) : FVec Ideal S256 .f32) (ix1 d) = ((bv2r d : ℝ) : EReal))
    (hWs2 : ∀ (e : Fin 128) (d : Fin 256), (m ((c.tc : Thread nD τ).loc main_arg18) : FVec Ideal S128x256 .f32) (ix2 e d) = ((Ws2r e d : ℝ) : EReal))
    (hbs2 : ∀ d : Fin 256, (m ((c.tc : Thread nD τ).loc main_arg19) : FVec Ideal S256 .f32) (ix1 d) = ((bs2r d : ℝ) : EReal))
    (hc2 : Ideal.ofBits .f32 0x3D800000#32 = ((c2 : ℝ) : EReal)) (i : Fin 8192) (d : Fin 256) :
    Val3.outH (tc (V5 m (oC m))) c (ix2 i d)
      = ((layerDeferred c2 Wq2r Wk2r Wv2r Ws2r bq2r bk2r bv2r bs2r hr i d : ℝ) : EReal) := by
  obtain ⟨pq, pk, pv, ps⟩ := Stages.proj2 (tc (V4 m (oB m))) c hr Wq2r Wk2r Wv2r Ws2r bq2r bk2r bv2r bs2r c2
    (fun i e => (congrFun (arrH2_eq m c) (ix2 i e)).trans (hh i e))
    (fun e d => (HostRead.after2_v12_q (V3 m (oB m) c) _ (V3_arg m c main_arg12 (by decide) (by decide) (by decide)) e d).trans
      (congrArg₂ (· * ·) (hWq2 e d) hc2))
    (fun e d => (HostRead.after2_v12_k (V3 m (oB m) c) _ (V3_arg m c main_arg14 (by decide) (by decide) (by decide)) e d).trans (hWk2 e d))
    (fun e d => (HostRead.after2_v12_v (V3 m (oB m) c) _ (V3_arg m c main_arg16 (by decide) (by decide) (by decide)) e d).trans (hWv2 e d))
    (fun d => (HostRead.after2_v16_q (V3 m (oB m) c) _ (V3_arg m c main_arg13 (by decide) (by decide) (by decide)) d).trans
      (congrArg₂ (· * ·) (hbq2 d) hc2))
    (fun d => (HostRead.after2_v16_k (V3 m (oB m) c) _ (V3_arg m c main_arg15 (by decide) (by decide) (by decide)) d).trans (hbk2 d))
    (fun d => (HostRead.after2_v16_v (V3 m (oB m) c) _ (V3_arg m c main_arg17 (by decide) (by decide) (by decide)) d).trans (hbv2 d))
    (fun e d => (congrFun ((V4_of m (oB m) c main_arg18 (by decide)).trans (V3_arg m c main_arg18 (by decide) (by decide) (by decide)))
      (ix2 e d)).trans (hWs2 e d))
    (fun d => (HostRead.after2_v17 (V3 m (oB m) c) _ (V3_arg m c main_arg19 (by decide) (by decide) (by decide)) d).trans (hbs2 d))
  refine (Stages.attn2 (tc (V5 m (oC m))) c
    (fun i e => proj (hr i) (fun e d => Wq2r e d * c2) (fun d => bq2r d * c2) e)
    (fun i e => proj (hr i) Wk2r bk2r e) (fun i e => proj (hr i) Wv2r bv2r e) (fun i e => proj (hr i) Ws2r bs2r e)
    (fun i e => (congrFun (arrQkv3_eq m c) _).trans (pq i e))
    (fun i e => (congrFun (arrQkv3_eq m c) _).trans (pk i e))
    (fun i e => (congrFun (arrQkv3_eq m c) _).trans (pv i e))
    (fun i d => (congrFun (arrS3_eq m c) _).trans (ps i d)) i d).trans ?_
  rfl

end Layer2

/-! ## The result -/

/-- The result array after the run at (i, d), on real arguments: the coercion of the real two-layer network with the
    scale folded into the query projection and the normalisation deferred — layer 2 of the exponential linear unit of
    layer 1. -/
theorem result_apply_coe (xr : Fin 8192 → Fin 256 → ℝ)
    (Wq1r Wk1r Wv1r Ws1r : Fin 256 → Fin 128 → ℝ) (bq1r bk1r bv1r bs1r : Fin 128 → ℝ)
    (Wq2r Wk2r Wv2r Ws2r : Fin 128 → Fin 256 → ℝ) (bq2r bk2r bv2r bs2r : Fin 256 → ℝ) (c1 c2 : ℝ)
    (hx : ∀ (i : Fin 8192) (e : Fin 256), (m ((c.tc : Thread nD τ).loc main_arg0) : FVec Ideal S8192x256 .f32) (ix2 i e) = ((xr i e : ℝ) : EReal))
    (hWq1 : ∀ (e : Fin 256) (d : Fin 128), (m ((c.tc : Thread nD τ).loc main_arg4) : FVec Ideal S256x128 .f32) (ix2 e d) = ((Wq1r e d : ℝ) : EReal))
    (hbq1 : ∀ d : Fin 128, (m ((c.tc : Thread nD τ).loc main_arg5) : FVec Ideal S128 .f32) (ix1 d) = ((bq1r d : ℝ) : EReal))
    (hWk1 : ∀ (e : Fin 256) (d : Fin 128), (m ((c.tc : Thread nD τ).loc main_arg6) : FVec Ideal S256x128 .f32) (ix2 e d) = ((Wk1r e d : ℝ) : EReal))
    (hbk1 : ∀ d : Fin 128, (m ((c.tc : Thread nD τ).loc main_arg7) : FVec Ideal S128 .f32) (ix1 d) = ((bk1r d : ℝ) : EReal))
    (hWv1 : ∀ (e : Fin 256) (d : Fin 128), (m ((c.tc : Thread nD τ).loc main_arg8) : FVec Ideal S256x128 .f32) (ix2 e d) = ((Wv1r e d : ℝ) : EReal))
    (hbv1 : ∀ d : Fin 128, (m ((c.tc : Thread nD τ).loc main_arg9) : FVec Ideal S128 .f32) (ix1 d) = ((bv1r d : ℝ) : EReal))
    (hWs1 : ∀ (e : Fin 256) (d : Fin 128), (m ((c.tc : Thread nD τ).loc main_arg10) : FVec Ideal S256x128 .f32) (ix2 e d) = ((Ws1r e d : ℝ) : EReal))
    (hbs1 : ∀ d : Fin 128, (m ((c.tc : Thread nD τ).loc main_arg11) : FVec Ideal S128 .f32) (ix1 d) = ((bs1r d : ℝ) : EReal))
    (hWq2 : ∀ (e : Fin 128) (d : Fin 256), (m ((c.tc : Thread nD τ).loc main_arg12) : FVec Ideal S128x256 .f32) (ix2 e d) = ((Wq2r e d : ℝ) : EReal))
    (hbq2 : ∀ d : Fin 256, (m ((c.tc : Thread nD τ).loc main_arg13) : FVec Ideal S256 .f32) (ix1 d) = ((bq2r d : ℝ) : EReal))
    (hWk2 : ∀ (e : Fin 128) (d : Fin 256), (m ((c.tc : Thread nD τ).loc main_arg14) : FVec Ideal S128x256 .f32) (ix2 e d) = ((Wk2r e d : ℝ) : EReal))
    (hbk2 : ∀ d : Fin 256, (m ((c.tc : Thread nD τ).loc main_arg15) : FVec Ideal S256 .f32) (ix1 d) = ((bk2r d : ℝ) : EReal))
    (hWv2 : ∀ (e : Fin 128) (d : Fin 256), (m ((c.tc : Thread nD τ).loc main_arg16) : FVec Ideal S128x256 .f32) (ix2 e d) = ((Wv2r e d : ℝ) : EReal))
    (hbv2 : ∀ d : Fin 256, (m ((c.tc : Thread nD τ).loc main_arg17) : FVec Ideal S256 .f32) (ix1 d) = ((bv2r d : ℝ) : EReal))
    (hWs2 : ∀ (e : Fin 128) (d : Fin 256), (m ((c.tc : Thread nD τ).loc main_arg18) : FVec Ideal S128x256 .f32) (ix2 e d) = ((Ws2r e d : ℝ) : EReal))
    (hbs2 : ∀ d : Fin 256, (m ((c.tc : Thread nD τ).loc main_arg19) : FVec Ideal S256 .f32) (ix1 d) = ((bs2r d : ℝ) : EReal))
    (hc1 : Ideal.ofBits .f32 0x3DB504F3#32 = ((c1 : ℝ) : EReal)) (hc2 : Ideal.ofBits .f32 0x3D800000#32 = ((c2 : ℝ) : EReal))
    (i : Fin 8192) (d : Fin 256) :
    ((Reg3.dat (tc (V5 m (oC m))) c).arrAt 4 cfg3.N : S8192x256.Idx → EReal) (ix2 i d)
      = ((layerDeferred c2 Wq2r Wk2r Wv2r Ws2r bq2r bk2r bv2r bs2r
          (fun i d => elu (layerDeferred c1 Wq1r Wk1r Wv1r Ws1r bq1r bk1r bv1r bs1r xr i d)) i d : ℝ) : EReal) :=
  result_of_hidden m c (fun i d => elu (layerDeferred c1 Wq1r Wk1r Wv1r Ws1r bq1r bk1r bv1r bs1r xr i d))
    Wq2r Wk2r Wv2r Ws2r bq2r bk2r bv2r bs2r c2
    (fun i e => hidden_apply_coe m c xr Wq1r Wk1r Wv1r Ws1r bq1r bk1r bv1r bs1r c1 hx hWq1 hbq1 hWk1 hbk1 hWv1 hbv1 hWs1 hbs1 hc1 i e)
    hWq2 hbq2 hWk2 hbk2 hWv2 hbv2 hWs2 hbs2 hc2 i d

end Cert.KernelIdeal.Bridge

end
-- ==== Proof.lean ====
/-
  Two layers of dense self-attention over 8192 rows (queries, keys, values and a skip term projected from the rows; scores
  q·kᵀ scaled by 1/sqrt(width); a softmax over each row of scores; the weighted sum of the values plus the skip term; ELU
  between the layers), computed by four kernels against the plain array program.
  The kernels differ from the reference in three ways, none of which changes the value over the extended reals when every
  input entry is a real number: the scale is folded into the query weights and bias before the projection (a real
  factor moves across the finite sums); the softmax's division is done once after the weighted sum instead of on every
  weight (division by the row's sum of exponentials, a positive real, distributes over the finite sum); ELU's negative
  branch is exp x - 1 in one program and expm1 of the clamped argument in the other (one function). Rounding to bf16 is
  the identity at the idealized instance, and the reference's unused cosine-similarity matrix reaches no result.
  The frames: each program's run terminates, faults nowhere and leaves its arguments as launched — for the kernel
  programs by composing @main's host stretches and four pipelined regions in order, for the reference by its run as one
  sequence of host operations.
-/
import proofs.«118558_j17497696764591_2_alg».proof.Defs
import proofs.«118558_j17497696764591_2_alg».proof.Proof.Gen.Kernel
import proofs.«118558_j17497696764591_2_alg».proof.Proof.Gen.KernelIdeal
import proofs.«118558_j17497696764591_2_alg».proof.Proof.Gen.ReferenceIdeal
import proofs.«118558_j17497696764591_2_alg».proof.Proof.Gen.Pre_finite_inputs
import proofs.«118558_j17497696764591_2_alg».proof.Proof.Kernel.Run
import proofs.«118558_j17497696764591_2_alg».proof.Proof.KernelIdeal.Run
import proofs.«118558_j17497696764591_2_alg».proof.Proof.RefRun
import proofs.«118558_j17497696764591_2_alg».proof.Proof.RefRead
import proofs.«118558_j17497696764591_2_alg».proof.Proof.FiniteInputs
import proofs.«118558_j17497696764591_2_alg».proof.Proof.LibAttentionLaws
import proofs.«118558_j17497696764591_2_alg».proof.Proof.KernelIdeal.Bridge

noncomputable section

namespace Cert.Proof

open Idealize.ShloMosaic Idealize.SL.Sem

/-- The word-level kernel program's frame. -/
theorem frame_p : Cert.frame_Kernel := fun m ρ _ => Cert.Kernel.Run.frame (F := Bits) m ρ

/-- The idealized kernel program's frame. -/
theorem frame_pi : Cert.frame_KernelIdeal := fun m ρ _ => Cert.KernelIdeal.Run.frame (F := Ideal) m ρ

/-- The reference's frame: its run with the result dropped. -/
theorem frame_ri : Cert.frame_ReferenceIdeal := Cert.ReferenceIdeal.RefRun.frame_ri

/-- The idealization rewrote nothing in the kernel program. -/
theorem preserves : Cert.preserves_Kernel_KernelIdeal := trivial

/-- At the idealized instance both programs end, from memories that agree on the arguments, with the same result array:
    entry (i, d) of either is the coercion of one real number, the two-layer attention network of the real argument
    arrays — written with the normalization deferred on the kernel's side and applied to every weight on the
    reference's, which is one function. The arguments are arrays of reals by the precondition. -/
theorem algebraic : Cert.algebraic_KernelIdeal_ReferenceIdeal := by
  intro m ρ m' ρ' hpre hagree
  refine ⟨fun c => Cert.KernelIdeal.Run.result m c, Cert.KernelIdeal.Run.run (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨xr, hx⟩ := Cert.Proof.Finite.real2_arg0 m hpre c
  obtain ⟨Wq1r, hWq1⟩ := Cert.Proof.Finite.real2_arg4 m hpre c
  obtain ⟨bq1r, hbq1⟩ := Cert.Proof.Finite.real1_arg5 m hpre c
  obtain ⟨Wk1r, hWk1⟩ := Cert.Proof.Finite.real2_arg6 m hpre c
  obtain ⟨bk1r, hbk1⟩ := Cert.Proof.Finite.real1_arg7 m hpre c
  obtain ⟨Wv1r, hWv1⟩ := Cert.Proof.Finite.real2_arg8 m hpre c
  obtain ⟨bv1r, hbv1⟩ := Cert.Proof.Finite.real1_arg9 m hpre c
  obtain ⟨Ws1r, hWs1⟩ := Cert.Proof.Finite.real2_arg10 m hpre c
  obtain ⟨bs1r, hbs1⟩ := Cert.Proof.Finite.real1_arg11 m hpre c
  obtain ⟨Wq2r, hWq2⟩ := Cert.Proof.Finite.real2_arg12 m hpre c
  obtain ⟨bq2r, hbq2⟩ := Cert.Proof.Finite.real1_arg13 m hpre c
  obtain ⟨Wk2r, hWk2⟩ := Cert.Proof.Finite.real2_arg14 m hpre c
  obtain ⟨bk2r, hbk2⟩ := Cert.Proof.Finite.real1_arg15 m hpre c
  obtain ⟨Wv2r, hWv2⟩ := Cert.Proof.Finite.real2_arg16 m hpre c
  obtain ⟨bv2r, hbv2⟩ := Cert.Proof.Finite.real1_arg17 m hpre c
  obtain ⟨Ws2r, hWs2⟩ := Cert.Proof.Finite.real2_arg18 m hpre c
  obtain ⟨bs2r, hbs2⟩ := Cert.Proof.Finite.real1_arg19 m hpre c
  obtain ⟨c1, hc1⟩ := AttentionLaws.ofBits_f32_real 0x3DB504F3#32 (by decide)
  obtain ⟨c2, hc2⟩ := AttentionLaws.ofBits_f32_real 0x3D800000#32 (by decide)
  obtain ⟨a0, a1, a2, a3, a4, a5, a6, a7, a8, a9, a10, a11, a12, a13, a14, a15, a16, a17, a18, a19⟩ := hagree c
  rw [a0, a4, a5, a6, a7, a8, a9, a10, a11, a12, a13, a14, a15, a16, a17, a18, a19]
  funext idx
  obtain ⟨i, d, rfl⟩ : ∃ (i : Fin 8192) (d : Fin 256), idx = ValueIdx.ix2 i d := ⟨idx 0, idx 1, ValueIdx.eq_ix2 idx⟩
  refine (Cert.ReferenceIdeal.RefRead.refOut_apply_coe _ _ _ _ _ _ _ _ _ _ _ _ _ _ _ _ _
    xr Wq1r Wk1r Wv1r Ws1r bq1r bk1r bv1r bs1r Wq2r Wk2r Wv2r Ws2r bq2r bk2r bv2r bs2r c1 c2
    hx hWq1 hbq1 hWk1 hbk1 hWv1 hbv1 hWs1 hbs1 hWq2 hbq2 hWk2 hbk2 hWv2 hbv2 hWs2 hbs2 hc1 hc2 i d).trans ?_
  refine Eq.trans ?_ (Cert.KernelIdeal.Bridge.result_apply_coe m c xr Wq1r Wk1r Wv1r Ws1r bq1r bk1r bv1r bs1r Wq2r Wk2r Wv2r Ws2r bq2r bk2r bv2r bs2r c1 c2
    hx hWq1 hbq1 hWk1 hbk1 hWv1 hbv1 hWs1 hbs1 hWq2 hbq2 hWk2 hbk2 hWv2 hbv2 hWs2 hbs2 hc1 hc2 i d).symm
  exact congrArg (fun r : ℝ => (r : EReal)) (congrFun (congrFun (AttentionLaws.twoLayer_eq c1 c2 Wq1r Wk1r Wv1r Ws1r bq1r bk1r bv1r bs1r
    Wq2r Wk2r Wv2r Ws2r bq2r bk2r bv2r bs2r xr).symm i) d)

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
